-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v454) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x300 : Shape := ⟨3, ![8, 2048, 300]⟩
abbrev S8x2048x2048 : Shape := ⟨3, ![8, 2048, 2048]⟩
abbrev S8x2048x1 : Shape := ⟨3, ![8, 2048, 1]⟩
abbrev S3x300x96 : Shape := ⟨3, ![3, 300, 96]⟩
abbrev S3x96 : Shape := ⟨2, ![3, 96]⟩
abbrev S3x96x96 : Shape := ⟨3, ![3, 96, 96]⟩
abbrev S3x6x96x96 : Shape := ⟨4, ![3, 6, 96, 96]⟩
abbrev S3x6x96 : Shape := ⟨3, ![3, 6, 96]⟩
abbrev S_ : Shape := ⟨0, ![]⟩

class Facts : Prop where
  bcast_S_S8x2048x300 : S_.BroadcastsInDim S8x2048x300 (![] : Fin 0 → Fin S8x2048x300.rank)
  reducesTo_S8x2048x300_S_d0_1_2 : S8x2048x300.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048x1 : S_.BroadcastsInDim S8x2048x1 (![] : Fin 0 → Fin S8x2048x1.rank)
  reducesTo_S8x2048x1_S_d0_1_2 : S8x2048x1.ReducesTo [0, 1, 2] S_
  bcast_S_S3x300x96 : S_.BroadcastsInDim S3x300x96 (![] : Fin 0 → Fin S3x300x96.rank)
  reducesTo_S3x300x96_S_d0_1_2 : S3x300x96.ReducesTo [0, 1, 2] S_
  bcast_S_S3x96 : S_.BroadcastsInDim S3x96 (![] : Fin 0 → Fin S3x96.rank)
  reducesTo_S3x96_S_d0_1 : S3x96.ReducesTo [0, 1] S_
  bcast_S_S3x96x96 : S_.BroadcastsInDim S3x96x96 (![] : Fin 0 → Fin S3x96x96.rank)
  reducesTo_S3x96x96_S_d0_1_2 : S3x96x96.ReducesTo [0, 1, 2] S_
  bcast_S_S3x6x96x96 : S_.BroadcastsInDim S3x6x96x96 (![] : Fin 0 → Fin S3x6x96x96.rank)
  reducesTo_S3x6x96x96_S_d0_1_2_3 : S3x6x96x96.ReducesTo [0, 1, 2, 3] S_
  bcast_S_S3x6x96 : S_.BroadcastsInDim S3x6x96 (![] : Fin 0 → Fin S3x6x96.rank)
  reducesTo_S3x6x96_S_d0_1_2 : S3x6x96.ReducesTo [0, 1, 2] S_

variable [Facts]

def fn_part4 {F : FTy → Type} [FloatOps F] (main_arg14 : FVec F S3x96 .f32) (main_v63 : IVec S_ 1) (main_v67 : IVec S_ 1) : IVec S_ 1 :=
  let main_v68 : IVec S_ 1 := andi main_v63 main_v67
  let main_v69 : FVec F S3x96 .f32 := Host.absf main_arg14
  let main_cst_26 : FVec F S_ .f32 := constant S_ .f32 0x7F800000#32
  let main_v70 : FVec F S3x96 .f32 := broadcastInDim S3x96 ![] bcast_S_S3x96 main_cst_26
  let main_v71 : IVec S3x96 1 := cmpf .olt main_v69 main_v70
  let main_c_27 : IVec S_ 1 := constantI S_ 1 1#1
  let main_v72 : IVec S_ 1 := (fun x v => Host.reduce IntOp.andi x v reducesTo_S3x96_S_d0_1 h_S_) main_v71 main_c_27
  let main_v73 : IVec S_ 1 := andi main_v68 main_v72
  main_v73

def fn_part3 {F : FTy → Type} [FloatOps F] (main_arg11 : FVec F S3x6x96x96 .f32) (main_arg12 : FVec F S3x6x96 .f32) (main_arg13 : FVec F S3x96x96 .f32) (main_arg14 : FVec F S3x96 .f32) (main_v48 : IVec S_ 1) (main_v49 : FVec F S3x96 .f32) (main_v50 : FVec F S3x96 .f32) : IVec S_ 1 :=
  let main_v51 : IVec S3x96 1 := cmpf .olt main_v49 main_v50
  let main_c_19 : IVec S_ 1 := constantI S_ 1 1#1
  let main_v52 : IVec S_ 1 := (fun x v => Host.reduce IntOp.andi x v reducesTo_S3x96_S_d0_1 h_S_) main_v51 main_c_19
  let main_v53 : IVec S_ 1 := andi main_v48 main_v52
  let main_v54 : FVec F S3x6x96x96 .f32 := Host.absf main_arg11
  let main_cst_20 : FVec F S_ .f32 := constant S_ .f32 0x7F800000#32
  let main_v55 : FVec F S3x6x96x96 .f32 := broadcastInDim S3x6x96x96 ![] bcast_S_S3x6x96x96 main_cst_20
  let main_v56 : IVec S3x6x96x96 1 := cmpf .olt main_v54 main_v55
  let main_c_21 : IVec S_ 1 := constantI S_ 1 1#1
  let main_v57 : IVec S_ 1 := (fun x v => Host.reduce IntOp.andi x v reducesTo_S3x6x96x96_S_d0_1_2_3 h_S_) main_v56 main_c_21
  let main_v58 : IVec S_ 1 := andi main_v53 main_v57
  let main_v59 : FVec F S3x6x96 .f32 := Host.absf main_arg12
  let main_cst_22 : FVec F S_ .f32 := constant S_ .f32 0x7F800000#32
  let main_v60 : FVec F S3x6x96 .f32 := broadcastInDim S3x6x96 ![] bcast_S_S3x6x96 main_cst_22
  let main_v61 : IVec S3x6x96 1 := cmpf .olt main_v59 main_v60
  let main_c_23 : IVec S_ 1 := constantI S_ 1 1#1
  let main_v62 : IVec S_ 1 := (fun x v => Host.reduce IntOp.andi x v reducesTo_S3x6x96_S_d0_1_2 h_S_) main_v61 main_c_23
  let main_v63 : IVec S_ 1 := andi main_v58 main_v62
  let main_v64 : FVec F S3x96x96 .f32 := Host.absf main_arg13
  let main_cst_24 : FVec F S_ .f32 := constant S_ .f32 0x7F800000#32
  let main_v65 : FVec F S3x96x96 .f32 := broadcastInDim S3x96x96 ![] bcast_S_S3x96x96 main_cst_24
  let main_v66 : IVec S3x96x96 1 := cmpf .olt main_v64 main_v65
  let main_c_25 : IVec S_ 1 := constantI S_ 1 1#1
  let main_v67 : IVec S_ 1 := (fun x v => Host.reduce IntOp.andi x v reducesTo_S3x96x96_S_d0_1_2 h_S_) main_v66 main_c_25
  fn_part4 (F := F) main_arg14 main_v63 main_v67

def fn_part2 {F : FTy → Type} [FloatOps F] (main_arg7 : FVec F S3x300x96 .f32) (main_arg8 : FVec F S3x96 .f32) (main_arg9 : FVec F S3x96x96 .f32) (main_arg10 : FVec F S3x96 .f32) (main_arg11 : FVec F S3x6x96x96 .f32) (main_arg12 : FVec F S3x6x96 .f32) (main_arg13 : FVec F S3x96x96 .f32) (main_arg14 : FVec F S3x96 .f32) (main_v33 : IVec S_ 1) : IVec S_ 1 :=
  let main_v34 : FVec F S3x300x96 .f32 := Host.absf main_arg7
  let main_cst_12 : FVec F S_ .f32 := constant S_ .f32 0x7F800000#32
  let main_v35 : FVec F S3x300x96 .f32 := broadcastInDim S3x300x96 ![] bcast_S_S3x300x96 main_cst_12
  let main_v36 : IVec S3x300x96 1 := cmpf .olt main_v34 main_v35
  let main_c_13 : IVec S_ 1 := constantI S_ 1 1#1
  let main_v37 : IVec S_ 1 := (fun x v => Host.reduce IntOp.andi x v reducesTo_S3x300x96_S_d0_1_2 h_S_) main_v36 main_c_13
  let main_v38 : IVec S_ 1 := andi main_v33 main_v37
  let main_v39 : FVec F S3x96 .f32 := Host.absf main_arg8
  let main_cst_14 : FVec F S_ .f32 := constant S_ .f32 0x7F800000#32
  let main_v40 : FVec F S3x96 .f32 := broadcastInDim S3x96 ![] bcast_S_S3x96 main_cst_14
  let main_v41 : IVec S3x96 1 := cmpf .olt main_v39 main_v40
  let main_c_15 : IVec S_ 1 := constantI S_ 1 1#1
  let main_v42 : IVec S_ 1 := (fun x v => Host.reduce IntOp.andi x v reducesTo_S3x96_S_d0_1 h_S_) main_v41 main_c_15
  let main_v43 : IVec S_ 1 := andi main_v38 main_v42
  let main_v44 : FVec F S3x96x96 .f32 := Host.absf main_arg9
  let main_cst_16 : FVec F S_ .f32 := constant S_ .f32 0x7F800000#32
  let main_v45 : FVec F S3x96x96 .f32 := broadcastInDim S3x96x96 ![] bcast_S_S3x96x96 main_cst_16
  let main_v46 : IVec S3x96x96 1 := cmpf .olt main_v44 main_v45
  let main_c_17 : IVec S_ 1 := constantI S_ 1 1#1
  let main_v47 : IVec S_ 1 := (fun x v => Host.reduce IntOp.andi x v reducesTo_S3x96x96_S_d0_1_2 h_S_) main_v46 main_c_17
  let main_v48 : IVec S_ 1 := andi main_v43 main_v47
  let main_v49 : FVec F S3x96 .f32 := Host.absf main_arg10
  let main_cst_18 : FVec F S_ .f32 := constant S_ .f32 0x7F800000#32
  let main_v50 : FVec F S3x96 .f32 := broadcastInDim S3x96 ![] bcast_S_S3x96 main_cst_18
  fn_part3 (F := F) main_arg11 main_arg12 main_arg13 main_arg14 main_v48 main_v49 main_v50

def fn_part1 {F : FTy → Type} [FloatOps F] (main_arg4 : FVec F S8x2048x1 .f32) (main_arg5 : FVec F S8x2048x1 .f32) (main_arg6 : FVec F S8x2048x1 .f32) (main_arg7 : FVec F S3x300x96 .f32) (main_arg8 : FVec F S3x96 .f32) (main_arg9 : FVec F S3x96x96 .f32) (main_arg10 : FVec F S3x96 .f32) (main_arg11 : FVec F S3x6x96x96 .f32) (main_arg12 : FVec F S3x6x96 .f32) (main_arg13 : FVec F S3x96x96 .f32) (main_arg14 : FVec F S3x96 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S8x2048x1 .f32 := Host.absf main_arg4
  let main_cst_6 : FVec F S_ .f32 := constant S_ .f32 0x7F800000#32
  let main_v20 : FVec F S8x2048x1 .f32 := broadcastInDim S8x2048x1 ![] bcast_S_S8x2048x1 main_cst_6
  let main_v21 : IVec S8x2048x1 1 := cmpf .olt main_v19 main_v20
  let main_c_7 : IVec S_ 1 := constantI S_ 1 1#1
  let main_v22 : IVec S_ 1 := (fun x v => Host.reduce IntOp.andi x v reducesTo_S8x2048x1_S_d0_1_2 h_S_) main_v21 main_c_7
  let main_v23 : IVec S_ 1 := andi main_v18 main_v22
  let main_v24 : FVec F S8x2048x1 .f32 := Host.absf main_arg5
  let main_cst_8 : FVec F S_ .f32 := constant S_ .f32 0x7F800000#32
  let main_v25 : FVec F S8x2048x1 .f32 := broadcastInDim S8x2048x1 ![] bcast_S_S8x2048x1 main_cst_8
  let main_v26 : IVec S8x2048x1 1 := cmpf .olt main_v24 main_v25
  let main_c_9 : IVec S_ 1 := constantI S_ 1 1#1
  let main_v27 : IVec S_ 1 := (fun x v => Host.reduce IntOp.andi x v reducesTo_S8x2048x1_S_d0_1_2 h_S_) main_v26 main_c_9
  let main_v28 : IVec S_ 1 := andi main_v23 main_v27
  let main_v29 : FVec F S8x2048x1 .f32 := Host.absf main_arg6
  let main_cst_10 : FVec F S_ .f32 := constant S_ .f32 0x7F800000#32
  let main_v30 : FVec F S8x2048x1 .f32 := broadcastInDim S8x2048x1 ![] bcast_S_S8x2048x1 main_cst_10
  let main_v31 : IVec S8x2048x1 1 := cmpf .olt main_v29 main_v30
  let main_c_11 : IVec S_ 1 := constantI S_ 1 1#1
  let main_v32 : IVec S_ 1 := (fun x v => Host.reduce IntOp.andi x v reducesTo_S8x2048x1_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x2048x300 .f32) (main_arg1 : FVec F S8x2048x2048 .f32) (main_arg2 : FVec F S8x2048x2048 .f32) (main_arg3 : FVec F S8x2048x2048 .f32) (main_arg4 : FVec F S8x2048x1 .f32) (main_arg5 : FVec F S8x2048x1 .f32) (main_arg6 : FVec F S8x2048x1 .f32) (main_arg7 : FVec F S3x300x96 .f32) (main_arg8 : FVec F S3x96 .f32) (main_arg9 : FVec F S3x96x96 .f32) (main_arg10 : FVec F S3x96 .f32) (main_arg11 : FVec F S3x6x96x96 .f32) (main_arg12 : FVec F S3x6x96 .f32) (main_arg13 : FVec F S3x96x96 .f32) (main_arg14 : FVec F S3x96 .f32) : IVec S_ 1 :=
  let main_v0 : FVec F S8x2048x300 .f32 := Host.absf main_arg0
  let main_cst : FVec F S_ .f32 := constant S_ .f32 0x7F800000#32
  let main_v1 : FVec F S8x2048x300 .f32 := broadcastInDim S8x2048x300 ![] bcast_S_S8x2048x300 main_cst
  let main_v2 : IVec S8x2048x300 1 := cmpf .olt main_v0 main_v1
  let main_c : IVec S_ 1 := constantI S_ 1 1#1
  let main_v3 : IVec S_ 1 := (fun x v => Host.reduce IntOp.andi x v reducesTo_S8x2048x300_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x2048x300 : Shape := ⟨3, ![8, 2048, 300]⟩
abbrev S8x2048x2048 : Shape := ⟨3, ![8, 2048, 2048]⟩
abbrev S8x2048x1 : Shape := ⟨3, ![8, 2048, 1]⟩
abbrev S3x300x96 : Shape := ⟨3, ![3, 300, 96]⟩
abbrev S3x96 : Shape := ⟨2, ![3, 96]⟩
abbrev S3x96x96 : Shape := ⟨3, ![3, 96, 96]⟩
abbrev S3x6x96x96 : Shape := ⟨4, ![3, 6, 96, 96]⟩
abbrev S3x6x96 : Shape := ⟨3, ![3, 6, 96]⟩
abbrev S8x2048x96 : Shape := ⟨3, ![8, 2048, 96]⟩
abbrev S1x2048x300 : Shape := ⟨3, ![1, 2048, 300]⟩
abbrev S1x2048x1 : Shape := ⟨3, ![1, 2048, 1]⟩
abbrev S1x2048x96 : Shape := ⟨3, ![1, 2048, 96]⟩
abbrev S2048x300 : Shape := ⟨2, ![2048, 300]⟩
abbrev S2048x1 : Shape := ⟨2, ![2048, 1]⟩
abbrev S1x300x96 : Shape := ⟨3, ![1, 300, 96]⟩
abbrev S300x96 : Shape := ⟨2, ![300, 96]⟩
abbrev S2048x96 : Shape := ⟨2, ![2048, 96]⟩
abbrev S1x96 : Shape := ⟨2, ![1, 96]⟩
abbrev S96 : Shape := ⟨1, ![96]⟩
abbrev S1x6x96x96 : Shape := ⟨4, ![1, 6, 96, 96]⟩
abbrev S6x96x96 : Shape := ⟨3, ![6, 96, 96]⟩
abbrev S1x6x96 : Shape := ⟨3, ![1, 6, 96]⟩
abbrev S6x96 : Shape := ⟨2, ![6, 96]⟩
abbrev S1x2048x2048 : Shape := ⟨3, ![1, 2048, 2048]⟩
abbrev S1x96x96 : Shape := ⟨3, ![1, 96, 96]⟩
abbrev S96x96 : Shape := ⟨2, ![96, 96]⟩
abbrev S96x288 : Shape := ⟨2, ![96, 288]⟩
abbrev S96x192 : Shape := ⟨2, ![96, 192]⟩
abbrev S288 : Shape := ⟨1, ![288]⟩
abbrev S192 : Shape := ⟨1, ![192]⟩
abbrev S2048x2048 : Shape := ⟨2, ![2048, 2048]⟩
abbrev S2048x288 : Shape := ⟨2, ![2048, 288]⟩
abbrev S1x288 : Shape := ⟨2, ![1, 288]⟩
abbrev S2048x192 : Shape := ⟨2, ![2048, 192]⟩
abbrev S1x192 : Shape := ⟨2, ![1, 192]⟩

abbrev nBuf : Space → Nat
  | .hbm => 34
  | .vmem => 58
  | .smem => 0
  | _ => 0

abbrev bufTy : (tb : Table) → Fin (tcTables nBuf tb) → BufTy
  | .hbm, ⟨0, _⟩ => ⟨S8x2048x300, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S8x2048x1, .f32⟩
  | .hbm, ⟨5, _⟩ => ⟨S8x2048x1, .f32⟩
  | .hbm, ⟨6, _⟩ => ⟨S8x2048x1, .f32⟩
  | .hbm, ⟨7, _⟩ => ⟨S3x300x96, .f32⟩
  | .hbm, ⟨8, _⟩ => ⟨S3x96, .f32⟩
  | .hbm, ⟨9, _⟩ => ⟨S3x96x96, .f32⟩
  | .hbm, ⟨10, _⟩ => ⟨S3x96, .f32⟩
  | .hbm, ⟨11, _⟩ => ⟨S3x6x96x96, .f32⟩
  | .hbm, ⟨12, _⟩ => ⟨S3x6x96, .f32⟩
  | .hbm, ⟨13, _⟩ => ⟨S3x96x96, .f32⟩
  | .hbm, ⟨14, _⟩ => ⟨S3x96, .f32⟩
  | .hbm, ⟨15, _⟩ => ⟨S8x2048x96, .f32⟩
  | .hbm, ⟨16, _⟩ => ⟨S8x2048x96, .f32⟩
  | .hbm, ⟨17, _⟩ => ⟨S8x2048x96, .f32⟩
  | .hbm, ⟨18, _⟩ => ⟨S1x6x96x96, .f32⟩
  | .hbm, ⟨19, _⟩ => ⟨S6x96x96, .f32⟩
  | .hbm, ⟨20, _⟩ => ⟨S1x6x96, .f32⟩
  | .hbm, ⟨21, _⟩ => ⟨S6x96, .f32⟩
  | .hbm, ⟨22, _⟩ => ⟨S8x2048x96, .f32⟩
  | .hbm, ⟨23, _⟩ => ⟨S1x6x96x96, .f32⟩
  | .hbm, ⟨24, _⟩ => ⟨S6x96x96, .f32⟩
  | .hbm, ⟨25, _⟩ => ⟨S1x6x96, .f32⟩
  | .hbm, ⟨26, _⟩ => ⟨S6x96, .f32⟩
  | .hbm, ⟨27, _⟩ => ⟨S8x2048x96, .f32⟩
  | .hbm, ⟨28, _⟩ => ⟨S1x6x96x96, .f32⟩
  | .hbm, ⟨29, _⟩ => ⟨S6x96x96, .f32⟩
  | .hbm, ⟨30, _⟩ => ⟨S1x6x96, .f32⟩
  | .hbm, ⟨31, _⟩ => ⟨S6x96, .f32⟩
  | .hbm, ⟨32, _⟩ => ⟨S8x2048x96, .f32⟩
  | .hbm, ⟨33, _⟩ => ⟨S8x2048x96, .f32⟩
  | .local _ .vmem, ⟨0, _⟩ => ⟨S1x2048x300, .f32⟩
  | .local _ .vmem, ⟨1, _⟩ => ⟨S1x2048x300, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S3x300x96, .f32⟩
  | .local _ .vmem, ⟨9, _⟩ => ⟨S3x96, .f32⟩
  | .local _ .vmem, ⟨10, _⟩ => ⟨S1x2048x96, .f32⟩
  | .local _ .vmem, ⟨11, _⟩ => ⟨S1x2048x96, .f32⟩
  | .local _ .vmem, ⟨12, _⟩ => ⟨S1x2048x96, .f32⟩
  | .local _ .vmem, ⟨13, _⟩ => ⟨S1x2048x96, .f32⟩
  | .local _ .vmem, ⟨14, _⟩ => ⟨S1x2048x96, .f32⟩
  | .local _ .vmem, ⟨15, _⟩ => ⟨S1x2048x96, .f32⟩
  | .local _ .vmem, ⟨16, _⟩ => ⟨S1x2048x96, .f32⟩
  | .local _ .vmem, ⟨17, _⟩ => ⟨S1x2048x96, .f32⟩
  | .local _ .vmem, ⟨18, _⟩ => ⟨S1x2048x2048, .f32⟩
  | .local _ .vmem, ⟨19, _⟩ => ⟨S1x2048x2048, .f32⟩
  | .local _ .vmem, ⟨20, _⟩ => ⟨S1x2048x1, .f32⟩
  | .local _ .vmem, ⟨21, _⟩ => ⟨S1x2048x1, .f32⟩
  | .local _ .vmem, ⟨22, _⟩ => ⟨S6x96x96, .f32⟩
  | .local _ .vmem, ⟨23, _⟩ => ⟨S6x96, .f32⟩
  | .local _ .vmem, ⟨24, _⟩ => ⟨S1x2048x96, .f32⟩
  | .local _ .vmem, ⟨25, _⟩ => ⟨S1x2048x96, .f32⟩
  | .local _ .vmem, ⟨26, _⟩ => ⟨S1x2048x96, .f32⟩
  | .local _ .vmem, ⟨27, _⟩ => ⟨S1x2048x96, .f32⟩
  | .local _ .vmem, ⟨28, _⟩ => ⟨S1x2048x2048, .f32⟩
  | .local _ .vmem, ⟨29, _⟩ => ⟨S1x2048x2048, .f32⟩
  | .local _ .vmem, ⟨30, _⟩ => ⟨S1x2048x1, .f32⟩
  | .local _ .vmem, ⟨31, _⟩ => ⟨S1x2048x1, .f32⟩
  | .local _ .vmem, ⟨32, _⟩ => ⟨S6x96x96, .f32⟩
  | .local _ .vmem, ⟨33, _⟩ => ⟨S6x96, .f32⟩
  | .local _ .vmem, ⟨34, _⟩ => ⟨S1x2048x96, .f32⟩
  | .local _ .vmem, ⟨35, _⟩ => ⟨S1x2048x96, .f32⟩
  | .local _ .vmem, ⟨36, _⟩ => ⟨S1x2048x96, .f32⟩
  | .local _ .vmem, ⟨37, _⟩ => ⟨S1x2048x96, .f32⟩
  | .local _ .vmem, ⟨38, _⟩ => ⟨S1x2048x2048, .f32⟩
  | .local _ .vmem, ⟨39, _⟩ => ⟨S1x2048x2048, .f32⟩
  | .local _ .vmem, ⟨40, _⟩ => ⟨S1x2048x1, .f32⟩
  | .local _ .vmem, ⟨41, _⟩ => ⟨S1x2048x1, .f32⟩
  | .local _ .vmem, ⟨42, _⟩ => ⟨S6x96x96, .f32⟩
  | .local _ .vmem, ⟨43, _⟩ => ⟨S6x96, .f32⟩
  | .local _ .vmem, ⟨44, _⟩ => ⟨S1x2048x96, .f32⟩
  | .local _ .vmem, ⟨45, _⟩ => ⟨S1x2048x96, .f32⟩
  | .local _ .vmem, ⟨46, _⟩ => ⟨S1x2048x96, .f32⟩
  | .local _ .vmem, ⟨47, _⟩ => ⟨S1x2048x96, .f32⟩
  | .local _ .vmem, ⟨48, _⟩ => ⟨S1x2048x96, .f32⟩
  | .local _ .vmem, ⟨49, _⟩ => ⟨S1x2048x96, .f32⟩
  | .local _ .vmem, ⟨50, _⟩ => ⟨S1x2048x96, .f32⟩
  | .local _ .vmem, ⟨51, _⟩ => ⟨S1x2048x96, .f32⟩
  | .local _ .vmem, ⟨52, _⟩ => ⟨S3x96x96, .f32⟩
  | .local _ .vmem, ⟨53, _⟩ => ⟨S3x96, .f32⟩
  | .local _ .vmem, ⟨54, _⟩ => ⟨S3x96x96, .f32⟩
  | .local _ .vmem, ⟨55, _⟩ => ⟨S3x96, .f32⟩
  | .local _ .vmem, ⟨56, _⟩ => ⟨S1x2048x96, .f32⟩
  | .local _ .vmem, ⟨57, _⟩ => ⟨S1x2048x96, .f32⟩
  | _, _ => ⟨S8x2048x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x300x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S6x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x2048x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S6x96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S6x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x2048x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S6x96x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S6x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x2048x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x96x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S3x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x96x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S3x96 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1x2048x96 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  inb_S1x2048x300_S1x2048x300_0_0_0 : ∀ a, (![0, 0, 0] : Fin 3 → Nat) a + S1x2048x300.size a ≤ S1x2048x300.size a
  h_S1x2048x300 : 0 < S1x2048x300.numel
  shapeCasts_S1x2048x300_S2048x300 : S1x2048x300.ShapeCasts S2048x300
  inb_S3x300x96_S3x300x96_0_0_0 : ∀ a, (![0, 0, 0] : Fin 3 → Nat) a + S3x300x96.size a ≤ S3x300x96.size a
  h_S3x300x96 : 0 < S3x300x96.numel
  inb_S3x96_S3x96_0_0 : ∀ a, (![0, 0] : Fin 2 → Nat) a + S3x96.size a ≤ S3x96.size a
  h_S3x96 : 0 < S3x96.numel
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  slices_S3x300x96_o0_0_0_S1x300x96 : S3x300x96.Slices ![0, 0, 0] S1x300x96
  shapeCasts_S1x300x96_S300x96 : S1x300x96.ShapeCasts S300x96
  slices_S3x96_o0_0_S1x96 : S3x96.Slices ![0, 0] S1x96
  shapeCasts_S1x96_S96 : S1x96.ShapeCasts S96
  shapeCasts_S96_S1x96 : S96.ShapeCasts S1x96
  broadcasts_S1x96_S2048x96 : S1x96.Broadcasts S2048x96
  broadcasts_S2048x1_S2048x96 : S2048x1.Broadcasts S2048x96
  inb_S1x2048x96_S1x2048x96_0_0_0 : ∀ a, (![0, 0, 0] : Fin 3 → Nat) a + S1x2048x96.size a ≤ S1x2048x96.size a
  h_S1x2048x96 : 0 < S1x2048x96.numel
  shapeCasts_S1x2048x96_S2048x96 : S1x2048x96.ShapeCasts S2048x96
  shapeCasts_S2048x96_S1x2048x96 : S2048x96.ShapeCasts S1x2048x96
  slices_S3x300x96_o1_0_0_S1x300x96 : S3x300x96.Slices ![1, 0, 0] S1x300x96
  slices_S3x96_o1_0_S1x96 : S3x96.Slices ![1, 0] S1x96
  slices_S3x300x96_o2_0_0_S1x300x96 : S3x300x96.Slices ![2, 0, 0] S1x300x96
  slices_S3x96_o2_0_S1x96 : S3x96.Slices ![2, 0] S1x96
  slices_S3x6x96x96_S1x6x96x96_0_0_0_0 : S3x6x96x96.Slices ![0, 0, 0, 0] S1x6x96x96
  shapeCasts_S1x6x96x96_S6x96x96 : S1x6x96x96.ShapeCasts S6x96x96
  slices_S3x6x96_S1x6x96_0_0_0 : S3x6x96.Slices ![0, 0, 0] S1x6x96
  shapeCasts_S1x6x96_S6x96 : S1x6x96.ShapeCasts S6x96
  inb_S6x96x96_S6x96x96_0_0_0 : ∀ a, (![0, 0, 0] : Fin 3 → Nat) a + S6x96x96.size a ≤ S6x96x96.size a
  h_S6x96x96 : 0 < S6x96x96.numel
  shapeCasts_S6x96x96_S6x96x96 : S6x96x96.ShapeCasts S6x96x96
  inb_S6x96_S6x96_0_0 : ∀ a, (![0, 0] : Fin 2 → Nat) a + S6x96.size a ≤ S6x96.size a
  h_S6x96 : 0 < S6x96.numel
  shapeCasts_S6x96_S6x96 : S6x96.ShapeCasts S6x96
  slices_S6x96x96_o0_0_0_S1x96x96 : S6x96x96.Slices ![0, 0, 0] S1x96x96
  shapeCasts_S1x96x96_S96x96 : S1x96x96.ShapeCasts S96x96
  slices_S6x96x96_o1_0_0_S1x96x96 : S6x96x96.Slices ![1, 0, 0] S1x96x96
  slices_S6x96x96_o2_0_0_S1x96x96 : S6x96x96.Slices ![2, 0, 0] S1x96x96
  slices_S6x96x96_o3_0_0_S1x96x96 : S6x96x96.Slices ![3, 0, 0] S1x96x96
  slices_S6x96x96_o4_0_0_S1x96x96 : S6x96x96.Slices ![4, 0, 0] S1x96x96
  slices_S6x96x96_o5_0_0_S1x96x96 : S6x96x96.Slices ![5, 0, 0] S1x96x96
  slices_S6x96_o0_0_S1x96 : S6x96.Slices ![0, 0] S1x96
  slices_S6x96_o1_0_S1x96 : S6x96.Slices ![1, 0] S1x96
  slices_S6x96_o2_0_S1x96 : S6x96.Slices ![2, 0] S1x96
  slices_S6x96_o3_0_S1x96 : S6x96.Slices ![3, 0] S1x96
  slices_S6x96_o4_0_S1x96 : S6x96.Slices ![4, 0] S1x96
  slices_S6x96_o5_0_S1x96 : S6x96.Slices ![5, 0] S1x96
  concatenates_S96x96_S96x96_S96x96_S96x288_d1 : Shape.Concatenates [S96x96, S96x96, S96x96] S96x288 1
  bitsLt_bf16_f32 : FTy.bits .bf16 < FTy.bits .f32
  concatenates_S96x96_S96x96_S96x192_d1 : Shape.Concatenates [S96x96, S96x96] S96x192 1
  concatenates_S96_S96_S96_S288_d0 : Shape.Concatenates [S96, S96, S96] S288 0
  concatenates_S96_S96_S192_d0 : Shape.Concatenates [S96, S96] S192 0
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S288_S1x288 : S288.ShapeCasts S1x288
  broadcasts_S1x288_S2048x288 : S1x288.Broadcasts S2048x288
  shapeCasts_S192_S1x192 : S192.ShapeCasts S1x192
  broadcasts_S1x192_S2048x192 : S1x192.Broadcasts S2048x192
  slices_S2048x288_o0_0_S2048x96 : S2048x288.Slices ![0, 0] S2048x96
  slices_S2048x288_o0_96_S2048x96 : S2048x288.Slices ![0, 96] S2048x96
  slices_S2048x288_o0_192_S2048x96 : S2048x288.Slices ![0, 192] S2048x96
  slices_S2048x192_o0_0_S2048x96 : S2048x192.Slices ![0, 0] S2048x96
  slices_S2048x192_o0_96_S2048x96 : S2048x192.Slices ![0, 96] S2048x96
  slices_S3x6x96x96_S1x6x96x96_1_0_0_0 : S3x6x96x96.Slices ![1, 0, 0, 0] S1x6x96x96
  slices_S3x6x96_S1x6x96_1_0_0 : S3x6x96.Slices ![1, 0, 0] S1x6x96
  slices_S3x6x96x96_S1x6x96x96_2_0_0_0 : S3x6x96x96.Slices ![2, 0, 0, 0] S1x6x96x96
  slices_S3x6x96_S1x6x96_2_0_0 : S3x6x96.Slices ![2, 0, 0] S1x6x96
  inb_S3x96x96_S3x96x96_0_0_0 : ∀ a, (![0, 0, 0] : Fin 3 → Nat) a + S3x96x96.size a ≤ S3x96x96.size a
  h_S3x96x96 : 0 < S3x96x96.numel
  slices_S3x96x96_o0_0_0_S1x96x96 : S3x96x96.Slices ![0, 0, 0] S1x96x96
  slices_S3x96x96_o1_0_0_S1x96x96 : S3x96x96.Slices ![1, 0, 0] S1x96x96
  slices_S3x96x96_o2_0_0_S1x96x96 : S3x96x96.Slices ![2, 0, 0] S1x96x96
  dot_S2048x300_S300x96_S2048x96_1_0_0_1_n_n_wf : DotDims.WF S2048x300 S300x96 S2048x96 [1] [0] [0] [1] [] []
  dot_S2048x2048_S2048x96_S2048x96_1_0_0_1_n_n_wf : DotDims.WF S2048x2048 S2048x96 S2048x96 [1] [0] [0] [1] [] []
  dot_S2048x96_S96x288_S2048x288_1_0_0_1_n_n_wf : DotDims.WF S2048x96 S96x288 S2048x288 [1] [0] [0] [1] [] []
  dot_S2048x96_S96x192_S2048x192_1_0_0_1_n_n_wf : DotDims.WF S2048x96 S96x192 S2048x192 [1] [0] [0] [1] [] []
  dot_S2048x96_S96x96_S2048x96_1_0_0_1_n_n_wf : DotDims.WF S2048x96 S96x96 S2048x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x300.size a ≤ S8x2048x300.size a
  hwx0_0 : ∀ i : grid0.Coords, EltTy.bits .f32 = 32 ∨ (Rect.block (s := S8x2048x300) S1x2048x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x2048x1.size a
  hwx0_2 : ∀ i : grid0.Coords, EltTy.bits .f32 = 32 ∨ (Rect.block (s := S8x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S8x2048x1.size a
  hwx0_3 : ∀ i : grid0.Coords, EltTy.bits .f32 = 32 ∨ (Rect.block (s := S8x2048x1) S1x2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x300x96.size a ≤ S3x300x96.size a
  hwx0_4 : ∀ i : grid0.Coords, EltTy.bits .f32 = 32 ∨ (Rect.block (s := S3x300x96) S3x300x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x96.size a ≤ S3x96.size a
  hwx0_5 : ∀ i : grid0.Coords, EltTy.bits .f32 = 32 ∨ (Rect.block (s := S3x96) S3x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x96.size a ≤ S8x2048x96.size a
  hwx0_6 : ∀ i : grid0.Coords, EltTy.bits .f32 = 32 ∨ (Rect.block (s := S8x2048x96) S1x2048x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x96.size a ≤ S8x2048x96.size a
  hwx0_7 : ∀ i : grid0.Coords, EltTy.bits .f32 = 32 ∨ (Rect.block (s := S8x2048x96) S1x2048x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x96.size a ≤ S8x2048x96.size a
  hwx0_8 : ∀ i : grid0.Coords, EltTy.bits .f32 = 32 ∨ (Rect.block (s := S8x2048x96) S1x2048x96.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x96.size a ≤ S8x2048x96.size a
  hwx1_0 : ∀ i : grid1.Coords, EltTy.bits .f32 = 32 ∨ (Rect.block (s := S8x2048x96) S1x2048x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x2048.size a ≤ S8x2048x2048.size a
  hwx1_1 : ∀ i : grid1.Coords, EltTy.bits .f32 = 32 ∨ (Rect.block (s := S8x2048x2048) S1x2048x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1.size a ≤ S8x2048x1.size a
  hwx1_2 : ∀ i : grid1.Coords, EltTy.bits .f32 = 32 ∨ (Rect.block (s := S8x2048x1) S1x2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x96x96.size a ≤ S6x96x96.size a
  hwx1_3 : ∀ i : grid1.Coords, EltTy.bits .f32 = 32 ∨ (Rect.block (s := S6x96x96) S6x96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S6x96.size a ≤ S6x96.size a
  hwx1_4 : ∀ i : grid1.Coords, EltTy.bits .f32 = 32 ∨ (Rect.block (s := S6x96) S6x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x96.size a ≤ S8x2048x96.size a
  hwx1_5 : ∀ i : grid1.Coords, EltTy.bits .f32 = 32 ∨ (Rect.block (s := S8x2048x96) S1x2048x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x96.size a ≤ S8x2048x96.size a
  hwx2_0 : ∀ i : grid2.Coords, EltTy.bits .f32 = 32 ∨ (Rect.block (s := S8x2048x96) S1x2048x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x2048.size a ≤ S8x2048x2048.size a
  hwx2_1 : ∀ i : grid2.Coords, EltTy.bits .f32 = 32 ∨ (Rect.block (s := S8x2048x2048) S1x2048x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x1.size a ≤ S8x2048x1.size a
  hwx2_2 : ∀ i : grid2.Coords, EltTy.bits .f32 = 32 ∨ (Rect.block (s := S8x2048x1) S1x2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S6x96x96.size a ≤ S6x96x96.size a
  hwx2_3 : ∀ i : grid2.Coords, EltTy.bits .f32 = 32 ∨ (Rect.block (s := S6x96x96) S6x96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S6x96.size a ≤ S6x96.size a
  hwx2_4 : ∀ i : grid2.Coords, EltTy.bits .f32 = 32 ∨ (Rect.block (s := S6x96) S6x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x96.size a ≤ S8x2048x96.size a
  hwx2_5 : ∀ i : grid2.Coords, EltTy.bits .f32 = 32 ∨ (Rect.block (s := S8x2048x96) S1x2048x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x96.size a ≤ S8x2048x96.size a
  hwx3_0 : ∀ i : grid3.Coords, EltTy.bits .f32 = 32 ∨ (Rect.block (s := S8x2048x96) S1x2048x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x2048.size a ≤ S8x2048x2048.size a
  hwx3_1 : ∀ i : grid3.Coords, EltTy.bits .f32 = 32 ∨ (Rect.block (s := S8x2048x2048) S1x2048x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1.size a ≤ S8x2048x1.size a
  hwx3_2 : ∀ i : grid3.Coords, EltTy.bits .f32 = 32 ∨ (Rect.block (s := S8x2048x1) S1x2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S6x96x96.size a ≤ S6x96x96.size a
  hwx3_3 : ∀ i : grid3.Coords, EltTy.bits .f32 = 32 ∨ (Rect.block (s := S6x96x96) S6x96x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S6x96.size a ≤ S6x96.size a
  hwx3_4 : ∀ i : grid3.Coords, EltTy.bits .f32 = 32 ∨ (Rect.block (s := S6x96) S6x96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x2048x96.size a ≤ S8x2048x96.size a
  hwx3_5 : ∀ i : grid3.Coords, EltTy.bits .f32 = 32 ∨ (Rect.block (s := S8x2048x96) S1x2048x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x96.size a ≤ S8x2048x96.size a
  hwx4_0 : ∀ i : grid4.Coords, EltTy.bits .f32 = 32 ∨ (Rect.block (s := S8x2048x96) S1x2048x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048x96.size a ≤ S8x2048x96.size a
  hwx4_1 : ∀ i : grid4.Coords, EltTy.bits .f32 = 32 ∨ (Rect.block (s := S8x2048x96) S1x2048x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048x96.size a ≤ S8x2048x96.size a
  hwx4_2 : ∀ i : grid4.Coords, EltTy.bits .f32 = 32 ∨ (Rect.block (s := S8x2048x96) S1x2048x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x96x96.size a ≤ S3x96x96.size a
  hwx4_3 : ∀ i : grid4.Coords, EltTy.bits .f32 = 32 ∨ (Rect.block (s := S3x96x96) S3x96x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x96.size a ≤ S3x96.size a
  hwx4_4 : ∀ i : grid4.Coords, EltTy.bits .f32 = 32 ∨ (Rect.block (s := S3x96) S3x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S3x96x96.size a ≤ S3x96x96.size a
  hwx4_5 : ∀ i : grid4.Coords, EltTy.bits .f32 = 32 ∨ (Rect.block (s := S3x96x96) S3x96x96.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S3x96.size a ≤ S3x96.size a
  hwx4_6 : ∀ i : grid4.Coords, EltTy.bits .f32 = 32 ∨ (Rect.block (s := S3x96) S3x96.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x2048x96.size a ≤ S8x2048x96.size a
  hwx4_7 : ∀ i : grid4.Coords, EltTy.bits .f32 = 32 ∨ (Rect.block (s := S8x2048x96) S1x2048x96.size (cc4_transform_7 i) (hinb4_7 i)).WholeWords (EltTy.packing .f32)

variable [Facts₀]

def dot_S2048x300_S300x96_S2048x96_1_0_0_1_n_n : DotDims S2048x300 S300x96 S2048x96 where
  lhsContracting := [1]
  rhsContracting := [0]
  lhsNonContracting := [0]
  rhsNonContracting := [1]
  lhsBatch := []
  rhsBatch := []
  wf := dot_S2048x300_S300x96_S2048x96_1_0_0_1_n_n_wf
def dot_S2048x2048_S2048x96_S2048x96_1_0_0_1_n_n : DotDims S2048x2048 S2048x96 S2048x96 where
  lhsContracting := [1]
  rhsContracting := [0]
  lhsNonContracting := [0]
  rhsNonContracting := [1]
  lhsBatch := []
  rhsBatch := []
  wf := dot_S2048x2048_S2048x96_S2048x96_1_0_0_1_n_n_wf
def dot_S2048x96_S96x288_S2048x288_1_0_0_1_n_n : DotDims S2048x96 S96x288 S2048x288 where
  lhsContracting := [1]
  rhsContracting := [0]
  lhsNonContracting := [0]
  rhsNonContracting := [1]
  lhsBatch := []
  rhsBatch := []
  wf := dot_S2048x96_S96x288_S2048x288_1_0_0_1_n_n_wf
def dot_S2048x96_S96x192_S2048x192_1_0_0_1_n_n : DotDims S2048x96 S96x192 S2048x192 where
  lhsContracting := [1]
  rhsContracting := [0]
  lhsNonContracting := [0]
  rhsNonContracting := [1]
  lhsBatch := []
  rhsBatch := []
  wf := dot_S2048x96_S96x192_S2048x192_1_0_0_1_n_n_wf
def dot_S2048x96_S96x96_S2048x96_1_0_0_1_n_n : DotDims S2048x96 S96x96 S2048x96 where
  lhsContracting := [1]
  rhsContracting := [0]
  lhsNonContracting := [0]
  rhsNonContracting := [1]
  lhsBatch := []
  rhsBatch := []
  wf := dot_S2048x96_S96x96_S2048x96_1_0_0_1_n_n_wf

abbrev win0_0 : Pipeline.Window sig grid0 :=
  Pipeline.Window.ofSpec (Memref.whole main_arg0) S1x2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3x300x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S3x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x2048x96.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x2048x96.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x2048x96.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S1x2048x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S6x96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S6x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x2048x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_1) S1x2048x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S6x96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S6x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x2048x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v0_2) S1x2048x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S1x2048x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1x2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S6x96x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S6x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S1x2048x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v5) S1x2048x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S1x2048x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x2048x96.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S3x96x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S3x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S3x96x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S3x96.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v16) S1x2048x96.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S8x2048x300 : Shape := ⟨3, ![8, 2048, 300]⟩
abbrev S8x2048x2048 : Shape := ⟨3, ![8, 2048, 2048]⟩
abbrev S8x2048x1 : Shape := ⟨3, ![8, 2048, 1]⟩
abbrev S3x300x96 : Shape := ⟨3, ![3, 300, 96]⟩
abbrev S3x96 : Shape := ⟨2, ![3, 96]⟩
abbrev S3x96x96 : Shape := ⟨3, ![3, 96, 96]⟩
abbrev S3x6x96x96 : Shape := ⟨4, ![3, 6, 96, 96]⟩
abbrev S3x6x96 : Shape := ⟨3, ![3, 6, 96]⟩
abbrev S1x300x96 : Shape := ⟨3, ![1, 300, 96]⟩
abbrev S300x96 : Shape := ⟨2, ![300, 96]⟩
abbrev S8x2048x96 : Shape := ⟨3, ![8, 2048, 96]⟩
abbrev S1x96 : Shape := ⟨2, ![1, 96]⟩
abbrev S96 : Shape := ⟨1, ![96]⟩
abbrev S1x1x96 : Shape := ⟨3, ![1, 1, 96]⟩
abbrev S_ : Shape := ⟨0, ![]⟩
abbrev S1x1x96x96 : Shape := ⟨4, ![1, 1, 96, 96]⟩
abbrev S96x96 : Shape := ⟨2, ![96, 96]⟩
abbrev S1x96x96 : Shape := ⟨3, ![1, 96, 96]⟩

abbrev nBuf : Space → Nat
  | .hbm => 539
  | .vmem => 0
  | .smem => 0
  | _ => 0

abbrev hbmTy0_0 (i : Nat) : BufTy := match i % 128 with
  | 0 => ⟨S8x2048x300, .f32⟩
  | 1 => ⟨S8x2048x2048, .f32⟩
  | 2 => ⟨S8x2048x2048, .f32⟩
  | 3 => ⟨S8x2048x2048, .f32⟩
  | 4 => ⟨S8x2048x1, .f32⟩
  | 5 => ⟨S8x2048x1, .f32⟩
  | 6 => ⟨S8x2048x1, .f32⟩
  | 7 => ⟨S3x300x96, .f32⟩
  | 8 => ⟨S3x96, .f32⟩
  | 9 => ⟨S3x96x96, .f32⟩
  | 10 => ⟨S3x96, .f32⟩
  | 11 => ⟨S3x6x96x96, .f32⟩
  | 12 => ⟨S3x6x96, .f32⟩
  | 13 => ⟨S3x96x96, .f32⟩
  | 14 => ⟨S3x96, .f32⟩
  | 15 => ⟨S1x300x96, .f32⟩
  | 16 => ⟨S300x96, .f32⟩
  | 17 => ⟨S8x2048x96, .f32⟩
  | 18 => ⟨S1x96, .f32⟩
  | 19 => ⟨S96, .f32⟩
  | 20 => ⟨S1x1x96, .f32⟩
  | 21 => ⟨S8x2048x96, .f32⟩
  | 22 => ⟨S8x2048x96, .f32⟩
  | 23 => ⟨S_, .f32⟩
  | 24 => ⟨S8x2048x96, .f32⟩
  | 25 => ⟨S8x2048x96, .f32⟩
  | 26 => ⟨S8x2048x96, .f32⟩
  | 27 => ⟨S8x2048x96, .f32⟩
  | 28 => ⟨S1x1x96x96, .f32⟩
  | 29 => ⟨S96x96, .f32⟩
  | 30 => ⟨S1x1x96x96, .f32⟩
  | 31 => ⟨S96x96, .f32⟩
  | 32 => ⟨S1x1x96x96, .f32⟩
  | 33 => ⟨S96x96, .f32⟩
  | 34 => ⟨S1x1x96x96, .f32⟩
  | 35 => ⟨S96x96, .f32⟩
  | 36 => ⟨S1x1x96x96, .f32⟩
  | 37 => ⟨S96x96, .f32⟩
  | 38 => ⟨S1x1x96x96, .f32⟩
  | 39 => ⟨S96x96, .f32⟩
  | 40 => ⟨S1x1x96, .f32⟩
  | 41 => ⟨S96, .f32⟩
  | 42 => ⟨S1x1x96, .f32⟩
  | 43 => ⟨S96, .f32⟩
  | 44 => ⟨S1x1x96, .f32⟩
  | 45 => ⟨S96, .f32⟩
  | 46 => ⟨S1x1x96, .f32⟩
  | 47 => ⟨S96, .f32⟩
  | 48 => ⟨S1x1x96, .f32⟩
  | 49 => ⟨S96, .f32⟩
  | 50 => ⟨S1x1x96, .f32⟩
  | 51 => ⟨S96, .f32⟩
  | 52 => ⟨S8x2048x96, .f32⟩
  | 53 => ⟨S8x2048x96, .f32⟩
  | 54 => ⟨S1x1x96, .f32⟩
  | 55 => ⟨S8x2048x96, .f32⟩
  | 56 => ⟨S8x2048x96, .f32⟩
  | 57 => ⟨S8x2048x96, .f32⟩
  | 58 => ⟨S8x2048x96, .f32⟩
  | 59 => ⟨S1x1x96, .f32⟩
  | 60 => ⟨S8x2048x96, .f32⟩
  | 61 => ⟨S8x2048x96, .f32⟩
  | 62 => ⟨S8x2048x96, .f32⟩
  | 63 => ⟨S8x2048x96, .f32⟩
  | 64 => ⟨S_, .f32⟩
  | 65 => ⟨S8x2048x96, .f32⟩
  | 66 => ⟨S8x2048x96, .f32⟩
  | 67 => ⟨S_, .f32⟩
  | 68 => ⟨S8x2048x96, .f32⟩
  | 69 => ⟨S8x2048x96, .f32⟩
  | 70 => ⟨S8x2048x96, .f32⟩
  | 71 => ⟨S1x1x96, .f32⟩
  | 72 => ⟨S8x2048x96, .f32⟩
  | 73 => ⟨S8x2048x96, .f32⟩
  | 74 => ⟨S8x2048x96, .f32⟩
  | 75 => ⟨S8x2048x96, .f32⟩
  | 76 => ⟨S1x1x96, .f32⟩
  | 77 => ⟨S8x2048x96, .f32⟩
  | 78 => ⟨S8x2048x96, .f32⟩
  | 79 => ⟨S8x2048x96, .f32⟩
  | 80 => ⟨S8x2048x96, .f32⟩
  | 81 => ⟨S_, .f32⟩
  | 82 => ⟨S8x2048x96, .f32⟩
  | 83 => ⟨S8x2048x96, .f32⟩
  | 84 => ⟨S_, .f32⟩
  | 85 => ⟨S8x2048x96, .f32⟩
  | 86 => ⟨S8x2048x96, .f32⟩
  | 87 => ⟨S8x2048x96, .f32⟩
  | 88 => ⟨S1x1x96, .f32⟩
  | 89 => ⟨S8x2048x96, .f32⟩
  | 90 => ⟨S8x2048x96, .f32⟩
  | 91 => ⟨S8x2048x96, .f32⟩
  | 92 => ⟨S8x2048x96, .f32⟩
  | 93 => ⟨S8x2048x96, .f32⟩
  | 94 => ⟨S1x1x96, .f32⟩
  | 95 => ⟨S8x2048x96, .f32⟩
  | 96 => ⟨S8x2048x96, .f32⟩
  | 97 => ⟨S8x2048x96, .f32⟩
  | 98 => ⟨S8x2048x96, .f32⟩
  | 99 => ⟨S_, .f32⟩
  | 100 => ⟨S8x2048x96, .f32⟩
  | 101 => ⟨S8x2048x96, .f32⟩
  | 102 => ⟨S8x2048x96, .f32⟩
  | 103 => ⟨S_, .f32⟩
  | 104 => ⟨S8x2048x96, .f32⟩
  | 105 => ⟨S8x2048x96, .f32⟩
  | 106 => ⟨S8x2048x96, .f32⟩
  | 107 => ⟨S8x2048x96, .f32⟩
  | 108 => ⟨S8x2048x96, .f32⟩
  | 109 => ⟨S8x2048x96, .f32⟩
  | 110 => ⟨S1x1x96, .f32⟩
  | 111 => ⟨S8x2048x96, .f32⟩
  | 112 => ⟨S8x2048x96, .f32⟩
  | 113 => ⟨S8x2048x96, .f32⟩
  | 114 => ⟨S8x2048x96, .f32⟩
  | 115 => ⟨S1x1x96, .f32⟩
  | 116 => ⟨S8x2048x96, .f32⟩
  | 117 => ⟨S8x2048x96, .f32⟩
  | 118 => ⟨S8x2048x96, .f32⟩
  | 119 => ⟨S8x2048x96, .f32⟩
  | 120 => ⟨S_, .f32⟩
  | 121 => ⟨S8x2048x96, .f32⟩
  | 122 => ⟨S8x2048x96, .f32⟩
  | 123 => ⟨S_, .f32⟩
  | 124 => ⟨S8x2048x96, .f32⟩
  | 125 => ⟨S8x2048x96, .f32⟩
  | 126 => ⟨S8x2048x96, .f32⟩
  | 127 => ⟨S1x1x96, .f32⟩
  | _ => ⟨S8x2048x300, .f32⟩

abbrev hbmTy0_1 (i : Nat) : BufTy := match i % 128 with
  | 0 => ⟨S8x2048x96, .f32⟩
  | 1 => ⟨S8x2048x96, .f32⟩
  | 2 => ⟨S8x2048x96, .f32⟩
  | 3 => ⟨S8x2048x96, .f32⟩
  | 4 => ⟨S1x1x96, .f32⟩
  | 5 => ⟨S8x2048x96, .f32⟩
  | 6 => ⟨S8x2048x96, .f32⟩
  | 7 => ⟨S8x2048x96, .f32⟩
  | 8 => ⟨S8x2048x96, .f32⟩
  | 9 => ⟨S_, .f32⟩
  | 10 => ⟨S8x2048x96, .f32⟩
  | 11 => ⟨S8x2048x96, .f32⟩
  | 12 => ⟨S_, .f32⟩
  | 13 => ⟨S8x2048x96, .f32⟩
  | 14 => ⟨S8x2048x96, .f32⟩
  | 15 => ⟨S8x2048x96, .f32⟩
  | 16 => ⟨S1x1x96, .f32⟩
  | 17 => ⟨S8x2048x96, .f32⟩
  | 18 => ⟨S8x2048x96, .f32⟩
  | 19 => ⟨S8x2048x96, .f32⟩
  | 20 => ⟨S8x2048x96, .f32⟩
  | 21 => ⟨S8x2048x96, .f32⟩
  | 22 => ⟨S1x1x96, .f32⟩
  | 23 => ⟨S8x2048x96, .f32⟩
  | 24 => ⟨S8x2048x96, .f32⟩
  | 25 => ⟨S8x2048x96, .f32⟩
  | 26 => ⟨S8x2048x96, .f32⟩
  | 27 => ⟨S_, .f32⟩
  | 28 => ⟨S8x2048x96, .f32⟩
  | 29 => ⟨S8x2048x96, .f32⟩
  | 30 => ⟨S8x2048x96, .f32⟩
  | 31 => ⟨S_, .f32⟩
  | 32 => ⟨S8x2048x96, .f32⟩
  | 33 => ⟨S8x2048x96, .f32⟩
  | 34 => ⟨S8x2048x96, .f32⟩
  | 35 => ⟨S8x2048x96, .f32⟩
  | 36 => ⟨S1x300x96, .f32⟩
  | 37 => ⟨S300x96, .f32⟩
  | 38 => ⟨S8x2048x96, .f32⟩
  | 39 => ⟨S1x96, .f32⟩
  | 40 => ⟨S96, .f32⟩
  | 41 => ⟨S1x1x96, .f32⟩
  | 42 => ⟨S8x2048x96, .f32⟩
  | 43 => ⟨S8x2048x96, .f32⟩
  | 44 => ⟨S_, .f32⟩
  | 45 => ⟨S8x2048x96, .f32⟩
  | 46 => ⟨S8x2048x96, .f32⟩
  | 47 => ⟨S8x2048x96, .f32⟩
  | 48 => ⟨S8x2048x96, .f32⟩
  | 49 => ⟨S1x1x96x96, .f32⟩
  | 50 => ⟨S96x96, .f32⟩
  | 51 => ⟨S1x1x96x96, .f32⟩
  | 52 => ⟨S96x96, .f32⟩
  | 53 => ⟨S1x1x96x96, .f32⟩
  | 54 => ⟨S96x96, .f32⟩
  | 55 => ⟨S1x1x96x96, .f32⟩
  | 56 => ⟨S96x96, .f32⟩
  | 57 => ⟨S1x1x96x96, .f32⟩
  | 58 => ⟨S96x96, .f32⟩
  | 59 => ⟨S1x1x96x96, .f32⟩
  | 60 => ⟨S96x96, .f32⟩
  | 61 => ⟨S1x1x96, .f32⟩
  | 62 => ⟨S96, .f32⟩
  | 63 => ⟨S1x1x96, .f32⟩
  | 64 => ⟨S96, .f32⟩
  | 65 => ⟨S1x1x96, .f32⟩
  | 66 => ⟨S96, .f32⟩
  | 67 => ⟨S1x1x96, .f32⟩
  | 68 => ⟨S96, .f32⟩
  | 69 => ⟨S1x1x96, .f32⟩
  | 70 => ⟨S96, .f32⟩
  | 71 => ⟨S1x1x96, .f32⟩
  | 72 => ⟨S96, .f32⟩
  | 73 => ⟨S8x2048x96, .f32⟩
  | 74 => ⟨S8x2048x96, .f32⟩
  | 75 => ⟨S1x1x96, .f32⟩
  | 76 => ⟨S8x2048x96, .f32⟩
  | 77 => ⟨S8x2048x96, .f32⟩
  | 78 => ⟨S8x2048x96, .f32⟩
  | 79 => ⟨S8x2048x96, .f32⟩
  | 80 => ⟨S1x1x96, .f32⟩
  | 81 => ⟨S8x2048x96, .f32⟩
  | 82 => ⟨S8x2048x96, .f32⟩
  | 83 => ⟨S8x2048x96, .f32⟩
  | 84 => ⟨S8x2048x96, .f32⟩
  | 85 => ⟨S_, .f32⟩
  | 86 => ⟨S8x2048x96, .f32⟩
  | 87 => ⟨S8x2048x96, .f32⟩
  | 88 => ⟨S_, .f32⟩
  | 89 => ⟨S8x2048x96, .f32⟩
  | 90 => ⟨S8x2048x96, .f32⟩
  | 91 => ⟨S8x2048x96, .f32⟩
  | 92 => ⟨S1x1x96, .f32⟩
  | 93 => ⟨S8x2048x96, .f32⟩
  | 94 => ⟨S8x2048x96, .f32⟩
  | 95 => ⟨S8x2048x96, .f32⟩
  | 96 => ⟨S8x2048x96, .f32⟩
  | 97 => ⟨S1x1x96, .f32⟩
  | 98 => ⟨S8x2048x96, .f32⟩
  | 99 => ⟨S8x2048x96, .f32⟩
  | 100 => ⟨S8x2048x96, .f32⟩
  | 101 => ⟨S8x2048x96, .f32⟩
  | 102 => ⟨S_, .f32⟩
  | 103 => ⟨S8x2048x96, .f32⟩
  | 104 => ⟨S8x2048x96, .f32⟩
  | 105 => ⟨S_, .f32⟩
  | 106 => ⟨S8x2048x96, .f32⟩
  | 107 => ⟨S8x2048x96, .f32⟩
  | 108 => ⟨S8x2048x96, .f32⟩
  | 109 => ⟨S1x1x96, .f32⟩
  | 110 => ⟨S8x2048x96, .f32⟩
  | 111 => ⟨S8x2048x96, .f32⟩
  | 112 => ⟨S8x2048x96, .f32⟩
  | 113 => ⟨S8x2048x96, .f32⟩
  | 114 => ⟨S8x2048x96, .f32⟩
  | 115 => ⟨S1x1x96, .f32⟩
  | 116 => ⟨S8x2048x96, .f32⟩
  | 117 => ⟨S8x2048x96, .f32⟩
  | 118 => ⟨S8x2048x96, .f32⟩
  | 119 => ⟨S8x2048x96, .f32⟩
  | 120 => ⟨S_, .f32⟩
  | 121 => ⟨S8x2048x96, .f32⟩
  | 122 => ⟨S8x2048x96, .f32⟩
  | 123 => ⟨S8x2048x96, .f32⟩
  | 124 => ⟨S_, .f32⟩
  | 125 => ⟨S8x2048x96, .f32⟩
  | 126 => ⟨S8x2048x96, .f32⟩
  | 127 => ⟨S8x2048x96, .f32⟩
  | _ => ⟨S8x2048x300, .f32⟩

abbrev hbmTy0_2 (i : Nat) : BufTy := match i % 128 with
  | 0 => ⟨S8x2048x96, .f32⟩
  | 1 => ⟨S8x2048x96, .f32⟩
  | 2 => ⟨S8x2048x96, .f32⟩
  | 3 => ⟨S1x1x96, .f32⟩
  | 4 => ⟨S8x2048x96, .f32⟩
  | 5 => ⟨S8x2048x96, .f32⟩
  | 6 => ⟨S8x2048x96, .f32⟩
  | 7 => ⟨S8x2048x96, .f32⟩
  | 8 => ⟨S1x1x96, .f32⟩
  | 9 => ⟨S8x2048x96, .f32⟩
  | 10 => ⟨S8x2048x96, .f32⟩
  | 11 => ⟨S8x2048x96, .f32⟩
  | 12 => ⟨S8x2048x96, .f32⟩
  | 13 => ⟨S_, .f32⟩
  | 14 => ⟨S8x2048x96, .f32⟩
  | 15 => ⟨S8x2048x96, .f32⟩
  | 16 => ⟨S_, .f32⟩
  | 17 => ⟨S8x2048x96, .f32⟩
  | 18 => ⟨S8x2048x96, .f32⟩
  | 19 => ⟨S8x2048x96, .f32⟩
  | 20 => ⟨S1x1x96, .f32⟩
  | 21 => ⟨S8x2048x96, .f32⟩
  | 22 => ⟨S8x2048x96, .f32⟩
  | 23 => ⟨S8x2048x96, .f32⟩
  | 24 => ⟨S8x2048x96, .f32⟩
  | 25 => ⟨S1x1x96, .f32⟩
  | 26 => ⟨S8x2048x96, .f32⟩
  | 27 => ⟨S8x2048x96, .f32⟩
  | 28 => ⟨S8x2048x96, .f32⟩
  | 29 => ⟨S8x2048x96, .f32⟩
  | 30 => ⟨S_, .f32⟩
  | 31 => ⟨S8x2048x96, .f32⟩
  | 32 => ⟨S8x2048x96, .f32⟩
  | 33 => ⟨S_, .f32⟩
  | 34 => ⟨S8x2048x96, .f32⟩
  | 35 => ⟨S8x2048x96, .f32⟩
  | 36 => ⟨S8x2048x96, .f32⟩
  | 37 => ⟨S1x1x96, .f32⟩
  | 38 => ⟨S8x2048x96, .f32⟩
  | 39 => ⟨S8x2048x96, .f32⟩
  | 40 => ⟨S8x2048x96, .f32⟩
  | 41 => ⟨S8x2048x96, .f32⟩
  | 42 => ⟨S8x2048x96, .f32⟩
  | 43 => ⟨S1x1x96, .f32⟩
  | 44 => ⟨S8x2048x96, .f32⟩
  | 45 => ⟨S8x2048x96, .f32⟩
  | 46 => ⟨S8x2048x96, .f32⟩
  | 47 => ⟨S8x2048x96, .f32⟩
  | 48 => ⟨S_, .f32⟩
  | 49 => ⟨S8x2048x96, .f32⟩
  | 50 => ⟨S8x2048x96, .f32⟩
  | 51 => ⟨S8x2048x96, .f32⟩
  | 52 => ⟨S_, .f32⟩
  | 53 => ⟨S8x2048x96, .f32⟩
  | 54 => ⟨S8x2048x96, .f32⟩
  | 55 => ⟨S8x2048x96, .f32⟩
  | 56 => ⟨S8x2048x96, .f32⟩
  | 57 => ⟨S1x300x96, .f32⟩
  | 58 => ⟨S300x96, .f32⟩
  | 59 => ⟨S8x2048x96, .f32⟩
  | 60 => ⟨S1x96, .f32⟩
  | 61 => ⟨S96, .f32⟩
  | 62 => ⟨S1x1x96, .f32⟩
  | 63 => ⟨S8x2048x96, .f32⟩
  | 64 => ⟨S8x2048x96, .f32⟩
  | 65 => ⟨S_, .f32⟩
  | 66 => ⟨S8x2048x96, .f32⟩
  | 67 => ⟨S8x2048x96, .f32⟩
  | 68 => ⟨S8x2048x96, .f32⟩
  | 69 => ⟨S8x2048x96, .f32⟩
  | 70 => ⟨S1x1x96x96, .f32⟩
  | 71 => ⟨S96x96, .f32⟩
  | 72 => ⟨S1x1x96x96, .f32⟩
  | 73 => ⟨S96x96, .f32⟩
  | 74 => ⟨S1x1x96x96, .f32⟩
  | 75 => ⟨S96x96, .f32⟩
  | 76 => ⟨S1x1x96x96, .f32⟩
  | 77 => ⟨S96x96, .f32⟩
  | 78 => ⟨S1x1x96x96, .f32⟩
  | 79 => ⟨S96x96, .f32⟩
  | 80 => ⟨S1x1x96x96, .f32⟩
  | 81 => ⟨S96x96, .f32⟩
  | 82 => ⟨S1x1x96, .f32⟩
  | 83 => ⟨S96, .f32⟩
  | 84 => ⟨S1x1x96, .f32⟩
  | 85 => ⟨S96, .f32⟩
  | 86 => ⟨S1x1x96, .f32⟩
  | 87 => ⟨S96, .f32⟩
  | 88 => ⟨S1x1x96, .f32⟩
  | 89 => ⟨S96, .f32⟩
  | 90 => ⟨S1x1x96, .f32⟩
  | 91 => ⟨S96, .f32⟩
  | 92 => ⟨S1x1x96, .f32⟩
  | 93 => ⟨S96, .f32⟩
  | 94 => ⟨S8x2048x96, .f32⟩
  | 95 => ⟨S8x2048x96, .f32⟩
  | 96 => ⟨S1x1x96, .f32⟩
  | 97 => ⟨S8x2048x96, .f32⟩
  | 98 => ⟨S8x2048x96, .f32⟩
  | 99 => ⟨S8x2048x96, .f32⟩
  | 100 => ⟨S8x2048x96, .f32⟩
  | 101 => ⟨S1x1x96, .f32⟩
  | 102 => ⟨S8x2048x96, .f32⟩
  | 103 => ⟨S8x2048x96, .f32⟩
  | 104 => ⟨S8x2048x96, .f32⟩
  | 105 => ⟨S8x2048x96, .f32⟩
  | 106 => ⟨S_, .f32⟩
  | 107 => ⟨S8x2048x96, .f32⟩
  | 108 => ⟨S8x2048x96, .f32⟩
  | 109 => ⟨S_, .f32⟩
  | 110 => ⟨S8x2048x96, .f32⟩
  | 111 => ⟨S8x2048x96, .f32⟩
  | 112 => ⟨S8x2048x96, .f32⟩
  | 113 => ⟨S1x1x96, .f32⟩
  | 114 => ⟨S8x2048x96, .f32⟩
  | 115 => ⟨S8x2048x96, .f32⟩
  | 116 => ⟨S8x2048x96, .f32⟩
  | 117 => ⟨S8x2048x96, .f32⟩
  | 118 => ⟨S1x1x96, .f32⟩
  | 119 => ⟨S8x2048x96, .f32⟩
  | 120 => ⟨S8x2048x96, .f32⟩
  | 121 => ⟨S8x2048x96, .f32⟩
  | 122 => ⟨S8x2048x96, .f32⟩
  | 123 => ⟨S_, .f32⟩
  | 124 => ⟨S8x2048x96, .f32⟩
  | 125 => ⟨S8x2048x96, .f32⟩
  | 126 => ⟨S_, .f32⟩
  | 127 => ⟨S8x2048x96, .f32⟩
  | _ => ⟨S8x2048x300, .f32⟩

abbrev hbmTy0_3 (i : Nat) : BufTy := match i % 128 with
  | 0 => ⟨S8x2048x96, .f32⟩
  | 1 => ⟨S8x2048x96, .f32⟩
  | 2 => ⟨S1x1x96, .f32⟩
  | 3 => ⟨S8x2048x96, .f32⟩
  | 4 => ⟨S8x2048x96, .f32⟩
  | 5 => ⟨S8x2048x96, .f32⟩
  | 6 => ⟨S8x2048x96, .f32⟩
  | 7 => ⟨S8x2048x96, .f32⟩
  | 8 => ⟨S1x1x96, .f32⟩
  | 9 => ⟨S8x2048x96, .f32⟩
  | 10 => ⟨S8x2048x96, .f32⟩
  | 11 => ⟨S8x2048x96, .f32⟩
  | 12 => ⟨S8x2048x96, .f32⟩
  | 13 => ⟨S_, .f32⟩
  | 14 => ⟨S8x2048x96, .f32⟩
  | 15 => ⟨S8x2048x96, .f32⟩
  | 16 => ⟨S8x2048x96, .f32⟩
  | 17 => ⟨S_, .f32⟩
  | 18 => ⟨S8x2048x96, .f32⟩
  | 19 => ⟨S8x2048x96, .f32⟩
  | 20 => ⟨S8x2048x96, .f32⟩
  | 21 => ⟨S8x2048x96, .f32⟩
  | 22 => ⟨S8x2048x96, .f32⟩
  | 23 => ⟨S8x2048x96, .f32⟩
  | 24 => ⟨S1x1x96, .f32⟩
  | 25 => ⟨S8x2048x96, .f32⟩
  | 26 => ⟨S8x2048x96, .f32⟩
  | 27 => ⟨S8x2048x96, .f32⟩
  | 28 => ⟨S8x2048x96, .f32⟩
  | 29 => ⟨S1x1x96, .f32⟩
  | 30 => ⟨S8x2048x96, .f32⟩
  | 31 => ⟨S8x2048x96, .f32⟩
  | 32 => ⟨S8x2048x96, .f32⟩
  | 33 => ⟨S8x2048x96, .f32⟩
  | 34 => ⟨S_, .f32⟩
  | 35 => ⟨S8x2048x96, .f32⟩
  | 36 => ⟨S8x2048x96, .f32⟩
  | 37 => ⟨S_, .f32⟩
  | 38 => ⟨S8x2048x96, .f32⟩
  | 39 => ⟨S8x2048x96, .f32⟩
  | 40 => ⟨S8x2048x96, .f32⟩
  | 41 => ⟨S1x1x96, .f32⟩
  | 42 => ⟨S8x2048x96, .f32⟩
  | 43 => ⟨S8x2048x96, .f32⟩
  | 44 => ⟨S8x2048x96, .f32⟩
  | 45 => ⟨S8x2048x96, .f32⟩
  | 46 => ⟨S1x1x96, .f32⟩
  | 47 => ⟨S8x2048x96, .f32⟩
  | 48 => ⟨S8x2048x96, .f32⟩
  | 49 => ⟨S8x2048x96, .f32⟩
  | 50 => ⟨S8x2048x96, .f32⟩
  | 51 => ⟨S_, .f32⟩
  | 52 => ⟨S8x2048x96, .f32⟩
  | 53 => ⟨S8x2048x96, .f32⟩
  | 54 => ⟨S_, .f32⟩
  | 55 => ⟨S8x2048x96, .f32⟩
  | 56 => ⟨S8x2048x96, .f32⟩
  | 57 => ⟨S8x2048x96, .f32⟩
  | 58 => ⟨S1x1x96, .f32⟩
  | 59 => ⟨S8x2048x96, .f32⟩
  | 60 => ⟨S8x2048x96, .f32⟩
  | 61 => ⟨S8x2048x96, .f32⟩
  | 62 => ⟨S8x2048x96, .f32⟩
  | 63 => ⟨S8x2048x96, .f32⟩
  | 64 => ⟨S1x1x96, .f32⟩
  | 65 => ⟨S8x2048x96, .f32⟩
  | 66 => ⟨S8x2048x96, .f32⟩
  | 67 => ⟨S8x2048x96, .f32⟩
  | 68 => ⟨S8x2048x96, .f32⟩
  | 69 => ⟨S_, .f32⟩
  | 70 => ⟨S8x2048x96, .f32⟩
  | 71 => ⟨S8x2048x96, .f32⟩
  | 72 => ⟨S8x2048x96, .f32⟩
  | 73 => ⟨S_, .f32⟩
  | 74 => ⟨S8x2048x96, .f32⟩
  | 75 => ⟨S8x2048x96, .f32⟩
  | 76 => ⟨S8x2048x96, .f32⟩
  | 77 => ⟨S8x2048x96, .f32⟩
  | 78 => ⟨S1x96x96, .f32⟩
  | 79 => ⟨S96x96, .f32⟩
  | 80 => ⟨S8x2048x96, .f32⟩
  | 81 => ⟨S1x96, .f32⟩
  | 82 => ⟨S96, .f32⟩
  | 83 => ⟨S1x1x96, .f32⟩
  | 84 => ⟨S8x2048x96, .f32⟩
  | 85 => ⟨S8x2048x96, .f32⟩
  | 86 => ⟨S1x96x96, .f32⟩
  | 87 => ⟨S96x96, .f32⟩
  | 88 => ⟨S8x2048x96, .f32⟩
  | 89 => ⟨S1x96, .f32⟩
  | 90 => ⟨S96, .f32⟩
  | 91 => ⟨S1x1x96, .f32⟩
  | 92 => ⟨S8x2048x96, .f32⟩
  | 93 => ⟨S8x2048x96, .f32⟩
  | 94 => ⟨S1x96x96, .f32⟩
  | 95 => ⟨S96x96, .f32⟩
  | 96 => ⟨S8x2048x96, .f32⟩
  | 97 => ⟨S1x96, .f32⟩
  | 98 => ⟨S96, .f32⟩
  | 99 => ⟨S1x1x96, .f32⟩
  | 100 => ⟨S8x2048x96, .f32⟩
  | 101 => ⟨S8x2048x96, .f32⟩
  | 102 => ⟨S8x2048x96, .f32⟩
  | 103 => ⟨S_, .f32⟩
  | 104 => ⟨S_, .f32⟩
  | 105 => ⟨S8x2048x96, .f32⟩
  | 106 => ⟨S8x2048x96, .i1⟩
  | 107 => ⟨S_, .f32⟩
  | 108 => ⟨S8x2048x96, .f32⟩
  | 109 => ⟨S8x2048x96, .f32⟩
  | 110 => ⟨S8x2048x96, .f32⟩
  | 111 => ⟨S8x2048x96, .f32⟩
  | 112 => ⟨S_, .f32⟩
  | 113 => ⟨S_, .f32⟩
  | 114 => ⟨S8x2048x96, .f32⟩
  | 115 => ⟨S8x2048x96, .i1⟩
  | 116 => ⟨S_, .f32⟩
  | 117 => ⟨S8x2048x96, .f32⟩
  | 118 => ⟨S8x2048x96, .f32⟩
  | 119 => ⟨S8x2048x96, .f32⟩
  | 120 => ⟨S8x2048x96, .f32⟩
  | 121 => ⟨S_, .f32⟩
  | 122 => ⟨S_, .f32⟩
  | 123 => ⟨S8x2048x96, .f32⟩
  | 124 => ⟨S8x2048x96, .i1⟩
  | 125 => ⟨S_, .f32⟩
  | 126 => ⟨S8x2048x96, .f32⟩
  | 127 => ⟨S8x2048x96, .f32⟩
  | _ => ⟨S8x2048x300, .f32⟩

abbrev hbmTy0_4 (i : Nat) : BufTy := match i % 128 with
  | 0 => ⟨S8x2048x96, .f32⟩
  | 1 => ⟨S1x96x96, .f32⟩
  | 2 => ⟨S96x96, .f32⟩
  | 3 => ⟨S8x2048x96, .f32⟩
  | 4 => ⟨S1x96, .f32⟩
  | 5 => ⟨S96, .f32⟩
  | 6 => ⟨S1x1x96, .f32⟩
  | 7 => ⟨S8x2048x96, .f32⟩
  | 8 => ⟨S8x2048x96, .f32⟩
  | 9 => ⟨S1x96x96, .f32⟩
  | 10 => ⟨S96x96, .f32⟩
  | 11 => ⟨S8x2048x96, .f32⟩
  | 12 => ⟨S8x2048x96, .f32⟩
  | 13 => ⟨S1x96, .f32⟩
  | 14 => ⟨S96, .f32⟩
  | 15 => ⟨S1x1x96, .f32⟩
  | 16 => ⟨S8x2048x96, .f32⟩
  | 17 => ⟨S8x2048x96, .f32⟩
  | 18 => ⟨S1x96x96, .f32⟩
  | 19 => ⟨S96x96, .f32⟩
  | 20 => ⟨S8x2048x96, .f32⟩
  | 21 => ⟨S8x2048x96, .f32⟩
  | 22 => ⟨S1x96, .f32⟩
  | 23 => ⟨S96, .f32⟩
  | 24 => ⟨S1x1x96, .f32⟩
  | 25 => ⟨S8x2048x96, .f32⟩
  | 26 => ⟨S8x2048x96, .f32⟩
  | _ => ⟨S8x2048x300, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2048x300, .f32⟩

abbrev bufTy : (tb : Table) → Fin (tcTables nBuf tb) → BufTy
  | .hbm, ⟨i, _⟩ => hbmTy i
  | _, _ => ⟨S8x2048x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst : Ref sig .tc := ⟨.hbm, 64, rfl⟩
abbrev main_v47 : Ref sig .tc := ⟨.hbm, 65, rfl⟩
abbrev main_v48 : Ref sig .tc := ⟨.hbm, 66, rfl⟩
abbrev main_cst_0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_1 : Ref sig .tc := ⟨.hbm, 81, rfl⟩
abbrev main_v62 : Ref sig .tc := ⟨.hbm, 82, rfl⟩
abbrev main_v63 : Ref sig .tc := ⟨.hbm, 83, rfl⟩
abbrev main_cst_2 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_call1_cst : Ref sig .tc := ⟨.hbm, 99, rfl⟩
abbrev main_call1_v0 : Ref sig .tc := ⟨.hbm, 100, rfl⟩
abbrev main_v78 : Ref sig .tc := ⟨.hbm, 101, rfl⟩
abbrev main_v79 : Ref sig .tc := ⟨.hbm, 102, rfl⟩
abbrev main_cst_3 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_4 : Ref sig .tc := ⟨.hbm, 120, rfl⟩
abbrev main_v96 : Ref sig .tc := ⟨.hbm, 121, rfl⟩
abbrev main_v97 : Ref sig .tc := ⟨.hbm, 122, rfl⟩
abbrev main_cst_5 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_6 : Ref sig .tc := ⟨.hbm, 137, rfl⟩
abbrev main_v111 : Ref sig .tc := ⟨.hbm, 138, rfl⟩
abbrev main_v112 : Ref sig .tc := ⟨.hbm, 139, rfl⟩
abbrev main_cst_7 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_call2_cst : Ref sig .tc := ⟨.hbm, 155, rfl⟩
abbrev main_call2_v0 : Ref sig .tc := ⟨.hbm, 156, rfl⟩
abbrev main_v127 : Ref sig .tc := ⟨.hbm, 157, rfl⟩
abbrev main_v128 : Ref sig .tc := ⟨.hbm, 158, rfl⟩
abbrev main_cst_8 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_call3_cst : Ref sig .tc := ⟨.hbm, 172, rfl⟩
abbrev main_call3_v0 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_cst_9 : Ref sig .tc := ⟨.hbm, 213, rfl⟩
abbrev main_v180 : Ref sig .tc := ⟨.hbm, 214, rfl⟩
abbrev main_v181 : Ref sig .tc := ⟨.hbm, 215, rfl⟩
abbrev main_cst_10 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_cst_11 : Ref sig .tc := ⟨.hbm, 230, rfl⟩
abbrev main_v195 : Ref sig .tc := ⟨.hbm, 231, rfl⟩
abbrev main_v196 : Ref sig .tc := ⟨.hbm, 232, rfl⟩
abbrev main_cst_12 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_call4_cst : Ref sig .tc := ⟨.hbm, 248, rfl⟩
abbrev main_call4_v0 : Ref sig .tc := ⟨.hbm, 249, rfl⟩
abbrev main_v211 : Ref sig .tc := ⟨.hbm, 250, rfl⟩
abbrev main_v212 : Ref sig .tc := ⟨.hbm, 251, rfl⟩
abbrev main_cst_13 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_cst_14 : Ref sig .tc := ⟨.hbm, 269, rfl⟩
abbrev main_v229 : Ref sig .tc := ⟨.hbm, 270, rfl⟩
abbrev main_v230 : Ref sig .tc := ⟨.hbm, 271, rfl⟩
abbrev main_cst_15 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_cst_16 : Ref sig .tc := ⟨.hbm, 286, rfl⟩
abbrev main_v244 : Ref sig .tc := ⟨.hbm, 287, rfl⟩
abbrev main_v245 : Ref sig .tc := ⟨.hbm, 288, rfl⟩
abbrev main_cst_17 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_call5_cst : Ref sig .tc := ⟨.hbm, 304, rfl⟩
abbrev main_call5_v0 : Ref sig .tc := ⟨.hbm, 305, rfl⟩
abbrev main_v260 : Ref sig .tc := ⟨.hbm, 306, rfl⟩
abbrev main_v261 : Ref sig .tc := ⟨.hbm, 307, rfl⟩
abbrev main_cst_18 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_call6_cst : Ref sig .tc := ⟨.hbm, 321, rfl⟩
abbrev main_call6_v0 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_cst_19 : Ref sig .tc := ⟨.hbm, 362, rfl⟩
abbrev main_v313 : Ref sig .tc := ⟨.hbm, 363, rfl⟩
abbrev main_v314 : Ref sig .tc := ⟨.hbm, 364, rfl⟩
abbrev main_cst_20 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_cst_21 : Ref sig .tc := ⟨.hbm, 379, rfl⟩
abbrev main_v328 : Ref sig .tc := ⟨.hbm, 380, rfl⟩
abbrev main_v329 : Ref sig .tc := ⟨.hbm, 381, rfl⟩
abbrev main_cst_22 : Ref sig .tc := ⟨.hbm, 382, rfl⟩
abbrev main_v330 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_call7_cst : Ref sig .tc := ⟨.hbm, 397, rfl⟩
abbrev main_call7_v0 : Ref sig .tc := ⟨.hbm, 398, rfl⟩
abbrev main_v344 : Ref sig .tc := ⟨.hbm, 399, rfl⟩
abbrev main_v345 : Ref sig .tc := ⟨.hbm, 400, rfl⟩
abbrev main_cst_23 : Ref sig .tc := ⟨.hbm, 401, rfl⟩
abbrev main_v346 : Ref sig .tc := ⟨.hbm, 402, rfl⟩
abbrev main_v347 : Ref sig .tc := ⟨.hbm, 403, rfl⟩
abbrev main_v348 : Ref sig .tc := ⟨.hbm, 404, rfl⟩
abbrev main_v349 : Ref sig .tc := ⟨.hbm, 405, rfl⟩
abbrev main_v350 : Ref sig .tc := ⟨.hbm, 406, rfl⟩
abbrev main_v351 : Ref sig .tc := ⟨.hbm, 407, rfl⟩
abbrev main_v352 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_cst_24 : Ref sig .tc := ⟨.hbm, 418, rfl⟩
abbrev main_v362 : Ref sig .tc := ⟨.hbm, 419, rfl⟩
abbrev main_v363 : Ref sig .tc := ⟨.hbm, 420, rfl⟩
abbrev main_cst_25 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_v372 : Ref sig .tc := ⟨.hbm, 430, rfl⟩
abbrev main_v373 : Ref sig .tc := ⟨.hbm, 431, rfl⟩
abbrev main_v374 : Ref sig .tc := ⟨.hbm, 432, rfl⟩
abbrev main_v375 : Ref sig .tc := ⟨.hbm, 433, rfl⟩
abbrev main_v376 : Ref sig .tc := ⟨.hbm, 434, rfl⟩
abbrev main_cst_26 : Ref sig .tc := ⟨.hbm, 435, rfl⟩
abbrev main_v377 : Ref sig .tc := ⟨.hbm, 436, rfl⟩
abbrev main_v378 : Ref sig .tc := ⟨.hbm, 437, rfl⟩
abbrev main_cst_27 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_call8_cst : Ref sig .tc := ⟨.hbm, 453, rfl⟩
abbrev main_call8_v0 : Ref sig .tc := ⟨.hbm, 454, rfl⟩
abbrev main_v393 : Ref sig .tc := ⟨.hbm, 455, rfl⟩
abbrev main_v394 : Ref sig .tc := ⟨.hbm, 456, rfl⟩
abbrev main_cst_28 : Ref sig .tc := ⟨.hbm, 457, rfl⟩
abbrev main_v395 : Ref sig .tc := ⟨.hbm, 458, rfl⟩
abbrev main_v396 : Ref sig .tc := ⟨.hbm, 459, rfl⟩
abbrev main_v397 : Ref sig .tc := ⟨.hbm, 460, rfl⟩
abbrev main_v398 : Ref sig .tc := ⟨.hbm, 461, rfl⟩
abbrev main_v399 : Ref sig .tc := ⟨.hbm, 462, rfl⟩
abbrev main_v400 : Ref sig .tc := ⟨.hbm, 463, rfl⟩
abbrev main_v401 : Ref sig .tc := ⟨.hbm, 464, rfl⟩
abbrev main_v402 : Ref sig .tc := ⟨.hbm, 465, rfl⟩
abbrev main_v403 : Ref sig .tc := ⟨.hbm, 466, rfl⟩
abbrev main_v404 : Ref sig .tc := ⟨.hbm, 467, rfl⟩
abbrev main_v405 : Ref sig .tc := ⟨.hbm, 468, rfl⟩
abbrev main_v406 : Ref sig .tc := ⟨.hbm, 469, rfl⟩
abbrev main_v407 : Ref sig .tc := ⟨.hbm, 470, rfl⟩
abbrev main_v408 : Ref sig .tc := ⟨.hbm, 471, rfl⟩
abbrev main_v409 : Ref sig .tc := ⟨.hbm, 472, rfl⟩
abbrev main_v410 : Ref sig .tc := ⟨.hbm, 473, rfl⟩
abbrev main_v411 : Ref sig .tc := ⟨.hbm, 474, rfl⟩
abbrev main_v412 : Ref sig .tc := ⟨.hbm, 475, rfl⟩
abbrev main_v413 : Ref sig .tc := ⟨.hbm, 476, rfl⟩
abbrev main_v414 : Ref sig .tc := ⟨.hbm, 477, rfl⟩
abbrev main_v415 : Ref sig .tc := ⟨.hbm, 478, rfl⟩
abbrev main_v416 : Ref sig .tc := ⟨.hbm, 479, rfl⟩
abbrev main_v417 : Ref sig .tc := ⟨.hbm, 480, rfl⟩
abbrev main_v418 : Ref sig .tc := ⟨.hbm, 481, rfl⟩
abbrev main_v419 : Ref sig .tc := ⟨.hbm, 482, rfl⟩
abbrev main_v420 : Ref sig .tc := ⟨.hbm, 483, rfl⟩
abbrev main_v421 : Ref sig .tc := ⟨.hbm, 484, rfl⟩
abbrev main_v422 : Ref sig .tc := ⟨.hbm, 485, rfl⟩
abbrev main_v423 : Ref sig .tc := ⟨.hbm, 486, rfl⟩
abbrev main_cst_29 : Ref sig .tc := ⟨.hbm, 487, rfl⟩
abbrev main_call9_cst : Ref sig .tc := ⟨.hbm, 488, rfl⟩
abbrev main_call9_v0 : Ref sig .tc := ⟨.hbm, 489, rfl⟩
abbrev main_call9_v1 : Ref sig .tc := ⟨.hbm, 490, rfl⟩
abbrev main_call9_v2 : Ref sig .tc := ⟨.hbm, 491, rfl⟩
abbrev main_call9_v3 : Ref sig .tc := ⟨.hbm, 492, rfl⟩
abbrev main_call9_v4 : Ref sig .tc := ⟨.hbm, 493, rfl⟩
abbrev main_v424 : Ref sig .tc := ⟨.hbm, 494, rfl⟩
abbrev main_v425 : Ref sig .tc := ⟨.hbm, 495, rfl⟩
abbrev main_cst_30 : Ref sig .tc := ⟨.hbm, 496, rfl⟩
abbrev main_call10_cst : Ref sig .tc := ⟨.hbm, 497, rfl⟩
abbrev main_call10_v0 : Ref sig .tc := ⟨.hbm, 498, rfl⟩
abbrev main_call10_v1 : Ref sig .tc := ⟨.hbm, 499, rfl⟩
abbrev main_call10_v2 : Ref sig .tc := ⟨.hbm, 500, rfl⟩
abbrev main_call10_v3 : Ref sig .tc := ⟨.hbm, 501, rfl⟩
abbrev main_call10_v4 : Ref sig .tc := ⟨.hbm, 502, rfl⟩
abbrev main_v426 : Ref sig .tc := ⟨.hbm, 503, rfl⟩
abbrev main_v427 : Ref sig .tc := ⟨.hbm, 504, rfl⟩
abbrev main_cst_31 : Ref sig .tc := ⟨.hbm, 505, rfl⟩
abbrev main_call11_cst : Ref sig .tc := ⟨.hbm, 506, rfl⟩
abbrev main_call11_v0 : Ref sig .tc := ⟨.hbm, 507, rfl⟩
abbrev main_call11_v1 : Ref sig .tc := ⟨.hbm, 508, rfl⟩
abbrev main_call11_v2 : Ref sig .tc := ⟨.hbm, 509, rfl⟩
abbrev main_call11_v3 : Ref sig .tc := ⟨.hbm, 510, rfl⟩
abbrev main_call11_v4 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_v431 : Ref sig .tc := ⟨.hbm, 515, rfl⟩
abbrev main_v432 : Ref sig .tc := ⟨.hbm, 516, rfl⟩
abbrev main_v433 : Ref sig .tc := ⟨.hbm, 517, rfl⟩
abbrev main_v434 : Ref sig .tc := ⟨.hbm, 518, rfl⟩
abbrev main_v435 : Ref sig .tc := ⟨.hbm, 519, rfl⟩
abbrev main_v436 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_v440 : Ref sig .tc := ⟨.hbm, 524, rfl⟩
abbrev main_v441 : Ref sig .tc := ⟨.hbm, 525, rfl⟩
abbrev main_v442 : Ref sig .tc := ⟨.hbm, 526, rfl⟩
abbrev main_v443 : Ref sig .tc := ⟨.hbm, 527, rfl⟩
abbrev main_v444 : Ref sig .tc := ⟨.hbm, 528, rfl⟩
abbrev main_v445 : Ref sig .tc := ⟨.hbm, 529, rfl⟩
abbrev main_v446 : Ref sig .tc := ⟨.hbm, 530, rfl⟩
abbrev main_v447 : Ref sig .tc := ⟨.hbm, 531, rfl⟩
abbrev main_v448 : Ref sig .tc := ⟨.hbm, 532, rfl⟩
abbrev main_v449 : Ref sig .tc := ⟨.hbm, 533, rfl⟩
abbrev main_v450 : Ref sig .tc := ⟨.hbm, 534, rfl⟩
abbrev main_v451 : Ref sig .tc := ⟨.hbm, 535, rfl⟩
abbrev main_v452 : Ref sig .tc := ⟨.hbm, 536, rfl⟩
abbrev main_v453 : Ref sig .tc := ⟨.hbm, 537, rfl⟩
abbrev main_v454 : Ref sig .tc := ⟨.hbm, 538, rfl⟩

abbrev nD : Nat := 1
abbrev τ : Topo := Topo.v7x

variable {F : FTy → Type} [FloatOps F]

class Facts₀ : Prop where
  slices_S3x300x96_S1x300x96_0_0_0 : S3x300x96.Slices ![0, 0, 0] S1x300x96
  shapeCasts_S1x300x96_S300x96 : S1x300x96.ShapeCasts S300x96
  slices_S3x96_S1x96_0_0 : S3x96.Slices ![0, 0] S1x96
  shapeCasts_S1x96_S96 : S1x96.ShapeCasts S96
  bcast_S96_S1x1x96_2 : S96.BroadcastsInDim S1x1x96 (![2] : Fin 1 → Fin S1x1x96.rank)
  bcast_S1x1x96_S8x2048x96_0_1_2 : S1x1x96.BroadcastsInDim S8x2048x96 (![0, 1, 2] : Fin 3 → Fin S8x2048x96.rank)
  bcast_S_S8x2048x96 : S_.BroadcastsInDim S8x2048x96 (![] : Fin 0 → Fin S8x2048x96.rank)
  bcast_S8x2048x1_S8x2048x96_0_1_2 : S8x2048x1.BroadcastsInDim S8x2048x96 (![0, 1, 2] : Fin 3 → Fin S8x2048x96.rank)
  slices_S3x6x96x96_S1x1x96x96_0_0_0_0 : S3x6x96x96.Slices ![0, 0, 0, 0] S1x1x96x96
  shapeCasts_S1x1x96x96_S96x96 : S1x1x96x96.ShapeCasts S96x96
  slices_S3x6x96x96_S1x1x96x96_0_1_0_0 : S3x6x96x96.Slices ![0, 1, 0, 0] S1x1x96x96
  slices_S3x6x96x96_S1x1x96x96_0_2_0_0 : S3x6x96x96.Slices ![0, 2, 0, 0] S1x1x96x96
  slices_S3x6x96x96_S1x1x96x96_0_3_0_0 : S3x6x96x96.Slices ![0, 3, 0, 0] S1x1x96x96
  slices_S3x6x96x96_S1x1x96x96_0_4_0_0 : S3x6x96x96.Slices ![0, 4, 0, 0] S1x1x96x96
  slices_S3x6x96x96_S1x1x96x96_0_5_0_0 : S3x6x96x96.Slices ![0, 5, 0, 0] S1x1x96x96
  slices_S3x6x96_S1x1x96_0_0_0 : S3x6x96.Slices ![0, 0, 0] S1x1x96
  shapeCasts_S1x1x96_S96 : S1x1x96.ShapeCasts S96
  slices_S3x6x96_S1x1x96_0_1_0 : S3x6x96.Slices ![0, 1, 0] S1x1x96
  slices_S3x6x96_S1x1x96_0_2_0 : S3x6x96.Slices ![0, 2, 0] S1x1x96
  slices_S3x6x96_S1x1x96_0_3_0 : S3x6x96.Slices ![0, 3, 0] S1x1x96
  slices_S3x6x96_S1x1x96_0_4_0 : S3x6x96.Slices ![0, 4, 0] S1x1x96
  slices_S3x6x96_S1x1x96_0_5_0 : S3x6x96.Slices ![0, 5, 0] S1x1x96
  slices_S3x300x96_S1x300x96_1_0_0 : S3x300x96.Slices ![1, 0, 0] S1x300x96
  slices_S3x96_S1x96_1_0 : S3x96.Slices ![1, 0] S1x96
  slices_S3x6x96x96_S1x1x96x96_1_0_0_0 : S3x6x96x96.Slices ![1, 0, 0, 0] S1x1x96x96
  slices_S3x6x96x96_S1x1x96x96_1_1_0_0 : S3x6x96x96.Slices ![1, 1, 0, 0] S1x1x96x96
  slices_S3x6x96x96_S1x1x96x96_1_2_0_0 : S3x6x96x96.Slices ![1, 2, 0, 0] S1x1x96x96
  slices_S3x6x96x96_S1x1x96x96_1_3_0_0 : S3x6x96x96.Slices ![1, 3, 0, 0] S1x1x96x96
  slices_S3x6x96x96_S1x1x96x96_1_4_0_0 : S3x6x96x96.Slices ![1, 4, 0, 0] S1x1x96x96
  slices_S3x6x96x96_S1x1x96x96_1_5_0_0 : S3x6x96x96.Slices ![1, 5, 0, 0] S1x1x96x96
  slices_S3x6x96_S1x1x96_1_0_0 : S3x6x96.Slices ![1, 0, 0] S1x1x96
  slices_S3x6x96_S1x1x96_1_1_0 : S3x6x96.Slices ![1, 1, 0] S1x1x96
  slices_S3x6x96_S1x1x96_1_2_0 : S3x6x96.Slices ![1, 2, 0] S1x1x96
  slices_S3x6x96_S1x1x96_1_3_0 : S3x6x96.Slices ![1, 3, 0] S1x1x96
  slices_S3x6x96_S1x1x96_1_4_0 : S3x6x96.Slices ![1, 4, 0] S1x1x96
  slices_S3x6x96_S1x1x96_1_5_0 : S3x6x96.Slices ![1, 5, 0] S1x1x96
  slices_S3x300x96_S1x300x96_2_0_0 : S3x300x96.Slices ![2, 0, 0] S1x300x96
  slices_S3x96_S1x96_2_0 : S3x96.Slices ![2, 0] S1x96
  slices_S3x6x96x96_S1x1x96x96_2_0_0_0 : S3x6x96x96.Slices ![2, 0, 0, 0] S1x1x96x96
  slices_S3x6x96x96_S1x1x96x96_2_1_0_0 : S3x6x96x96.Slices ![2, 1, 0, 0] S1x1x96x96
  slices_S3x6x96x96_S1x1x96x96_2_2_0_0 : S3x6x96x96.Slices ![2, 2, 0, 0] S1x1x96x96
  slices_S3x6x96x96_S1x1x96x96_2_3_0_0 : S3x6x96x96.Slices ![2, 3, 0, 0] S1x1x96x96
  slices_S3x6x96x96_S1x1x96x96_2_4_0_0 : S3x6x96x96.Slices ![2, 4, 0, 0] S1x1x96x96
  slices_S3x6x96x96_S1x1x96x96_2_5_0_0 : S3x6x96x96.Slices ![2, 5, 0, 0] S1x1x96x96
  slices_S3x6x96_S1x1x96_2_0_0 : S3x6x96.Slices ![2, 0, 0] S1x1x96
  slices_S3x6x96_S1x1x96_2_1_0 : S3x6x96.Slices ![2, 1, 0] S1x1x96
  slices_S3x6x96_S1x1x96_2_2_0 : S3x6x96.Slices ![2, 2, 0] S1x1x96
  slices_S3x6x96_S1x1x96_2_3_0 : S3x6x96.Slices ![2, 3, 0] S1x1x96
  slices_S3x6x96_S1x1x96_2_4_0 : S3x6x96.Slices ![2, 4, 0] S1x1x96
  slices_S3x6x96_S1x1x96_2_5_0 : S3x6x96.Slices ![2, 5, 0] S1x1x96
  slices_S3x96x96_S1x96x96_0_0_0 : S3x96x96.Slices ![0, 0, 0] S1x96x96
  shapeCasts_S1x96x96_S96x96 : S1x96x96.ShapeCasts S96x96
  slices_S3x96x96_S1x96x96_1_0_0 : S3x96x96.Slices ![1, 0, 0] S1x96x96
  slices_S3x96x96_S1x96x96_2_0_0 : S3x96x96.Slices ![2, 0, 0] S1x96x96
  dot_S8x2048x300_S300x96_S8x2048x96_2_0_01_1_n_n_wf : DotDims.WF S8x2048x300 S300x96 S8x2048x96 [2] [0] [0, 1] [1] [] []
  dot_S8x2048x2048_S8x2048x96_S8x2048x96_2_1_1_2_0_0_wf : DotDims.WF S8x2048x2048 S8x2048x96 S8x2048x96 [2] [1] [1] [2] [0] [0]
  dot_S8x2048x96_S96x96_S8x2048x96_2_0_01_1_n_n_wf : DotDims.WF S8x2048x96 S96x96 S8x2048x96 [2] [0] [0, 1] [1] [] []

variable [Facts₀]

def dot_S8x2048x300_S300x96_S8x2048x96_2_0_01_1_n_n : DotDims S8x2048x300 S300x96 S8x2048x96 where
  lhsContracting := [2]
  rhsContracting := [0]
  lhsNonContracting := [0, 1]
  rhsNonContracting := [1]
  lhsBatch := []
  rhsBatch := []
  wf := dot_S8x2048x300_S300x96_S8x2048x96_2_0_01_1_n_n_wf
def dot_S8x2048x2048_S8x2048x96_S8x2048x96_2_1_1_2_0_0 : DotDims S8x2048x2048 S8x2048x96 S8x2048x96 where
  lhsContracting := [2]
  rhsContracting := [1]
  lhsNonContracting := [1]
  rhsNonContracting := [2]
  lhsBatch := [0]
  rhsBatch := [0]
  wf := dot_S8x2048x2048_S8x2048x96_S8x2048x96_2_1_1_2_0_0_wf
def dot_S8x2048x96_S96x96_S8x2048x96_2_0_01_1_n_n : DotDims S8x2048x96 S96x96 S8x2048x96 where
  lhsContracting := [2]
  rhsContracting := [0]
  lhsNonContracting := [0, 1]
  rhsNonContracting := [1]
  lhsBatch := []
  rhsBatch := []
  wf := dot_S8x2048x96_S96x96_S8x2048x96_2_0_01_1_n_n_wf

class Facts : Prop extends Facts₀ where

variable [Facts]
-- ==== Proof.Spec.lean ====
/-
  The function both programs compute, on the extended reals, index by index.

  Three branches i = 0, 1, 2 share the node features x : [8, 2048, 300] and differ in adjacency, mask and weights.
  Every batch entry is treated alone, so the functions below are stated for ONE batch entry (2048 nodes) and the
  arrays are cut into their 8 slabs at the end.  Branch i encodes the features,
  h = mask · max(x · W_enc[i] + b_enc[i], 0), and then applies twice the gated propagation step

      a  = adj · h                                   (a product over the 2048 nodes of the batch entry)
      z  = σ(((a · W₀ + b₀) + h · W₁) + b₁)
      r  = σ(((a · W₂ + b₂) + h · W₃) + b₃)
      h̃  = max(mask · (((a · W₄ + b₄) + (r ∘ h) · W₅) + b₅), 0)
      h' = h̃ ∘ z + h ∘ (1 − z)

  with σ(t) = 1 / (1 + e^(−t)) and the six 96 × 96 matrices W₀ … W₅ and rows b₀ … b₅ of the branch.  The three
  branch results s₀, s₁, s₂ are mixed by tᵢ = sᵢ · W_ii[i] + b_ii[i], a₀ = ℓ(t₀ + t₁), a₁ = ℓ(t₁ + t₂),
  a₂ = ℓ(t₂ + t₀) with ℓ(v) = v where v ≥ 0 and 0.2 · v elsewhere, and the result is
  ((((a₀ · W_att[0] + b_att[0]) + a₁ · W_att[1]) + b_att[1]) + a₂ · W_att[2]) + b_att[2].

  Every sum is a finite sum of products on the extended reals, taken in the order written here; the constants
  0, 1 and 0.2 are kept as the binary words both programs print, so no numeral is ever evaluated.
-/
import Idealize.ShloMosaic.PureOps.Ideal
import Idealize.ShloMosaic.Lib.ValueIdx

noncomputable section

namespace Cert.Spec

open Idealize.ShloMosaic Idealize.ShloMosaic.ValueIdx

/-- An array of extended reals of rank 2, 3, 4 with the given extents. -/
abbrev A2 (a b : Nat) := (⟨2, ![a, b]⟩ : Shape).Idx → EReal
abbrev A3 (a b c : Nat) := (⟨3, ![a, b, c]⟩ : Shape).Idx → EReal
abbrev A4 (a b c d : Nat) := (⟨4, ![a, b, c, d]⟩ : Shape).Idx → EReal

/-- A matrix of extended reals; a matrix with 2048 rows and 96 columns is one batch entry's activations (node, channel). -/
abbrev Mat (n c : Nat) := Fin n → Fin c → EReal

/-- The words 0.0, 1.0 and 0.2 of both programs, as the extended reals they denote. -/
def zero : EReal := Ideal.ofBits .f32 0x00000000#32
def one : EReal := Ideal.ofBits .f32 0x3F800000#32
def slope : EReal := Ideal.ofBits .f32 0x3E4CCCCD#32

/-- The positive part. -/
def relu (v : EReal) : EReal := max v zero
/-- The logistic function 1 / (1 + e^(−t)). -/
def sigm (t : EReal) : EReal := Ideal.logistic t
/-- v where v ≥ 0, and 0.2 · v elsewhere. -/
def lrelu (v : EReal) : EReal := Scalar.select (FloatOps.cmpf (F := Ideal) (φ := .f32) .oge v zero) v (slope * v)

/-! ## One batch entry -/

/-- A matrix product, the sum over the inner index in its natural order. -/
def mm {n k c : Nat} (a : Mat n k) (W : Mat k c) : Mat n c := fun p j => ∑ q : Fin k, a p q * W q j

/-- The encoding mask · max(x · W + bias, 0). -/
def encB (x : Mat 2048 300) (mask : Fin 2048 → EReal) (W : Mat 300 96) (bias : Fin 96 → EReal) : Mat 2048 96 :=
  fun n j => mask n * relu (mm x W n j + bias j)

/-- A gate σ(((a · W0 + b0) + h · W1) + b1). -/
def gateB (W0 W1 : Mat 96 96) (b0 b1 : Fin 96 → EReal) (a h : Mat 2048 96) : Mat 2048 96 :=
  fun n j => sigm (((mm a W0 n j + b0 j) + mm h W1 n j) + b1 j)

/-- The candidate state max(mask · (((a · W4 + b4) + (r ∘ h) · W5) + b5), 0). -/
def candB (mask : Fin 2048 → EReal) (W4 W5 : Mat 96 96) (b4 b5 : Fin 96 → EReal) (a r h : Mat 2048 96) : Mat 2048 96 :=
  fun n j => relu (mask n * (((mm a W4 n j + b4 j) + mm (fun n k => r n k * h n k) W5 n j) + b5 j))

/-- One gated propagation step: h̃ ∘ z + h ∘ (1 − z) with a = adj · h. -/
def stepB (adj : Mat 2048 2048) (mask : Fin 2048 → EReal) (W : Fin 6 → Mat 96 96) (bs : Fin 6 → Fin 96 → EReal)
    (h : Mat 2048 96) : Mat 2048 96 :=
  fun n j =>
    candB mask (W 4) (W 5) (bs 4) (bs 5) (mm adj h) (gateB (W 2) (W 3) (bs 2) (bs 3) (mm adj h) h) h n j
        * gateB (W 0) (W 1) (bs 0) (bs 1) (mm adj h) h n j
      + h n j * (one - gateB (W 0) (W 1) (bs 0) (bs 1) (mm adj h) h n j)

/-- Two steps from the state h. -/
def gruB (adj : Mat 2048 2048) (mask : Fin 2048 → EReal) (W : Fin 6 → Mat 96 96) (bs : Fin 6 → Fin 96 → EReal)
    (h : Mat 2048 96) : Mat 2048 96 :=
  stepB adj mask W bs (stepB adj mask W bs h)

/-- t = s · W + bias. -/
def interB (s : Mat 2048 96) (W : Mat 96 96) (bias : Fin 96 → EReal) : Mat 2048 96 := fun n j => mm s W n j + bias j

/-- The mixing of the three branch results. -/
def fuseB (s0 s1 s2 : Mat 2048 96) (Wii : Fin 3 → Mat 96 96) (bii : Fin 3 → Fin 96 → EReal)
    (Wa : Fin 3 → Mat 96 96) (ba : Fin 3 → Fin 96 → EReal) : Mat 2048 96 :=
  fun n j =>
    ((((mm (fun n k => lrelu (interB s0 (Wii 0) (bii 0) n k + interB s1 (Wii 1) (bii 1) n k)) (Wa 0) n j + ba 0 j)
        + mm (fun n k => lrelu (interB s1 (Wii 1) (bii 1) n k + interB s2 (Wii 2) (bii 2) n k)) (Wa 1) n j) + ba 1 j)
        + mm (fun n k => lrelu (interB s2 (Wii 2) (bii 2) n k + interB s0 (Wii 0) (bii 0) n k)) (Wa 2) n j) + ba 2 j

/-! ## The arrays cut into slabs, rows and matrices -/

/-- Slab b of a rank-3 array as a matrix. -/
def slab {B n c : Nat} (x : A3 B n c) (b : Fin B) : Mat n c := fun p q => x (ix3 b p q)
/-- Slab b of a mask [B, n, 1] as a column. -/
def col {B n : Nat} (x : A3 B n 1) (b : Fin B) : Fin n → EReal := fun p => x (ix3 b p 0)
/-- Row i of a rank-2 array. -/
def row {R c : Nat} (x : A2 R c) (i : Fin R) : Fin c → EReal := fun q => x (ix2 i q)
/-- A matrix per batch entry as an array [8, 2048, 96]. -/
def toArr (h : Fin 8 → Mat 2048 96) : A3 8 2048 96 := fun y => h (y 0) (y 1) (y 2)

theorem toArr_slab (s : A3 8 2048 96) : toArr (slab s) = s := by
  funext y; exact congrArg s (eq_ix3 y).symm

theorem slab_toArr (h : Fin 8 → Mat 2048 96) (b : Fin 8) : slab (toArr h) b = h b := rfl

/-! ## The whole function -/

/-- The encoding of branch i, every batch entry. -/
def enc (x : A3 8 2048 300) (mask : A3 8 2048 1) (We : A3 3 300 96) (be : A2 3 96) (i : Fin 3) : A3 8 2048 96 :=
  toArr fun b => encB (slab x b) (col mask b) (slab We i) (row be i)

/-- Two steps of a branch from the state array h, given the branch's six matrices [6, 96, 96] and rows [6, 96]. -/
def gru (h : A3 8 2048 96) (adj : A3 8 2048 2048) (mask : A3 8 2048 1) (W6 : A3 6 96 96) (b6 : A2 6 96) : A3 8 2048 96 :=
  toArr fun b => gruB (slab adj b) (col mask b) (slab W6) (row b6) (slab h b)

/-- The mixing, every batch entry. -/
def fuse (s0 s1 s2 : A3 8 2048 96) (Wii : A3 3 96 96) (bii : A2 3 96) (Wa : A3 3 96 96) (ba : A2 3 96) : A3 8 2048 96 :=
  toArr fun b => fuseB (slab s0 b) (slab s1 b) (slab s2 b) (slab Wii) (row bii) (slab Wa) (row ba)

/-- Branch i of the stacked step weights as the arrays [6, 96, 96] and [6, 96] a step takes. -/
def pick6 (Wg : A4 3 6 96 96) (i : Fin 3) : A3 6 96 96 := fun y => Wg (ix4 i (y 0) (y 1) (y 2))
def pickB6 (bg : A3 3 6 96) (i : Fin 3) : A2 6 96 := fun y => bg (ix3 i (y 0) (y 1))

/-- Branch i: encode, then two steps. -/
def branch (x : A3 8 2048 300) (adj : A3 8 2048 2048) (mask : A3 8 2048 1) (We : A3 3 300 96) (be : A2 3 96)
    (Wg : A4 3 6 96 96) (bg : A3 3 6 96) (i : Fin 3) : A3 8 2048 96 :=
  gru (enc x mask We be i) adj mask (pick6 Wg i) (pickB6 bg i)

/-- The result array of the fifteen argument arrays. -/
def out (x : A3 8 2048 300) (adj0 adj1 adj2 : A3 8 2048 2048) (m0 m1 m2 : A3 8 2048 1) (We : A3 3 300 96) (be : A2 3 96)
    (Wii : A3 3 96 96) (bii : A2 3 96) (Wg : A4 3 6 96 96) (bg : A3 3 6 96) (Wa : A3 3 96 96) (ba : A2 3 96) : A3 8 2048 96 :=
  fuse (branch x adj0 m0 We be Wg bg 0) (branch x adj1 m1 We be Wg bg 1) (branch x adj2 m2 We be Wg bg 2) Wii bii Wa ba

end Cert.Spec

end
-- ==== Proof.K.RunValue.lean ====
/-
  The idealized kernel program's run with its result named: every weakly fair execution of @main terminates,
  nothing faulting, the argument arrays end as launched, and the result array ends at the contents the last
  region's write-backs leave (the last boundary of the fold through @main's eight segments).
-/
import proofs.«106044_j70463233458716_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the eight segments, the last thread state read against the final state: the result buffer is
    an unscoped buffer, so it holds the last boundary's contents; each argument walks back to the launch memory. -/
theorem run_value : θ_run defs (onTc (τ := τ) (main (F := F))) ⟨m, fun _ => 0, ρ⟩ (fun r => ∀ c : Dev nD,
      r.2.mem ((c.tc : Thread nD τ).loc main_v16) = W8 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v16 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Val

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.LibKeepdims.lean ====
/-
  Two layout operations read at an index given by coordinates: the "keepdims" column forms.

  A reduction along the lanes of an [a, b] array that keeps the reduced axis as a unit axis is, in vector
  operations, a reduction to [a], a shape cast of the [a] result to the column [a, 1], and a broadcast of the
  column [a, 1] back over the lanes to [a, b].  The cast does not move data: in row-major order entry (i, 0) of
  the column is entry i of the vector.  The broadcast repeats a row's one entry along the row: entry (p, c) of
  the result is entry (p, 0) of the column.  Both are stated for any element type and any extents.
-/
import Idealize.ShloMosaic.Lib.ValueIdx
import Idealize.ShloMosaic.Lib.Pipeline.Value

namespace Cert.Lib.Keepdims

open Idealize.ShloMosaic Idealize.ShloMosaic.ValueIdx

variable {α : Type}

/-- An \`[a]\` array cast to the column \`[a, 1]\` reads, at \`(i, u)\`, the operand at \`i\`, whatever the unit
    coordinate \`u\`: the row-major position of \`(i, u)\` in \`[a, 1]\` is \`i · 1 + 0 = i\`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column \`[a, 1]\` broadcast over the lanes to \`[a, b]\` reads, at \`(p, c)\`, the column's one entry of row \`p\`:
    the unit axis is read at \`0\`, the row axis at \`p\` (also when \`a = 1\`, where \`p = 0\`). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.K.EncPay.lean ====
import proofs.«106044_j70463233458716_2_alg».proof.Proof.Gen.KernelIdeal.Frame
import proofs.«106044_j70463233458716_2_alg».proof.Proof.Spec
import proofs.«106044_j70463233458716_2_alg».proof.Proof.LibMatmulRows
import proofs.«106044_j70463233458716_2_alg».proof.Proof.LibRowReads
import proofs.«106044_j70463233458716_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

/-
  The encoding body at one entry of its block.

  The body of the encoding region computes, for each of the three branches l = 0, 1, 2, the array
  mask_l * max(x · W[l] + b[l], 0) on the 2048 nodes of one batch entry: x is the [2048, 300] matrix of the entry,
  W[l] the l-th [300, 96] slab of the stacked weights, b[l] the l-th row of the stacked biases laid along the nodes,
  and mask_l a column [2048, 1] laid along the 96 channels.  Read at node n and channel j this is
  mask_l(n) * max(∑ k, x(n, k) * W[l](k, j) + b[l](j), 0): the matrix product accumulates into zero, so entry (n, j)
  is the plain sum over the 300 features, and every layout step (dropping or adding the unit batch axis, taking a
  slab or a row, repeating a row or a column) only renames the index.
-/

noncomputable section
namespace Cert.KernelIdeal.Val
open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

/-- The zero offsets of a rank-3 and of a rank-2 access. -/
theorem enc_hz3 : (![0, 0, 0] : Fin 3 → Nat) = fun _ => 0 := funext fun a => by fin_cases a <;> rfl
theorem enc_hz2 : (![0, 0] : Fin 2 → Nat) = fun _ => 0 := funext fun a => by fin_cases a <;> rfl

/-- The linear part x · W[l] + b[l] at (n, j): the sum over the 300 features plus the bias of channel j. -/
theorem enc_lin_apply (l : Nat) (hl : l < 3)
    (h1 : S3x300x96.Slices ![l, 0, 0] S1x300x96) (h2 : S1x300x96.ShapeCasts S300x96)
    (h3 : S3x96.Slices ![l, 0] S1x96) (h4 : S1x96.ShapeCasts S96) (h5 : S96.ShapeCasts S1x96)
    (h6 : S1x96.Broadcasts S2048x96)
    (xm : FVec Ideal S2048x300 .f32) (W : Vec Ideal S3x300x96 .f32) (b : Vec Ideal S3x96 .f32)
    (n : Fin 2048) (j : Fin 96) :
    addf (matmul (F := Ideal) (φ₁ := .f32) (φ₂ := .f32) dot_S2048x300_S300x96_S2048x96_1_0_0_1_n_n none xm
          (shapeCast S300x96 (extractStridedSlice S1x300x96 ![l, 0, 0] W h1) h2)
          (constant (F := Ideal) S2048x96 .f32 0x00000000#32))
        (broadcastTo S2048x96 (shapeCast S1x96 (shapeCast S96 (extractStridedSlice S1x96 ![l, 0] b h3) h4) h5) h6)
        (ix2 n j)
      = (∑ k : Fin 300, xm (ix2 n k) * W (ix3 (⟨l, hl⟩ : Fin 3) k j)) + b (ix2 (⟨l, hl⟩ : Fin 3) j) := by
  refine congrArg₂ (· + ·) ?_ ?_
  · refine (Cert.Bridge.matmul_plain_zero_apply 2048 300 96 none xm _ n j).trans ?_
    refine Finset.sum_congr rfl fun k _ => ?_
    exact congrArg (xm (ix2 n k) * ·) (Cert.LibRowReads.slab_read l hl h1 h2 W k j)
  · refine (broadcastTo_1b_ab_apply _ h6 n j).trans ?_
    refine (shapeCast_a_1a_apply _ h5 0 j).trans ?_
    exact Cert.LibRowReads.row_read l hl h3 h4 b j

/-- The whole body of branch l at (0, n, j) of its [1, 2048, 96] block. -/
theorem enc_body_apply (l : Nat) (hl : l < 3)
    (h1 : S3x300x96.Slices ![l, 0, 0] S1x300x96) (h2 : S1x300x96.ShapeCasts S300x96)
    (h3 : S3x96.Slices ![l, 0] S1x96) (h4 : S1x96.ShapeCasts S96) (h5 : S96.ShapeCasts S1x96)
    (h6 : S1x96.Broadcasts S2048x96) (hm : S1x2048x1.ShapeCasts S2048x1) (hx : S1x2048x300.ShapeCasts S2048x300)
    (hb : S2048x1.Broadcasts S2048x96) (hc : S2048x96.ShapeCasts S1x2048x96)
    (x : Vec Ideal S1x2048x300 .f32) (mask : Vec Ideal S1x2048x1 .f32) (W : Vec Ideal S3x300x96 .f32)
    (b : Vec Ideal S3x96 .f32) (n : Fin 2048) (j : Fin 96) :
    shapeCast S1x2048x96
        (mulf (broadcastTo S2048x96 (shapeCast S2048x1 mask hm) hb)
          (maximumf
            (addf (matmul (F := Ideal) (φ₁ := .f32) (φ₂ := .f32) dot_S2048x300_S300x96_S2048x96_1_0_0_1_n_n none (shapeCast S2048x300 x hx)
                (shapeCast S300x96 (extractStridedSlice S1x300x96 ![l, 0, 0] W h1) h2)
                (constant (F := Ideal) S2048x96 .f32 0x00000000#32))
              (broadcastTo S2048x96 (shapeCast S1x96 (shapeCast S96 (extractStridedSlice S1x96 ![l, 0] b h3) h4) h5) h6))
            (broadcast S2048x96 (Scalar.ofBits (F := Ideal) .f32 0x00000000#32)))) hc (ix3 (0 : Fin 1) n j)
      = Spec.encB (Spec.slab x 0) (Spec.col mask 0) (Spec.slab W ⟨l, hl⟩) (Spec.row b ⟨l, hl⟩) n j := by
  refine (shapeCast_ab_1ab_apply _ hc 0 n j).trans ?_
  show broadcastTo S2048x96 (shapeCast S2048x1 mask hm) hb (ix2 n j)
        * max (addf _ _ (ix2 n j)) (Ideal.ofBits .f32 0x00000000#32)
      = mask (ix3 (0 : Fin 1) n 0)
        * max ((∑ q : Fin 300, x (ix3 (0 : Fin 1) n q) * W (ix3 (⟨l, hl⟩ : Fin 3) q j)) + b (ix2 (⟨l, hl⟩ : Fin 3) j)) Spec.zero
  refine congrArg₂ (· * ·) ?_ (congrArg₂ max ?_ rfl)
  · refine (Cert.Lib.Keepdims.broadcastTo_a1_ab_apply _ hb n j).trans ?_
    exact shapeCast_1ab_ab_apply mask hm n 0
  · refine (enc_lin_apply l hl h1 h2 h3 h4 h5 h6 (shapeCast S2048x300 x hx) W b n j).trans ?_
    refine congrArg (· + b (ix2 (⟨l, hl⟩ : Fin 3) j)) ?_
    refine Finset.sum_congr rfl fun k _ => ?_
    exact congrArg (· * W (ix3 (⟨l, hl⟩ : Fin 3) k j)) (shapeCast_1ab_ab_apply x hx n k)

/-- Branch 0: what the body leaves in the first output block, at (0, n, j). -/
theorem enc_pay6_apply (x0 : Vec Ideal S1x2048x300 .f32) (x1 x2 x3 : Vec Ideal S1x2048x1 .f32)
    (x4 : Vec Ideal S3x300x96 .f32) (x5 : Vec Ideal S3x96 .f32) (n : Fin 2048) (j : Fin 96) :
    out0_6 (F := Ideal) x0 x1 x2 x3 x4 x5 (ix3 (0 : Fin 1) n j)
      = Spec.encB (Spec.slab x0 0) (Spec.col x1 0) (Spec.slab x4 0) (Spec.row x5 0) n j := by
  unfold out0_6
  rw [View.canon_unit_zero (S := S1x2048x96) enc_hz3]
  simp only [View.ld_unit_zero (S := S1x2048x300) enc_hz3, View.ld_unit_zero (S := S3x300x96) enc_hz3,
    View.ld_unit_zero (S := S3x96) enc_hz2, View.ld_unit_zero (S := S1x2048x1) enc_hz3]
  unfold k0_pay6 k0_pay3
  exact enc_body_apply 0 (by decide) _ _ _ _ _ _ _ _ _ _ x0 x1 x4 x5 n j

/-- Branch 1: what the body leaves in the second output block, at (0, n, j). -/
theorem enc_pay7_apply (x0 : Vec Ideal S1x2048x300 .f32) (x1 x2 x3 : Vec Ideal S1x2048x1 .f32)
    (x4 : Vec Ideal S3x300x96 .f32) (x5 : Vec Ideal S3x96 .f32) (n : Fin 2048) (j : Fin 96) :
    out0_7 (F := Ideal) x0 x1 x2 x3 x4 x5 (ix3 (0 : Fin 1) n j)
      = Spec.encB (Spec.slab x0 0) (Spec.col x2 0) (Spec.slab x4 1) (Spec.row x5 1) n j := by
  unfold out0_7
  rw [View.canon_unit_zero (S := S1x2048x96) enc_hz3]
  simp only [View.ld_unit_zero (S := S1x2048x300) enc_hz3, View.ld_unit_zero (S := S3x300x96) enc_hz3,
    View.ld_unit_zero (S := S3x96) enc_hz2, View.ld_unit_zero (S := S1x2048x1) enc_hz3]
  unfold k0_pay1 k0_pay4 k0_pay7 k0_pay8 k0_pay3
  exact enc_body_apply 1 (by decide) _ _ _ _ _ _ _ _ _ _ x0 x2 x4 x5 n j

/-- Branch 2: what the body leaves in the third output block, at (0, n, j). -/
theorem enc_pay8_apply (x0 : Vec Ideal S1x2048x300 .f32) (x1 x2 x3 : Vec Ideal S1x2048x1 .f32)
    (x4 : Vec Ideal S3x300x96 .f32) (x5 : Vec Ideal S3x96 .f32) (n : Fin 2048) (j : Fin 96) :
    out0_8 (F := Ideal) x0 x1 x2 x3 x4 x5 (ix3 (0 : Fin 1) n j)
      = Spec.encB (Spec.slab x0 0) (Spec.col x3 0) (Spec.slab x4 2) (Spec.row x5 2) n j := by
  unfold out0_8
  rw [View.canon_unit_zero (S := S1x2048x96) enc_hz3]
  simp only [View.ld_unit_zero (S := S1x2048x300) enc_hz3, View.ld_unit_zero (S := S3x300x96) enc_hz3,
    View.ld_unit_zero (S := S3x96) enc_hz2, View.ld_unit_zero (S := S1x2048x1) enc_hz3]
  unfold k0_pay2 k0_pay3 k0_pay5
  exact enc_body_apply 2 (by decide) _ _ _ _ _ _ _ _ _ _ x0 x3 x4 x5 n j

end Cert.KernelIdeal.Val

end
-- ==== Proof.K.Enc.lean ====
import proofs.«106044_j70463233458716_2_alg».proof.Proof.Gen.KernelIdeal.Frame
import proofs.«106044_j70463233458716_2_alg».proof.Proof.Spec
import proofs.«106044_j70463233458716_2_alg».proof.Proof.K.EncPay
import Idealize.ShloMosaic.Lib.Pipeline.Value
import Idealize.ShloMosaic.Lib.ValueIdx
import Idealize.ShloMosaic.Lib.ValueLayout
import Idealize.ShloMosaic.PureOps.Ideal.Laws

set_option maxRecDepth 16384

/-
  The encoding region's three output arrays.

  The region runs its body once per batch entry (a grid of eight points).  At point t the three batched inputs (the
  node features and the three masks) and the three outputs are staged by slabs: the block at point t is slab t of the
  array; the stacked weights and biases are staged whole.  So what point t writes back to output l is, entry by entry,
  the body's value on slab t of the features and of mask l and on the whole weights: block t of the encoding of
  branch l of the whole arrays.  The eight slabs tile each output array, hence each output array ends holding the
  encoding of its branch.
-/

noncomputable section
namespace Cert.KernelIdeal.Val
open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The grid has eight points, one per batch entry. -/
theorem enc_lt8 (t : Fin cfg0.N) : t.val < 8 := by have h := t.isLt; have hN : cfg0.N = 8 := N_0; omega

/-! The printed index maps, decided over the grid: a batched window's block at point t has block index (t, 0, 0); a weight
    window's one block has block index zero on every axis. -/

theorem enc_idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem enc_idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem enc_idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem enc_idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem enc_idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem enc_idx5 : ∀ t : Fin cfg0.N, win0_5.index t (0 : Fin 2) = 0 ∧ win0_5.index t (1 : Fin 2) = 0 :=
  (by decide +kernel : ∀ t : Fin grid0.N, _)
theorem enc_idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem enc_idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem enc_idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- The features' block at point t is slab t of the feature array. -/
theorem enc_blk_x (c : Dev nD) (t : Fin cfg0.N) (p : Fin 2048) (q : Fin 300) :
    (iblk0 V c 0 t : Vec Ideal S1x2048x300 .f32) (ix3 (0 : Fin 1) p q)
      = (V c main_arg0 : S8x2048x300.Idx → EReal) (ix3 (⟨t.val, enc_lt8 t⟩ : Fin 8) p q) := by
  show (V c main_arg0 : S8x2048x300.Idx → EReal) (((cfg0.win 0).blk t).view.emb (ix3 (0 : Fin 1) p q)) = _
  refine congrArg (V c main_arg0 : S8x2048x300.Idx → EReal) ?_
  obtain ⟨e0, e1, e2⟩ := enc_idx0 t
  funext a; apply Fin.ext
  match a with
  | ⟨0, _⟩ => show win0_0.index t (0 : Fin 3) * 1 + 1 * 0 = t.val; omega
  | ⟨1, _⟩ => show win0_0.index t (1 : Fin 3) * 2048 + 1 * p.val = p.val; omega
  | ⟨2, _⟩ => show win0_0.index t (2 : Fin 3) * 300 + 1 * q.val = q.val; omega

/-- The first mask's block at point t is slab t of its mask array. -/
theorem enc_blk_m1 (c : Dev nD) (t : Fin cfg0.N) (p : Fin 2048) :
    (iblk0 V c 1 t : Vec Ideal S1x2048x1 .f32) (ix3 (0 : Fin 1) p (0 : Fin 1))
      = (V c main_arg4 : S8x2048x1.Idx → EReal) (ix3 (⟨t.val, enc_lt8 t⟩ : Fin 8) p (0 : Fin 1)) := by
  show (V c main_arg4 : S8x2048x1.Idx → EReal) (((cfg0.win 1).blk t).view.emb (ix3 (0 : Fin 1) p (0 : Fin 1))) = _
  refine congrArg (V c main_arg4 : S8x2048x1.Idx → EReal) ?_
  obtain ⟨e0, e1, e2⟩ := enc_idx1 t
  funext a; apply Fin.ext
  match a with
  | ⟨0, _⟩ => show win0_1.index t (0 : Fin 3) * 1 + 1 * 0 = t.val; omega
  | ⟨1, _⟩ => show win0_1.index t (1 : Fin 3) * 2048 + 1 * p.val = p.val; omega
  | ⟨2, _⟩ => show win0_1.index t (2 : Fin 3) * 1 + 1 * 0 = 0; omega

/-- The second mask's block at point t is slab t of its mask array. -/
theorem enc_blk_m2 (c : Dev nD) (t : Fin cfg0.N) (p : Fin 2048) :
    (iblk0 V c 2 t : Vec Ideal S1x2048x1 .f32) (ix3 (0 : Fin 1) p (0 : Fin 1))
      = (V c main_arg5 : S8x2048x1.Idx → EReal) (ix3 (⟨t.val, enc_lt8 t⟩ : Fin 8) p (0 : Fin 1)) := by
  show (V c main_arg5 : S8x2048x1.Idx → EReal) (((cfg0.win 2).blk t).view.emb (ix3 (0 : Fin 1) p (0 : Fin 1))) = _
  refine congrArg (V c main_arg5 : S8x2048x1.Idx → EReal) ?_
  obtain ⟨e0, e1, e2⟩ := enc_idx2 t
  funext a; apply Fin.ext
  match a with
  | ⟨0, _⟩ => show win0_2.index t (0 : Fin 3) * 1 + 1 * 0 = t.val; omega
  | ⟨1, _⟩ => show win0_2.index t (1 : Fin 3) * 2048 + 1 * p.val = p.val; omega
  | ⟨2, _⟩ => show win0_2.index t (2 : Fin 3) * 1 + 1 * 0 = 0; omega

/-- The third mask's block at point t is slab t of its mask array. -/
theorem enc_blk_m3 (c : Dev nD) (t : Fin cfg0.N) (p : Fin 2048) :
    (iblk0 V c 3 t : Vec Ideal S1x2048x1 .f32) (ix3 (0 : Fin 1) p (0 : Fin 1))
      = (V c main_arg6 : S8x2048x1.Idx → EReal) (ix3 (⟨t.val, enc_lt8 t⟩ : Fin 8) p (0 : Fin 1)) := by
  show (V c main_arg6 : S8x2048x1.Idx → EReal) (((cfg0.win 3).blk t).view.emb (ix3 (0 : Fin 1) p (0 : Fin 1))) = _
  refine congrArg (V c main_arg6 : S8x2048x1.Idx → EReal) ?_
  obtain ⟨e0, e1, e2⟩ := enc_idx3 t
  funext a; apply Fin.ext
  match a with
  | ⟨0, _⟩ => show win0_3.index t (0 : Fin 3) * 1 + 1 * 0 = t.val; omega
  | ⟨1, _⟩ => show win0_3.index t (1 : Fin 3) * 2048 + 1 * p.val = p.val; omega
  | ⟨2, _⟩ => show win0_3.index t (2 : Fin 3) * 1 + 1 * 0 = 0; omega

/-- The stacked weights' one block is the whole array. -/
theorem enc_blk_w (c : Dev nD) (t : Fin cfg0.N) (y : S3x300x96.Idx) :
    (iblk0 V c 4 t : Vec Ideal S3x300x96 .f32) y = (V c main_arg7 : S3x300x96.Idx → EReal) y := by
  show (V c main_arg7 : S3x300x96.Idx → EReal) (((cfg0.win 4).blk t).view.emb y) = _
  refine congrArg (V c main_arg7 : S3x300x96.Idx → EReal) ?_
  obtain ⟨e0, e1, e2⟩ := enc_idx4 t
  funext a; apply Fin.ext
  match a with
  | ⟨0, _⟩ => show win0_4.index t (0 : Fin 3) * 3 + 1 * (y 0).val = (y 0).val; omega
  | ⟨1, _⟩ => show win0_4.index t (1 : Fin 3) * 300 + 1 * (y 1).val = (y 1).val; omega
  | ⟨2, _⟩ => show win0_4.index t (2 : Fin 3) * 96 + 1 * (y 2).val = (y 2).val; omega

/-- The stacked biases' one block is the whole array. -/
theorem enc_blk_b (c : Dev nD) (t : Fin cfg0.N) (y : S3x96.Idx) :
    (iblk0 V c 5 t : Vec Ideal S3x96 .f32) y = (V c main_arg8 : S3x96.Idx → EReal) y := by
  show (V c main_arg8 : S3x96.Idx → EReal) (((cfg0.win 5).blk t).view.emb y) = _
  refine congrArg (V c main_arg8 : S3x96.Idx → EReal) ?_
  obtain ⟨e0, e1⟩ := enc_idx5 t
  funext a; apply Fin.ext
  match a with
  | ⟨0, _⟩ => show win0_5.index t (0 : Fin 2) * 3 + 1 * (y 0).val = (y 0).val; omega
  | ⟨1, _⟩ => show win0_5.index t (1 : Fin 2) * 96 + 1 * (y 1).val = (y 1).val; omega

/-! ## Branch 0 -/

/-- Entry (0, n, j) of the first output's block at point t sits at (t, n, j) of the output array. -/
theorem enc_emb6 (t : Fin cfg0.N) (n : Fin 2048) (j : Fin 96) :
    (((cfg0.win 6).blk t).view.emb (ix3 (0 : Fin 1) n j) : S8x2048x96.Idx) = ix3 (⟨t.val, enc_lt8 t⟩ : Fin 8) n j := by
  obtain ⟨e0, e1, e2⟩ := enc_idx6 t
  funext a; apply Fin.ext
  match a with
  | ⟨0, _⟩ => show win0_6.index t (0 : Fin 3) * 1 + 1 * 0 = t.val; omega
  | ⟨1, _⟩ => show win0_6.index t (1 : Fin 3) * 2048 + 1 * n.val = n.val; omega
  | ⟨2, _⟩ => show win0_6.index t (2 : Fin 3) * 96 + 1 * j.val = j.val; omega

/-- What point t writes back to the first output is block t of the encoding of branch 0: the body's value at
    (0, n, j) of its blocks, and each block read where it lies in its array. -/
theorem enc_flushed6 (c : Dev nD) (t : Fin cfg0.N) :
    (dat0 (F := Ideal) V c).flushed 6 t = ((cfg0.win 6).blk t).view.read (Elt Ideal)
      (Spec.enc (V c main_arg0) (V c main_arg4) (V c main_arg7) (V c main_arg8) 0) := by
  show (cfg0.win 6).cut (grid0.coords t) ((dat0 (F := Ideal) V c).after 6 t) = _
  rw [after0_6]
  funext y
  obtain ⟨u, n, j, rfl⟩ : ∃ (u : Fin 1) (n : Fin 2048) (j : Fin 96), y = ix3 u n j := ⟨y 0, y 1, y 2, eq_ix3 y⟩
  obtain rfl : u = 0 := Subsingleton.elim _ _
  show out0_6 (F := Ideal) (iblk0 V c 0 t) (iblk0 V c 1 t) (iblk0 V c 2 t) (iblk0 V c 3 t) (iblk0 V c 4 t) (iblk0 V c 5 t) (ix3 (0 : Fin 1) n j)
      = Spec.enc (V c main_arg0) (V c main_arg4) (V c main_arg7) (V c main_arg8) 0 (((cfg0.win 6).blk t).view.emb (ix3 (0 : Fin 1) n j))
  rw [enc_emb6 t n j]
  refine (enc_pay6_apply (iblk0 V c 0 t) (iblk0 V c 1 t) (iblk0 V c 2 t) (iblk0 V c 3 t) (iblk0 V c 4 t) (iblk0 V c 5 t) n j).trans ?_
  show Spec.encB _ _ _ _ n j = Spec.encB (Spec.slab (V c main_arg0) ⟨t.val, enc_lt8 t⟩) (Spec.col (V c main_arg4) ⟨t.val, enc_lt8 t⟩)
      (Spec.slab (V c main_arg7) 0) (Spec.row (V c main_arg8) 0) n j
  have ex : Spec.slab (iblk0 V c 0 t : Vec Ideal S1x2048x300 .f32) 0 = Spec.slab (V c main_arg0 : S8x2048x300.Idx → EReal) ⟨t.val, enc_lt8 t⟩ :=
    funext fun p => funext fun q => enc_blk_x V c t p q
  have em : Spec.col (iblk0 V c 1 t : Vec Ideal S1x2048x1 .f32) 0 = Spec.col (V c main_arg4 : S8x2048x1.Idx → EReal) ⟨t.val, enc_lt8 t⟩ :=
    funext fun p => enc_blk_m1 V c t p
  have ew : Spec.slab (iblk0 V c 4 t : Vec Ideal S3x300x96 .f32) 0 = Spec.slab (V c main_arg7 : S3x300x96.Idx → EReal) 0 :=
    funext fun p => funext fun q => enc_blk_w V c t _
  have eb : Spec.row (iblk0 V c 5 t : Vec Ideal S3x96 .f32) 0 = Spec.row (V c main_arg8 : S3x96.Idx → EReal) 0 :=
    funext fun q => enc_blk_b V c t _
  rw [ex, em, ew, eb]

/-- An entry of the first output array whose batch coordinate is t is in the block of point t. -/
theorem enc_mem6 (t : Fin cfg0.N) (i : S8x2048x96.Idx) (h : (i 0).val = t.val) : i ∈ ((cfg0.win 6).blk t).view.set := by
  have hi1 : (i 1).val < 2048 := (i 1).isLt
  have hi2 : (i 2).val < 96 := (i 2).isLt
  obtain ⟨e0, e1, e2⟩ := enc_idx6 t
  show i ∈ ((View.whole main_v0_0).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 96 ≤ (i 2).val ∧ (i 2).val < win0_6.index t (2 : Fin 3) * 96 + 96; omega

/-- Every entry of the first output array is in the block of the point of its batch entry. -/
theorem enc_cover6 (i : S8x2048x96.Idx) :
    ∃ t : Fin cfg0.N, (cfg0.win 6).flush t = true ∧ i ∈ ((cfg0.win 6).blk t).view.set :=
  ⟨⟨(i 0).val, by have h : (i 0).val < 8 := (i 0).isLt; have hN : cfg0.N = 8 := N_0; omega⟩, flush0_6 _, enc_mem6 _ i rfl⟩

/-- Region 0 (encode): its three output arrays after the region, for any entry contents V. -/
theorem enc_out6 (c : Dev nD) : (dat0 (F := Ideal) V c).arrAt 6 cfg0.N
    = Spec.enc (V c main_arg0) (V c main_arg4) (V c main_arg7) (V c main_arg8) 0 :=
  (dat0 (F := Ideal) V c).arrAt_eq_of_cover 6 _ (fun t _ => enc_flushed6 V c t) enc_cover6

/-! ## Branch 1 -/

/-- Entry (0, n, j) of the second output's block at point t sits at (t, n, j) of the output array. -/
theorem enc_emb7 (t : Fin cfg0.N) (n : Fin 2048) (j : Fin 96) :
    (((cfg0.win 7).blk t).view.emb (ix3 (0 : Fin 1) n j) : S8x2048x96.Idx) = ix3 (⟨t.val, enc_lt8 t⟩ : Fin 8) n j := by
  obtain ⟨e0, e1, e2⟩ := enc_idx7 t
  funext a; apply Fin.ext
  match a with
  | ⟨0, _⟩ => show win0_7.index t (0 : Fin 3) * 1 + 1 * 0 = t.val; omega
  | ⟨1, _⟩ => show win0_7.index t (1 : Fin 3) * 2048 + 1 * n.val = n.val; omega
  | ⟨2, _⟩ => show win0_7.index t (2 : Fin 3) * 96 + 1 * j.val = j.val; omega

/-- What point t writes back to the second output is block t of the encoding of branch 1: the body's value at
    (0, n, j) of its blocks, and each block read where it lies in its array. -/
theorem enc_flushed7 (c : Dev nD) (t : Fin cfg0.N) :
    (dat0 (F := Ideal) V c).flushed 7 t = ((cfg0.win 7).blk t).view.read (Elt Ideal)
      (Spec.enc (V c main_arg0) (V c main_arg5) (V c main_arg7) (V c main_arg8) 1) := by
  show (cfg0.win 7).cut (grid0.coords t) ((dat0 (F := Ideal) V c).after 7 t) = _
  rw [after0_7]
  funext y
  obtain ⟨u, n, j, rfl⟩ : ∃ (u : Fin 1) (n : Fin 2048) (j : Fin 96), y = ix3 u n j := ⟨y 0, y 1, y 2, eq_ix3 y⟩
  obtain rfl : u = 0 := Subsingleton.elim _ _
  show out0_7 (F := Ideal) (iblk0 V c 0 t) (iblk0 V c 1 t) (iblk0 V c 2 t) (iblk0 V c 3 t) (iblk0 V c 4 t) (iblk0 V c 5 t) (ix3 (0 : Fin 1) n j)
      = Spec.enc (V c main_arg0) (V c main_arg5) (V c main_arg7) (V c main_arg8) 1 (((cfg0.win 7).blk t).view.emb (ix3 (0 : Fin 1) n j))
  rw [enc_emb7 t n j]
  refine (enc_pay7_apply (iblk0 V c 0 t) (iblk0 V c 1 t) (iblk0 V c 2 t) (iblk0 V c 3 t) (iblk0 V c 4 t) (iblk0 V c 5 t) n j).trans ?_
  show Spec.encB _ _ _ _ n j = Spec.encB (Spec.slab (V c main_arg0) ⟨t.val, enc_lt8 t⟩) (Spec.col (V c main_arg5) ⟨t.val, enc_lt8 t⟩)
      (Spec.slab (V c main_arg7) 1) (Spec.row (V c main_arg8) 1) n j
  have ex : Spec.slab (iblk0 V c 0 t : Vec Ideal S1x2048x300 .f32) 0 = Spec.slab (V c main_arg0 : S8x2048x300.Idx → EReal) ⟨t.val, enc_lt8 t⟩ :=
    funext fun p => funext fun q => enc_blk_x V c t p q
  have em : Spec.col (iblk0 V c 2 t : Vec Ideal S1x2048x1 .f32) 0 = Spec.col (V c main_arg5 : S8x2048x1.Idx → EReal) ⟨t.val, enc_lt8 t⟩ :=
    funext fun p => enc_blk_m2 V c t p
  have ew : Spec.slab (iblk0 V c 4 t : Vec Ideal S3x300x96 .f32) 1 = Spec.slab (V c main_arg7 : S3x300x96.Idx → EReal) 1 :=
    funext fun p => funext fun q => enc_blk_w V c t _
  have eb : Spec.row (iblk0 V c 5 t : Vec Ideal S3x96 .f32) 1 = Spec.row (V c main_arg8 : S3x96.Idx → EReal) 1 :=
    funext fun q => enc_blk_b V c t _
  rw [ex, em, ew, eb]

/-- An entry of the second output array whose batch coordinate is t is in the block of point t. -/
theorem enc_mem7 (t : Fin cfg0.N) (i : S8x2048x96.Idx) (h : (i 0).val = t.val) : i ∈ ((cfg0.win 7).blk t).view.set := by
  have hi1 : (i 1).val < 2048 := (i 1).isLt
  have hi2 : (i 2).val < 96 := (i 2).isLt
  obtain ⟨e0, e1, e2⟩ := enc_idx7 t
  show i ∈ ((View.whole main_v0_1).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 96 ≤ (i 2).val ∧ (i 2).val < win0_7.index t (2 : Fin 3) * 96 + 96; omega

/-- Every entry of the second output array is in the block of the point of its batch entry. -/
theorem enc_cover7 (i : S8x2048x96.Idx) :
    ∃ t : Fin cfg0.N, (cfg0.win 7).flush t = true ∧ i ∈ ((cfg0.win 7).blk t).view.set :=
  ⟨⟨(i 0).val, by have h : (i 0).val < 8 := (i 0).isLt; have hN : cfg0.N = 8 := N_0; omega⟩, flush0_7 _, enc_mem7 _ i rfl⟩

theorem enc_out7 (c : Dev nD) : (dat0 (F := Ideal) V c).arrAt 7 cfg0.N
    = Spec.enc (V c main_arg0) (V c main_arg5) (V c main_arg7) (V c main_arg8) 1 :=
  (dat0 (F := Ideal) V c).arrAt_eq_of_cover 7 _ (fun t _ => enc_flushed7 V c t) enc_cover7

/-! ## Branch 2 -/

/-- Entry (0, n, j) of the third output's block at point t sits at (t, n, j) of the output array. -/
theorem enc_emb8 (t : Fin cfg0.N) (n : Fin 2048) (j : Fin 96) :
    (((cfg0.win 8).blk t).view.emb (ix3 (0 : Fin 1) n j) : S8x2048x96.Idx) = ix3 (⟨t.val, enc_lt8 t⟩ : Fin 8) n j := by
  obtain ⟨e0, e1, e2⟩ := enc_idx8 t
  funext a; apply Fin.ext
  match a with
  | ⟨0, _⟩ => show win0_8.index t (0 : Fin 3) * 1 + 1 * 0 = t.val; omega
  | ⟨1, _⟩ => show win0_8.index t (1 : Fin 3) * 2048 + 1 * n.val = n.val; omega
  | ⟨2, _⟩ => show win0_8.index t (2 : Fin 3) * 96 + 1 * j.val = j.val; omega

/-- What point t writes back to the third output is block t of the encoding of branch 2: the body's value at
    (0, n, j) of its blocks, and each block read where it lies in its array. -/
theorem enc_flushed8 (c : Dev nD) (t : Fin cfg0.N) :
    (dat0 (F := Ideal) V c).flushed 8 t = ((cfg0.win 8).blk t).view.read (Elt Ideal)
      (Spec.enc (V c main_arg0) (V c main_arg6) (V c main_arg7) (V c main_arg8) 2) := by
  show (cfg0.win 8).cut (grid0.coords t) ((dat0 (F := Ideal) V c).after 8 t) = _
  rw [after0_8]
  funext y
  obtain ⟨u, n, j, rfl⟩ : ∃ (u : Fin 1) (n : Fin 2048) (j : Fin 96), y = ix3 u n j := ⟨y 0, y 1, y 2, eq_ix3 y⟩
  obtain rfl : u = 0 := Subsingleton.elim _ _
  show out0_8 (F := Ideal) (iblk0 V c 0 t) (iblk0 V c 1 t) (iblk0 V c 2 t) (iblk0 V c 3 t) (iblk0 V c 4 t) (iblk0 V c 5 t) (ix3 (0 : Fin 1) n j)
      = Spec.enc (V c main_arg0) (V c main_arg6) (V c main_arg7) (V c main_arg8) 2 (((cfg0.win 8).blk t).view.emb (ix3 (0 : Fin 1) n j))
  rw [enc_emb8 t n j]
  refine (enc_pay8_apply (iblk0 V c 0 t) (iblk0 V c 1 t) (iblk0 V c 2 t) (iblk0 V c 3 t) (iblk0 V c 4 t) (iblk0 V c 5 t) n j).trans ?_
  show Spec.encB _ _ _ _ n j = Spec.encB (Spec.slab (V c main_arg0) ⟨t.val, enc_lt8 t⟩) (Spec.col (V c main_arg6) ⟨t.val, enc_lt8 t⟩)
      (Spec.slab (V c main_arg7) 2) (Spec.row (V c main_arg8) 2) n j
  have ex : Spec.slab (iblk0 V c 0 t : Vec Ideal S1x2048x300 .f32) 0 = Spec.slab (V c main_arg0 : S8x2048x300.Idx → EReal) ⟨t.val, enc_lt8 t⟩ :=
    funext fun p => funext fun q => enc_blk_x V c t p q
  have em : Spec.col (iblk0 V c 3 t : Vec Ideal S1x2048x1 .f32) 0 = Spec.col (V c main_arg6 : S8x2048x1.Idx → EReal) ⟨t.val, enc_lt8 t⟩ :=
    funext fun p => enc_blk_m3 V c t p
  have ew : Spec.slab (iblk0 V c 4 t : Vec Ideal S3x300x96 .f32) 2 = Spec.slab (V c main_arg7 : S3x300x96.Idx → EReal) 2 :=
    funext fun p => funext fun q => enc_blk_w V c t _
  have eb : Spec.row (iblk0 V c 5 t : Vec Ideal S3x96 .f32) 2 = Spec.row (V c main_arg8 : S3x96.Idx → EReal) 2 :=
    funext fun q => enc_blk_b V c t _
  rw [ex, em, ew, eb]

/-- An entry of the third output array whose batch coordinate is t is in the block of point t. -/
theorem enc_mem8 (t : Fin cfg0.N) (i : S8x2048x96.Idx) (h : (i 0).val = t.val) : i ∈ ((cfg0.win 8).blk t).view.set := by
  have hi1 : (i 1).val < 2048 := (i 1).isLt
  have hi2 : (i 2).val < 96 := (i 2).isLt
  obtain ⟨e0, e1, e2⟩ := enc_idx8 t
  show i ∈ ((View.whole main_v0_2).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 2048 ≤ (i 1).val ∧ (i 1).val < win0_8.index t (1 : Fin 3) * 2048 + 2048; omega
  | ⟨2, _⟩ => show win0_8.index t (2 : Fin 3) * 96 ≤ (i 2).val ∧ (i 2).val < win0_8.index t (2 : Fin 3) * 96 + 96; omega

/-- Every entry of the third output array is in the block of the point of its batch entry. -/
theorem enc_cover8 (i : S8x2048x96.Idx) :
    ∃ t : Fin cfg0.N, (cfg0.win 8).flush t = true ∧ i ∈ ((cfg0.win 8).blk t).view.set :=
  ⟨⟨(i 0).val, by have h : (i 0).val < 8 := (i 0).isLt; have hN : cfg0.N = 8 := N_0; omega⟩, flush0_8 _, enc_mem8 _ i rfl⟩

theorem enc_out8 (c : Dev nD) : (dat0 (F := Ideal) V c).arrAt 8 cfg0.N
    = Spec.enc (V c main_arg0) (V c main_arg6) (V c main_arg7) (V c main_arg8) 2 :=
  (dat0 (F := Ideal) V c).arrAt_eq_of_cover 8 _ (fun t _ => enc_flushed8 V c t) enc_cover8

end Cert.KernelIdeal.Val

end
-- ==== Proof.K.GruOps.lean ====
/-
  Layout operations of the gated propagation step, read at an index, over literal shapes.

  * a [1, a, b] block taken as an [a, b] matrix, and back;
  * three [K, 96] matrices laid side by side as [K, 288]: column 96 s + j is column j of matrix s; the same for three
    rows [96] laid end to end as [288], and for two rows as [192];
  * a row [c] laid as [1, c] and repeated down n rows reads the row's entry of the column;
  * the column bands of width 96 of an [n, 288] and of an [n, 192] array.

  Then the gated step itself: the two wide products a · [W₀ | W₂ | W₄] and s · [W₁ | W₃] read at a column band, the step
  as a function of its five banded pre-activations, and its agreement with the specification's step.
-/
import proofs.«106044_j70463233458716_2_alg».proof.Proof.Gen.KernelIdeal.Frame
import proofs.«106044_j70463233458716_2_alg».proof.Proof.Spec
import proofs.«106044_j70463233458716_2_alg».proof.Proof.LibMatmulRows
import proofs.«106044_j70463233458716_2_alg».proof.Proof.LibRowReads
import proofs.«106044_j70463233458716_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL Idealize.SL.Sem
open Cert.KernelIdeal Cert.KernelIdeal.Gen

variable {α : Type}

/-- A [1, a, b] block as an [a, b] matrix, at (p, q). -/
theorem gru_unblock_read {a b : Nat} (h : (⟨3, ![1, a, b]⟩ : Shape).ShapeCasts ⟨2, ![a, b]⟩)
    (x : (⟨3, ![1, a, b]⟩ : Shape).Idx → α) (p : Fin a) (q : Fin b) :
    shapeCast ⟨2, ![a, b]⟩ x h (ix2 p q) = x (ix3 (0 : Fin 1) p q) := by
  refine shapeCast_apply x h (ix2 p q) (ix3 (0 : Fin 1) p q) ?_
  rw [Shape.rowMajor_val_three, Shape.rowMajor_val_two]
  show (0 * a + p.val) * b + q.val = p.val * b + q.val
  simp

/-- An [a, b] matrix as a [1, a, b] block, at (0, p, q). -/
theorem gru_block_read {a b : Nat} (h : (⟨2, ![a, b]⟩ : Shape).ShapeCasts ⟨3, ![1, a, b]⟩)
    (x : (⟨2, ![a, b]⟩ : Shape).Idx → α) (p : Fin a) (q : Fin b) :
    shapeCast ⟨3, ![1, a, b]⟩ x h (ix3 (0 : Fin 1) p q) = x (ix2 p q) := by
  refine shapeCast_apply x h (ix3 (0 : Fin 1) p q) (ix2 p q) ?_
  rw [Shape.rowMajor_val_three, Shape.rowMajor_val_two]
  show p.val * b + q.val = (0 * a + p.val) * b + q.val
  simp

/-- A row [c] laid as [1, c] and repeated down n rows, at (p, q). -/
theorem gru_down_read {n c : Nat} (hc : c ≠ 1) (h1 : (⟨1, ![c]⟩ : Shape).ShapeCasts ⟨2, ![1, c]⟩)
    (h2 : (⟨2, ![1, c]⟩ : Shape).Broadcasts ⟨2, ![n, c]⟩) (v : (⟨1, ![c]⟩ : Shape).Idx → α) (p : Fin n) (q : Fin c) :
    broadcastTo ⟨2, ![n, c]⟩ (shapeCast ⟨2, ![1, c]⟩ v h1) h2 (ix2 p q) = v (ix1 q) := by
  refine (broadcastTo_apply _ h2 (ix2 p q) (ix2 (0 : Fin 1) q) (fun ax => ?_)).trans
    (Cert.LibRowReads.asRow_read h1 v q)
  match ax with
  | ⟨0, _⟩ => show (0 : Nat) = if (1 : Nat) = 1 then 0 else p.val; simp
  | ⟨1, _⟩ => show q.val = if c = 1 then 0 else q.val; rw [if_neg hc]

/-- A column band of width 96 starting at column o of an [n, w] array, at (p, j). -/
theorem gru_band_read {n w : Nat} (o : Nat) (h : (⟨2, ![n, w]⟩ : Shape).Slices ![0, o] ⟨2, ![n, 96]⟩)
    (x : (⟨2, ![n, w]⟩ : Shape).Idx → α) (p : Fin n) (j : Fin 96) (hj : o + j.val < w) :
    extractStridedSlice ⟨2, ![n, 96]⟩ ![0, o] x h (ix2 p j) = x (ix2 p ⟨o + j.val, hj⟩) := by
  refine extractStridedSlice_apply ![0, o] x h (ix2 p j) (ix2 p ⟨o + j.val, hj⟩) (fun ax => ?_)
  match ax with
  | ⟨0, _⟩ => show p.val = 0 + p.val; omega
  | ⟨1, _⟩ => show o + j.val = o + j.val; rfl

/-- Three [K, 96] matrices side by side: the columns of the first. -/
theorem gru_side3_read0 {K : Nat}
    (h : Shape.Concatenates [(⟨2, ![K, 96]⟩ : Shape), ⟨2, ![K, 96]⟩, ⟨2, ![K, 96]⟩] ⟨2, ![K, 288]⟩ 1)
    (m0 m1 m2 : (⟨2, ![K, 96]⟩ : Shape).Idx → α) (k : Fin K) (j : Fin 96) (hj : 0 + j.val < 288) :
    concatenate ⟨2, ![K, 288]⟩ 1 [⟨⟨2, ![K, 96]⟩, m0⟩, ⟨⟨2, ![K, 96]⟩, m1⟩, ⟨⟨2, ![K, 96]⟩, m2⟩] h (ix2 k ⟨0 + j.val, hj⟩)
      = m0 (ix2 k j) := by
  refine concatenate_apply_piece 1 [⟨⟨2, ![K, 96]⟩, m0⟩, ⟨⟨2, ![K, 96]⟩, m1⟩, ⟨⟨2, ![K, 96]⟩, m2⟩] h (ix2 k ⟨0 + j.val, hj⟩) 0 (by show (0 : Nat) < 3; omega) ⟨2, ![K, 96]⟩ m0 rfl rfl 0 rfl (ix2 k j)
    (fun b hb => ?_) ?_
  · match b with
    | ⟨0, _⟩ => rfl
    | ⟨1, _⟩ => exact absurd rfl hb
  · show 0 + j.val = 0 + j.val; rfl

theorem gru_side3_read1 {K : Nat}
    (h : Shape.Concatenates [(⟨2, ![K, 96]⟩ : Shape), ⟨2, ![K, 96]⟩, ⟨2, ![K, 96]⟩] ⟨2, ![K, 288]⟩ 1)
    (m0 m1 m2 : (⟨2, ![K, 96]⟩ : Shape).Idx → α) (k : Fin K) (j : Fin 96) (hj : 96 + j.val < 288) :
    concatenate ⟨2, ![K, 288]⟩ 1 [⟨⟨2, ![K, 96]⟩, m0⟩, ⟨⟨2, ![K, 96]⟩, m1⟩, ⟨⟨2, ![K, 96]⟩, m2⟩] h (ix2 k ⟨96 + j.val, hj⟩)
      = m1 (ix2 k j) := by
  refine concatenate_apply_piece 1 [⟨⟨2, ![K, 96]⟩, m0⟩, ⟨⟨2, ![K, 96]⟩, m1⟩, ⟨⟨2, ![K, 96]⟩, m2⟩] h (ix2 k ⟨96 + j.val, hj⟩) 1 (by show (1 : Nat) < 3; omega) ⟨2, ![K, 96]⟩ m1 rfl rfl 96 rfl (ix2 k j)
    (fun b hb => ?_) ?_
  · match b with
    | ⟨0, _⟩ => rfl
    | ⟨1, _⟩ => exact absurd rfl hb
  · show 96 + j.val = 96 + j.val; rfl

theorem gru_side3_read2 {K : Nat}
    (h : Shape.Concatenates [(⟨2, ![K, 96]⟩ : Shape), ⟨2, ![K, 96]⟩, ⟨2, ![K, 96]⟩] ⟨2, ![K, 288]⟩ 1)
    (m0 m1 m2 : (⟨2, ![K, 96]⟩ : Shape).Idx → α) (k : Fin K) (j : Fin 96) (hj : 192 + j.val < 288) :
    concatenate ⟨2, ![K, 288]⟩ 1 [⟨⟨2, ![K, 96]⟩, m0⟩, ⟨⟨2, ![K, 96]⟩, m1⟩, ⟨⟨2, ![K, 96]⟩, m2⟩] h (ix2 k ⟨192 + j.val, hj⟩)
      = m2 (ix2 k j) := by
  refine concatenate_apply_piece 1 [⟨⟨2, ![K, 96]⟩, m0⟩, ⟨⟨2, ![K, 96]⟩, m1⟩, ⟨⟨2, ![K, 96]⟩, m2⟩] h (ix2 k ⟨192 + j.val, hj⟩) 2 (by show (2 : Nat) < 3; omega) ⟨2, ![K, 96]⟩ m2 rfl rfl 192 rfl (ix2 k j)
    (fun b hb => ?_) ?_
  · match b with
    | ⟨0, _⟩ => rfl
    | ⟨1, _⟩ => exact absurd rfl hb
  · show 192 + j.val = 192 + j.val; rfl

/-! Two matrices side by side; three and two rows laid end to end. -/

theorem gru_side2_read0 {K : Nat}
    (h : Shape.Concatenates [(⟨2, ![K, 96]⟩ : Shape), ⟨2, ![K, 96]⟩] ⟨2, ![K, 192]⟩ 1)
    (m0 m1 : (⟨2, ![K, 96]⟩ : Shape).Idx → α) (k : Fin K) (j : Fin 96) (hj : 0 + j.val < 192) :
    concatenate ⟨2, ![K, 192]⟩ 1 [⟨⟨2, ![K, 96]⟩, m0⟩, ⟨⟨2, ![K, 96]⟩, m1⟩] h (ix2 k ⟨0 + j.val, hj⟩)
      = m0 (ix2 k j) := by
  refine concatenate_apply_piece 1 [⟨⟨2, ![K, 96]⟩, m0⟩, ⟨⟨2, ![K, 96]⟩, m1⟩] h (ix2 k ⟨0 + j.val, hj⟩) 0
    (by show (0 : Nat) < 2; omega) ⟨2, ![K, 96]⟩ m0 rfl rfl 0 rfl (ix2 k j) (fun b hb => ?_) ?_
  · match b with
    | ⟨0, _⟩ => rfl
    | ⟨1, _⟩ => exact absurd rfl hb
  · show 0 + j.val = 0 + j.val; rfl

theorem gru_side2_read1 {K : Nat}
    (h : Shape.Concatenates [(⟨2, ![K, 96]⟩ : Shape), ⟨2, ![K, 96]⟩] ⟨2, ![K, 192]⟩ 1)
    (m0 m1 : (⟨2, ![K, 96]⟩ : Shape).Idx → α) (k : Fin K) (j : Fin 96) (hj : 96 + j.val < 192) :
    concatenate ⟨2, ![K, 192]⟩ 1 [⟨⟨2, ![K, 96]⟩, m0⟩, ⟨⟨2, ![K, 96]⟩, m1⟩] h (ix2 k ⟨96 + j.val, hj⟩)
      = m1 (ix2 k j) := by
  refine concatenate_apply_piece 1 [⟨⟨2, ![K, 96]⟩, m0⟩, ⟨⟨2, ![K, 96]⟩, m1⟩] h (ix2 k ⟨96 + j.val, hj⟩) 1
    (by show (1 : Nat) < 2; omega) ⟨2, ![K, 96]⟩ m1 rfl rfl 96 rfl (ix2 k j) (fun b hb => ?_) ?_
  · match b with
    | ⟨0, _⟩ => rfl
    | ⟨1, _⟩ => exact absurd rfl hb
  · show 96 + j.val = 96 + j.val; rfl

theorem gru_end3_read0
    (h : Shape.Concatenates [(⟨1, ![96]⟩ : Shape), ⟨1, ![96]⟩, ⟨1, ![96]⟩] ⟨1, ![288]⟩ 0)
    (v0 v1 v2 : (⟨1, ![96]⟩ : Shape).Idx → α) (j : Fin 96) (hj : 0 + j.val < 288) :
    concatenate ⟨1, ![288]⟩ 0 [⟨⟨1, ![96]⟩, v0⟩, ⟨⟨1, ![96]⟩, v1⟩, ⟨⟨1, ![96]⟩, v2⟩] h (ix1 ⟨0 + j.val, hj⟩)
      = v0 (ix1 j) := by
  refine concatenate_apply_piece 0 [⟨⟨1, ![96]⟩, v0⟩, ⟨⟨1, ![96]⟩, v1⟩, ⟨⟨1, ![96]⟩, v2⟩] h (ix1 ⟨0 + j.val, hj⟩) 0
    (by show (0 : Nat) < 3; omega) ⟨1, ![96]⟩ v0 rfl rfl 0 rfl (ix1 j) (fun b hb => ?_) ?_
  · match b with
    | ⟨0, _⟩ => exact absurd rfl hb
  · show 0 + j.val = 0 + j.val; rfl

theorem gru_end3_read1
    (h : Shape.Concatenates [(⟨1, ![96]⟩ : Shape), ⟨1, ![96]⟩, ⟨1, ![96]⟩] ⟨1, ![288]⟩ 0)
    (v0 v1 v2 : (⟨1, ![96]⟩ : Shape).Idx → α) (j : Fin 96) (hj : 96 + j.val < 288) :
    concatenate ⟨1, ![288]⟩ 0 [⟨⟨1, ![96]⟩, v0⟩, ⟨⟨1, ![96]⟩, v1⟩, ⟨⟨1, ![96]⟩, v2⟩] h (ix1 ⟨96 + j.val, hj⟩)
      = v1 (ix1 j) := by
  refine concatenate_apply_piece 0 [⟨⟨1, ![96]⟩, v0⟩, ⟨⟨1, ![96]⟩, v1⟩, ⟨⟨1, ![96]⟩, v2⟩] h (ix1 ⟨96 + j.val, hj⟩) 1
    (by show (1 : Nat) < 3; omega) ⟨1, ![96]⟩ v1 rfl rfl 96 rfl (ix1 j) (fun b hb => ?_) ?_
  · match b with
    | ⟨0, _⟩ => exact absurd rfl hb
  · show 96 + j.val = 96 + j.val; rfl

theorem gru_end3_read2
    (h : Shape.Concatenates [(⟨1, ![96]⟩ : Shape), ⟨1, ![96]⟩, ⟨1, ![96]⟩] ⟨1, ![288]⟩ 0)
    (v0 v1 v2 : (⟨1, ![96]⟩ : Shape).Idx → α) (j : Fin 96) (hj : 192 + j.val < 288) :
    concatenate ⟨1, ![288]⟩ 0 [⟨⟨1, ![96]⟩, v0⟩, ⟨⟨1, ![96]⟩, v1⟩, ⟨⟨1, ![96]⟩, v2⟩] h (ix1 ⟨192 + j.val, hj⟩)
      = v2 (ix1 j) := by
  refine concatenate_apply_piece 0 [⟨⟨1, ![96]⟩, v0⟩, ⟨⟨1, ![96]⟩, v1⟩, ⟨⟨1, ![96]⟩, v2⟩] h (ix1 ⟨192 + j.val, hj⟩) 2
    (by show (2 : Nat) < 3; omega) ⟨1, ![96]⟩ v2 rfl rfl 192 rfl (ix1 j) (fun b hb => ?_) ?_
  · match b with
    | ⟨0, _⟩ => exact absurd rfl hb
  · show 192 + j.val = 192 + j.val; rfl

theorem gru_end2_read0
    (h : Shape.Concatenates [(⟨1, ![96]⟩ : Shape), ⟨1, ![96]⟩] ⟨1, ![192]⟩ 0)
    (v0 v1 : (⟨1, ![96]⟩ : Shape).Idx → α) (j : Fin 96) (hj : 0 + j.val < 192) :
    concatenate ⟨1, ![192]⟩ 0 [⟨⟨1, ![96]⟩, v0⟩, ⟨⟨1, ![96]⟩, v1⟩] h (ix1 ⟨0 + j.val, hj⟩)
      = v0 (ix1 j) := by
  refine concatenate_apply_piece 0 [⟨⟨1, ![96]⟩, v0⟩, ⟨⟨1, ![96]⟩, v1⟩] h (ix1 ⟨0 + j.val, hj⟩) 0
    (by show (0 : Nat) < 2; omega) ⟨1, ![96]⟩ v0 rfl rfl 0 rfl (ix1 j) (fun b hb => ?_) ?_
  · match b with
    | ⟨0, _⟩ => exact absurd rfl hb
  · show 0 + j.val = 0 + j.val; rfl

theorem gru_end2_read1
    (h : Shape.Concatenates [(⟨1, ![96]⟩ : Shape), ⟨1, ![96]⟩] ⟨1, ![192]⟩ 0)
    (v0 v1 : (⟨1, ![96]⟩ : Shape).Idx → α) (j : Fin 96) (hj : 96 + j.val < 192) :
    concatenate ⟨1, ![192]⟩ 0 [⟨⟨1, ![96]⟩, v0⟩, ⟨⟨1, ![96]⟩, v1⟩] h (ix1 ⟨96 + j.val, hj⟩)
      = v1 (ix1 j) := by
  refine concatenate_apply_piece 0 [⟨⟨1, ![96]⟩, v0⟩, ⟨⟨1, ![96]⟩, v1⟩] h (ix1 ⟨96 + j.val, hj⟩) 1
    (by show (1 : Nat) < 2; omega) ⟨1, ![96]⟩ v1 rfl rfl 96 rfl (ix1 j) (fun b hb => ?_) ?_
  · match b with
    | ⟨0, _⟩ => exact absurd rfl hb
  · show 96 + j.val = 96 + j.val; rfl

/-! ## One gated step, from its five gate pre-activations

  The step as the kernel groups it: the two gate sums are (a · W + b) + (h · W' + b'), taken from the column bands of
  two wide products, where the specification has ((a · W + b) + h · W') + b'.  Addition on the extended reals is
  associative, so the two agree with no finiteness assumption. -/

/-- The step from the state s, the mask, the last matrix and row, and the five banded pre-activations
    ga0, ga2, ga4 (from a = adj · s) and gh1, gh3 (from s). -/
def gru_core (M : Fin 2048 → EReal) (W5 : Spec.Mat 96 96) (b5 : Fin 96 → EReal)
    (s ga0 ga2 ga4 gh1 gh3 : Spec.Mat 2048 96) : Spec.Mat 2048 96 := fun n j =>
  max (M n * ((ga4 n j + ∑ k : Fin 96, (Ideal.logistic (ga2 n k + gh3 n k) * s n k) * W5 k j) + b5 j)) Spec.zero
      * Ideal.logistic (ga0 n j + gh1 n j)
    + s n j * (Spec.one - Ideal.logistic (ga0 n j + gh1 n j))

/-- With the pre-activations those of the specification, the step is the specification's. -/
theorem gru_core_eq (adj : Spec.Mat 2048 2048) (M : Fin 2048 → EReal) (W : Fin 6 → Spec.Mat 96 96)
    (bs : Fin 6 → Fin 96 → EReal) (s : Spec.Mat 2048 96) :
    gru_core M (W 5) (bs 5) s
        (fun n j => Spec.mm (Spec.mm adj s) (W 0) n j + bs 0 j)
        (fun n j => Spec.mm (Spec.mm adj s) (W 2) n j + bs 2 j)
        (fun n j => Spec.mm (Spec.mm adj s) (W 4) n j + bs 4 j)
        (fun n j => Spec.mm s (W 1) n j + bs 1 j)
        (fun n j => Spec.mm s (W 3) n j + bs 3 j)
      = Spec.stepB adj M W bs s := by
  funext n j
  unfold gru_core Spec.stepB Spec.candB Spec.gateB Spec.relu Spec.sigm
  simp only [add_assoc]
  rfl

/-! ## The two wide products and their column bands -/

/-- gate_a: a · [W₀ | W₂ | W₄] + [b₀ | b₂ | b₄], the row repeated down the 2048 nodes. -/
def gru_GA (v33 : FVec Ideal S96x288 .bf16) (v36 : FVec Ideal S288 .f32) (a : FVec Ideal S2048x96 .f32) :
    FVec Ideal S2048x288 .f32 :=
  addf (matmul dot_S2048x96_S96x288_S2048x288_1_0_0_1_n_n none (truncf .bf16 a bitsLt_bf16_f32) v33
      (constant (F := Ideal) S2048x288 .f32 0x00000000#32))
    (broadcastTo S2048x288 (shapeCast S1x288 v36 shapeCasts_S288_S1x288) broadcasts_S1x288_S2048x288)

/-- gate_h: s · [W₁ | W₃] + [b₁ | b₃]. -/
def gru_GH (v35 : FVec Ideal S96x192 .bf16) (v37 : FVec Ideal S192 .f32) (s : FVec Ideal S2048x96 .f32) :
    FVec Ideal S2048x192 .f32 :=
  addf (matmul dot_S2048x96_S96x192_S2048x192_1_0_0_1_n_n none (truncf .bf16 s bitsLt_bf16_f32) v35
      (constant (F := Ideal) S2048x192 .f32 0x00000000#32))
    (broadcastTo S2048x192 (shapeCast S1x192 v37 shapeCasts_S192_S1x192) broadcasts_S1x192_S2048x192)

/-- The band of gate_a starting at column o, at (n, j): row n of a against column o + j of the wide matrix, plus
    entry o + j of the wide row. -/
theorem gru_GA_band (o : Nat) (h : S2048x288.Slices ![0, o] S2048x96) (v33 : FVec Ideal S96x288 .bf16)
    (v36 : FVec Ideal S288 .f32) (a : FVec Ideal S2048x96 .f32) (n : Fin 2048) (j : Fin 96) (hj : o + j.val < 288) :
    extractStridedSlice S2048x96 ![0, o] (gru_GA v33 v36 a) h (ix2 n j)
      = (∑ k : Fin 96, a (ix2 n k) * v33 (ix2 k ⟨o + j.val, hj⟩)) + v36 (ix1 ⟨o + j.val, hj⟩) := by
  refine (gru_band_read o h (gru_GA v33 v36 a) n j hj).trans ?_
  unfold gru_GA
  exact congrArg₂ (· + ·)
    (Cert.Bridge.matmul_plain_zero_apply 2048 96 288 none (truncf .bf16 a bitsLt_bf16_f32) v33 n ⟨o + j.val, hj⟩)
    (gru_down_read (by decide) shapeCasts_S288_S1x288 broadcasts_S1x288_S2048x288 v36 n ⟨o + j.val, hj⟩)

/-- The band of gate_h starting at column o, at (n, j). -/
theorem gru_GH_band (o : Nat) (h : S2048x192.Slices ![0, o] S2048x96) (v35 : FVec Ideal S96x192 .bf16)
    (v37 : FVec Ideal S192 .f32) (s : FVec Ideal S2048x96 .f32) (n : Fin 2048) (j : Fin 96) (hj : o + j.val < 192) :
    extractStridedSlice S2048x96 ![0, o] (gru_GH v35 v37 s) h (ix2 n j)
      = (∑ k : Fin 96, s (ix2 n k) * v35 (ix2 k ⟨o + j.val, hj⟩)) + v37 (ix1 ⟨o + j.val, hj⟩) := by
  refine (gru_band_read o h (gru_GH v35 v37 s) n j hj).trans ?_
  unfold gru_GH
  exact congrArg₂ (· + ·)
    (Cert.Bridge.matmul_plain_zero_apply 2048 96 192 none (truncf .bf16 s bitsLt_bf16_f32) v35 n ⟨o + j.val, hj⟩)
    (gru_down_read (by decide) shapeCasts_S192_S1x192 broadcasts_S1x192_S2048x192 v37 n ⟨o + j.val, hj⟩)

/-- a = adj · s: the product over the 2048 nodes, at (n, k). -/
theorem gru_prop_read (v41 : FVec Ideal S2048x2048 .bf16) (s : FVec Ideal S2048x96 .f32) (n : Fin 2048) (k : Fin 96) :
    matmul dot_S2048x2048_S2048x96_S2048x96_1_0_0_1_n_n none v41 (truncf .bf16 s bitsLt_bf16_f32)
        (constant (F := Ideal) S2048x96 .f32 0x00000000#32) (ix2 n k)
      = ∑ m : Fin 2048, v41 (ix2 n m) * s (ix2 m k) :=
  Cert.Bridge.matmul_plain_zero_apply 2048 2048 96 none v41 (truncf .bf16 s bitsLt_bf16_f32) n k

/-! ## The step from the assembled weights -/

/-- The assembled operands of a step hold the branch's mask column M, matrices W 0 … W 5 and rows bs 0 … bs 5: the wide
    matrix [96, 288] is W 0, W 2, W 4 side by side, the wide matrix [96, 192] is W 1, W 3, and the wide rows likewise. -/
structure gru_Wts (M : Fin 2048 → EReal) (W : Fin 6 → Spec.Mat 96 96) (bs : Fin 6 → Fin 96 → EReal)
    (v3 : FVec Ideal S2048x1 .f32) (v31 : FVec Ideal S96 .f32) (v33 : FVec Ideal S96x288 .bf16)
    (v35 : FVec Ideal S96x192 .bf16) (v36 : FVec Ideal S288 .f32) (v37 : FVec Ideal S192 .f32)
    (v38 : FVec Ideal S96x96 .bf16) : Prop where
  mask : ∀ p : Fin 2048, v3 (ix2 p (0 : Fin 1)) = M p
  b5 : ∀ q : Fin 96, v31 (ix1 q) = bs 5 q
  w5 : ∀ (k q : Fin 96), v38 (ix2 k q) = W 5 k q
  w0 : ∀ (k q : Fin 96) (hq : 0 + q.val < 288), v33 (ix2 k ⟨0 + q.val, hq⟩) = W 0 k q
  w2 : ∀ (k q : Fin 96) (hq : 96 + q.val < 288), v33 (ix2 k ⟨96 + q.val, hq⟩) = W 2 k q
  w4 : ∀ (k q : Fin 96) (hq : 192 + q.val < 288), v33 (ix2 k ⟨192 + q.val, hq⟩) = W 4 k q
  w1 : ∀ (k q : Fin 96) (hq : 0 + q.val < 192), v35 (ix2 k ⟨0 + q.val, hq⟩) = W 1 k q
  w3 : ∀ (k q : Fin 96) (hq : 96 + q.val < 192), v35 (ix2 k ⟨96 + q.val, hq⟩) = W 3 k q
  b0 : ∀ (q : Fin 96) (hq : 0 + q.val < 288), v36 (ix1 ⟨0 + q.val, hq⟩) = bs 0 q
  b2 : ∀ (q : Fin 96) (hq : 96 + q.val < 288), v36 (ix1 ⟨96 + q.val, hq⟩) = bs 2 q
  b4 : ∀ (q : Fin 96) (hq : 192 + q.val < 288), v36 (ix1 ⟨192 + q.val, hq⟩) = bs 4 q
  b1 : ∀ (q : Fin 96) (hq : 0 + q.val < 192), v37 (ix1 ⟨0 + q.val, hq⟩) = bs 1 q
  b3 : ∀ (q : Fin 96) (hq : 96 + q.val < 192), v37 (ix1 ⟨96 + q.val, hq⟩) = bs 3 q

/-- One step read off the five bands of the two wide products is the specification's step from the same state. -/
theorem gru_step_of_bands {M : Fin 2048 → EReal} {W : Fin 6 → Spec.Mat 96 96} {bs : Fin 6 → Fin 96 → EReal}
    {v3 : FVec Ideal S2048x1 .f32} {v31 : FVec Ideal S96 .f32} {v33 : FVec Ideal S96x288 .bf16}
    {v35 : FVec Ideal S96x192 .bf16} {v36 : FVec Ideal S288 .f32} {v37 : FVec Ideal S192 .f32}
    {v38 : FVec Ideal S96x96 .bf16} (hW : gru_Wts M W bs v3 v31 v33 v35 v36 v37 v38)
    (adj : Spec.Mat 2048 2048) (s a : FVec Ideal S2048x96 .f32)
    (ha : ∀ (p : Fin 2048) (k : Fin 96), a (ix2 p k) = ∑ m : Fin 2048, adj p m * s (ix2 m k))
    (h0 : S2048x288.Slices ![0, 0] S2048x96) (h96 : S2048x288.Slices ![0, 96] S2048x96)
    (h192 : S2048x288.Slices ![0, 192] S2048x96) (g0 : S2048x192.Slices ![0, 0] S2048x96)
    (g96 : S2048x192.Slices ![0, 96] S2048x96) :
    gru_core (fun p => v3 (ix2 p (0 : Fin 1))) (fun k q => v38 (ix2 k q)) (fun q => v31 (ix1 q)) (fun p q => s (ix2 p q))
        (fun p q => extractStridedSlice S2048x96 ![0, 0] (gru_GA v33 v36 a) h0 (ix2 p q))
        (fun p q => extractStridedSlice S2048x96 ![0, 96] (gru_GA v33 v36 a) h96 (ix2 p q))
        (fun p q => extractStridedSlice S2048x96 ![0, 192] (gru_GA v33 v36 a) h192 (ix2 p q))
        (fun p q => extractStridedSlice S2048x96 ![0, 0] (gru_GH v35 v37 s) g0 (ix2 p q))
        (fun p q => extractStridedSlice S2048x96 ![0, 96] (gru_GH v35 v37 s) g96 (ix2 p q))
      = Spec.stepB adj M W bs (fun p q => s (ix2 p q)) := by
  have e3 : (fun p => v3 (ix2 p (0 : Fin 1))) = M := funext hW.mask
  have e38 : (fun k q => v38 (ix2 k q)) = W 5 := funext fun k => funext fun q => hW.w5 k q
  have e31 : (fun q => v31 (ix1 q)) = bs 5 := funext hW.b5
  have ha' : ∀ (p : Fin 2048) (k : Fin 96), a (ix2 p k) = Spec.mm adj (fun p q => s (ix2 p q)) p k := ha
  have eA0 : (fun p q => extractStridedSlice S2048x96 ![0, 0] (gru_GA v33 v36 a) h0 (ix2 p q))
      = fun n j => Spec.mm (Spec.mm adj (fun p q => s (ix2 p q))) (W 0) n j + bs 0 j :=
    funext fun p => funext fun q =>
      (gru_GA_band 0 h0 v33 v36 a p q (by have := q.isLt; omega)).trans
        (congrArg₂ (· + ·) (Finset.sum_congr rfl fun k _ => congrArg₂ (· * ·) (ha' p k) (hW.w0 k q _)) (hW.b0 q _))
  have eA2 : (fun p q => extractStridedSlice S2048x96 ![0, 96] (gru_GA v33 v36 a) h96 (ix2 p q))
      = fun n j => Spec.mm (Spec.mm adj (fun p q => s (ix2 p q))) (W 2) n j + bs 2 j :=
    funext fun p => funext fun q =>
      (gru_GA_band 96 h96 v33 v36 a p q (by have := q.isLt; omega)).trans
        (congrArg₂ (· + ·) (Finset.sum_congr rfl fun k _ => congrArg₂ (· * ·) (ha' p k) (hW.w2 k q _)) (hW.b2 q _))
  have eA4 : (fun p q => extractStridedSlice S2048x96 ![0, 192] (gru_GA v33 v36 a) h192 (ix2 p q))
      = fun n j => Spec.mm (Spec.mm adj (fun p q => s (ix2 p q))) (W 4) n j + bs 4 j :=
    funext fun p => funext fun q =>
      (gru_GA_band 192 h192 v33 v36 a p q (by have := q.isLt; omega)).trans
        (congrArg₂ (· + ·) (Finset.sum_congr rfl fun k _ => congrArg₂ (· * ·) (ha' p k) (hW.w4 k q _)) (hW.b4 q _))
  have eH1 : (fun p q => extractStridedSlice S2048x96 ![0, 0] (gru_GH v35 v37 s) g0 (ix2 p q))
      = fun n j => Spec.mm (fun p q => s (ix2 p q)) (W 1) n j + bs 1 j :=
    funext fun p => funext fun q =>
      (gru_GH_band 0 g0 v35 v37 s p q (by have := q.isLt; omega)).trans
        (congrArg₂ (· + ·) (Finset.sum_congr rfl fun k _ => congrArg (s (ix2 p k) * ·) (hW.w1 k q _)) (hW.b1 q _))
  have eH3 : (fun p q => extractStridedSlice S2048x96 ![0, 96] (gru_GH v35 v37 s) g96 (ix2 p q))
      = fun n j => Spec.mm (fun p q => s (ix2 p q)) (W 3) n j + bs 3 j :=
    funext fun p => funext fun q =>
      (gru_GH_band 96 g96 v35 v37 s p q (by have := q.isLt; omega)).trans
        (congrArg₂ (· + ·) (Finset.sum_congr rfl fun k _ => congrArg (s (ix2 p k) * ·) (hW.w3 k q _)) (hW.b3 q _))
  rw [e3, e38, e31, eA0, eA2, eA4, eH1, eH3]
  exact gru_core_eq adj M W bs (fun p q => s (ix2 p q))

end Cert.KernelIdeal.Val

end
-- ==== Proof.K.Gru1Pay.lean ====
/-
  Region 1: what the body leaves in its output block.

  The body reads the block's state h [2048, 96], adjacency slab [2048, 2048], mask column, six matrices and six rows, and
  applies the gated propagation step twice.  Each step forms a = adj · h, the wide products a · [W₀ | W₂ | W₄] + [b₀ | b₂ | b₄]
  and h · [W₁ | W₃] + [b₁ | b₃], takes their column bands of width 96, and from them
      z = σ(band₀ + band₁'),  r = σ(band₂ + band₃'),  h̃ = max(mask · ((band₄ + (r ∘ h) · W₅) + b₅), 0),  h' = h̃ ∘ z + h ∘ (1 − z).
  The first step's state is, term for term, the end of a step applied to those bands, so one reading of the end of a step
  serves both; the bands are the specification's pre-activations because the wide matrices and rows are the six matrices
  and rows laid side by side; and the two groupings of a gate's sum agree by associativity of addition on the extended
  reals.  Hence the block at (0, n, j) is two steps of the specification from the entry state.
-/
import proofs.«106044_j70463233458716_2_alg».proof.Proof.Gen.KernelIdeal.Frame
import proofs.«106044_j70463233458716_2_alg».proof.Proof.Spec
import proofs.«106044_j70463233458716_2_alg».proof.Proof.LibMatmulRows
import proofs.«106044_j70463233458716_2_alg».proof.Proof.LibRowReads
import proofs.«106044_j70463233458716_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import proofs.«106044_j70463233458716_2_alg».proof.Proof.K.GruOps

set_option maxRecDepth 16384

noncomputable section

namespace Cert.KernelIdeal.Val

open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

/-- The end of a step, from the state and the five bands: the stored block at (0, n, j). -/
theorem gru1_tail (v3 : FVec Ideal S2048x1 .f32) (v31 : FVec Ideal S96 .f32) (v38 : FVec Ideal S96x96 .bf16)
    (v78 v91 v92 v93 v94 v95 : FVec Ideal S2048x96 .f32) (n : Fin 2048) (j : Fin 96) :
    k1_pay1 (F := Ideal) v3 v31 v38 v78 v91 v92 v93 v94 v95 (ix3 (0 : Fin 1) n j)
      = gru_core (fun p => v3 (ix2 p (0 : Fin 1))) (fun k q => v38 (ix2 k q)) (fun q => v31 (ix1 q))
          (fun p q => v78 (ix2 p q)) (fun p q => v91 (ix2 p q)) (fun p q => v92 (ix2 p q))
          (fun p q => v93 (ix2 p q)) (fun p q => v94 (ix2 p q)) (fun p q => v95 (ix2 p q)) n j := by
  unfold k1_pay1
  refine (gru_block_read _ _ n j).trans ?_
  have eM : broadcastTo S2048x96 v3 broadcasts_S2048x1_S2048x96 (ix2 n j) = v3 (ix2 n (0 : Fin 1)) :=
    Cert.Lib.Keepdims.broadcastTo_a1_ab_apply v3 _ n j
  have eB : broadcastTo S2048x96 (shapeCast S1x96 v31 shapeCasts_S96_S1x96) broadcasts_S1x96_S2048x96 (ix2 n j) = v31 (ix1 j) :=
    gru_down_read (by decide) _ _ v31 n j
  have eP : matmul dot_S2048x96_S96x96_S2048x96_1_0_0_1_n_n none
        (truncf .bf16 (mulf (logistic (addf v92 v95)) v78) bitsLt_bf16_f32) v38
        (constant (F := Ideal) S2048x96 .f32 0x00000000#32) (ix2 n j)
      = ∑ k : Fin 96, (Ideal.logistic (v92 (ix2 n k) + v95 (ix2 n k)) * v78 (ix2 n k)) * v38 (ix2 k j) :=
    Cert.Bridge.matmul_plain_zero_apply 2048 96 96 none _ v38 n j
  unfold gru_core
  exact congrArg₂ (· + ·)
    (congrArg (· * Ideal.logistic (v91 (ix2 n j) + v94 (ix2 n j)))
      (congrArg (max · Spec.zero)
        (congrArg₂ (· * ·) eM (congrArg₂ (· + ·) (congrArg (v93 (ix2 n j) + ·) eP) eB))))
    rfl

/-! ## The assembled operands hold the branch's mask, matrices and rows -/

theorem gru1_wts (x2 : Vec Ideal S1x2048x1 .f32) (x3 : Vec Ideal S6x96x96 .f32) (x4 : Vec Ideal S6x96 .f32) :
    gru_Wts (Spec.col x2 0) (Spec.slab x3) (Spec.row x4) (k1_pay3 (F := Ideal) x2) (k1_pay6 (F := Ideal) x4)
      (k1_pay7 (F := Ideal) x3) (k1_pay8 (F := Ideal) x3) (k1_pay9 (F := Ideal) x4) (k1_pay10 (F := Ideal) x4)
      (k1_pay11 (F := Ideal) x3) where
  mask p := by unfold k1_pay3; exact gru_unblock_read _ x2 p 0
  b5 q := by
    unfold k1_pay6 k1_pay5
    exact (Cert.LibRowReads.row_read 5 (by omega) _ _ _ q).trans (congrFun (shapeCast_self x4 _) _)
  w5 k q := by
    unfold k1_pay11 k1_pay4
    refine (truncf_apply _ bitsLt_bf16_f32 _).trans ?_
    exact (Cert.LibRowReads.slab_read 5 (by omega) _ _ _ k q).trans (congrFun (shapeCast_self x3 _) _)
  w0 k q hq := by
    unfold k1_pay7 k1_pay4
    refine (truncf_apply _ bitsLt_bf16_f32 _).trans ?_
    exact (gru_side3_read0 _ _ _ _ k q hq).trans
      ((Cert.LibRowReads.slab_read 0 (by omega) _ _ _ k q).trans (congrFun (shapeCast_self x3 _) _))
  w2 k q hq := by
    unfold k1_pay7 k1_pay4
    refine (truncf_apply _ bitsLt_bf16_f32 _).trans ?_
    exact (gru_side3_read1 _ _ _ _ k q hq).trans
      ((Cert.LibRowReads.slab_read 2 (by omega) _ _ _ k q).trans (congrFun (shapeCast_self x3 _) _))
  w4 k q hq := by
    unfold k1_pay7 k1_pay4
    refine (truncf_apply _ bitsLt_bf16_f32 _).trans ?_
    exact (gru_side3_read2 _ _ _ _ k q hq).trans
      ((Cert.LibRowReads.slab_read 4 (by omega) _ _ _ k q).trans (congrFun (shapeCast_self x3 _) _))
  w1 k q hq := by
    unfold k1_pay8 k1_pay4
    refine (truncf_apply _ bitsLt_bf16_f32 _).trans ?_
    exact (gru_side2_read0 _ _ _ k q hq).trans
      ((Cert.LibRowReads.slab_read 1 (by omega) _ _ _ k q).trans (congrFun (shapeCast_self x3 _) _))
  w3 k q hq := by
    unfold k1_pay8 k1_pay4
    refine (truncf_apply _ bitsLt_bf16_f32 _).trans ?_
    exact (gru_side2_read1 _ _ _ k q hq).trans
      ((Cert.LibRowReads.slab_read 3 (by omega) _ _ _ k q).trans (congrFun (shapeCast_self x3 _) _))
  b0 q hq := by
    unfold k1_pay9 k1_pay5
    exact (gru_end3_read0 _ _ _ _ q hq).trans
      ((Cert.LibRowReads.row_read 0 (by omega) _ _ _ q).trans (congrFun (shapeCast_self x4 _) _))
  b2 q hq := by
    unfold k1_pay9 k1_pay5
    exact (gru_end3_read1 _ _ _ _ q hq).trans
      ((Cert.LibRowReads.row_read 2 (by omega) _ _ _ q).trans (congrFun (shapeCast_self x4 _) _))
  b4 q hq := by
    unfold k1_pay9 k1_pay5
    exact (gru_end3_read2 _ _ _ _ q hq).trans
      ((Cert.LibRowReads.row_read 4 (by omega) _ _ _ q).trans (congrFun (shapeCast_self x4 _) _))
  b1 q hq := by
    unfold k1_pay10 k1_pay5
    exact (gru_end2_read0 _ _ _ q hq).trans
      ((Cert.LibRowReads.row_read 1 (by omega) _ _ _ q).trans (congrFun (shapeCast_self x4 _) _))
  b3 q hq := by
    unfold k1_pay10 k1_pay5
    exact (gru_end2_read1 _ _ _ q hq).trans
      ((Cert.LibRowReads.row_read 3 (by omega) _ _ _ q).trans (congrFun (shapeCast_self x4 _) _))

/-! ## The two steps -/

section steps
variable {M : Fin 2048 → EReal} {W : Fin 6 → Spec.Mat 96 96} {bs : Fin 6 → Fin 96 → EReal}
  {v3 : FVec Ideal S2048x1 .f32} {v31 : FVec Ideal S96 .f32} {v33 : FVec Ideal S96x288 .bf16}
  {v35 : FVec Ideal S96x192 .bf16} {v36 : FVec Ideal S288 .f32} {v37 : FVec Ideal S192 .f32}
  {v38 : FVec Ideal S96x96 .bf16}

/-- The first step's state is the end of a step applied to the bands of the two wide products. -/
theorem gru1_first (v1 : FVec Ideal S2048x96 .f32) (v3 : FVec Ideal S2048x1 .f32) (v31 : FVec Ideal S96 .f32)
    (v33 : FVec Ideal S96x288 .bf16) (v35 : FVec Ideal S96x192 .bf16) (v36 : FVec Ideal S288 .f32)
    (v37 : FVec Ideal S192 .f32) (v38 : FVec Ideal S96x96 .bf16) (v43 : FVec Ideal S2048x96 .f32)
    (n : Fin 2048) (j : Fin 96) :
    k1_pay14 (F := Ideal) v1 v3 v31 v33 v35 v36 v37 v38 v43 (ix2 n j)
      = k1_pay1 (F := Ideal) v3 v31 v38 v1
          (extractStridedSlice S2048x96 ![0, 0] (gru_GA v33 v36 v43) slices_S2048x288_o0_0_S2048x96)
          (extractStridedSlice S2048x96 ![0, 96] (gru_GA v33 v36 v43) slices_S2048x288_o0_96_S2048x96)
          (extractStridedSlice S2048x96 ![0, 192] (gru_GA v33 v36 v43) slices_S2048x288_o0_192_S2048x96)
          (extractStridedSlice S2048x96 ![0, 0] (gru_GH v35 v37 v1) slices_S2048x192_o0_0_S2048x96)
          (extractStridedSlice S2048x96 ![0, 96] (gru_GH v35 v37 v1) slices_S2048x192_o0_96_S2048x96)
          (ix3 (0 : Fin 1) n j) := by
  unfold k1_pay14 k1_pay1 gru_GA gru_GH
  exact (gru_block_read _ _ n j).symm

/-- Step 1: the state after it is the specification's step from the entry state. -/
theorem gru1_step1 (hW : gru_Wts M W bs v3 v31 v33 v35 v36 v37 v38) (adj : Spec.Mat 2048 2048)
    (v1 v43 : FVec Ideal S2048x96 .f32)
    (ha : ∀ (p : Fin 2048) (k : Fin 96), v43 (ix2 p k) = ∑ m : Fin 2048, adj p m * v1 (ix2 m k))
    (n : Fin 2048) (j : Fin 96) :
    k1_pay14 (F := Ideal) v1 v3 v31 v33 v35 v36 v37 v38 v43 (ix2 n j)
      = Spec.stepB adj M W bs (fun p q => v1 (ix2 p q)) n j :=
  (gru1_first v1 v3 v31 v33 v35 v36 v37 v38 v43 n j).trans
    ((gru1_tail v3 v31 v38 v1 _ _ _ _ _ n j).trans
      (congrFun (congrFun (gru_step_of_bands hW adj v1 v43 ha _ _ _ _ _) n) j))

/-- Step 2: the stored block is the specification's step from the state after step 1. -/
theorem gru1_step2 (hW : gru_Wts M W bs v3 v31 v33 v35 v36 v37 v38) (adj : Spec.Mat 2048 2048)
    (v41 : FVec Ideal S2048x2048 .bf16) (h41 : ∀ p m : Fin 2048, v41 (ix2 p m) = adj p m)
    (v1 v43 : FVec Ideal S2048x96 .f32) (n : Fin 2048) (j : Fin 96) :
    k1_pay1 (F := Ideal) v3 v31 v38 (k1_pay14 v1 v3 v31 v33 v35 v36 v37 v38 v43)
        (k1_pay17 v1 v3 v31 v33 v35 v36 v37 v38 v41 v43) (k1_pay18 v1 v3 v31 v33 v35 v36 v37 v38 v41 v43)
        (k1_pay19 v1 v3 v31 v33 v35 v36 v37 v38 v41 v43) (k1_pay20 v1 v3 v31 v33 v35 v36 v37 v38 v43)
        (k1_pay21 v1 v3 v31 v33 v35 v36 v37 v38 v43) (ix3 (0 : Fin 1) n j)
      = Spec.stepB adj M W bs (fun p q => k1_pay14 (F := Ideal) v1 v3 v31 v33 v35 v36 v37 v38 v43 (ix2 p q)) n j := by
  refine (gru1_tail v3 v31 v38 _ _ _ _ _ _ n j).trans ?_
  exact congrFun (congrFun (gru_step_of_bands hW adj (k1_pay14 (F := Ideal) v1 v3 v31 v33 v35 v36 v37 v38 v43)
    (matmul dot_S2048x2048_S2048x96_S2048x96_1_0_0_1_n_n none v41
      (truncf .bf16 (k1_pay14 (F := Ideal) v1 v3 v31 v33 v35 v36 v37 v38 v43) bitsLt_bf16_f32)
      (constant (F := Ideal) S2048x96 .f32 0x00000000#32))
    (fun p k => (gru_prop_read v41 _ p k).trans
      (Finset.sum_congr rfl fun m _ => congrArg (· * k1_pay14 (F := Ideal) v1 v3 v31 v33 v35 v36 v37 v38 v43 (ix2 m k)) (h41 p m)))
    slices_S2048x288_o0_0_S2048x96 slices_S2048x288_o0_96_S2048x96 slices_S2048x288_o0_192_S2048x96
    slices_S2048x192_o0_0_S2048x96 slices_S2048x192_o0_96_S2048x96) n) j

end steps

/-! ## The stored block -/

theorem gru1_hz3 : (![0, 0, 0] : Fin 3 → Nat) = fun _ => 0 := funext fun a => by fin_cases a <;> rfl
theorem gru1_hz2 : (![0, 0] : Fin 2 → Nat) = fun _ => 0 := funext fun a => by fin_cases a <;> rfl

/-- What the body leaves in the output block, at (0, n, j): two steps of the specification from the entry state,
    with the block's adjacency slab, mask column, six matrices and six rows. -/
theorem gru1_pay (x0 : Vec Ideal S1x2048x96 .f32) (x1 : Vec Ideal S1x2048x2048 .f32) (x2 : Vec Ideal S1x2048x1 .f32)
    (x3 : Vec Ideal S6x96x96 .f32) (x4 : Vec Ideal S6x96 .f32) (n : Fin 2048) (j : Fin 96) :
    out1_5 (F := Ideal) x0 x1 x2 x3 x4 (ix3 0 n j)
      = Spec.gruB (Spec.slab x1 0) (Spec.col x2 0) (Spec.slab x3) (Spec.row x4) (Spec.slab x0 0) n j := by
  unfold out1_5
  rw [View.canon_unit_zero (S := S1x2048x96) gru1_hz3]
  simp only [View.ld_unit_zero (S := S1x2048x96) gru1_hz3, View.ld_unit_zero (S := S1x2048x2048) gru1_hz3,
    View.ld_unit_zero (S := S1x2048x1) gru1_hz3, View.ld_unit_zero (S := S6x96x96) gru1_hz3,
    View.ld_unit_zero (S := S6x96) gru1_hz2]
  have hW := gru1_wts x2 x3 x4
  have h41 : ∀ p m : Fin 2048, k1_pay12 (F := Ideal) x1 (ix2 p m) = Spec.slab x1 0 p m := fun p m => by
    unfold k1_pay12; exact gru_unblock_read _ x1 p m
  have e0 : (fun p q => k1_pay2 (F := Ideal) x0 (ix2 p q)) = Spec.slab x0 0 :=
    funext fun p => funext fun q => by unfold k1_pay2; exact gru_unblock_read _ x0 p q
  have ha : ∀ (p : Fin 2048) (k : Fin 96), k1_pay13 (F := Ideal) x0 x1 (ix2 p k)
      = ∑ m : Fin 2048, Spec.slab x1 0 p m * k1_pay2 (F := Ideal) x0 (ix2 m k) := fun p k => by
    unfold k1_pay13
    exact (gru_prop_read (k1_pay12 x1) (k1_pay2 x0) p k).trans
      (Finset.sum_congr rfl fun m _ => congrArg (· * k1_pay2 (F := Ideal) x0 (ix2 m k)) (h41 p m))
  refine (gru1_step2 hW (Spec.slab x1 0) (k1_pay12 x1) h41 (k1_pay2 x0) (k1_pay13 x0 x1) n j).trans ?_
  have eS : (fun p q => k1_pay14 (F := Ideal) (k1_pay2 x0) (k1_pay3 x2) (k1_pay6 x4) (k1_pay7 x3) (k1_pay8 x3)
        (k1_pay9 x4) (k1_pay10 x4) (k1_pay11 x3) (k1_pay13 x0 x1) (ix2 p q))
      = Spec.stepB (Spec.slab x1 0) (Spec.col x2 0) (Spec.slab x3) (Spec.row x4) (Spec.slab x0 0) :=
    funext fun p => funext fun q =>
      (gru1_step1 hW (Spec.slab x1 0) (k1_pay2 x0) (k1_pay13 x0 x1) ha p q).trans (by rw [e0])
  rw [eS]
  rfl

end Cert.KernelIdeal.Val

end
-- ==== Proof.K.Gru1.lean ====
/-
  Step region 1: its output array after the region is two gated propagation steps of the arrays it finds.

  The grid has one point per batch entry.  At point t the state, adjacency and mask windows stage slab t of their
  arrays (rows 0 … 2047, every column), the two weight windows stage their whole arrays at every point, and the body
  leaves in the output window's buffer the two-step function of those blocks (Gru1Pay.lean).  So point t writes back
  slab t of Spec.gru of the arrays, the eight slabs tile the output array, and the array ends holding Spec.gru.
-/
import proofs.«106044_j70463233458716_2_alg».proof.Proof.Gen.KernelIdeal.Frame
import proofs.«106044_j70463233458716_2_alg».proof.Proof.Spec
import proofs.«106044_j70463233458716_2_alg».proof.Proof.K.Gru1Pay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps over the grid: the state, adjacency, mask and output blocks of point t are slab t; the
    weight blocks are the whole arrays. -/
theorem gru1_idx : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = 0 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0) :=
  (by decide +kernel : ∀ t : Fin grid1.N, _)

/-- The batch entry of a grid point. -/
def gru1_entry (t : Fin cfg1.N) : Fin 8 := ⟨t.val, by have h : t.val < cfg1.N := t.isLt; have e : cfg1.N = 8 := N_1; omega⟩

/-! ## The blocks of a point are the slabs of its batch entry -/

theorem gru1_blk_h (c : Dev nD) (t : Fin cfg1.N) (n : Fin 2048) (k : Fin 96) :
    (iblk1 V c 0 t : Vec Ideal S1x2048x96 .f32) (ix3 0 n k) = V c main_v0_0 (ix3 (gru1_entry t) n k) := by
  obtain ⟨⟨e0, e1, e2⟩, -⟩ := gru1_idx t
  unfold iblk1
  rw [View.read_apply]
  show V c main_v0_0 _ = V c main_v0_0 _
  refine congrArg (V c main_v0_0) (funext fun a => Fin.ext ?_)
  match a with
  | ⟨0, _⟩ => show win1_0.index t (0 : Fin 3) * 1 + 1 * 0 = t.val; omega
  | ⟨1, _⟩ => show win1_0.index t (1 : Fin 3) * 2048 + 1 * n.val = n.val; omega
  | ⟨2, _⟩ => show win1_0.index t (2 : Fin 3) * 96 + 1 * k.val = k.val; omega

theorem gru1_blk_adj (c : Dev nD) (t : Fin cfg1.N) (n : Fin 2048) (k : Fin 2048) :
    (iblk1 V c 1 t : Vec Ideal S1x2048x2048 .f32) (ix3 0 n k) = V c main_arg1 (ix3 (gru1_entry t) n k) := by
  obtain ⟨-, ⟨e0, e1, e2⟩, -⟩ := gru1_idx t
  unfold iblk1
  rw [View.read_apply]
  show V c main_arg1 _ = V c main_arg1 _
  refine congrArg (V c main_arg1) (funext fun a => Fin.ext ?_)
  match a with
  | ⟨0, _⟩ => show win1_1.index t (0 : Fin 3) * 1 + 1 * 0 = t.val; omega
  | ⟨1, _⟩ => show win1_1.index t (1 : Fin 3) * 2048 + 1 * n.val = n.val; omega
  | ⟨2, _⟩ => show win1_1.index t (2 : Fin 3) * 2048 + 1 * k.val = k.val; omega

theorem gru1_blk_mask (c : Dev nD) (t : Fin cfg1.N) (n : Fin 2048) :
    (iblk1 V c 2 t : Vec Ideal S1x2048x1 .f32) (ix3 0 n 0) = V c main_arg4 (ix3 (gru1_entry t) n 0) := by
  obtain ⟨-, -, ⟨e0, e1, e2⟩, -⟩ := gru1_idx t
  unfold iblk1
  rw [View.read_apply]
  show V c main_arg4 _ = V c main_arg4 _
  refine congrArg (V c main_arg4) (funext fun a => Fin.ext ?_)
  match a with
  | ⟨0, _⟩ => show win1_2.index t (0 : Fin 3) * 1 + 1 * 0 = t.val; omega
  | ⟨1, _⟩ => show win1_2.index t (1 : Fin 3) * 2048 + 1 * n.val = n.val; omega
  | ⟨2, _⟩ => show win1_2.index t (2 : Fin 3) * 1 + 1 * 0 = 0; omega

theorem gru1_blk_W (c : Dev nD) (t : Fin cfg1.N) (p : Fin 6) (k : Fin 96) (j : Fin 96) :
    (iblk1 V c 3 t : Vec Ideal S6x96x96 .f32) (ix3 p k j) = V c main_v2 (ix3 p k j) := by
  obtain ⟨-, -, -, ⟨e0, e1, e2⟩, -⟩ := gru1_idx t
  unfold iblk1
  rw [View.read_apply]
  show V c main_v2 _ = V c main_v2 _
  refine congrArg (V c main_v2) (funext fun a => Fin.ext ?_)
  match a with
  | ⟨0, _⟩ => show win1_3.index t (0 : Fin 3) * 6 + 1 * p.val = p.val; omega
  | ⟨1, _⟩ => show win1_3.index t (1 : Fin 3) * 96 + 1 * k.val = k.val; omega
  | ⟨2, _⟩ => show win1_3.index t (2 : Fin 3) * 96 + 1 * j.val = j.val; omega

theorem gru1_blk_b (c : Dev nD) (t : Fin cfg1.N) (p : Fin 6) (j : Fin 96) :
    (iblk1 V c 4 t : Vec Ideal S6x96 .f32) (ix2 p j) = V c main_v4 (ix2 p j) := by
  obtain ⟨-, -, -, -, ⟨e0, e1⟩, -⟩ := gru1_idx t
  unfold iblk1
  rw [View.read_apply]
  show V c main_v4 _ = V c main_v4 _
  refine congrArg (V c main_v4) (funext fun a => Fin.ext ?_)
  match a with
  | ⟨0, _⟩ => show win1_4.index t (0 : Fin 2) * 6 + 1 * p.val = p.val; omega
  | ⟨1, _⟩ => show win1_4.index t (1 : Fin 2) * 96 + 1 * j.val = j.val; omega

/-! ## What a point writes back, and the array after the region -/

/-- Point t writes back slab t of the two-step function of the arrays the region finds. -/
theorem gru1_flushed (c : Dev nD) (t : Fin cfg1.N) :
    (dat1 (F := Ideal) V c).flushed 5 t = ((cfg1.win 5).blk t).view.read (Elt Ideal)
      (Spec.gru (V c main_v0_0) (V c main_arg1) (V c main_arg4) (V c main_v2) (V c main_v4)) := by
  show (cfg1.win 5).cut (grid1.coords t) ((dat1 V c).after 5 t) = _
  rw [after1_5]
  refine funext fun (y : S1x2048x96.Idx) => ?_
  obtain ⟨u, n, j, rfl⟩ : ∃ (u : Fin 1) (n : Fin 2048) (j : Fin 96), y = ix3 u n j := ⟨y 0, y 1, y 2, eq_ix3 y⟩
  obtain rfl : u = 0 := Subsingleton.elim _ _
  have hemb : ((cfg1.win 5).blk t).view.emb (ix3 (0 : Fin 1) n j) = ix3 (gru1_entry t) n j := by
    obtain ⟨-, -, -, -, -, ⟨e0, e1, e2⟩⟩ := gru1_idx t
    refine funext fun a => Fin.ext ?_
    match a with
    | ⟨0, _⟩ => show win1_5.index t (0 : Fin 3) * 1 + 1 * 0 = t.val; omega
    | ⟨1, _⟩ => show win1_5.index t (1 : Fin 3) * 2048 + 1 * n.val = n.val; omega
    | ⟨2, _⟩ => show win1_5.index t (2 : Fin 3) * 96 + 1 * j.val = j.val; omega
  refine (gru1_pay (iblk1 V c 0 t) (iblk1 V c 1 t) (iblk1 V c 2 t) (iblk1 V c 3 t) (iblk1 V c 4 t) n j).trans ?_
  rw [View.read_apply, hemb]
  show _ = Spec.gruB (Spec.slab (V c main_arg1) (gru1_entry t)) (Spec.col (V c main_arg4) (gru1_entry t)) (Spec.slab (V c main_v2)) (Spec.row (V c main_v4))
    (Spec.slab (V c main_v0_0) (gru1_entry t)) n j
  have h1 : Spec.slab (iblk1 V c 1 t : Vec Ideal S1x2048x2048 .f32) 0 = Spec.slab (V c main_arg1) (gru1_entry t) :=
    funext fun n => funext fun k => gru1_blk_adj V c t n k
  have h2 : Spec.col (iblk1 V c 2 t : Vec Ideal S1x2048x1 .f32) 0 = Spec.col (V c main_arg4) (gru1_entry t) :=
    funext fun n => gru1_blk_mask V c t n
  have h3 : Spec.slab (iblk1 V c 3 t : Vec Ideal S6x96x96 .f32) = Spec.slab (V c main_v2) :=
    funext fun p => funext fun k => funext fun j => gru1_blk_W V c t p k j
  have h4 : Spec.row (iblk1 V c 4 t : Vec Ideal S6x96 .f32) = Spec.row (V c main_v4) :=
    funext fun p => funext fun j => gru1_blk_b V c t p j
  have h0 : Spec.slab (iblk1 V c 0 t : Vec Ideal S1x2048x96 .f32) 0 = Spec.slab (V c main_v0_0) (gru1_entry t) :=
    funext fun n => funext fun k => gru1_blk_h V c t n k
  rw [h1, h2, h3, h4, h0]

/-- An index of the output array is in point t's block iff each coordinate is in the block's range on its axis. -/
theorem gru1_mem_blk (t : Fin cfg1.N) (i : S8x2048x96.Idx) :
    i ∈ ((cfg1.win 5).blk t).view.set ↔ ∀ a : Fin 3, win1_5.index t a * S1x2048x96.size a ≤ (i a).val ∧ (i a).val < win1_5.index t a * S1x2048x96.size a + S1x2048x96.size a := by
  show i ∈ ((View.whole main_v5).slice (win1_5.rect t)).set ↔ _
  rw [View.set_slice_whole, Rect.mem_set_unit]
  exact Iff.rfl

/-- The output array after the region: every index lies in the block of its batch entry's point. -/
theorem gru1_out (c : Dev nD) : (dat1 (F := Ideal) V c).arrAt 5 cfg1.N
    = Spec.gru (V c main_v0_0) (V c main_arg1) (V c main_arg4) (V c main_v2) (V c main_v4) :=
  (dat1 (F := Ideal) V c).arrAt_eq_of_cover 5 _ (fun t _ => gru1_flushed V c t) fun i => by
    have h0 : (i 0).val < 8 := (i 0).isLt
    have h1 : (i 1).val < 2048 := (i 1).isLt
    have h2 : (i 2).val < 96 := (i 2).isLt
    let t : Fin cfg1.N := ⟨(i 0).val, by rw [show cfg1.N = 8 from N_1]; exact h0⟩
    have ht : t.val = (i 0).val := rfl
    obtain ⟨-, -, -, -, -, ⟨e0, e1, e2⟩⟩ := gru1_idx t
    refine ⟨t, flush1_5 t, ?_⟩
    rw [gru1_mem_blk]
    intro a
    match a with
    | ⟨0, _⟩ => show win1_5.index t (0 : Fin 3) * 1 ≤ (i 0).val ∧ (i 0).val < win1_5.index t (0 : Fin 3) * 1 + 1; omega
    | ⟨1, _⟩ => show win1_5.index t (1 : Fin 3) * 2048 ≤ (i 1).val ∧ (i 1).val < win1_5.index t (1 : Fin 3) * 2048 + 2048; omega
    | ⟨2, _⟩ => show win1_5.index t (2 : Fin 3) * 96 ≤ (i 2).val ∧ (i 2).val < win1_5.index t (2 : Fin 3) * 96 + 96; omega

end Cert.KernelIdeal.Val

end
-- ==== Proof.K.Gru2Pay.lean ====
/-
  Region 2: what the body leaves in its output block.

  The body reads the block's state h [2048, 96], adjacency slab [2048, 2048], mask column, six matrices and six rows, and
  applies the gated propagation step twice.  Each step forms a = adj · h, the wide products a · [W₀ | W₂ | W₄] + [b₀ | b₂ | b₄]
  and h · [W₁ | W₃] + [b₁ | b₃], takes their column bands of width 96, and from them
      z = σ(band₀ + band₁'),  r = σ(band₂ + band₃'),  h̃ = max(mask · ((band₄ + (r ∘ h) · W₅) + b₅), 0),  h' = h̃ ∘ z + h ∘ (1 − z).
  The first step's state is, term for term, the end of a step applied to those bands, so one reading of the end of a step
  serves both; the bands are the specification's pre-activations because the wide matrices and rows are the six matrices
  and rows laid side by side; and the two groupings of a gate's sum agree by associativity of addition on the extended
  reals.  Hence the block at (0, n, j) is two steps of the specification from the entry state.
-/
import proofs.«106044_j70463233458716_2_alg».proof.Proof.Gen.KernelIdeal.Frame
import proofs.«106044_j70463233458716_2_alg».proof.Proof.Spec
import proofs.«106044_j70463233458716_2_alg».proof.Proof.LibMatmulRows
import proofs.«106044_j70463233458716_2_alg».proof.Proof.LibRowReads
import proofs.«106044_j70463233458716_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import proofs.«106044_j70463233458716_2_alg».proof.Proof.K.GruOps

set_option maxRecDepth 16384

noncomputable section

namespace Cert.KernelIdeal.Val

open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

/-- The end of a step, from the state and the five bands: the stored block at (0, n, j). -/
theorem gru2_tail (v3 : FVec Ideal S2048x1 .f32) (v31 : FVec Ideal S96 .f32) (v38 : FVec Ideal S96x96 .bf16)
    (v78 v91 v92 v93 v94 v95 : FVec Ideal S2048x96 .f32) (n : Fin 2048) (j : Fin 96) :
    k2_pay1 (F := Ideal) v3 v31 v38 v78 v91 v92 v93 v94 v95 (ix3 (0 : Fin 1) n j)
      = gru_core (fun p => v3 (ix2 p (0 : Fin 1))) (fun k q => v38 (ix2 k q)) (fun q => v31 (ix1 q))
          (fun p q => v78 (ix2 p q)) (fun p q => v91 (ix2 p q)) (fun p q => v92 (ix2 p q))
          (fun p q => v93 (ix2 p q)) (fun p q => v94 (ix2 p q)) (fun p q => v95 (ix2 p q)) n j := by
  unfold k2_pay1
  refine (gru_block_read _ _ n j).trans ?_
  have eM : broadcastTo S2048x96 v3 broadcasts_S2048x1_S2048x96 (ix2 n j) = v3 (ix2 n (0 : Fin 1)) :=
    Cert.Lib.Keepdims.broadcastTo_a1_ab_apply v3 _ n j
  have eB : broadcastTo S2048x96 (shapeCast S1x96 v31 shapeCasts_S96_S1x96) broadcasts_S1x96_S2048x96 (ix2 n j) = v31 (ix1 j) :=
    gru_down_read (by decide) _ _ v31 n j
  have eP : matmul dot_S2048x96_S96x96_S2048x96_1_0_0_1_n_n none
        (truncf .bf16 (mulf (logistic (addf v92 v95)) v78) bitsLt_bf16_f32) v38
        (constant (F := Ideal) S2048x96 .f32 0x00000000#32) (ix2 n j)
      = ∑ k : Fin 96, (Ideal.logistic (v92 (ix2 n k) + v95 (ix2 n k)) * v78 (ix2 n k)) * v38 (ix2 k j) :=
    Cert.Bridge.matmul_plain_zero_apply 2048 96 96 none _ v38 n j
  unfold gru_core
  exact congrArg₂ (· + ·)
    (congrArg (· * Ideal.logistic (v91 (ix2 n j) + v94 (ix2 n j)))
      (congrArg (max · Spec.zero)
        (congrArg₂ (· * ·) eM (congrArg₂ (· + ·) (congrArg (v93 (ix2 n j) + ·) eP) eB))))
    rfl

/-! ## The assembled operands hold the branch's mask, matrices and rows -/

theorem gru2_wts (x2 : Vec Ideal S1x2048x1 .f32) (x3 : Vec Ideal S6x96x96 .f32) (x4 : Vec Ideal S6x96 .f32) :
    gru_Wts (Spec.col x2 0) (Spec.slab x3) (Spec.row x4) (k2_pay3 (F := Ideal) x2) (k2_pay6 (F := Ideal) x4)
      (k2_pay7 (F := Ideal) x3) (k2_pay8 (F := Ideal) x3) (k2_pay9 (F := Ideal) x4) (k2_pay10 (F := Ideal) x4)
      (k2_pay11 (F := Ideal) x3) where
  mask p := by unfold k2_pay3; exact gru_unblock_read _ x2 p 0
  b5 q := by
    unfold k2_pay6 k2_pay5
    exact (Cert.LibRowReads.row_read 5 (by omega) _ _ _ q).trans (congrFun (shapeCast_self x4 _) _)
  w5 k q := by
    unfold k2_pay11 k2_pay4
    refine (truncf_apply _ bitsLt_bf16_f32 _).trans ?_
    exact (Cert.LibRowReads.slab_read 5 (by omega) _ _ _ k q).trans (congrFun (shapeCast_self x3 _) _)
  w0 k q hq := by
    unfold k2_pay7 k2_pay4
    refine (truncf_apply _ bitsLt_bf16_f32 _).trans ?_
    exact (gru_side3_read0 _ _ _ _ k q hq).trans
      ((Cert.LibRowReads.slab_read 0 (by omega) _ _ _ k q).trans (congrFun (shapeCast_self x3 _) _))
  w2 k q hq := by
    unfold k2_pay7 k2_pay4
    refine (truncf_apply _ bitsLt_bf16_f32 _).trans ?_
    exact (gru_side3_read1 _ _ _ _ k q hq).trans
      ((Cert.LibRowReads.slab_read 2 (by omega) _ _ _ k q).trans (congrFun (shapeCast_self x3 _) _))
  w4 k q hq := by
    unfold k2_pay7 k2_pay4
    refine (truncf_apply _ bitsLt_bf16_f32 _).trans ?_
    exact (gru_side3_read2 _ _ _ _ k q hq).trans
      ((Cert.LibRowReads.slab_read 4 (by omega) _ _ _ k q).trans (congrFun (shapeCast_self x3 _) _))
  w1 k q hq := by
    unfold k2_pay8 k2_pay4
    refine (truncf_apply _ bitsLt_bf16_f32 _).trans ?_
    exact (gru_side2_read0 _ _ _ k q hq).trans
      ((Cert.LibRowReads.slab_read 1 (by omega) _ _ _ k q).trans (congrFun (shapeCast_self x3 _) _))
  w3 k q hq := by
    unfold k2_pay8 k2_pay4
    refine (truncf_apply _ bitsLt_bf16_f32 _).trans ?_
    exact (gru_side2_read1 _ _ _ k q hq).trans
      ((Cert.LibRowReads.slab_read 3 (by omega) _ _ _ k q).trans (congrFun (shapeCast_self x3 _) _))
  b0 q hq := by
    unfold k2_pay9 k2_pay5
    exact (gru_end3_read0 _ _ _ _ q hq).trans
      ((Cert.LibRowReads.row_read 0 (by omega) _ _ _ q).trans (congrFun (shapeCast_self x4 _) _))
  b2 q hq := by
    unfold k2_pay9 k2_pay5
    exact (gru_end3_read1 _ _ _ _ q hq).trans
      ((Cert.LibRowReads.row_read 2 (by omega) _ _ _ q).trans (congrFun (shapeCast_self x4 _) _))
  b4 q hq := by
    unfold k2_pay9 k2_pay5
    exact (gru_end3_read2 _ _ _ _ q hq).trans
      ((Cert.LibRowReads.row_read 4 (by omega) _ _ _ q).trans (congrFun (shapeCast_self x4 _) _))
  b1 q hq := by
    unfold k2_pay10 k2_pay5
    exact (gru_end2_read0 _ _ _ q hq).trans
      ((Cert.LibRowReads.row_read 1 (by omega) _ _ _ q).trans (congrFun (shapeCast_self x4 _) _))
  b3 q hq := by
    unfold k2_pay10 k2_pay5
    exact (gru_end2_read1 _ _ _ q hq).trans
      ((Cert.LibRowReads.row_read 3 (by omega) _ _ _ q).trans (congrFun (shapeCast_self x4 _) _))

/-! ## The two steps -/

section steps
variable {M : Fin 2048 → EReal} {W : Fin 6 → Spec.Mat 96 96} {bs : Fin 6 → Fin 96 → EReal}
  {v3 : FVec Ideal S2048x1 .f32} {v31 : FVec Ideal S96 .f32} {v33 : FVec Ideal S96x288 .bf16}
  {v35 : FVec Ideal S96x192 .bf16} {v36 : FVec Ideal S288 .f32} {v37 : FVec Ideal S192 .f32}
  {v38 : FVec Ideal S96x96 .bf16}

/-- The first step's state is the end of a step applied to the bands of the two wide products. -/
theorem gru2_first (v1 : FVec Ideal S2048x96 .f32) (v3 : FVec Ideal S2048x1 .f32) (v31 : FVec Ideal S96 .f32)
    (v33 : FVec Ideal S96x288 .bf16) (v35 : FVec Ideal S96x192 .bf16) (v36 : FVec Ideal S288 .f32)
    (v37 : FVec Ideal S192 .f32) (v38 : FVec Ideal S96x96 .bf16) (v43 : FVec Ideal S2048x96 .f32)
    (n : Fin 2048) (j : Fin 96) :
    k2_pay14 (F := Ideal) v1 v3 v31 v33 v35 v36 v37 v38 v43 (ix2 n j)
      = k2_pay1 (F := Ideal) v3 v31 v38 v1
          (extractStridedSlice S2048x96 ![0, 0] (gru_GA v33 v36 v43) slices_S2048x288_o0_0_S2048x96)
          (extractStridedSlice S2048x96 ![0, 96] (gru_GA v33 v36 v43) slices_S2048x288_o0_96_S2048x96)
          (extractStridedSlice S2048x96 ![0, 192] (gru_GA v33 v36 v43) slices_S2048x288_o0_192_S2048x96)
          (extractStridedSlice S2048x96 ![0, 0] (gru_GH v35 v37 v1) slices_S2048x192_o0_0_S2048x96)
          (extractStridedSlice S2048x96 ![0, 96] (gru_GH v35 v37 v1) slices_S2048x192_o0_96_S2048x96)
          (ix3 (0 : Fin 1) n j) := by
  unfold k2_pay14 k2_pay1 gru_GA gru_GH
  exact (gru_block_read _ _ n j).symm

/-- Step 1: the state after it is the specification's step from the entry state. -/
theorem gru2_step1 (hW : gru_Wts M W bs v3 v31 v33 v35 v36 v37 v38) (adj : Spec.Mat 2048 2048)
    (v1 v43 : FVec Ideal S2048x96 .f32)
    (ha : ∀ (p : Fin 2048) (k : Fin 96), v43 (ix2 p k) = ∑ m : Fin 2048, adj p m * v1 (ix2 m k))
    (n : Fin 2048) (j : Fin 96) :
    k2_pay14 (F := Ideal) v1 v3 v31 v33 v35 v36 v37 v38 v43 (ix2 n j)
      = Spec.stepB adj M W bs (fun p q => v1 (ix2 p q)) n j :=
  (gru2_first v1 v3 v31 v33 v35 v36 v37 v38 v43 n j).trans
    ((gru2_tail v3 v31 v38 v1 _ _ _ _ _ n j).trans
      (congrFun (congrFun (gru_step_of_bands hW adj v1 v43 ha _ _ _ _ _) n) j))

/-- Step 2: the stored block is the specification's step from the state after step 1. -/
theorem gru2_step2 (hW : gru_Wts M W bs v3 v31 v33 v35 v36 v37 v38) (adj : Spec.Mat 2048 2048)
    (v41 : FVec Ideal S2048x2048 .bf16) (h41 : ∀ p m : Fin 2048, v41 (ix2 p m) = adj p m)
    (v1 v43 : FVec Ideal S2048x96 .f32) (n : Fin 2048) (j : Fin 96) :
    k2_pay1 (F := Ideal) v3 v31 v38 (k2_pay14 v1 v3 v31 v33 v35 v36 v37 v38 v43)
        (k2_pay17 v1 v3 v31 v33 v35 v36 v37 v38 v41 v43) (k2_pay18 v1 v3 v31 v33 v35 v36 v37 v38 v41 v43)
        (k2_pay19 v1 v3 v31 v33 v35 v36 v37 v38 v41 v43) (k2_pay20 v1 v3 v31 v33 v35 v36 v37 v38 v43)
        (k2_pay21 v1 v3 v31 v33 v35 v36 v37 v38 v43) (ix3 (0 : Fin 1) n j)
      = Spec.stepB adj M W bs (fun p q => k2_pay14 (F := Ideal) v1 v3 v31 v33 v35 v36 v37 v38 v43 (ix2 p q)) n j := by
  refine (gru2_tail v3 v31 v38 _ _ _ _ _ _ n j).trans ?_
  exact congrFun (congrFun (gru_step_of_bands hW adj (k2_pay14 (F := Ideal) v1 v3 v31 v33 v35 v36 v37 v38 v43)
    (matmul dot_S2048x2048_S2048x96_S2048x96_1_0_0_1_n_n none v41
      (truncf .bf16 (k2_pay14 (F := Ideal) v1 v3 v31 v33 v35 v36 v37 v38 v43) bitsLt_bf16_f32)
      (constant (F := Ideal) S2048x96 .f32 0x00000000#32))
    (fun p k => (gru_prop_read v41 _ p k).trans
      (Finset.sum_congr rfl fun m _ => congrArg (· * k2_pay14 (F := Ideal) v1 v3 v31 v33 v35 v36 v37 v38 v43 (ix2 m k)) (h41 p m)))
    slices_S2048x288_o0_0_S2048x96 slices_S2048x288_o0_96_S2048x96 slices_S2048x288_o0_192_S2048x96
    slices_S2048x192_o0_0_S2048x96 slices_S2048x192_o0_96_S2048x96) n) j

end steps

/-! ## The stored block -/

theorem gru2_hz3 : (![0, 0, 0] : Fin 3 → Nat) = fun _ => 0 := funext fun a => by fin_cases a <;> rfl
theorem gru2_hz2 : (![0, 0] : Fin 2 → Nat) = fun _ => 0 := funext fun a => by fin_cases a <;> rfl

/-- What the body leaves in the output block, at (0, n, j): two steps of the specification from the entry state,
    with the block's adjacency slab, mask column, six matrices and six rows. -/
theorem gru2_pay (x0 : Vec Ideal S1x2048x96 .f32) (x1 : Vec Ideal S1x2048x2048 .f32) (x2 : Vec Ideal S1x2048x1 .f32)
    (x3 : Vec Ideal S6x96x96 .f32) (x4 : Vec Ideal S6x96 .f32) (n : Fin 2048) (j : Fin 96) :
    out2_5 (F := Ideal) x0 x1 x2 x3 x4 (ix3 0 n j)
      = Spec.gruB (Spec.slab x1 0) (Spec.col x2 0) (Spec.slab x3) (Spec.row x4) (Spec.slab x0 0) n j := by
  unfold out2_5
  rw [View.canon_unit_zero (S := S1x2048x96) gru2_hz3]
  simp only [View.ld_unit_zero (S := S1x2048x96) gru2_hz3, View.ld_unit_zero (S := S1x2048x2048) gru2_hz3,
    View.ld_unit_zero (S := S1x2048x1) gru2_hz3, View.ld_unit_zero (S := S6x96x96) gru2_hz3,
    View.ld_unit_zero (S := S6x96) gru2_hz2]
  have hW := gru2_wts x2 x3 x4
  have h41 : ∀ p m : Fin 2048, k2_pay12 (F := Ideal) x1 (ix2 p m) = Spec.slab x1 0 p m := fun p m => by
    unfold k2_pay12; exact gru_unblock_read _ x1 p m
  have e0 : (fun p q => k2_pay2 (F := Ideal) x0 (ix2 p q)) = Spec.slab x0 0 :=
    funext fun p => funext fun q => by unfold k2_pay2; exact gru_unblock_read _ x0 p q
  have ha : ∀ (p : Fin 2048) (k : Fin 96), k2_pay13 (F := Ideal) x0 x1 (ix2 p k)
      = ∑ m : Fin 2048, Spec.slab x1 0 p m * k2_pay2 (F := Ideal) x0 (ix2 m k) := fun p k => by
    unfold k2_pay13
    exact (gru_prop_read (k2_pay12 x1) (k2_pay2 x0) p k).trans
      (Finset.sum_congr rfl fun m _ => congrArg (· * k2_pay2 (F := Ideal) x0 (ix2 m k)) (h41 p m))
  refine (gru2_step2 hW (Spec.slab x1 0) (k2_pay12 x1) h41 (k2_pay2 x0) (k2_pay13 x0 x1) n j).trans ?_
  have eS : (fun p q => k2_pay14 (F := Ideal) (k2_pay2 x0) (k2_pay3 x2) (k2_pay6 x4) (k2_pay7 x3) (k2_pay8 x3)
        (k2_pay9 x4) (k2_pay10 x4) (k2_pay11 x3) (k2_pay13 x0 x1) (ix2 p q))
      = Spec.stepB (Spec.slab x1 0) (Spec.col x2 0) (Spec.slab x3) (Spec.row x4) (Spec.slab x0 0) :=
    funext fun p => funext fun q =>
      (gru2_step1 hW (Spec.slab x1 0) (k2_pay2 x0) (k2_pay13 x0 x1) ha p q).trans (by rw [e0])
  rw [eS]
  rfl

end Cert.KernelIdeal.Val

end
-- ==== Proof.K.Gru2.lean ====
/-
  Step region 2: its output array after the region is two gated propagation steps of the arrays it finds.

  The grid has one point per batch entry.  At point t the state, adjacency and mask windows stage slab t of their
  arrays (rows 0 … 2047, every column), the two weight windows stage their whole arrays at every point, and the body
  leaves in the output window's buffer the two-step function of those blocks (Gru2Pay.lean).  So point t writes back
  slab t of Spec.gru of the arrays, the eight slabs tile the output array, and the array ends holding Spec.gru.
-/
import proofs.«106044_j70463233458716_2_alg».proof.Proof.Gen.KernelIdeal.Frame
import proofs.«106044_j70463233458716_2_alg».proof.Proof.Spec
import proofs.«106044_j70463233458716_2_alg».proof.Proof.K.Gru2Pay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps over the grid: the state, adjacency, mask and output blocks of point t are slab t; the
    weight blocks are the whole arrays. -/
theorem gru2_idx : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = 0 ∧ win2_3.index t (1 : Fin 3) = 0 ∧ win2_3.index t (2 : Fin 3) = 0)
    ∧ (win2_4.index t (0 : Fin 2) = 0 ∧ win2_4.index t (1 : Fin 2) = 0)
    ∧ (win2_5.index t (0 : Fin 3) = t.val ∧ win2_5.index t (1 : Fin 3) = 0 ∧ win2_5.index t (2 : Fin 3) = 0) :=
  (by decide +kernel : ∀ t : Fin grid2.N, _)

/-- The batch entry of a grid point. -/
def gru2_entry (t : Fin cfg2.N) : Fin 8 := ⟨t.val, by have h : t.val < cfg2.N := t.isLt; have e : cfg2.N = 8 := N_2; omega⟩

/-! ## The blocks of a point are the slabs of its batch entry -/

theorem gru2_blk_h (c : Dev nD) (t : Fin cfg2.N) (n : Fin 2048) (k : Fin 96) :
    (iblk2 V c 0 t : Vec Ideal S1x2048x96 .f32) (ix3 0 n k) = V c main_v0_1 (ix3 (gru2_entry t) n k) := by
  obtain ⟨⟨e0, e1, e2⟩, -⟩ := gru2_idx t
  unfold iblk2
  rw [View.read_apply]
  show V c main_v0_1 _ = V c main_v0_1 _
  refine congrArg (V c main_v0_1) (funext fun a => Fin.ext ?_)
  match a with
  | ⟨0, _⟩ => show win2_0.index t (0 : Fin 3) * 1 + 1 * 0 = t.val; omega
  | ⟨1, _⟩ => show win2_0.index t (1 : Fin 3) * 2048 + 1 * n.val = n.val; omega
  | ⟨2, _⟩ => show win2_0.index t (2 : Fin 3) * 96 + 1 * k.val = k.val; omega

theorem gru2_blk_adj (c : Dev nD) (t : Fin cfg2.N) (n : Fin 2048) (k : Fin 2048) :
    (iblk2 V c 1 t : Vec Ideal S1x2048x2048 .f32) (ix3 0 n k) = V c main_arg2 (ix3 (gru2_entry t) n k) := by
  obtain ⟨-, ⟨e0, e1, e2⟩, -⟩ := gru2_idx t
  unfold iblk2
  rw [View.read_apply]
  show V c main_arg2 _ = V c main_arg2 _
  refine congrArg (V c main_arg2) (funext fun a => Fin.ext ?_)
  match a with
  | ⟨0, _⟩ => show win2_1.index t (0 : Fin 3) * 1 + 1 * 0 = t.val; omega
  | ⟨1, _⟩ => show win2_1.index t (1 : Fin 3) * 2048 + 1 * n.val = n.val; omega
  | ⟨2, _⟩ => show win2_1.index t (2 : Fin 3) * 2048 + 1 * k.val = k.val; omega

theorem gru2_blk_mask (c : Dev nD) (t : Fin cfg2.N) (n : Fin 2048) :
    (iblk2 V c 2 t : Vec Ideal S1x2048x1 .f32) (ix3 0 n 0) = V c main_arg5 (ix3 (gru2_entry t) n 0) := by
  obtain ⟨-, -, ⟨e0, e1, e2⟩, -⟩ := gru2_idx t
  unfold iblk2
  rw [View.read_apply]
  show V c main_arg5 _ = V c main_arg5 _
  refine congrArg (V c main_arg5) (funext fun a => Fin.ext ?_)
  match a with
  | ⟨0, _⟩ => show win2_2.index t (0 : Fin 3) * 1 + 1 * 0 = t.val; omega
  | ⟨1, _⟩ => show win2_2.index t (1 : Fin 3) * 2048 + 1 * n.val = n.val; omega
  | ⟨2, _⟩ => show win2_2.index t (2 : Fin 3) * 1 + 1 * 0 = 0; omega

theorem gru2_blk_W (c : Dev nD) (t : Fin cfg2.N) (p : Fin 6) (k : Fin 96) (j : Fin 96) :
    (iblk2 V c 3 t : Vec Ideal S6x96x96 .f32) (ix3 p k j) = V c main_v7 (ix3 p k j) := by
  obtain ⟨-, -, -, ⟨e0, e1, e2⟩, -⟩ := gru2_idx t
  unfold iblk2
  rw [View.read_apply]
  show V c main_v7 _ = V c main_v7 _
  refine congrArg (V c main_v7) (funext fun a => Fin.ext ?_)
  match a with
  | ⟨0, _⟩ => show win2_3.index t (0 : Fin 3) * 6 + 1 * p.val = p.val; omega
  | ⟨1, _⟩ => show win2_3.index t (1 : Fin 3) * 96 + 1 * k.val = k.val; omega
  | ⟨2, _⟩ => show win2_3.index t (2 : Fin 3) * 96 + 1 * j.val = j.val; omega

theorem gru2_blk_b (c : Dev nD) (t : Fin cfg2.N) (p : Fin 6) (j : Fin 96) :
    (iblk2 V c 4 t : Vec Ideal S6x96 .f32) (ix2 p j) = V c main_v9 (ix2 p j) := by
  obtain ⟨-, -, -, -, ⟨e0, e1⟩, -⟩ := gru2_idx t
  unfold iblk2
  rw [View.read_apply]
  show V c main_v9 _ = V c main_v9 _
  refine congrArg (V c main_v9) (funext fun a => Fin.ext ?_)
  match a with
  | ⟨0, _⟩ => show win2_4.index t (0 : Fin 2) * 6 + 1 * p.val = p.val; omega
  | ⟨1, _⟩ => show win2_4.index t (1 : Fin 2) * 96 + 1 * j.val = j.val; omega

/-! ## What a point writes back, and the array after the region -/

/-- Point t writes back slab t of the two-step function of the arrays the region finds. -/
theorem gru2_flushed (c : Dev nD) (t : Fin cfg2.N) :
    (dat2 (F := Ideal) V c).flushed 5 t = ((cfg2.win 5).blk t).view.read (Elt Ideal)
      (Spec.gru (V c main_v0_1) (V c main_arg2) (V c main_arg5) (V c main_v7) (V c main_v9)) := by
  show (cfg2.win 5).cut (grid2.coords t) ((dat2 V c).after 5 t) = _
  rw [after2_5]
  refine funext fun (y : S1x2048x96.Idx) => ?_
  obtain ⟨u, n, j, rfl⟩ : ∃ (u : Fin 1) (n : Fin 2048) (j : Fin 96), y = ix3 u n j := ⟨y 0, y 1, y 2, eq_ix3 y⟩
  obtain rfl : u = 0 := Subsingleton.elim _ _
  have hemb : ((cfg2.win 5).blk t).view.emb (ix3 (0 : Fin 1) n j) = ix3 (gru2_entry t) n j := by
    obtain ⟨-, -, -, -, -, ⟨e0, e1, e2⟩⟩ := gru2_idx t
    refine funext fun a => Fin.ext ?_
    match a with
    | ⟨0, _⟩ => show win2_5.index t (0 : Fin 3) * 1 + 1 * 0 = t.val; omega
    | ⟨1, _⟩ => show win2_5.index t (1 : Fin 3) * 2048 + 1 * n.val = n.val; omega
    | ⟨2, _⟩ => show win2_5.index t (2 : Fin 3) * 96 + 1 * j.val = j.val; omega
  refine (gru2_pay (iblk2 V c 0 t) (iblk2 V c 1 t) (iblk2 V c 2 t) (iblk2 V c 3 t) (iblk2 V c 4 t) n j).trans ?_
  rw [View.read_apply, hemb]
  show _ = Spec.gruB (Spec.slab (V c main_arg2) (gru2_entry t)) (Spec.col (V c main_arg5) (gru2_entry t)) (Spec.slab (V c main_v7)) (Spec.row (V c main_v9))
    (Spec.slab (V c main_v0_1) (gru2_entry t)) n j
  have h1 : Spec.slab (iblk2 V c 1 t : Vec Ideal S1x2048x2048 .f32) 0 = Spec.slab (V c main_arg2) (gru2_entry t) :=
    funext fun n => funext fun k => gru2_blk_adj V c t n k
  have h2 : Spec.col (iblk2 V c 2 t : Vec Ideal S1x2048x1 .f32) 0 = Spec.col (V c main_arg5) (gru2_entry t) :=
    funext fun n => gru2_blk_mask V c t n
  have h3 : Spec.slab (iblk2 V c 3 t : Vec Ideal S6x96x96 .f32) = Spec.slab (V c main_v7) :=
    funext fun p => funext fun k => funext fun j => gru2_blk_W V c t p k j
  have h4 : Spec.row (iblk2 V c 4 t : Vec Ideal S6x96 .f32) = Spec.row (V c main_v9) :=
    funext fun p => funext fun j => gru2_blk_b V c t p j
  have h0 : Spec.slab (iblk2 V c 0 t : Vec Ideal S1x2048x96 .f32) 0 = Spec.slab (V c main_v0_1) (gru2_entry t) :=
    funext fun n => funext fun k => gru2_blk_h V c t n k
  rw [h1, h2, h3, h4, h0]

/-- An index of the output array is in point t's block iff each coordinate is in the block's range on its axis. -/
theorem gru2_mem_blk (t : Fin cfg2.N) (i : S8x2048x96.Idx) :
    i ∈ ((cfg2.win 5).blk t).view.set ↔ ∀ a : Fin 3, win2_5.index t a * S1x2048x96.size a ≤ (i a).val ∧ (i a).val < win2_5.index t a * S1x2048x96.size a + S1x2048x96.size a := by
  show i ∈ ((View.whole main_v10).slice (win2_5.rect t)).set ↔ _
  rw [View.set_slice_whole, Rect.mem_set_unit]
  exact Iff.rfl

/-- The output array after the region: every index lies in the block of its batch entry's point. -/
theorem gru2_out (c : Dev nD) : (dat2 (F := Ideal) V c).arrAt 5 cfg2.N
    = Spec.gru (V c main_v0_1) (V c main_arg2) (V c main_arg5) (V c main_v7) (V c main_v9) :=
  (dat2 (F := Ideal) V c).arrAt_eq_of_cover 5 _ (fun t _ => gru2_flushed V c t) fun i => by
    have h0 : (i 0).val < 8 := (i 0).isLt
    have h1 : (i 1).val < 2048 := (i 1).isLt
    have h2 : (i 2).val < 96 := (i 2).isLt
    let t : Fin cfg2.N := ⟨(i 0).val, by rw [show cfg2.N = 8 from N_2]; exact h0⟩
    have ht : t.val = (i 0).val := rfl
    obtain ⟨-, -, -, -, -, ⟨e0, e1, e2⟩⟩ := gru2_idx t
    refine ⟨t, flush2_5 t, ?_⟩
    rw [gru2_mem_blk]
    intro a
    match a with
    | ⟨0, _⟩ => show win2_5.index t (0 : Fin 3) * 1 ≤ (i 0).val ∧ (i 0).val < win2_5.index t (0 : Fin 3) * 1 + 1; omega
    | ⟨1, _⟩ => show win2_5.index t (1 : Fin 3) * 2048 ≤ (i 1).val ∧ (i 1).val < win2_5.index t (1 : Fin 3) * 2048 + 2048; omega
    | ⟨2, _⟩ => show win2_5.index t (2 : Fin 3) * 96 ≤ (i 2).val ∧ (i 2).val < win2_5.index t (2 : Fin 3) * 96 + 96; omega

end Cert.KernelIdeal.Val

end
-- ==== Proof.K.Gru3Pay.lean ====
/-
  Region 3: what the body leaves in its output block.

  The body reads the block's state h [2048, 96], adjacency slab [2048, 2048], mask column, six matrices and six rows, and
  applies the gated propagation step twice.  Each step forms a = adj · h, the wide products a · [W₀ | W₂ | W₄] + [b₀ | b₂ | b₄]
  and h · [W₁ | W₃] + [b₁ | b₃], takes their column bands of width 96, and from them
      z = σ(band₀ + band₁'),  r = σ(band₂ + band₃'),  h̃ = max(mask · ((band₄ + (r ∘ h) · W₅) + b₅), 0),  h' = h̃ ∘ z + h ∘ (1 − z).
  The first step's state is, term for term, the end of a step applied to those bands, so one reading of the end of a step
  serves both; the bands are the specification's pre-activations because the wide matrices and rows are the six matrices
  and rows laid side by side; and the two groupings of a gate's sum agree by associativity of addition on the extended
  reals.  Hence the block at (0, n, j) is two steps of the specification from the entry state.
-/
import proofs.«106044_j70463233458716_2_alg».proof.Proof.Gen.KernelIdeal.Frame
import proofs.«106044_j70463233458716_2_alg».proof.Proof.Spec
import proofs.«106044_j70463233458716_2_alg».proof.Proof.LibMatmulRows
import proofs.«106044_j70463233458716_2_alg».proof.Proof.LibRowReads
import proofs.«106044_j70463233458716_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import proofs.«106044_j70463233458716_2_alg».proof.Proof.K.GruOps

set_option maxRecDepth 16384

noncomputable section

namespace Cert.KernelIdeal.Val

open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

/-- The end of a step, from the state and the five bands: the stored block at (0, n, j). -/
theorem gru3_tail (v3 : FVec Ideal S2048x1 .f32) (v31 : FVec Ideal S96 .f32) (v38 : FVec Ideal S96x96 .bf16)
    (v78 v91 v92 v93 v94 v95 : FVec Ideal S2048x96 .f32) (n : Fin 2048) (j : Fin 96) :
    k3_pay1 (F := Ideal) v3 v31 v38 v78 v91 v92 v93 v94 v95 (ix3 (0 : Fin 1) n j)
      = gru_core (fun p => v3 (ix2 p (0 : Fin 1))) (fun k q => v38 (ix2 k q)) (fun q => v31 (ix1 q))
          (fun p q => v78 (ix2 p q)) (fun p q => v91 (ix2 p q)) (fun p q => v92 (ix2 p q))
          (fun p q => v93 (ix2 p q)) (fun p q => v94 (ix2 p q)) (fun p q => v95 (ix2 p q)) n j := by
  unfold k3_pay1
  refine (gru_block_read _ _ n j).trans ?_
  have eM : broadcastTo S2048x96 v3 broadcasts_S2048x1_S2048x96 (ix2 n j) = v3 (ix2 n (0 : Fin 1)) :=
    Cert.Lib.Keepdims.broadcastTo_a1_ab_apply v3 _ n j
  have eB : broadcastTo S2048x96 (shapeCast S1x96 v31 shapeCasts_S96_S1x96) broadcasts_S1x96_S2048x96 (ix2 n j) = v31 (ix1 j) :=
    gru_down_read (by decide) _ _ v31 n j
  have eP : matmul dot_S2048x96_S96x96_S2048x96_1_0_0_1_n_n none
        (truncf .bf16 (mulf (logistic (addf v92 v95)) v78) bitsLt_bf16_f32) v38
        (constant (F := Ideal) S2048x96 .f32 0x00000000#32) (ix2 n j)
      = ∑ k : Fin 96, (Ideal.logistic (v92 (ix2 n k) + v95 (ix2 n k)) * v78 (ix2 n k)) * v38 (ix2 k j) :=
    Cert.Bridge.matmul_plain_zero_apply 2048 96 96 none _ v38 n j
  unfold gru_core
  exact congrArg₂ (· + ·)
    (congrArg (· * Ideal.logistic (v91 (ix2 n j) + v94 (ix2 n j)))
      (congrArg (max · Spec.zero)
        (congrArg₂ (· * ·) eM (congrArg₂ (· + ·) (congrArg (v93 (ix2 n j) + ·) eP) eB))))
    rfl

/-! ## The assembled operands hold the branch's mask, matrices and rows -/

theorem gru3_wts (x2 : Vec Ideal S1x2048x1 .f32) (x3 : Vec Ideal S6x96x96 .f32) (x4 : Vec Ideal S6x96 .f32) :
    gru_Wts (Spec.col x2 0) (Spec.slab x3) (Spec.row x4) (k3_pay3 (F := Ideal) x2) (k3_pay6 (F := Ideal) x4)
      (k3_pay7 (F := Ideal) x3) (k3_pay8 (F := Ideal) x3) (k3_pay9 (F := Ideal) x4) (k3_pay10 (F := Ideal) x4)
      (k3_pay11 (F := Ideal) x3) where
  mask p := by unfold k3_pay3; exact gru_unblock_read _ x2 p 0
  b5 q := by
    unfold k3_pay6 k3_pay5
    exact (Cert.LibRowReads.row_read 5 (by omega) _ _ _ q).trans (congrFun (shapeCast_self x4 _) _)
  w5 k q := by
    unfold k3_pay11 k3_pay4
    refine (truncf_apply _ bitsLt_bf16_f32 _).trans ?_
    exact (Cert.LibRowReads.slab_read 5 (by omega) _ _ _ k q).trans (congrFun (shapeCast_self x3 _) _)
  w0 k q hq := by
    unfold k3_pay7 k3_pay4
    refine (truncf_apply _ bitsLt_bf16_f32 _).trans ?_
    exact (gru_side3_read0 _ _ _ _ k q hq).trans
      ((Cert.LibRowReads.slab_read 0 (by omega) _ _ _ k q).trans (congrFun (shapeCast_self x3 _) _))
  w2 k q hq := by
    unfold k3_pay7 k3_pay4
    refine (truncf_apply _ bitsLt_bf16_f32 _).trans ?_
    exact (gru_side3_read1 _ _ _ _ k q hq).trans
      ((Cert.LibRowReads.slab_read 2 (by omega) _ _ _ k q).trans (congrFun (shapeCast_self x3 _) _))
  w4 k q hq := by
    unfold k3_pay7 k3_pay4
    refine (truncf_apply _ bitsLt_bf16_f32 _).trans ?_
    exact (gru_side3_read2 _ _ _ _ k q hq).trans
      ((Cert.LibRowReads.slab_read 4 (by omega) _ _ _ k q).trans (congrFun (shapeCast_self x3 _) _))
  w1 k q hq := by
    unfold k3_pay8 k3_pay4
    refine (truncf_apply _ bitsLt_bf16_f32 _).trans ?_
    exact (gru_side2_read0 _ _ _ k q hq).trans
      ((Cert.LibRowReads.slab_read 1 (by omega) _ _ _ k q).trans (congrFun (shapeCast_self x3 _) _))
  w3 k q hq := by
    unfold k3_pay8 k3_pay4
    refine (truncf_apply _ bitsLt_bf16_f32 _).trans ?_
    exact (gru_side2_read1 _ _ _ k q hq).trans
      ((Cert.LibRowReads.slab_read 3 (by omega) _ _ _ k q).trans (congrFun (shapeCast_self x3 _) _))
  b0 q hq := by
    unfold k3_pay9 k3_pay5
    exact (gru_end3_read0 _ _ _ _ q hq).trans
      ((Cert.LibRowReads.row_read 0 (by omega) _ _ _ q).trans (congrFun (shapeCast_self x4 _) _))
  b2 q hq := by
    unfold k3_pay9 k3_pay5
    exact (gru_end3_read1 _ _ _ _ q hq).trans
      ((Cert.LibRowReads.row_read 2 (by omega) _ _ _ q).trans (congrFun (shapeCast_self x4 _) _))
  b4 q hq := by
    unfold k3_pay9 k3_pay5
    exact (gru_end3_read2 _ _ _ _ q hq).trans
      ((Cert.LibRowReads.row_read 4 (by omega) _ _ _ q).trans (congrFun (shapeCast_self x4 _) _))
  b1 q hq := by
    unfold k3_pay10 k3_pay5
    exact (gru_end2_read0 _ _ _ q hq).trans
      ((Cert.LibRowReads.row_read 1 (by omega) _ _ _ q).trans (congrFun (shapeCast_self x4 _) _))
  b3 q hq := by
    unfold k3_pay10 k3_pay5
    exact (gru_end2_read1 _ _ _ q hq).trans
      ((Cert.LibRowReads.row_read 3 (by omega) _ _ _ q).trans (congrFun (shapeCast_self x4 _) _))

/-! ## The two steps -/

section steps
variable {M : Fin 2048 → EReal} {W : Fin 6 → Spec.Mat 96 96} {bs : Fin 6 → Fin 96 → EReal}
  {v3 : FVec Ideal S2048x1 .f32} {v31 : FVec Ideal S96 .f32} {v33 : FVec Ideal S96x288 .bf16}
  {v35 : FVec Ideal S96x192 .bf16} {v36 : FVec Ideal S288 .f32} {v37 : FVec Ideal S192 .f32}
  {v38 : FVec Ideal S96x96 .bf16}

/-- The first step's state is the end of a step applied to the bands of the two wide products. -/
theorem gru3_first (v1 : FVec Ideal S2048x96 .f32) (v3 : FVec Ideal S2048x1 .f32) (v31 : FVec Ideal S96 .f32)
    (v33 : FVec Ideal S96x288 .bf16) (v35 : FVec Ideal S96x192 .bf16) (v36 : FVec Ideal S288 .f32)
    (v37 : FVec Ideal S192 .f32) (v38 : FVec Ideal S96x96 .bf16) (v43 : FVec Ideal S2048x96 .f32)
    (n : Fin 2048) (j : Fin 96) :
    k3_pay14 (F := Ideal) v1 v3 v31 v33 v35 v36 v37 v38 v43 (ix2 n j)
      = k3_pay1 (F := Ideal) v3 v31 v38 v1
          (extractStridedSlice S2048x96 ![0, 0] (gru_GA v33 v36 v43) slices_S2048x288_o0_0_S2048x96)
          (extractStridedSlice S2048x96 ![0, 96] (gru_GA v33 v36 v43) slices_S2048x288_o0_96_S2048x96)
          (extractStridedSlice S2048x96 ![0, 192] (gru_GA v33 v36 v43) slices_S2048x288_o0_192_S2048x96)
          (extractStridedSlice S2048x96 ![0, 0] (gru_GH v35 v37 v1) slices_S2048x192_o0_0_S2048x96)
          (extractStridedSlice S2048x96 ![0, 96] (gru_GH v35 v37 v1) slices_S2048x192_o0_96_S2048x96)
          (ix3 (0 : Fin 1) n j) := by
  unfold k3_pay14 k3_pay1 gru_GA gru_GH
  exact (gru_block_read _ _ n j).symm

/-- Step 1: the state after it is the specification's step from the entry state. -/
theorem gru3_step1 (hW : gru_Wts M W bs v3 v31 v33 v35 v36 v37 v38) (adj : Spec.Mat 2048 2048)
    (v1 v43 : FVec Ideal S2048x96 .f32)
    (ha : ∀ (p : Fin 2048) (k : Fin 96), v43 (ix2 p k) = ∑ m : Fin 2048, adj p m * v1 (ix2 m k))
    (n : Fin 2048) (j : Fin 96) :
    k3_pay14 (F := Ideal) v1 v3 v31 v33 v35 v36 v37 v38 v43 (ix2 n j)
      = Spec.stepB adj M W bs (fun p q => v1 (ix2 p q)) n j :=
  (gru3_first v1 v3 v31 v33 v35 v36 v37 v38 v43 n j).trans
    ((gru3_tail v3 v31 v38 v1 _ _ _ _ _ n j).trans
      (congrFun (congrFun (gru_step_of_bands hW adj v1 v43 ha _ _ _ _ _) n) j))

/-- Step 2: the stored block is the specification's step from the state after step 1. -/
theorem gru3_step2 (hW : gru_Wts M W bs v3 v31 v33 v35 v36 v37 v38) (adj : Spec.Mat 2048 2048)
    (v41 : FVec Ideal S2048x2048 .bf16) (h41 : ∀ p m : Fin 2048, v41 (ix2 p m) = adj p m)
    (v1 v43 : FVec Ideal S2048x96 .f32) (n : Fin 2048) (j : Fin 96) :
    k3_pay1 (F := Ideal) v3 v31 v38 (k3_pay14 v1 v3 v31 v33 v35 v36 v37 v38 v43)
        (k3_pay17 v1 v3 v31 v33 v35 v36 v37 v38 v41 v43) (k3_pay18 v1 v3 v31 v33 v35 v36 v37 v38 v41 v43)
        (k3_pay19 v1 v3 v31 v33 v35 v36 v37 v38 v41 v43) (k3_pay20 v1 v3 v31 v33 v35 v36 v37 v38 v43)
        (k3_pay21 v1 v3 v31 v33 v35 v36 v37 v38 v43) (ix3 (0 : Fin 1) n j)
      = Spec.stepB adj M W bs (fun p q => k3_pay14 (F := Ideal) v1 v3 v31 v33 v35 v36 v37 v38 v43 (ix2 p q)) n j := by
  refine (gru3_tail v3 v31 v38 _ _ _ _ _ _ n j).trans ?_
  exact congrFun (congrFun (gru_step_of_bands hW adj (k3_pay14 (F := Ideal) v1 v3 v31 v33 v35 v36 v37 v38 v43)
    (matmul dot_S2048x2048_S2048x96_S2048x96_1_0_0_1_n_n none v41
      (truncf .bf16 (k3_pay14 (F := Ideal) v1 v3 v31 v33 v35 v36 v37 v38 v43) bitsLt_bf16_f32)
      (constant (F := Ideal) S2048x96 .f32 0x00000000#32))
    (fun p k => (gru_prop_read v41 _ p k).trans
      (Finset.sum_congr rfl fun m _ => congrArg (· * k3_pay14 (F := Ideal) v1 v3 v31 v33 v35 v36 v37 v38 v43 (ix2 m k)) (h41 p m)))
    slices_S2048x288_o0_0_S2048x96 slices_S2048x288_o0_96_S2048x96 slices_S2048x288_o0_192_S2048x96
    slices_S2048x192_o0_0_S2048x96 slices_S2048x192_o0_96_S2048x96) n) j

end steps

/-! ## The stored block -/

theorem gru3_hz3 : (![0, 0, 0] : Fin 3 → Nat) = fun _ => 0 := funext fun a => by fin_cases a <;> rfl
theorem gru3_hz2 : (![0, 0] : Fin 2 → Nat) = fun _ => 0 := funext fun a => by fin_cases a <;> rfl

/-- What the body leaves in the output block, at (0, n, j): two steps of the specification from the entry state,
    with the block's adjacency slab, mask column, six matrices and six rows. -/
theorem gru3_pay (x0 : Vec Ideal S1x2048x96 .f32) (x1 : Vec Ideal S1x2048x2048 .f32) (x2 : Vec Ideal S1x2048x1 .f32)
    (x3 : Vec Ideal S6x96x96 .f32) (x4 : Vec Ideal S6x96 .f32) (n : Fin 2048) (j : Fin 96) :
    out3_5 (F := Ideal) x0 x1 x2 x3 x4 (ix3 0 n j)
      = Spec.gruB (Spec.slab x1 0) (Spec.col x2 0) (Spec.slab x3) (Spec.row x4) (Spec.slab x0 0) n j := by
  unfold out3_5
  rw [View.canon_unit_zero (S := S1x2048x96) gru3_hz3]
  simp only [View.ld_unit_zero (S := S1x2048x96) gru3_hz3, View.ld_unit_zero (S := S1x2048x2048) gru3_hz3,
    View.ld_unit_zero (S := S1x2048x1) gru3_hz3, View.ld_unit_zero (S := S6x96x96) gru3_hz3,
    View.ld_unit_zero (S := S6x96) gru3_hz2]
  have hW := gru3_wts x2 x3 x4
  have h41 : ∀ p m : Fin 2048, k3_pay12 (F := Ideal) x1 (ix2 p m) = Spec.slab x1 0 p m := fun p m => by
    unfold k3_pay12; exact gru_unblock_read _ x1 p m
  have e0 : (fun p q => k3_pay2 (F := Ideal) x0 (ix2 p q)) = Spec.slab x0 0 :=
    funext fun p => funext fun q => by unfold k3_pay2; exact gru_unblock_read _ x0 p q
  have ha : ∀ (p : Fin 2048) (k : Fin 96), k3_pay13 (F := Ideal) x0 x1 (ix2 p k)
      = ∑ m : Fin 2048, Spec.slab x1 0 p m * k3_pay2 (F := Ideal) x0 (ix2 m k) := fun p k => by
    unfold k3_pay13
    exact (gru_prop_read (k3_pay12 x1) (k3_pay2 x0) p k).trans
      (Finset.sum_congr rfl fun m _ => congrArg (· * k3_pay2 (F := Ideal) x0 (ix2 m k)) (h41 p m))
  refine (gru3_step2 hW (Spec.slab x1 0) (k3_pay12 x1) h41 (k3_pay2 x0) (k3_pay13 x0 x1) n j).trans ?_
  have eS : (fun p q => k3_pay14 (F := Ideal) (k3_pay2 x0) (k3_pay3 x2) (k3_pay6 x4) (k3_pay7 x3) (k3_pay8 x3)
        (k3_pay9 x4) (k3_pay10 x4) (k3_pay11 x3) (k3_pay13 x0 x1) (ix2 p q))
      = Spec.stepB (Spec.slab x1 0) (Spec.col x2 0) (Spec.slab x3) (Spec.row x4) (Spec.slab x0 0) :=
    funext fun p => funext fun q =>
      (gru3_step1 hW (Spec.slab x1 0) (k3_pay2 x0) (k3_pay13 x0 x1) ha p q).trans (by rw [e0])
  rw [eS]
  rfl

end Cert.KernelIdeal.Val

end
-- ==== Proof.K.Gru3.lean ====
/-
  Step region 3: its output array after the region is two gated propagation steps of the arrays it finds.

  The grid has one point per batch entry.  At point t the state, adjacency and mask windows stage slab t of their
  arrays (rows 0 … 2047, every column), the two weight windows stage their whole arrays at every point, and the body
  leaves in the output window's buffer the two-step function of those blocks (Gru3Pay.lean).  So point t writes back
  slab t of Spec.gru of the arrays, the eight slabs tile the output array, and the array ends holding Spec.gru.
-/
import proofs.«106044_j70463233458716_2_alg».proof.Proof.Gen.KernelIdeal.Frame
import proofs.«106044_j70463233458716_2_alg».proof.Proof.Spec
import proofs.«106044_j70463233458716_2_alg».proof.Proof.K.Gru3Pay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps over the grid: the state, adjacency, mask and output blocks of point t are slab t; the
    weight blocks are the whole arrays. -/
theorem gru3_idx : ∀ t : Fin cfg3.N,
    (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 3) = 0 ∧ win3_3.index t (1 : Fin 3) = 0 ∧ win3_3.index t (2 : Fin 3) = 0)
    ∧ (win3_4.index t (0 : Fin 2) = 0 ∧ win3_4.index t (1 : Fin 2) = 0)
    ∧ (win3_5.index t (0 : Fin 3) = t.val ∧ win3_5.index t (1 : Fin 3) = 0 ∧ win3_5.index t (2 : Fin 3) = 0) :=
  (by decide +kernel : ∀ t : Fin grid3.N, _)

/-- The batch entry of a grid point. -/
def gru3_entry (t : Fin cfg3.N) : Fin 8 := ⟨t.val, by have h : t.val < cfg3.N := t.isLt; have e : cfg3.N = 8 := N_3; omega⟩

/-! ## The blocks of a point are the slabs of its batch entry -/

theorem gru3_blk_h (c : Dev nD) (t : Fin cfg3.N) (n : Fin 2048) (k : Fin 96) :
    (iblk3 V c 0 t : Vec Ideal S1x2048x96 .f32) (ix3 0 n k) = V c main_v0_2 (ix3 (gru3_entry t) n k) := by
  obtain ⟨⟨e0, e1, e2⟩, -⟩ := gru3_idx t
  unfold iblk3
  rw [View.read_apply]
  show V c main_v0_2 _ = V c main_v0_2 _
  refine congrArg (V c main_v0_2) (funext fun a => Fin.ext ?_)
  match a with
  | ⟨0, _⟩ => show win3_0.index t (0 : Fin 3) * 1 + 1 * 0 = t.val; omega
  | ⟨1, _⟩ => show win3_0.index t (1 : Fin 3) * 2048 + 1 * n.val = n.val; omega
  | ⟨2, _⟩ => show win3_0.index t (2 : Fin 3) * 96 + 1 * k.val = k.val; omega

theorem gru3_blk_adj (c : Dev nD) (t : Fin cfg3.N) (n : Fin 2048) (k : Fin 2048) :
    (iblk3 V c 1 t : Vec Ideal S1x2048x2048 .f32) (ix3 0 n k) = V c main_arg3 (ix3 (gru3_entry t) n k) := by
  obtain ⟨-, ⟨e0, e1, e2⟩, -⟩ := gru3_idx t
  unfold iblk3
  rw [View.read_apply]
  show V c main_arg3 _ = V c main_arg3 _
  refine congrArg (V c main_arg3) (funext fun a => Fin.ext ?_)
  match a with
  | ⟨0, _⟩ => show win3_1.index t (0 : Fin 3) * 1 + 1 * 0 = t.val; omega
  | ⟨1, _⟩ => show win3_1.index t (1 : Fin 3) * 2048 + 1 * n.val = n.val; omega
  | ⟨2, _⟩ => show win3_1.index t (2 : Fin 3) * 2048 + 1 * k.val = k.val; omega

theorem gru3_blk_mask (c : Dev nD) (t : Fin cfg3.N) (n : Fin 2048) :
    (iblk3 V c 2 t : Vec Ideal S1x2048x1 .f32) (ix3 0 n 0) = V c main_arg6 (ix3 (gru3_entry t) n 0) := by
  obtain ⟨-, -, ⟨e0, e1, e2⟩, -⟩ := gru3_idx t
  unfold iblk3
  rw [View.read_apply]
  show V c main_arg6 _ = V c main_arg6 _
  refine congrArg (V c main_arg6) (funext fun a => Fin.ext ?_)
  match a with
  | ⟨0, _⟩ => show win3_2.index t (0 : Fin 3) * 1 + 1 * 0 = t.val; omega
  | ⟨1, _⟩ => show win3_2.index t (1 : Fin 3) * 2048 + 1 * n.val = n.val; omega
  | ⟨2, _⟩ => show win3_2.index t (2 : Fin 3) * 1 + 1 * 0 = 0; omega

theorem gru3_blk_W (c : Dev nD) (t : Fin cfg3.N) (p : Fin 6) (k : Fin 96) (j : Fin 96) :
    (iblk3 V c 3 t : Vec Ideal S6x96x96 .f32) (ix3 p k j) = V c main_v12 (ix3 p k j) := by
  obtain ⟨-, -, -, ⟨e0, e1, e2⟩, -⟩ := gru3_idx t
  unfold iblk3
  rw [View.read_apply]
  show V c main_v12 _ = V c main_v12 _
  refine congrArg (V c main_v12) (funext fun a => Fin.ext ?_)
  match a with
  | ⟨0, _⟩ => show win3_3.index t (0 : Fin 3) * 6 + 1 * p.val = p.val; omega
  | ⟨1, _⟩ => show win3_3.index t (1 : Fin 3) * 96 + 1 * k.val = k.val; omega
  | ⟨2, _⟩ => show win3_3.index t (2 : Fin 3) * 96 + 1 * j.val = j.val; omega

theorem gru3_blk_b (c : Dev nD) (t : Fin cfg3.N) (p : Fin 6) (j : Fin 96) :
    (iblk3 V c 4 t : Vec Ideal S6x96 .f32) (ix2 p j) = V c main_v14 (ix2 p j) := by
  obtain ⟨-, -, -, -, ⟨e0, e1⟩, -⟩ := gru3_idx t
  unfold iblk3
  rw [View.read_apply]
  show V c main_v14 _ = V c main_v14 _
  refine congrArg (V c main_v14) (funext fun a => Fin.ext ?_)
  match a with
  | ⟨0, _⟩ => show win3_4.index t (0 : Fin 2) * 6 + 1 * p.val = p.val; omega
  | ⟨1, _⟩ => show win3_4.index t (1 : Fin 2) * 96 + 1 * j.val = j.val; omega

/-! ## What a point writes back, and the array after the region -/

/-- Point t writes back slab t of the two-step function of the arrays the region finds. -/
theorem gru3_flushed (c : Dev nD) (t : Fin cfg3.N) :
    (dat3 (F := Ideal) V c).flushed 5 t = ((cfg3.win 5).blk t).view.read (Elt Ideal)
      (Spec.gru (V c main_v0_2) (V c main_arg3) (V c main_arg6) (V c main_v12) (V c main_v14)) := by
  show (cfg3.win 5).cut (grid3.coords t) ((dat3 V c).after 5 t) = _
  rw [after3_5]
  refine funext fun (y : S1x2048x96.Idx) => ?_
  obtain ⟨u, n, j, rfl⟩ : ∃ (u : Fin 1) (n : Fin 2048) (j : Fin 96), y = ix3 u n j := ⟨y 0, y 1, y 2, eq_ix3 y⟩
  obtain rfl : u = 0 := Subsingleton.elim _ _
  have hemb : ((cfg3.win 5).blk t).view.emb (ix3 (0 : Fin 1) n j) = ix3 (gru3_entry t) n j := by
    obtain ⟨-, -, -, -, -, ⟨e0, e1, e2⟩⟩ := gru3_idx t
    refine funext fun a => Fin.ext ?_
    match a with
    | ⟨0, _⟩ => show win3_5.index t (0 : Fin 3) * 1 + 1 * 0 = t.val; omega
    | ⟨1, _⟩ => show win3_5.index t (1 : Fin 3) * 2048 + 1 * n.val = n.val; omega
    | ⟨2, _⟩ => show win3_5.index t (2 : Fin 3) * 96 + 1 * j.val = j.val; omega
  refine (gru3_pay (iblk3 V c 0 t) (iblk3 V c 1 t) (iblk3 V c 2 t) (iblk3 V c 3 t) (iblk3 V c 4 t) n j).trans ?_
  rw [View.read_apply, hemb]
  show _ = Spec.gruB (Spec.slab (V c main_arg3) (gru3_entry t)) (Spec.col (V c main_arg6) (gru3_entry t)) (Spec.slab (V c main_v12)) (Spec.row (V c main_v14))
    (Spec.slab (V c main_v0_2) (gru3_entry t)) n j
  have h1 : Spec.slab (iblk3 V c 1 t : Vec Ideal S1x2048x2048 .f32) 0 = Spec.slab (V c main_arg3) (gru3_entry t) :=
    funext fun n => funext fun k => gru3_blk_adj V c t n k
  have h2 : Spec.col (iblk3 V c 2 t : Vec Ideal S1x2048x1 .f32) 0 = Spec.col (V c main_arg6) (gru3_entry t) :=
    funext fun n => gru3_blk_mask V c t n
  have h3 : Spec.slab (iblk3 V c 3 t : Vec Ideal S6x96x96 .f32) = Spec.slab (V c main_v12) :=
    funext fun p => funext fun k => funext fun j => gru3_blk_W V c t p k j
  have h4 : Spec.row (iblk3 V c 4 t : Vec Ideal S6x96 .f32) = Spec.row (V c main_v14) :=
    funext fun p => funext fun j => gru3_blk_b V c t p j
  have h0 : Spec.slab (iblk3 V c 0 t : Vec Ideal S1x2048x96 .f32) 0 = Spec.slab (V c main_v0_2) (gru3_entry t) :=
    funext fun n => funext fun k => gru3_blk_h V c t n k
  rw [h1, h2, h3, h4, h0]

/-- An index of the output array is in point t's block iff each coordinate is in the block's range on its axis. -/
theorem gru3_mem_blk (t : Fin cfg3.N) (i : S8x2048x96.Idx) :
    i ∈ ((cfg3.win 5).blk t).view.set ↔ ∀ a : Fin 3, win3_5.index t a * S1x2048x96.size a ≤ (i a).val ∧ (i a).val < win3_5.index t a * S1x2048x96.size a + S1x2048x96.size a := by
  show i ∈ ((View.whole main_v15).slice (win3_5.rect t)).set ↔ _
  rw [View.set_slice_whole, Rect.mem_set_unit]
  exact Iff.rfl

/-- The output array after the region: every index lies in the block of its batch entry's point. -/
theorem gru3_out (c : Dev nD) : (dat3 (F := Ideal) V c).arrAt 5 cfg3.N
    = Spec.gru (V c main_v0_2) (V c main_arg3) (V c main_arg6) (V c main_v12) (V c main_v14) :=
  (dat3 (F := Ideal) V c).arrAt_eq_of_cover 5 _ (fun t _ => gru3_flushed V c t) fun i => by
    have h0 : (i 0).val < 8 := (i 0).isLt
    have h1 : (i 1).val < 2048 := (i 1).isLt
    have h2 : (i 2).val < 96 := (i 2).isLt
    let t : Fin cfg3.N := ⟨(i 0).val, by rw [show cfg3.N = 8 from N_3]; exact h0⟩
    have ht : t.val = (i 0).val := rfl
    obtain ⟨-, -, -, -, -, ⟨e0, e1, e2⟩⟩ := gru3_idx t
    refine ⟨t, flush3_5 t, ?_⟩
    rw [gru3_mem_blk]
    intro a
    match a with
    | ⟨0, _⟩ => show win3_5.index t (0 : Fin 3) * 1 ≤ (i 0).val ∧ (i 0).val < win3_5.index t (0 : Fin 3) * 1 + 1; omega
    | ⟨1, _⟩ => show win3_5.index t (1 : Fin 3) * 2048 ≤ (i 1).val ∧ (i 1).val < win3_5.index t (1 : Fin 3) * 2048 + 2048; omega
    | ⟨2, _⟩ => show win3_5.index t (2 : Fin 3) * 96 ≤ (i 2).val ∧ (i 2).val < win3_5.index t (2 : Fin 3) * 96 + 96; omega

end Cert.KernelIdeal.Val

end
-- ==== Proof.K.FusePay.lean ====
import proofs.«106044_j70463233458716_2_alg».proof.Proof.Gen.KernelIdeal.Frame
import proofs.«106044_j70463233458716_2_alg».proof.Proof.Spec
import proofs.«106044_j70463233458716_2_alg».proof.Proof.LibMatmulRows
import proofs.«106044_j70463233458716_2_alg».proof.Proof.LibRowReads
import proofs.«106044_j70463233458716_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

/-
  The mixing body at one entry of its block.

  The body of the mixing region takes the three branch results s0, s1, s2 of one batch entry ([2048, 96] each) and
  computes t_i = s_i · Wii[i] + bii[i], then a0 = l(t0 + t1), a1 = l(t1 + t2), a2 = l(t2 + t0) with
  l(v) = v where v ≥ 0 and 0.2 · v elsewhere, and stores
  ((((a0 · Wa[0] + ba[0]) + a1 · Wa[1]) + ba[1]) + a2 · Wa[2]) + ba[2].
  Every matrix product accumulates into zero, so its entry (n, j) is the plain sum over the 96 channels; taking a
  slab of the stacked matrices or a row of the stacked biases, repeating a row down the nodes and dropping or adding
  the unit batch axis only rename the index; the comparison, the selection and the scaling act entry by entry.
-/

noncomputable section
namespace Cert.KernelIdeal.Val
open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

/-- The zero offsets of a rank-3 and of a rank-2 access. -/
theorem fuse_hz3 : (![0, 0, 0] : Fin 3 → Nat) = fun _ => 0 := funext fun a => by fin_cases a <;> rfl
theorem fuse_hz2 : (![0, 0] : Fin 2 → Nat) = fun _ => 0 := funext fun a => by fin_cases a <;> rfl

/-- A product with slab l of the stacked matrices, accumulated into zero, at (n, j). -/
theorem fuse_mm_apply (l : Nat) (hl : l < 3)
    (h1 : S3x96x96.Slices ![l, 0, 0] S1x96x96) (h2 : S1x96x96.ShapeCasts S96x96)
    (a : FVec Ideal S2048x96 .f32) (W : Vec Ideal S3x96x96 .f32) (n : Fin 2048) (j : Fin 96) :
    matmul (F := Ideal) (φ₁ := .f32) (φ₂ := .f32) dot_S2048x96_S96x96_S2048x96_1_0_0_1_n_n none a
        (shapeCast S96x96 (extractStridedSlice S1x96x96 ![l, 0, 0] W h1) h2)
        (constant (F := Ideal) S2048x96 .f32 0x00000000#32) (ix2 n j)
      = ∑ k : Fin 96, a (ix2 n k) * W (ix3 (⟨l, hl⟩ : Fin 3) k j) := by
  refine (Cert.Bridge.matmul_plain_zero_apply 2048 96 96 none a _ n j).trans ?_
  refine Finset.sum_congr rfl fun k _ => ?_
  exact congrArg (a (ix2 n k) * ·) (Cert.LibRowReads.slab_read l hl h1 h2 W k j)

/-- Row l of the stacked biases laid down the nodes, at (n, j). -/
theorem fuse_bias_apply (l : Nat) (hl : l < 3)
    (h3 : S3x96.Slices ![l, 0] S1x96) (h4 : S1x96.ShapeCasts S96) (h5 : S96.ShapeCasts S1x96)
    (h6 : S1x96.Broadcasts S2048x96) (b : Vec Ideal S3x96 .f32) (n : Fin 2048) (j : Fin 96) :
    broadcastTo S2048x96 (shapeCast S1x96 (shapeCast S96 (extractStridedSlice S1x96 ![l, 0] b h3) h4) h5) h6 (ix2 n j)
      = Spec.row b ⟨l, hl⟩ j := by
  refine (broadcastTo_1b_ab_apply _ h6 n j).trans ?_
  refine (shapeCast_a_1a_apply _ h5 0 j).trans ?_
  exact Cert.LibRowReads.row_read l hl h3 h4 b j

/-- t = s · Wii[l] + bii[l] at (n, k), s the [1, 2048, 96] block of a branch result. -/
theorem fuse_inter_apply (l : Nat) (hl : l < 3)
    (h1 : S3x96x96.Slices ![l, 0, 0] S1x96x96) (h2 : S1x96x96.ShapeCasts S96x96)
    (h3 : S3x96.Slices ![l, 0] S1x96) (h4 : S1x96.ShapeCasts S96) (h5 : S96.ShapeCasts S1x96)
    (h6 : S1x96.Broadcasts S2048x96) (hs : S1x2048x96.ShapeCasts S2048x96)
    (s : Vec Ideal S1x2048x96 .f32) (W : Vec Ideal S3x96x96 .f32) (b : Vec Ideal S3x96 .f32)
    (n : Fin 2048) (k : Fin 96) :
    addf (matmul (F := Ideal) (φ₁ := .f32) (φ₂ := .f32) dot_S2048x96_S96x96_S2048x96_1_0_0_1_n_n none (shapeCast S2048x96 s hs)
          (shapeCast S96x96 (extractStridedSlice S1x96x96 ![l, 0, 0] W h1) h2)
          (constant (F := Ideal) S2048x96 .f32 0x00000000#32))
        (broadcastTo S2048x96 (shapeCast S1x96 (shapeCast S96 (extractStridedSlice S1x96 ![l, 0] b h3) h4) h5) h6)
        (ix2 n k)
      = Spec.interB (Spec.slab s 0) (Spec.slab W ⟨l, hl⟩) (Spec.row b ⟨l, hl⟩) n k := by
  show _ = (∑ q : Fin 96, s (ix3 (0 : Fin 1) n q) * W (ix3 (⟨l, hl⟩ : Fin 3) q k)) + Spec.row b ⟨l, hl⟩ k
  refine congrArg₂ (· + ·) ?_ (fuse_bias_apply l hl h3 h4 h5 h6 b n k)
  refine (fuse_mm_apply l hl h1 h2 (shapeCast S2048x96 s hs) W n k).trans ?_
  refine Finset.sum_congr rfl fun q _ => ?_
  exact congrArg (· * W (ix3 (⟨l, hl⟩ : Fin 3) q k)) (shapeCast_1ab_ab_apply s hs n q)

/-- l(v) entry by entry: the comparison with the zero word, the selection, the scaling by the word of 0.2. -/
theorem fuse_lrelu_apply (v : FVec Ideal S2048x96 .f32) (i : S2048x96.Idx) :
    select (cmpf .oge v (broadcast S2048x96 (Scalar.ofBits (F := Ideal) .f32 0x00000000#32))) v
        (mulf (broadcast S2048x96 (Scalar.ofBits (F := Ideal) .f32 0x3E4CCCCD#32)) v) i
      = Spec.lrelu (v i) := rfl

/-- One term l(u + w) · Wa[l] at (n, j), u and w given entry by entry. -/
theorem fuse_term_apply (l : Nat) (hl : l < 3)
    (h1 : S3x96x96.Slices ![l, 0, 0] S1x96x96) (h2 : S1x96x96.ShapeCasts S96x96)
    (W : Vec Ideal S3x96x96 .f32) (u w : FVec Ideal S2048x96 .f32) (U W' : Spec.Mat 2048 96)
    (hu : ∀ n k, u (ix2 n k) = U n k) (hw : ∀ n k, w (ix2 n k) = W' n k) (n : Fin 2048) (j : Fin 96) :
    matmul (F := Ideal) (φ₁ := .f32) (φ₂ := .f32) dot_S2048x96_S96x96_S2048x96_1_0_0_1_n_n none
        (select (cmpf .oge (addf u w) (broadcast S2048x96 (Scalar.ofBits (F := Ideal) .f32 0x00000000#32))) (addf u w)
          (mulf (broadcast S2048x96 (Scalar.ofBits (F := Ideal) .f32 0x3E4CCCCD#32)) (addf u w)))
        (shapeCast S96x96 (extractStridedSlice S1x96x96 ![l, 0, 0] W h1) h2)
        (constant (F := Ideal) S2048x96 .f32 0x00000000#32) (ix2 n j)
      = Spec.mm (fun n k => Spec.lrelu (U n k + W' n k)) (Spec.slab W ⟨l, hl⟩) n j := by
  refine (fuse_mm_apply l hl h1 h2 _ W n j).trans ?_
  show _ = ∑ k : Fin 96, Spec.lrelu (U n k + W' n k) * W (ix3 (⟨l, hl⟩ : Fin 3) k j)
  refine Finset.sum_congr rfl fun k _ => ?_
  refine congrArg (· * W (ix3 (⟨l, hl⟩ : Fin 3) k j)) ?_
  refine (fuse_lrelu_apply (addf u w) (ix2 n k)).trans ?_
  exact congrArg Spec.lrelu (congrArg₂ (· + ·) (hu n k) (hw n k))

/-- The stored value at (0, n, j), from the three t's given entry by entry. -/
theorem fuse_mix_apply (v8 : Vec Ideal S3x96x96 .f32) (v9 : Vec Ideal S3x96 .f32) (t0 t1 t2 : FVec Ideal S2048x96 .f32)
    (T0 T1 T2 : Spec.Mat 2048 96) (e0 : ∀ n k, t0 (ix2 n k) = T0 n k) (e1 : ∀ n k, t1 (ix2 n k) = T1 n k)
    (e2 : ∀ n k, t2 (ix2 n k) = T2 n k) (n : Fin 2048) (j : Fin 96) :
    k4_pay1 (F := Ideal) v8 v9 t0 t1 t2 (addf t0 t1) (k4_pay6 (F := Ideal)) (ix3 (0 : Fin 1) n j)
      = ((((Spec.mm (fun n k => Spec.lrelu (T0 n k + T1 n k)) (Spec.slab v8 0) n j + Spec.row v9 0 j)
          + Spec.mm (fun n k => Spec.lrelu (T1 n k + T2 n k)) (Spec.slab v8 1) n j) + Spec.row v9 1 j)
          + Spec.mm (fun n k => Spec.lrelu (T2 n k + T0 n k)) (Spec.slab v8 2) n j) + Spec.row v9 2 j := by
  unfold k4_pay1 k4_pay6
  refine (shapeCast_ab_1ab_apply _ _ 0 n j).trans ?_
  refine congrArg₂ (· + ·) (congrArg₂ (· + ·) (congrArg₂ (· + ·) (congrArg₂ (· + ·) (congrArg₂ (· + ·) ?_ ?_) ?_) ?_) ?_) ?_
  · exact fuse_term_apply 0 (by decide) _ _ v8 t0 t1 T0 T1 e0 e1 n j
  · exact fuse_bias_apply 0 (by decide) _ _ _ _ v9 n j
  · exact fuse_term_apply 1 (by decide) _ _ v8 t1 t2 T1 T2 e1 e2 n j
  · exact fuse_bias_apply 1 (by decide) _ _ _ _ v9 n j
  · exact fuse_term_apply 2 (by decide) _ _ v8 t2 t0 T2 T0 e2 e0 n j
  · exact fuse_bias_apply 2 (by decide) _ _ _ _ v9 n j

/-- What the body leaves in the output block, at (0, n, j). -/
theorem fuse_pay_apply (x0 x1 x2 : Vec Ideal S1x2048x96 .f32) (x3 : Vec Ideal S3x96x96 .f32) (x4 : Vec Ideal S3x96 .f32)
    (x5 : Vec Ideal S3x96x96 .f32) (x6 : Vec Ideal S3x96 .f32) (n : Fin 2048) (j : Fin 96) :
    out4_7 (F := Ideal) x0 x1 x2 x3 x4 x5 x6 (ix3 (0 : Fin 1) n j)
      = Spec.fuseB (Spec.slab x0 0) (Spec.slab x1 0) (Spec.slab x2 0) (Spec.slab x3) (Spec.row x4) (Spec.slab x5) (Spec.row x6) n j := by
  unfold out4_7
  rw [View.canon_unit_zero (S := S1x2048x96) fuse_hz3]
  simp only [View.ld_unit_zero (S := S1x2048x96) fuse_hz3, View.ld_unit_zero (S := S3x96x96) fuse_hz3,
    View.ld_unit_zero (S := S3x96) fuse_hz2]
  have e0 : ∀ n k, k4_pay2 (F := Ideal) x0 x3 x4 (ix2 n k) = Spec.interB (Spec.slab x0 0) (Spec.slab x3 0) (Spec.row x4 0) n k :=
    fun n k => by unfold k4_pay2; exact fuse_inter_apply 0 (by decide) _ _ _ _ _ _ _ x0 x3 x4 n k
  have e1 : ∀ n k, k4_pay3 (F := Ideal) x1 x3 x4 (ix2 n k) = Spec.interB (Spec.slab x1 0) (Spec.slab x3 1) (Spec.row x4 1) n k :=
    fun n k => by unfold k4_pay3; exact fuse_inter_apply 1 (by decide) _ _ _ _ _ _ _ x1 x3 x4 n k
  have e2 : ∀ n k, k4_pay4 (F := Ideal) x2 x3 x4 (ix2 n k) = Spec.interB (Spec.slab x2 0) (Spec.slab x3 2) (Spec.row x4 2) n k :=
    fun n k => by unfold k4_pay4; exact fuse_inter_apply 2 (by decide) _ _ _ _ _ _ _ x2 x3 x4 n k
  unfold k4_pay5
  exact fuse_mix_apply x5 x6 _ _ _ _ _ _ e0 e1 e2 n j

end Cert.KernelIdeal.Val

end
-- ==== Proof.K.Fuse.lean ====
import proofs.«106044_j70463233458716_2_alg».proof.Proof.Gen.KernelIdeal.Frame
import proofs.«106044_j70463233458716_2_alg».proof.Proof.Spec
import proofs.«106044_j70463233458716_2_alg».proof.Proof.K.FusePay
import Idealize.ShloMosaic.Lib.Pipeline.Value
import Idealize.ShloMosaic.Lib.ValueIdx
import Idealize.ShloMosaic.Lib.ValueLayout
import Idealize.ShloMosaic.PureOps.Ideal.Laws

set_option maxRecDepth 16384

/-
  The mixing region's output array.

  The region runs its body once per batch entry (a grid of eight points).  At point t the three branch results and
  the output are staged by slabs: the block at point t is slab t of the array; the four weight arrays are staged
  whole.  So what point t writes back is, entry by entry, the body's value on slab t of the three branch results and
  on the whole weights: block t of the mixing of the whole arrays.  The eight slabs tile the output array, hence it
  ends holding the mixing.
-/

noncomputable section
namespace Cert.KernelIdeal.Val
open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The grid has eight points, one per batch entry. -/
theorem fuse_lt8 (t : Fin cfg4.N) : t.val < 8 := by have h := t.isLt; have hN : cfg4.N = 8 := N_4; omega

/-! The printed index maps, decided over the grid: a batched window's block at point t has block index (t, 0, 0); a weight
    window's one block has block index zero on every axis. -/

theorem fuse_idx0 : ∀ t : Fin cfg4.N, win4_0.index t (0 : Fin 3) = t.val ∧ win4_0.index t (1 : Fin 3) = 0 ∧ win4_0.index t (2 : Fin 3) = 0 :=
  (by decide +kernel : ∀ t : Fin grid4.N, _)
theorem fuse_idx1 : ∀ t : Fin cfg4.N, win4_1.index t (0 : Fin 3) = t.val ∧ win4_1.index t (1 : Fin 3) = 0 ∧ win4_1.index t (2 : Fin 3) = 0 :=
  (by decide +kernel : ∀ t : Fin grid4.N, _)
theorem fuse_idx2 : ∀ t : Fin cfg4.N, win4_2.index t (0 : Fin 3) = t.val ∧ win4_2.index t (1 : Fin 3) = 0 ∧ win4_2.index t (2 : Fin 3) = 0 :=
  (by decide +kernel : ∀ t : Fin grid4.N, _)
theorem fuse_idx3 : ∀ t : Fin cfg4.N, win4_3.index t (0 : Fin 3) = 0 ∧ win4_3.index t (1 : Fin 3) = 0 ∧ win4_3.index t (2 : Fin 3) = 0 :=
  (by decide +kernel : ∀ t : Fin grid4.N, _)
theorem fuse_idx4 : ∀ t : Fin cfg4.N, win4_4.index t (0 : Fin 2) = 0 ∧ win4_4.index t (1 : Fin 2) = 0 :=
  (by decide +kernel : ∀ t : Fin grid4.N, _)
theorem fuse_idx5 : ∀ t : Fin cfg4.N, win4_5.index t (0 : Fin 3) = 0 ∧ win4_5.index t (1 : Fin 3) = 0 ∧ win4_5.index t (2 : Fin 3) = 0 :=
  (by decide +kernel : ∀ t : Fin grid4.N, _)
theorem fuse_idx6 : ∀ t : Fin cfg4.N, win4_6.index t (0 : Fin 2) = 0 ∧ win4_6.index t (1 : Fin 2) = 0 :=
  (by decide +kernel : ∀ t : Fin grid4.N, _)
theorem fuse_idx7 : ∀ t : Fin cfg4.N, win4_7.index t (0 : Fin 3) = t.val ∧ win4_7.index t (1 : Fin 3) = 0 ∧ win4_7.index t (2 : Fin 3) = 0 :=
  (by decide +kernel : ∀ t : Fin grid4.N, _)

/-- The first branch result's block at point t is slab t of its array. -/
theorem fuse_blk_s0 (c : Dev nD) (t : Fin cfg4.N) (p : Fin 2048) (q : Fin 96) :
    (iblk4 V c 0 t : Vec Ideal S1x2048x96 .f32) (ix3 (0 : Fin 1) p q)
      = (V c main_v5 : S8x2048x96.Idx → EReal) (ix3 (⟨t.val, fuse_lt8 t⟩ : Fin 8) p q) := by
  show (V c main_v5 : S8x2048x96.Idx → EReal) (((cfg4.win 0).blk t).view.emb (ix3 (0 : Fin 1) p q)) = _
  refine congrArg (V c main_v5 : S8x2048x96.Idx → EReal) ?_
  obtain ⟨e0, e1, e2⟩ := fuse_idx0 t
  funext a; apply Fin.ext
  match a with
  | ⟨0, _⟩ => show win4_0.index t (0 : Fin 3) * 1 + 1 * 0 = t.val; omega
  | ⟨1, _⟩ => show win4_0.index t (1 : Fin 3) * 2048 + 1 * p.val = p.val; omega
  | ⟨2, _⟩ => show win4_0.index t (2 : Fin 3) * 96 + 1 * q.val = q.val; omega

/-- The second branch result's block at point t is slab t of its array. -/
theorem fuse_blk_s1 (c : Dev nD) (t : Fin cfg4.N) (p : Fin 2048) (q : Fin 96) :
    (iblk4 V c 1 t : Vec Ideal S1x2048x96 .f32) (ix3 (0 : Fin 1) p q)
      = (V c main_v10 : S8x2048x96.Idx → EReal) (ix3 (⟨t.val, fuse_lt8 t⟩ : Fin 8) p q) := by
  show (V c main_v10 : S8x2048x96.Idx → EReal) (((cfg4.win 1).blk t).view.emb (ix3 (0 : Fin 1) p q)) = _
  refine congrArg (V c main_v10 : S8x2048x96.Idx → EReal) ?_
  obtain ⟨e0, e1, e2⟩ := fuse_idx1 t
  funext a; apply Fin.ext
  match a with
  | ⟨0, _⟩ => show win4_1.index t (0 : Fin 3) * 1 + 1 * 0 = t.val; omega
  | ⟨1, _⟩ => show win4_1.index t (1 : Fin 3) * 2048 + 1 * p.val = p.val; omega
  | ⟨2, _⟩ => show win4_1.index t (2 : Fin 3) * 96 + 1 * q.val = q.val; omega

/-- The third branch result's block at point t is slab t of its array. -/
theorem fuse_blk_s2 (c : Dev nD) (t : Fin cfg4.N) (p : Fin 2048) (q : Fin 96) :
    (iblk4 V c 2 t : Vec Ideal S1x2048x96 .f32) (ix3 (0 : Fin 1) p q)
      = (V c main_v15 : S8x2048x96.Idx → EReal) (ix3 (⟨t.val, fuse_lt8 t⟩ : Fin 8) p q) := by
  show (V c main_v15 : S8x2048x96.Idx → EReal) (((cfg4.win 2).blk t).view.emb (ix3 (0 : Fin 1) p q)) = _
  refine congrArg (V c main_v15 : S8x2048x96.Idx → EReal) ?_
  obtain ⟨e0, e1, e2⟩ := fuse_idx2 t
  funext a; apply Fin.ext
  match a with
  | ⟨0, _⟩ => show win4_2.index t (0 : Fin 3) * 1 + 1 * 0 = t.val; omega
  | ⟨1, _⟩ => show win4_2.index t (1 : Fin 3) * 2048 + 1 * p.val = p.val; omega
  | ⟨2, _⟩ => show win4_2.index t (2 : Fin 3) * 96 + 1 * q.val = q.val; omega

/-- The stacked matrices of the first layer: its one block is the whole array. -/
theorem fuse_blk_wii (c : Dev nD) (t : Fin cfg4.N) (y : S3x96x96.Idx) :
    (iblk4 V c 3 t : Vec Ideal S3x96x96 .f32) y = (V c main_arg9 : S3x96x96.Idx → EReal) y := by
  show (V c main_arg9 : S3x96x96.Idx → EReal) (((cfg4.win 3).blk t).view.emb y) = _
  refine congrArg (V c main_arg9 : S3x96x96.Idx → EReal) ?_
  obtain ⟨e0, e1, e2⟩ := fuse_idx3 t
  funext a; apply Fin.ext
  match a with
  | ⟨0, _⟩ => show win4_3.index t (0 : Fin 3) * 3 + 1 * (y 0).val = (y 0).val; omega
  | ⟨1, _⟩ => show win4_3.index t (1 : Fin 3) * 96 + 1 * (y 1).val = (y 1).val; omega
  | ⟨2, _⟩ => show win4_3.index t (2 : Fin 3) * 96 + 1 * (y 2).val = (y 2).val; omega

/-- The stacked biases of the first layer: its one block is the whole array. -/
theorem fuse_blk_bii (c : Dev nD) (t : Fin cfg4.N) (y : S3x96.Idx) :
    (iblk4 V c 4 t : Vec Ideal S3x96 .f32) y = (V c main_arg10 : S3x96.Idx → EReal) y := by
  show (V c main_arg10 : S3x96.Idx → EReal) (((cfg4.win 4).blk t).view.emb y) = _
  refine congrArg (V c main_arg10 : S3x96.Idx → EReal) ?_
  obtain ⟨e0, e1⟩ := fuse_idx4 t
  funext a; apply Fin.ext
  match a with
  | ⟨0, _⟩ => show win4_4.index t (0 : Fin 2) * 3 + 1 * (y 0).val = (y 0).val; omega
  | ⟨1, _⟩ => show win4_4.index t (1 : Fin 2) * 96 + 1 * (y 1).val = (y 1).val; omega

/-- The stacked matrices of the second layer: its one block is the whole array. -/
theorem fuse_blk_wa (c : Dev nD) (t : Fin cfg4.N) (y : S3x96x96.Idx) :
    (iblk4 V c 5 t : Vec Ideal S3x96x96 .f32) y = (V c main_arg13 : S3x96x96.Idx → EReal) y := by
  show (V c main_arg13 : S3x96x96.Idx → EReal) (((cfg4.win 5).blk t).view.emb y) = _
  refine congrArg (V c main_arg13 : S3x96x96.Idx → EReal) ?_
  obtain ⟨e0, e1, e2⟩ := fuse_idx5 t
  funext a; apply Fin.ext
  match a with
  | ⟨0, _⟩ => show win4_5.index t (0 : Fin 3) * 3 + 1 * (y 0).val = (y 0).val; omega
  | ⟨1, _⟩ => show win4_5.index t (1 : Fin 3) * 96 + 1 * (y 1).val = (y 1).val; omega
  | ⟨2, _⟩ => show win4_5.index t (2 : Fin 3) * 96 + 1 * (y 2).val = (y 2).val; omega

/-- The stacked biases of the second layer: its one block is the whole array. -/
theorem fuse_blk_ba (c : Dev nD) (t : Fin cfg4.N) (y : S3x96.Idx) :
    (iblk4 V c 6 t : Vec Ideal S3x96 .f32) y = (V c main_arg14 : S3x96.Idx → EReal) y := by
  show (V c main_arg14 : S3x96.Idx → EReal) (((cfg4.win 6).blk t).view.emb y) = _
  refine congrArg (V c main_arg14 : S3x96.Idx → EReal) ?_
  obtain ⟨e0, e1⟩ := fuse_idx6 t
  funext a; apply Fin.ext
  match a with
  | ⟨0, _⟩ => show win4_6.index t (0 : Fin 2) * 3 + 1 * (y 0).val = (y 0).val; omega
  | ⟨1, _⟩ => show win4_6.index t (1 : Fin 2) * 96 + 1 * (y 1).val = (y 1).val; omega

/-- Entry (0, n, j) of the output's block at point t sits at (t, n, j) of the output array. -/
theorem fuse_emb7 (t : Fin cfg4.N) (n : Fin 2048) (j : Fin 96) :
    (((cfg4.win 7).blk t).view.emb (ix3 (0 : Fin 1) n j) : S8x2048x96.Idx) = ix3 (⟨t.val, fuse_lt8 t⟩ : Fin 8) n j := by
  obtain ⟨e0, e1, e2⟩ := fuse_idx7 t
  funext a; apply Fin.ext
  match a with
  | ⟨0, _⟩ => show win4_7.index t (0 : Fin 3) * 1 + 1 * 0 = t.val; omega
  | ⟨1, _⟩ => show win4_7.index t (1 : Fin 3) * 2048 + 1 * n.val = n.val; omega
  | ⟨2, _⟩ => show win4_7.index t (2 : Fin 3) * 96 + 1 * j.val = j.val; omega

/-- What point t writes back is block t of the mixing of the whole arrays: the body's value at (0, n, j) of its
    blocks, and each block read where it lies in its array. -/
theorem fuse_flushed7 (c : Dev nD) (t : Fin cfg4.N) :
    (dat4 (F := Ideal) V c).flushed 7 t = ((cfg4.win 7).blk t).view.read (Elt Ideal)
      (Spec.fuse (V c main_v5) (V c main_v10) (V c main_v15) (V c main_arg9) (V c main_arg10) (V c main_arg13) (V c main_arg14)) := by
  show (cfg4.win 7).cut (grid4.coords t) ((dat4 (F := Ideal) V c).after 7 t) = _
  rw [after4_7]
  funext y
  obtain ⟨u, n, j, rfl⟩ : ∃ (u : Fin 1) (n : Fin 2048) (j : Fin 96), y = ix3 u n j := ⟨y 0, y 1, y 2, eq_ix3 y⟩
  obtain rfl : u = 0 := Subsingleton.elim _ _
  show out4_7 (F := Ideal) (iblk4 V c 0 t) (iblk4 V c 1 t) (iblk4 V c 2 t) (iblk4 V c 3 t) (iblk4 V c 4 t) (iblk4 V c 5 t) (iblk4 V c 6 t) (ix3 (0 : Fin 1) n j)
      = Spec.fuse (V c main_v5) (V c main_v10) (V c main_v15) (V c main_arg9) (V c main_arg10) (V c main_arg13) (V c main_arg14)
          (((cfg4.win 7).blk t).view.emb (ix3 (0 : Fin 1) n j))
  rw [fuse_emb7 t n j]
  refine (fuse_pay_apply (iblk4 V c 0 t) (iblk4 V c 1 t) (iblk4 V c 2 t) (iblk4 V c 3 t) (iblk4 V c 4 t) (iblk4 V c 5 t) (iblk4 V c 6 t) n j).trans ?_
  show Spec.fuseB _ _ _ _ _ _ _ n j = Spec.fuseB (Spec.slab (V c main_v5) ⟨t.val, fuse_lt8 t⟩) (Spec.slab (V c main_v10) ⟨t.val, fuse_lt8 t⟩)
      (Spec.slab (V c main_v15) ⟨t.val, fuse_lt8 t⟩) (Spec.slab (V c main_arg9)) (Spec.row (V c main_arg10)) (Spec.slab (V c main_arg13))
      (Spec.row (V c main_arg14)) n j
  have es0 : Spec.slab (iblk4 V c 0 t : Vec Ideal S1x2048x96 .f32) 0 = Spec.slab (V c main_v5 : S8x2048x96.Idx → EReal) ⟨t.val, fuse_lt8 t⟩ :=
    funext fun p => funext fun q => fuse_blk_s0 V c t p q
  have es1 : Spec.slab (iblk4 V c 1 t : Vec Ideal S1x2048x96 .f32) 0 = Spec.slab (V c main_v10 : S8x2048x96.Idx → EReal) ⟨t.val, fuse_lt8 t⟩ :=
    funext fun p => funext fun q => fuse_blk_s1 V c t p q
  have es2 : Spec.slab (iblk4 V c 2 t : Vec Ideal S1x2048x96 .f32) 0 = Spec.slab (V c main_v15 : S8x2048x96.Idx → EReal) ⟨t.val, fuse_lt8 t⟩ :=
    funext fun p => funext fun q => fuse_blk_s2 V c t p q
  have ewii : Spec.slab (iblk4 V c 3 t : Vec Ideal S3x96x96 .f32) = Spec.slab (V c main_arg9 : S3x96x96.Idx → EReal) :=
    funext fun i => funext fun p => funext fun q => fuse_blk_wii V c t _
  have ebii : Spec.row (iblk4 V c 4 t : Vec Ideal S3x96 .f32) = Spec.row (V c main_arg10 : S3x96.Idx → EReal) :=
    funext fun i => funext fun q => fuse_blk_bii V c t _
  have ewa : Spec.slab (iblk4 V c 5 t : Vec Ideal S3x96x96 .f32) = Spec.slab (V c main_arg13 : S3x96x96.Idx → EReal) :=
    funext fun i => funext fun p => funext fun q => fuse_blk_wa V c t _
  have eba : Spec.row (iblk4 V c 6 t : Vec Ideal S3x96 .f32) = Spec.row (V c main_arg14 : S3x96.Idx → EReal) :=
    funext fun i => funext fun q => fuse_blk_ba V c t _
  rw [es0, es1, es2, ewii, ebii, ewa, eba]

/-- An entry of the output array whose batch coordinate is t is in the block of point t. -/
theorem fuse_mem7 (t : Fin cfg4.N) (i : S8x2048x96.Idx) (h : (i 0).val = t.val) : i ∈ ((cfg4.win 7).blk t).view.set := by
  have hi1 : (i 1).val < 2048 := (i 1).isLt
  have hi2 : (i 2).val < 96 := (i 2).isLt
  obtain ⟨e0, e1, e2⟩ := fuse_idx7 t
  show i ∈ ((View.whole main_v16).slice (win4_7.rect t)).set
  rw [View.set_slice_whole, Rect.mem_set_unit]
  intro a
  match a with
  | ⟨0, _⟩ => show win4_7.index t (0 : Fin 3) * 1 ≤ (i 0).val ∧ (i 0).val < win4_7.index t (0 : Fin 3) * 1 + 1; omega
  | ⟨1, _⟩ => show win4_7.index t (1 : Fin 3) * 2048 ≤ (i 1).val ∧ (i 1).val < win4_7.index t (1 : Fin 3) * 2048 + 2048; omega
  | ⟨2, _⟩ => show win4_7.index t (2 : Fin 3) * 96 ≤ (i 2).val ∧ (i 2).val < win4_7.index t (2 : Fin 3) * 96 + 96; omega

/-- Every entry of the output array is in the block of the point of its batch entry. -/
theorem fuse_cover7 (i : S8x2048x96.Idx) :
    ∃ t : Fin cfg4.N, (cfg4.win 7).flush t = true ∧ i ∈ ((cfg4.win 7).blk t).view.set :=
  ⟨⟨(i 0).val, by have h : (i 0).val < 8 := (i 0).isLt; have hN : cfg4.N = 8 := N_4; omega⟩, flush4_7 _, fuse_mem7 _ i rfl⟩

/-- Region 4 (mixing): the output array after the region. -/
theorem fuse_out (c : Dev nD) : (dat4 (F := Ideal) V c).arrAt 7 cfg4.N
    = Spec.fuse (V c main_v5) (V c main_v10) (V c main_v15) (V c main_arg9) (V c main_arg10) (V c main_arg13) (V c main_arg14) :=
  (dat4 (F := Ideal) V c).arrAt_eq_of_cover 7 _ (fun t _ => fuse_flushed7 V c t) fuse_cover7

end Cert.KernelIdeal.Val

end
-- ==== Proof.K.Chain.lean ====
/-
  The idealized kernel program's result as ONE function of its fifteen argument arrays.

  The program is five regions among three short stretches of host operations.  The contents of every buffer at a
  segment boundary are a fold from the launch memory; read back through that fold,
    · the encoding region leaves the three encodings of the features (one per branch),
    · each host stretch cuts branch i's six matrices and six bias rows out of the stacked step weights (a slice along
      the leading axis whose unit axis is then dropped), and keeps every buffer it does not write,
    · step region i takes branch i's encoding, adjacency, mask and those weights to the branch's state after two
      steps, and every other buffer passes a region unchanged,
    · the mixing region takes the three branch states and the mixing weights to the result.
  Composed, the result buffer after the run holds Spec.out of the arguments as launched.
-/
import proofs.«106044_j70463233458716_2_alg».proof.Proof.Gen.KernelIdeal.Frame
import proofs.«106044_j70463233458716_2_alg».proof.Proof.Spec
import proofs.«106044_j70463233458716_2_alg».proof.Proof.K.Enc
import proofs.«106044_j70463233458716_2_alg».proof.Proof.K.Gru1
import proofs.«106044_j70463233458716_2_alg».proof.Proof.K.Gru2
import proofs.«106044_j70463233458716_2_alg».proof.Proof.K.Gru3
import proofs.«106044_j70463233458716_2_alg».proof.Proof.K.Fuse
import Idealize.ShloMosaic.Lib.Pipeline.Value
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The weight slices a host stretch computes, read as the branch's arrays -/

/-- Branch i of the stacked step matrices [3, 6, 96, 96], cut out along the first axis and its unit axis dropped. -/
theorem chain_pick6 (o : Nat) (i : Fin 3) (ho : o = i.val) (Wg : (⟨4, ![3, 6, 96, 96]⟩ : Shape).Idx → EReal)
    (h1 : (⟨4, ![3, 6, 96, 96]⟩ : Shape).Slices ![o, 0, 0, 0] ⟨4, ![1, 6, 96, 96]⟩)
    (h2 : (⟨4, ![1, 6, 96, 96]⟩ : Shape).ShapeCasts ⟨3, ![6, 96, 96]⟩) :
    shapeCast ⟨3, ![6, 96, 96]⟩ (extractStridedSlice ⟨4, ![1, 6, 96, 96]⟩ ![o, 0, 0, 0] Wg h1) h2 = Spec.pick6 Wg i := by
  funext y
  obtain ⟨p, k, j, rfl⟩ : ∃ (p : Fin 6) (k : Fin 96) (j : Fin 96), y = ix3 p k j := ⟨y 0, y 1, y 2, eq_ix3 y⟩
  refine (shapeCast_1abc_abc_apply _ h2 p k j).trans ?_
  refine extractStridedSlice_apply _ Wg h1 _ (ix4 i p k j) (fun a => ?_)
  match a with
  | ⟨0, _⟩ => show i.val = o + 0; omega
  | ⟨1, _⟩ => show p.val = 0 + p.val; omega
  | ⟨2, _⟩ => show k.val = 0 + k.val; omega
  | ⟨3, _⟩ => show j.val = 0 + j.val; omega

/-- Branch i of the stacked bias rows [3, 6, 96], cut out and its unit axis dropped. -/
theorem chain_pickB6 (o : Nat) (i : Fin 3) (ho : o = i.val) (bg : (⟨3, ![3, 6, 96]⟩ : Shape).Idx → EReal)
    (h1 : (⟨3, ![3, 6, 96]⟩ : Shape).Slices ![o, 0, 0] ⟨3, ![1, 6, 96]⟩)
    (h2 : (⟨3, ![1, 6, 96]⟩ : Shape).ShapeCasts ⟨2, ![6, 96]⟩) :
    shapeCast ⟨2, ![6, 96]⟩ (extractStridedSlice ⟨3, ![1, 6, 96]⟩ ![o, 0, 0] bg h1) h2 = Spec.pickB6 bg i := by
  funext y
  obtain ⟨p, j, rfl⟩ : ∃ (p : Fin 6) (j : Fin 96), y = ix2 p j := ⟨y 0, y 1, eq_ix2 y⟩
  refine (shapeCast_1ab_ab_apply _ h2 p j).trans ?_
  refine extractStridedSlice_apply _ bg h1 _ (ix3 i p j) (fun a => ?_)
  match a with
  | ⟨0, _⟩ => show i.val = o + 0; omega
  | ⟨1, _⟩ => show p.val = 0 + p.val; omega
  | ⟨2, _⟩ => show j.val = 0 + j.val; omega

/-! ## A host stretch keeps every buffer it does not write -/

theorem chain_keep1 (W : Valuation τ sig (Elt Ideal)) (b : Ref sig .tc) (h1 : b ≠ main_v1) (h2 : b ≠ main_v2) (h3 : b ≠ main_v3) (h4 : b ≠ main_v4) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2, StableHlo.devRef_ne_of_ne h3, StableHlo.devRef_ne_of_ne h4⟩))

theorem chain_keep2 (W : Valuation τ sig (Elt Ideal)) (b : Ref sig .tc) (h1 : b ≠ main_v6) (h2 : b ≠ main_v7) (h3 : b ≠ main_v8) (h4 : b ≠ main_v9) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h1, StableHlo.devRef_ne_of_ne h2, StableHlo.devRef_ne_of_ne h3, StableHlo.devRef_ne_of_ne h4⟩))

theorem chain_keep3 (W : Valuation τ sig (Elt Ideal)) (b : Ref sig .tc) (h1 : b ≠ main_v11) (h2 : b ≠ main_v12) (h3 : b ≠ main_v13) (h4 : b ≠ main_v14) :
    StableHlo.after (hostOps3 (F := Ideal)) W (Proc.devRef .tc b) = W (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne h1, StableHlo.devRef_ne_of_ne h2, StableHlo.devRef_ne_of_ne h3, StableHlo.devRef_ne_of_ne h4⟩))

variable (m : (ℓ : Loc nD τ sig) → Buf (Elt Ideal) ℓ) (ρ : Dev nD → PrngReg)

/-! ## The boundaries of the fold, buffer by buffer -/

-- after the encoding region: a buffer that is none of its windows' arrays is as launched
theorem chain_W1_arg1 (c : Dev nD) : W1 m ρ c (Proc.devRef .tc main_arg1) = m ((c : Thread nD τ).loc main_arg1) := W1_of_ne m ρ c main_arg1 (by decide)
theorem chain_W1_arg2 (c : Dev nD) : W1 m ρ c (Proc.devRef .tc main_arg2) = m ((c : Thread nD τ).loc main_arg2) := W1_of_ne m ρ c main_arg2 (by decide)
theorem chain_W1_arg3 (c : Dev nD) : W1 m ρ c (Proc.devRef .tc main_arg3) = m ((c : Thread nD τ).loc main_arg3) := W1_of_ne m ρ c main_arg3 (by decide)
theorem chain_W1_arg9 (c : Dev nD) : W1 m ρ c (Proc.devRef .tc main_arg9) = m ((c : Thread nD τ).loc main_arg9) := W1_of_ne m ρ c main_arg9 (by decide)
theorem chain_W1_arg10 (c : Dev nD) : W1 m ρ c (Proc.devRef .tc main_arg10) = m ((c : Thread nD τ).loc main_arg10) := W1_of_ne m ρ c main_arg10 (by decide)
theorem chain_W1_arg11 (c : Dev nD) : W1 m ρ c (Proc.devRef .tc main_arg11) = m ((c : Thread nD τ).loc main_arg11) := W1_of_ne m ρ c main_arg11 (by decide)
theorem chain_W1_arg12 (c : Dev nD) : W1 m ρ c (Proc.devRef .tc main_arg12) = m ((c : Thread nD τ).loc main_arg12) := W1_of_ne m ρ c main_arg12 (by decide)
theorem chain_W1_arg13 (c : Dev nD) : W1 m ρ c (Proc.devRef .tc main_arg13) = m ((c : Thread nD τ).loc main_arg13) := W1_of_ne m ρ c main_arg13 (by decide)
theorem chain_W1_arg14 (c : Dev nD) : W1 m ρ c (Proc.devRef .tc main_arg14) = m ((c : Thread nD τ).loc main_arg14) := W1_of_ne m ρ c main_arg14 (by decide)
-- an input window's array is as the region found it
theorem chain_W1_arg4 (c : Dev nD) : W1 m ρ c (Proc.devRef .tc main_arg4) = m ((c : Thread nD τ).loc main_arg4) :=
  (W1_arr m ρ c 1).trans (((dat0 (V0 m ρ) c).arrAt_in 1 rfl _).trans (A_eq0 (V0 m ρ) c 1))
theorem chain_W1_arg5 (c : Dev nD) : W1 m ρ c (Proc.devRef .tc main_arg5) = m ((c : Thread nD τ).loc main_arg5) :=
  (W1_arr m ρ c 2).trans (((dat0 (V0 m ρ) c).arrAt_in 2 rfl _).trans (A_eq0 (V0 m ρ) c 2))
theorem chain_W1_arg6 (c : Dev nD) : W1 m ρ c (Proc.devRef .tc main_arg6) = m ((c : Thread nD τ).loc main_arg6) :=
  (W1_arr m ρ c 3).trans (((dat0 (V0 m ρ) c).arrAt_in 3 rfl _).trans (A_eq0 (V0 m ρ) c 3))

/-- The three encodings, as the encoding region leaves them. -/
theorem chain_enc0 (c : Dev nD) : W1 m ρ c (Proc.devRef .tc main_v0_0)
    = Spec.enc (m ((c : Thread nD τ).loc main_arg0)) (m ((c : Thread nD τ).loc main_arg4)) (m ((c : Thread nD τ).loc main_arg7)) (m ((c : Thread nD τ).loc main_arg8)) 0 :=
  (W1_arr m ρ c 6).trans (enc_out6 (V0 m ρ) c)
theorem chain_enc1 (c : Dev nD) : W1 m ρ c (Proc.devRef .tc main_v0_1)
    = Spec.enc (m ((c : Thread nD τ).loc main_arg0)) (m ((c : Thread nD τ).loc main_arg5)) (m ((c : Thread nD τ).loc main_arg7)) (m ((c : Thread nD τ).loc main_arg8)) 1 :=
  (W1_arr m ρ c 7).trans (enc_out7 (V0 m ρ) c)
theorem chain_enc2 (c : Dev nD) : W1 m ρ c (Proc.devRef .tc main_v0_2)
    = Spec.enc (m ((c : Thread nD τ).loc main_arg0)) (m ((c : Thread nD τ).loc main_arg6)) (m ((c : Thread nD τ).loc main_arg7)) (m ((c : Thread nD τ).loc main_arg8)) 2 :=
  (W1_arr m ρ c 8).trans (enc_out8 (V0 m ρ) c)

/-! ## Branch 0: the first step region -/

theorem chain_W2_h (c : Dev nD) : W2 m ρ c (Proc.devRef .tc main_v0_0) = Spec.enc (m ((c : Thread nD τ).loc main_arg0)) (m ((c : Thread nD τ).loc main_arg4)) (m ((c : Thread nD τ).loc main_arg7)) (m ((c : Thread nD τ).loc main_arg8)) 0 :=
  (chain_keep1 (W1 m ρ c) main_v0_0 (by decide) (by decide) (by decide) (by decide)).trans (chain_enc0 m ρ c)
theorem chain_W2_adj (c : Dev nD) : W2 m ρ c (Proc.devRef .tc main_arg1) = (m ((c : Thread nD τ).loc main_arg1)) :=
  (chain_keep1 (W1 m ρ c) main_arg1 (by decide) (by decide) (by decide) (by decide)).trans (chain_W1_arg1 m ρ c)
theorem chain_W2_mask (c : Dev nD) : W2 m ρ c (Proc.devRef .tc main_arg4) = (m ((c : Thread nD τ).loc main_arg4)) :=
  (chain_keep1 (W1 m ρ c) main_arg4 (by decide) (by decide) (by decide) (by decide)).trans (chain_W1_arg4 m ρ c)
theorem chain_W2_W (c : Dev nD) : W2 m ρ c (Proc.devRef .tc main_v2) = Spec.pick6 (m ((c : Thread nD τ).loc main_arg11)) 0 := by
  have e : W2 m ρ c (Proc.devRef .tc main_v2) = shapeCast S6x96x96 (extractStridedSlice S1x6x96x96 ![0, 0, 0, 0] (W1 m ρ c (Proc.devRef .tc main_arg11)) slices_S3x6x96x96_S1x6x96x96_0_0_0_0) shapeCasts_S1x6x96x96_S6x96x96 := by
    show StableHlo.after hostOps1 (W1 m ρ c) (Proc.devRef .tc main_v2) = _
    after_results
    rfl
  rw [e, chain_W1_arg11]
  exact chain_pick6 0 0 rfl _ _ _
theorem chain_W2_b (c : Dev nD) : W2 m ρ c (Proc.devRef .tc main_v4) = Spec.pickB6 (m ((c : Thread nD τ).loc main_arg12)) 0 := by
  have e : W2 m ρ c (Proc.devRef .tc main_v4) = shapeCast S6x96 (extractStridedSlice S1x6x96 ![0, 0, 0] (W1 m ρ c (Proc.devRef .tc main_arg12)) slices_S3x6x96_S1x6x96_0_0_0) shapeCasts_S1x6x96_S6x96 := by
    show StableHlo.after hostOps1 (W1 m ρ c) (Proc.devRef .tc main_v4) = _
    after_results
    rfl
  rw [e, chain_W1_arg12]
  exact chain_pickB6 0 0 rfl _ _ _

/-- Branch 0's result, as the first step region leaves it. -/
theorem chain_S0 (c : Dev nD) : W3 m ρ c (Proc.devRef .tc main_v5)
    = Spec.branch (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg11)) (m ((c : Thread nD τ).loc main_arg12)) 0 := by
  refine (W3_arr m ρ c 5).trans ((gru1_out (V2 m ρ) c).trans ?_)
  show Spec.gru (W2 m ρ c (Proc.devRef .tc main_v0_0)) (W2 m ρ c (Proc.devRef .tc main_arg1)) (W2 m ρ c (Proc.devRef .tc main_arg4))
    (W2 m ρ c (Proc.devRef .tc main_v2)) (W2 m ρ c (Proc.devRef .tc main_v4)) = _
  rw [chain_W2_h, chain_W2_adj, chain_W2_mask, chain_W2_W, chain_W2_b]
  rfl

/-! ## Branch 1: the second step region -/

-- a buffer untouched by the first step region and the first host stretch
theorem chain_W3_of (c : Dev nD) (b : Ref sig .tc) (hb : ∀ w, Pipeline.arrRef spec1 w ≠ b) (h1 : b ≠ main_v1) (h2 : b ≠ main_v2) (h3 : b ≠ main_v3) (h4 : b ≠ main_v4) :
    W3 m ρ c (Proc.devRef .tc b) = W1 m ρ c (Proc.devRef .tc b) :=
  (W3_of_ne m ρ c b hb).trans (chain_keep1 (W1 m ρ c) b h1 h2 h3 h4)

theorem chain_W4_h (c : Dev nD) : W4 m ρ c (Proc.devRef .tc main_v0_1) = Spec.enc (m ((c : Thread nD τ).loc main_arg0)) (m ((c : Thread nD τ).loc main_arg5)) (m ((c : Thread nD τ).loc main_arg7)) (m ((c : Thread nD τ).loc main_arg8)) 1 :=
  (chain_keep2 (W3 m ρ c) main_v0_1 (by decide) (by decide) (by decide) (by decide)).trans ((chain_W3_of m ρ c main_v0_1 (by decide) (by decide) (by decide) (by decide) (by decide)).trans (chain_enc1 m ρ c))
theorem chain_W4_adj (c : Dev nD) : W4 m ρ c (Proc.devRef .tc main_arg2) = (m ((c : Thread nD τ).loc main_arg2)) :=
  (chain_keep2 (W3 m ρ c) main_arg2 (by decide) (by decide) (by decide) (by decide)).trans ((chain_W3_of m ρ c main_arg2 (by decide) (by decide) (by decide) (by decide) (by decide)).trans (chain_W1_arg2 m ρ c))
theorem chain_W4_mask (c : Dev nD) : W4 m ρ c (Proc.devRef .tc main_arg5) = (m ((c : Thread nD τ).loc main_arg5)) :=
  (chain_keep2 (W3 m ρ c) main_arg5 (by decide) (by decide) (by decide) (by decide)).trans ((chain_W3_of m ρ c main_arg5 (by decide) (by decide) (by decide) (by decide) (by decide)).trans (chain_W1_arg5 m ρ c))
theorem chain_W3_arg11 (c : Dev nD) : W3 m ρ c (Proc.devRef .tc main_arg11) = (m ((c : Thread nD τ).loc main_arg11)) :=
  (chain_W3_of m ρ c main_arg11 (by decide) (by decide) (by decide) (by decide) (by decide)).trans (chain_W1_arg11 m ρ c)
theorem chain_W3_arg12 (c : Dev nD) : W3 m ρ c (Proc.devRef .tc main_arg12) = (m ((c : Thread nD τ).loc main_arg12)) :=
  (chain_W3_of m ρ c main_arg12 (by decide) (by decide) (by decide) (by decide) (by decide)).trans (chain_W1_arg12 m ρ c)
theorem chain_W4_W (c : Dev nD) : W4 m ρ c (Proc.devRef .tc main_v7) = Spec.pick6 (m ((c : Thread nD τ).loc main_arg11)) 1 := by
  have e : W4 m ρ c (Proc.devRef .tc main_v7) = shapeCast S6x96x96 (extractStridedSlice S1x6x96x96 ![1, 0, 0, 0] (W3 m ρ c (Proc.devRef .tc main_arg11)) slices_S3x6x96x96_S1x6x96x96_1_0_0_0) shapeCasts_S1x6x96x96_S6x96x96 := by
    show StableHlo.after hostOps2 (W3 m ρ c) (Proc.devRef .tc main_v7) = _
    after_results
    rfl
  rw [e, chain_W3_arg11]
  exact chain_pick6 1 1 rfl _ _ _
theorem chain_W4_b (c : Dev nD) : W4 m ρ c (Proc.devRef .tc main_v9) = Spec.pickB6 (m ((c : Thread nD τ).loc main_arg12)) 1 := by
  have e : W4 m ρ c (Proc.devRef .tc main_v9) = shapeCast S6x96 (extractStridedSlice S1x6x96 ![1, 0, 0] (W3 m ρ c (Proc.devRef .tc main_arg12)) slices_S3x6x96_S1x6x96_1_0_0) shapeCasts_S1x6x96_S6x96 := by
    show StableHlo.after hostOps2 (W3 m ρ c) (Proc.devRef .tc main_v9) = _
    after_results
    rfl
  rw [e, chain_W3_arg12]
  exact chain_pickB6 1 1 rfl _ _ _

/-- Branch 1's result, as the second step region leaves it. -/
theorem chain_S1 (c : Dev nD) : W5 m ρ c (Proc.devRef .tc main_v10)
    = Spec.branch (m ((c : Thread nD τ).loc main_arg0)) (m ((c : Thread nD τ).loc main_arg2)) (m ((c : Thread nD τ).loc main_arg5)) (m ((c : Thread nD τ).loc main_arg7)) (m ((c : Thread nD τ).loc main_arg8)) (m ((c : Thread nD τ).loc main_arg11)) (m ((c : Thread nD τ).loc main_arg12)) 1 := by
  refine (W5_arr m ρ c 5).trans ((gru2_out (V4 m ρ) c).trans ?_)
  show Spec.gru (W4 m ρ c (Proc.devRef .tc main_v0_1)) (W4 m ρ c (Proc.devRef .tc main_arg2)) (W4 m ρ c (Proc.devRef .tc main_arg5))
    (W4 m ρ c (Proc.devRef .tc main_v7)) (W4 m ρ c (Proc.devRef .tc main_v9)) = _
  rw [chain_W4_h, chain_W4_adj, chain_W4_mask, chain_W4_W, chain_W4_b]
  rfl

/-! ## Branch 2: the third step region -/

-- a buffer untouched by the second step region and the second host stretch, and by what came before
theorem chain_W5_of (c : Dev nD) (b : Ref sig .tc) (hb2 : ∀ w, Pipeline.arrRef spec2 w ≠ b) (g1 : b ≠ main_v6) (g2 : b ≠ main_v7) (g3 : b ≠ main_v8) (g4 : b ≠ main_v9)
    (hb1 : ∀ w, Pipeline.arrRef spec1 w ≠ b) (h1 : b ≠ main_v1) (h2 : b ≠ main_v2) (h3 : b ≠ main_v3) (h4 : b ≠ main_v4) :
    W5 m ρ c (Proc.devRef .tc b) = W1 m ρ c (Proc.devRef .tc b) :=
  (W5_of_ne m ρ c b hb2).trans ((chain_keep2 (W3 m ρ c) b g1 g2 g3 g4).trans (chain_W3_of m ρ c b hb1 h1 h2 h3 h4))

theorem chain_W6_h (c : Dev nD) : W6 m ρ c (Proc.devRef .tc main_v0_2) = Spec.enc (m ((c : Thread nD τ).loc main_arg0)) (m ((c : Thread nD τ).loc main_arg6)) (m ((c : Thread nD τ).loc main_arg7)) (m ((c : Thread nD τ).loc main_arg8)) 2 :=
  (chain_keep3 (W5 m ρ c) main_v0_2 (by decide) (by decide) (by decide) (by decide)).trans ((chain_W5_of m ρ c main_v0_2 (by decide) (by decide) (by decide) (by decide) (by decide) (by decide) (by decide) (by decide) (by decide) (by decide)).trans (chain_enc2 m ρ c))
theorem chain_W6_adj (c : Dev nD) : W6 m ρ c (Proc.devRef .tc main_arg3) = (m ((c : Thread nD τ).loc main_arg3)) :=
  (chain_keep3 (W5 m ρ c) main_arg3 (by decide) (by decide) (by decide) (by decide)).trans ((chain_W5_of m ρ c main_arg3 (by decide) (by decide) (by decide) (by decide) (by decide) (by decide) (by decide) (by decide) (by decide) (by decide)).trans (chain_W1_arg3 m ρ c))
theorem chain_W6_mask (c : Dev nD) : W6 m ρ c (Proc.devRef .tc main_arg6) = (m ((c : Thread nD τ).loc main_arg6)) :=
  (chain_keep3 (W5 m ρ c) main_arg6 (by decide) (by decide) (by decide) (by decide)).trans ((chain_W5_of m ρ c main_arg6 (by decide) (by decide) (by decide) (by decide) (by decide) (by decide) (by decide) (by decide) (by decide) (by decide)).trans (chain_W1_arg6 m ρ c))
theorem chain_W5_arg11 (c : Dev nD) : W5 m ρ c (Proc.devRef .tc main_arg11) = (m ((c : Thread nD τ).loc main_arg11)) :=
  (chain_W5_of m ρ c main_arg11 (by decide) (by decide) (by decide) (by decide) (by decide) (by decide) (by decide) (by decide) (by decide) (by decide)).trans (chain_W1_arg11 m ρ c)
theorem chain_W5_arg12 (c : Dev nD) : W5 m ρ c (Proc.devRef .tc main_arg12) = (m ((c : Thread nD τ).loc main_arg12)) :=
  (chain_W5_of m ρ c main_arg12 (by decide) (by decide) (by decide) (by decide) (by decide) (by decide) (by decide) (by decide) (by decide) (by decide)).trans (chain_W1_arg12 m ρ c)
theorem chain_W6_W (c : Dev nD) : W6 m ρ c (Proc.devRef .tc main_v12) = Spec.pick6 (m ((c : Thread nD τ).loc main_arg11)) 2 := by
  have e : W6 m ρ c (Proc.devRef .tc main_v12) = shapeCast S6x96x96 (extractStridedSlice S1x6x96x96 ![2, 0, 0, 0] (W5 m ρ c (Proc.devRef .tc main_arg11)) slices_S3x6x96x96_S1x6x96x96_2_0_0_0) shapeCasts_S1x6x96x96_S6x96x96 := by
    show StableHlo.after hostOps3 (W5 m ρ c) (Proc.devRef .tc main_v12) = _
    after_results
    rfl
  rw [e, chain_W5_arg11]
  exact chain_pick6 2 2 rfl _ _ _
theorem chain_W6_b (c : Dev nD) : W6 m ρ c (Proc.devRef .tc main_v14) = Spec.pickB6 (m ((c : Thread nD τ).loc main_arg12)) 2 := by
  have e : W6 m ρ c (Proc.devRef .tc main_v14) = shapeCast S6x96 (extractStridedSlice S1x6x96 ![2, 0, 0] (W5 m ρ c (Proc.devRef .tc main_arg12)) slices_S3x6x96_S1x6x96_2_0_0) shapeCasts_S1x6x96_S6x96 := by
    show StableHlo.after hostOps3 (W5 m ρ c) (Proc.devRef .tc main_v14) = _
    after_results
    rfl
  rw [e, chain_W5_arg12]
  exact chain_pickB6 2 2 rfl _ _ _

/-- Branch 2's result, as the third step region leaves it. -/
theorem chain_S2 (c : Dev nD) : W7 m ρ c (Proc.devRef .tc main_v15)
    = Spec.branch (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg11)) (m ((c : Thread nD τ).loc main_arg12)) 2 := by
  refine (W7_arr m ρ c 5).trans ((gru3_out (V6 m ρ) c).trans ?_)
  show Spec.gru (W6 m ρ c (Proc.devRef .tc main_v0_2)) (W6 m ρ c (Proc.devRef .tc main_arg3)) (W6 m ρ c (Proc.devRef .tc main_arg6))
    (W6 m ρ c (Proc.devRef .tc main_v12)) (W6 m ρ c (Proc.devRef .tc main_v14)) = _
  rw [chain_W6_h, chain_W6_adj, chain_W6_mask, chain_W6_W, chain_W6_b]
  rfl

/-! ## The mixing region's entry, and the result -/

-- a buffer untouched by the third step region and the third host stretch
theorem chain_W7_of (c : Dev nD) (b : Ref sig .tc) (hb3 : ∀ w, Pipeline.arrRef spec3 w ≠ b) (k1 : b ≠ main_v11) (k2 : b ≠ main_v12) (k3 : b ≠ main_v13) (k4 : b ≠ main_v14) :
    W7 m ρ c (Proc.devRef .tc b) = W5 m ρ c (Proc.devRef .tc b) :=
  (W7_of_ne m ρ c b hb3).trans (chain_keep3 (W5 m ρ c) b k1 k2 k3 k4)

theorem chain_W7_s1 (c : Dev nD) : W7 m ρ c (Proc.devRef .tc main_v10)
    = Spec.branch (m ((c : Thread nD τ).loc main_arg0)) (m ((c : Thread nD τ).loc main_arg2)) (m ((c : Thread nD τ).loc main_arg5)) (m ((c : Thread nD τ).loc main_arg7)) (m ((c : Thread nD τ).loc main_arg8)) (m ((c : Thread nD τ).loc main_arg11)) (m ((c : Thread nD τ).loc main_arg12)) 1 :=
  (chain_W7_of m ρ c main_v10 (by decide) (by decide) (by decide) (by decide) (by decide)).trans (chain_S1 m ρ c)
theorem chain_W7_s0 (c : Dev nD) : W7 m ρ c (Proc.devRef .tc main_v5)
    = Spec.branch (m ((c : Thread nD τ).loc main_arg0)) (m ((c : Thread nD τ).loc main_arg1)) (m ((c : Thread nD τ).loc main_arg4)) (m ((c : Thread nD τ).loc main_arg7)) (m ((c : Thread nD τ).loc main_arg8)) (m ((c : Thread nD τ).loc main_arg11)) (m ((c : Thread nD τ).loc main_arg12)) 0 :=
  (chain_W7_of m ρ c main_v5 (by decide) (by decide) (by decide) (by decide) (by decide)).trans
    ((W5_of_ne m ρ c main_v5 (by decide)).trans ((chain_keep2 (W3 m ρ c) main_v5 (by decide) (by decide) (by decide) (by decide)).trans (chain_S0 m ρ c)))
theorem chain_W7_arg (c : Dev nD) (b : Ref sig .tc) (hb3 : ∀ w, Pipeline.arrRef spec3 w ≠ b) (k1 : b ≠ main_v11) (k2 : b ≠ main_v12) (k3 : b ≠ main_v13) (k4 : b ≠ main_v14)
    (hb2 : ∀ w, Pipeline.arrRef spec2 w ≠ b) (g1 : b ≠ main_v6) (g2 : b ≠ main_v7) (g3 : b ≠ main_v8) (g4 : b ≠ main_v9)
    (hb1 : ∀ w, Pipeline.arrRef spec1 w ≠ b) (h1 : b ≠ main_v1) (h2 : b ≠ main_v2) (h3 : b ≠ main_v3) (h4 : b ≠ main_v4) :
    W7 m ρ c (Proc.devRef .tc b) = W1 m ρ c (Proc.devRef .tc b) :=
  (chain_W7_of m ρ c b hb3 k1 k2 k3 k4).trans (chain_W5_of m ρ c b hb2 g1 g2 g3 g4 hb1 h1 h2 h3 h4)
theorem chain_W7_arg9 (c : Dev nD) : W7 m ρ c (Proc.devRef .tc main_arg9) = (m ((c : Thread nD τ).loc main_arg9)) :=
  (chain_W7_arg m ρ c main_arg9 (by decide) (by decide) (by decide) (by decide) (by decide) (by decide) (by decide) (by decide) (by decide) (by decide) (by decide) (by decide) (by decide) (by decide) (by decide)).trans (chain_W1_arg9 m ρ c)
theorem chain_W7_arg10 (c : Dev nD) : W7 m ρ c (Proc.devRef .tc main_arg10) = (m ((c : Thread nD τ).loc main_arg10)) :=
  (chain_W7_arg m ρ c main_arg10 (by decide) (by decide) (by decide) (by decide) (by decide) (by decide) (by decide) (by decide) (by decide) (by decide) (by decide) (by decide) (by decide) (by decide) (by decide)).trans (chain_W1_arg10 m ρ c)
theorem chain_W7_arg13 (c : Dev nD) : W7 m ρ c (Proc.devRef .tc main_arg13) = (m ((c : Thread nD τ).loc main_arg13)) :=
  (chain_W7_arg m ρ c main_arg13 (by decide) (by decide) (by decide) (by decide) (by decide) (by decide) (by decide) (by decide) (by decide) (by decide) (by decide) (by decide) (by decide) (by decide) (by decide)).trans (chain_W1_arg13 m ρ c)
theorem chain_W7_arg14 (c : Dev nD) : W7 m ρ c (Proc.devRef .tc main_arg14) = (m ((c : Thread nD τ).loc main_arg14)) :=
  (chain_W7_arg m ρ c main_arg14 (by decide) (by decide) (by decide) (by decide) (by decide) (by decide) (by decide) (by decide) (by decide) (by decide) (by decide) (by decide) (by decide) (by decide) (by decide)).trans (chain_W1_arg14 m ρ c)

/-- The result array after the run is the specified function of the fifteen argument arrays as launched. -/
theorem chain_out (c : Dev nD) : W8 m ρ c (Proc.devRef .tc main_v16)
    = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 7).trans ((fuse_out (V7 m ρ) c).trans ?_)
  show Spec.fuse (W7 m ρ c (Proc.devRef .tc main_v5)) (W7 m ρ c (Proc.devRef .tc main_v10)) (W7 m ρ c (Proc.devRef .tc main_v15))
    (W7 m ρ c (Proc.devRef .tc main_arg9)) (W7 m ρ c (Proc.devRef .tc main_arg10)) (W7 m ρ c (Proc.devRef .tc main_arg13)) (W7 m ρ c (Proc.devRef .tc main_arg14)) = _
  rw [chain_W7_s0, chain_W7_s1, chain_S2, chain_W7_arg9, chain_W7_arg10, chain_W7_arg13, chain_W7_arg14]
  rfl

end Cert.KernelIdeal.Val

end
-- ==== Proof.R.Ops.lean ====
/-
  The reference program's operations as lists.

  The program's 489 statements are straight-line: each is one whole-array operation writing one buffer, and each of
  its twelve calls of a module-local function stands for that function's operations over the call's own buffers
  (three for the positive part, seven for the leaky rectifier).  The 520 operations are listed here in program
  order, cut into eighteen consecutive pieces at the ends of the program's nine windows and at the ends of its
  ten stages (per branch: encoding and weight slices, first step, second step; then the mixing), so that both a
  window and a stage are a concatenation of whole pieces.
-/
import proofs.«106044_j70463233458716_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of statements 1 … 35. -/
def ops_p00 : List (HloOp τ sig (Elt F)) :=
  [ StableHlo.unary main_arg7 main_v0 ((extractStridedSlice S1x300x96 ![0, 0, 0] · slices_S3x300x96_S1x300x96_0_0_0) : (⟨S3x300x96, .f32⟩ : BufTy).Contents (Elt F) → (⟨S1x300x96, .f32⟩ : BufTy).Contents (Elt F)),
    StableHlo.reshape main_v0 main_v1 rfl shapeCasts_S1x300x96_S300x96,
    StableHlo.binary main_arg0 main_v1 main_v2 ((fun l r => Host.dotGeneral dot_S8x2048x300_S300x96_S8x2048x96_2_0_01_1_n_n none l r) : (⟨S8x2048x300, .f32⟩ : BufTy).Contents (Elt F) → (⟨S300x96, .f32⟩ : BufTy).Contents (Elt F) → (⟨S8x2048x96, .f32⟩ : BufTy).Contents (Elt F)),
    StableHlo.unary main_arg8 main_v3 ((extractStridedSlice S1x96 ![0, 0] · slices_S3x96_S1x96_0_0) : (⟨S3x96, .f32⟩ : BufTy).Contents (Elt F) → (⟨S1x96, .f32⟩ : BufTy).Contents (Elt F)),
    StableHlo.reshape main_v3 main_v4 rfl shapeCasts_S1x96_S96,
    StableHlo.unary main_v4 main_v5 (broadcastInDim S1x1x96 ![2] bcast_S96_S1x1x96_2 : (⟨S96, .f32⟩ : BufTy).Contents (Elt F) → (⟨S1x1x96, .f32⟩ : BufTy).Contents (Elt F)),
    StableHlo.unary main_v5 main_v6 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v2 main_v6 main_v7 (addf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call0.cst (constant S_ .f32 0x00000000#32),
    StableHlo.TRef.unary main_call0.cst main_call0.v0 (broadcastInDim S8x2048x96 ![] bcast_S_S8x2048x96),
    StableHlo.TRef.binary (.of main_v7 : StableHlo.TRef sig ⟨S8x2048x96, .f32⟩) main_call0.v0 main_call0.v1 maximumf,
    StableHlo.unary main_arg4 main_v9 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v9 main_v8 main_v10 (mulf : (⟨S8x2048x96, .f32⟩ : BufTy).Contents (Elt F) → (⟨S8x2048x96, .f32⟩ : BufTy).Contents (Elt F) → (⟨S8x2048x96, .f32⟩ : BufTy).Contents (Elt F)),
    StableHlo.unary main_arg11 main_v11 ((extractStridedSlice S1x1x96x96 ![0, 0, 0, 0] · slices_S3x6x96x96_S1x1x96x96_0_0_0_0) : (⟨S3x6x96x96, .f32⟩ : BufTy).Contents (Elt F) → (⟨S1x1x96x96, .f32⟩ : BufTy).Contents (Elt F)),
    StableHlo.reshape main_v11 main_v12 rfl shapeCasts_S1x1x96x96_S96x96,
    StableHlo.unary main_arg11 main_v13 ((extractStridedSlice S1x1x96x96 ![0, 1, 0, 0] · slices_S3x6x96x96_S1x1x96x96_0_1_0_0) : (⟨S3x6x96x96, .f32⟩ : BufTy).Contents (Elt F) → (⟨S1x1x96x96, .f32⟩ : BufTy).Contents (Elt F)),
    StableHlo.reshape main_v13 main_v14 rfl shapeCasts_S1x1x96x96_S96x96,
    StableHlo.unary main_arg11 main_v15 ((extractStridedSlice S1x1x96x96 ![0, 2, 0, 0] · slices_S3x6x96x96_S1x1x96x96_0_2_0_0) : (⟨S3x6x96x96, .f32⟩ : BufTy).Contents (Elt F) → (⟨S1x1x96x96, .f32⟩ : BufTy).Contents (Elt F)),
    StableHlo.reshape main_v15 main_v16 rfl shapeCasts_S1x1x96x96_S96x96,
    StableHlo.unary main_arg11 main_v17 ((extractStridedSlice S1x1x96x96 ![0, 3, 0, 0] · slices_S3x6x96x96_S1x1x96x96_0_3_0_0) : (⟨S3x6x96x96, .f32⟩ : BufTy).Contents (Elt F) → (⟨S1x1x96x96, .f32⟩ : BufTy).Contents (Elt F)),
    StableHlo.reshape main_v17 main_v18 rfl shapeCasts_S1x1x96x96_S96x96,
    StableHlo.unary main_arg11 main_v19 ((extractStridedSlice S1x1x96x96 ![0, 4, 0, 0] · slices_S3x6x96x96_S1x1x96x96_0_4_0_0) : (⟨S3x6x96x96, .f32⟩ : BufTy).Contents (Elt F) → (⟨S1x1x96x96, .f32⟩ : BufTy).Contents (Elt F)),
    StableHlo.reshape main_v19 main_v20 rfl shapeCasts_S1x1x96x96_S96x96,
    StableHlo.unary main_arg11 main_v21 ((extractStridedSlice S1x1x96x96 ![0, 5, 0, 0] · slices_S3x6x96x96_S1x1x96x96_0_5_0_0) : (⟨S3x6x96x96, .f32⟩ : BufTy).Contents (Elt F) → (⟨S1x1x96x96, .f32⟩ : BufTy).Contents (Elt F)),
    StableHlo.reshape main_v21 main_v22 rfl shapeCasts_S1x1x96x96_S96x96,
    StableHlo.unary main_arg12 main_v23 ((extractStridedSlice S1x1x96 ![0, 0, 0] · slices_S3x6x96_S1x1x96_0_0_0) : (⟨S3x6x96, .f32⟩ : BufTy).Contents (Elt F) → (⟨S1x1x96, .f32⟩ : BufTy).Contents (Elt F)),
    StableHlo.reshape main_v23 main_v24 rfl shapeCasts_S1x1x96_S96,
    StableHlo.unary main_arg12 main_v25 ((extractStridedSlice S1x1x96 ![0, 1, 0] · slices_S3x6x96_S1x1x96_0_1_0) : (⟨S3x6x96, .f32⟩ : BufTy).Contents (Elt F) → (⟨S1x1x96, .f32⟩ : BufTy).Contents (Elt F)),
    StableHlo.reshape main_v25 main_v26 rfl shapeCasts_S1x1x96_S96,
    StableHlo.unary main_arg12 main_v27 ((extractStridedSlice S1x1x96 ![0, 2, 0] · slices_S3x6x96_S1x1x96_0_2_0) : (⟨S3x6x96, .f32⟩ : BufTy).Contents (Elt F) → (⟨S1x1x96, .f32⟩ : BufTy).Contents (Elt F)),
    StableHlo.reshape main_v27 main_v28 rfl shapeCasts_S1x1x96_S96,
    StableHlo.unary main_arg12 main_v29 ((extractStridedSlice S1x1x96 ![0, 3, 0] · slices_S3x6x96_S1x1x96_0_3_0) : (⟨S3x6x96, .f32⟩ : BufTy).Contents (Elt F) → (⟨S1x1x96, .f32⟩ : BufTy).Contents (Elt F)),
    StableHlo.reshape main_v29 main_v30 rfl shapeCasts_S1x1x96_S96,
    StableHlo.unary main_arg12 main_v31 ((extractStridedSlice S1x1x96 ![0, 4, 0] · slices_S3x6x96_S1x1x96_0_4_0) : (⟨S3x6x96, .f32⟩ : BufTy).Contents (Elt F) → (⟨S1x1x96, .f32⟩ : BufTy).Contents (Elt F)),
    StableHlo.reshape main_v31 main_v32 rfl shapeCasts_S1x1x96_S96,
    StableHlo.unary main_arg12 main_v33 ((extractStridedSlice S1x1x96 ![0, 5, 0] · slices_S3x6x96_S1x1x96_0_5_0) : (⟨S3x6x96, .f32⟩ : BufTy).Contents (Elt F) → (⟨S1x1x96, .f32⟩ : BufTy).Contents (Elt F)),
    StableHlo.reshape main_v33 main_v34 rfl shapeCasts_S1x1x96_S96 ]

/-- Operations of statements 36 … 60. -/
def ops_p01 : List (HloOp τ sig (Elt F)) :=
  [ StableHlo.binary main_arg1 main_v10 main_v35 ((fun l r => Host.dotGeneral dot_S8x2048x2048_S8x2048x96_S8x2048x96_2_1_1_2_0_0 none l r) : (⟨S8x2048x2048, .f32⟩ : BufTy).Contents (Elt F) → (⟨S8x2048x96, .f32⟩ : BufTy).Contents (Elt F) → (⟨S8x2048x96, .f32⟩ : BufTy).Contents (Elt F)),
    StableHlo.binary main_v35 main_v12 main_v36 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v24 main_v37 (broadcastInDim S1x1x96 ![2] bcast_S96_S1x1x96_2 : (⟨S96, .f32⟩ : BufTy).Contents (Elt F) → (⟨S1x1x96, .f32⟩ : BufTy).Contents (Elt F)),
    StableHlo.unary main_v37 main_v38 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v36 main_v38 main_v39 (addf : (⟨S8x2048x96, .f32⟩ : BufTy).Contents (Elt F) → (⟨S8x2048x96, .f32⟩ : BufTy).Contents (Elt F) → (⟨S8x2048x96, .f32⟩ : BufTy).Contents (Elt F)),
    StableHlo.binary main_v10 main_v14 main_v40 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v39 main_v40 main_v41 (addf : (⟨S8x2048x96, .f32⟩ : BufTy).Contents (Elt F) → (⟨S8x2048x96, .f32⟩ : BufTy).Contents (Elt F) → (⟨S8x2048x96, .f32⟩ : BufTy).Contents (Elt F)),
    StableHlo.unary main_v26 main_v42 (broadcastInDim S1x1x96 ![2] bcast_S96_S1x1x96_2 : (⟨S96, .f32⟩ : BufTy).Contents (Elt F) → (⟨S1x1x96, .f32⟩ : BufTy).Contents (Elt F)),
    StableHlo.unary main_v42 main_v43 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v41 main_v43 main_v44 (addf : (⟨S8x2048x96, .f32⟩ : BufTy).Contents (Elt F) → (⟨S8x2048x96, .f32⟩ : BufTy).Contents (Elt F) → (⟨S8x2048x96, .f32⟩ : BufTy).Contents (Elt F)),
    StableHlo.unary main_v44 main_v45 (Host.negf : (⟨S8x2048x96, .f32⟩ : BufTy).Contents (Elt F) → (⟨S8x2048x96, .f32⟩ : BufTy).Contents (Elt F)),
    StableHlo.unary main_v45 main_v46 (Host.exp : (⟨S8x2048x96, .f32⟩ : BufTy).Contents (Elt F) → (⟨S8x2048x96, .f32⟩ : BufTy).Contents (Elt F)),
    StableHlo.nullary main_cst (constant S_ .f32 0x3F800000#32),
    StableHlo.unary main_cst main_v47 (broadcastInDim S8x2048x96 ![] bcast_S_S8x2048x96 : (⟨S_, .f32⟩ : BufTy).Contents (Elt F) → (⟨S8x2048x96, .f32⟩ : BufTy).Contents (Elt F)),
    StableHlo.binary main_v47 main_v46 main_v48 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_0 (constant S_ .f32 0x3F800000#32),
    StableHlo.unary main_cst_0 main_v49 (broadcastInDim S8x2048x96 ![] bcast_S_S8x2048x96 : (⟨S_, .f32⟩ : BufTy).Contents (Elt F) → (⟨S8x2048x96, .f32⟩ : BufTy).Contents (Elt F)),
    StableHlo.binary main_v49 main_v48 main_v50 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v35 main_v16 main_v51 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v28 main_v52 (broadcastInDim S1x1x96 ![2] bcast_S96_S1x1x96_2 : (⟨S96, .f32⟩ : BufTy).Contents (Elt F) → (⟨S1x1x96, .f32⟩ : BufTy).Contents (Elt F)),
    StableHlo.unary main_v52 main_v53 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v51 main_v53 main_v54 (addf : (⟨S8x2048x96, .f32⟩ : BufTy).Contents (Elt F) → (⟨S8x2048x96, .f32⟩ : BufTy).Contents (Elt F) → (⟨S8x2048x96, .f32⟩ : BufTy).Contents (Elt F)),
    StableHlo.binary main_v10 main_v18 main_v55 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v54 main_v55 main_v56 (addf : (⟨S8x2048x96, .f32⟩ : BufTy).Contents (Elt F) → (⟨S8x2048x96, .f32⟩ : BufTy).Contents (Elt F) → (⟨S8x2048x96, .f32⟩ : BufTy).Contents (Elt F)),
    StableHlo.unary main_v30 main_v57 (broadcastInDim S1x1x96 ![2] bcast_S96_S1x1x96_2 : (⟨S96, .f32⟩ : BufTy).Contents (Elt F) → (⟨S1x1x96, .f32⟩ : BufTy).Contents (Elt F)) ]

/-- Operations of statements 61 … 89. -/
def ops_p02 : List (HloOp τ sig (Elt F)) :=
  [ StableHlo.unary main_v57 main_v58 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v56 main_v58 main_v59 (addf : (⟨S8x2048x96, .f32⟩ : BufTy).Contents (Elt F) → (⟨S8x2048x96, .f32⟩ : BufTy).Contents (Elt F) → (⟨S8x2048x96, .f32⟩ : BufTy).Contents (Elt F)),
    StableHlo.unary main_v59 main_v60 (Host.negf : (⟨S8x2048x96, .f32⟩ : BufTy).Contents (Elt F) → (⟨S8x2048x96, .f32⟩ : BufTy).Contents (Elt F)),
    StableHlo.unary main_v60 main_v61 (Host.exp : (⟨S8x2048x96, .f32⟩ : BufTy).Contents (Elt F) → (⟨S8x2048x96, .f32⟩ : BufTy).Contents (Elt F)),
    StableHlo.nullary main_cst_1 (constant S_ .f32 0x3F800000#32),
    StableHlo.unary main_cst_1 main_v62 (broadcastInDim S8x2048x96 ![] bcast_S_S8x2048x96 : (⟨S_, .f32⟩ : BufTy).Contents (Elt F) → (⟨S8x2048x96, .f32⟩ : BufTy).Contents (Elt F)),
    StableHlo.binary main_v62 main_v61 main_v63 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_2 (constant S_ .f32 0x3F800000#32),
    StableHlo.unary main_cst_2 main_v64 (broadcastInDim S8x2048x96 ![] bcast_S_S8x2048x96 : (⟨S_, .f32⟩ : BufTy).Contents (Elt F) → (⟨S8x2048x96, .f32⟩ : BufTy).Contents (Elt F)),
    StableHlo.binary main_v64 main_v63 main_v65 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v35 main_v20 main_v66 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v32 main_v67 (broadcastInDim S1x1x96 ![2] bcast_S96_S1x1x96_2 : (⟨S96, .f32⟩ : BufTy).Contents (Elt F) → (⟨S1x1x96, .f32⟩ : BufTy).Contents (Elt F)),
    StableHlo.unary main_v67 main_v68 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v66 main_v68 main_v69 (addf : (⟨S8x2048x96, .f32⟩ : BufTy).Contents (Elt F) → (⟨S8x2048x96, .f32⟩ : BufTy).Contents (Elt F) → (⟨S8x2048x96, .f32⟩ : BufTy).Contents (Elt F)),
    StableHlo.binary main_v65 main_v10 main_v70 (mulf : (⟨S8x2048x96, .f32⟩ : BufTy).Contents (Elt F) → (⟨S8x2048x96, .f32⟩ : BufTy).Contents (Elt F) → (⟨S8x2048x96, .f32⟩ : BufTy).Contents (Elt F)),
    StableHlo.binary main_v70 main_v22 main_v71 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v69 main_v71 main_v72 (addf : (⟨S8x2048x96, .f32⟩ : BufTy).Contents (Elt F) → (⟨S8x2048x96, .f32⟩ : BufTy).Contents (Elt F) → (⟨S8x2048x96, .f32⟩ : BufTy).Contents (Elt F)),
    StableHlo.unary main_v34 main_v73 (broadcastInDim S1x1x96 ![2] bcast_S96_S1x1x96_2 : (⟨S96, .f32⟩ : BufTy).Contents (Elt F) → (⟨S1x1x96, .f32⟩ : BufTy).Contents (Elt F)),
    StableHlo.unary main_v73 main_v74 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v72 main_v74 main_v75 (addf : (⟨S8x2048x96, .f32⟩ : BufTy).Contents (Elt F) → (⟨S8x2048x96, .f32⟩ : BufTy).Contents (Elt F) → (⟨S8x2048x96, .f32⟩ : BufTy).Contents (Elt F)),
    StableHlo.unary main_arg4 main_v76 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v76 main_v75 main_v77 (mulf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call1.cst (constant S_ .f32 0x00000000#32),
    StableHlo.TRef.unary main_call1.cst main_call1.v0 (broadcastInDim S8x2048x96 ![] bcast_S_S8x2048x96),
    StableHlo.TRef.binary (.of main_v77 : StableHlo.TRef sig ⟨S8x2048x96, .f32⟩) main_call1.v0 main_call1.v1 maximumf,
    StableHlo.binary main_v78 main_v50 main_v79 (mulf : (⟨S8x2048x96, .f32⟩ : BufTy).Contents (Elt F) → (⟨S8x2048x96, .f32⟩ : BufTy).Contents (Elt F) → (⟨S8x2048x96, .f32⟩ : BufTy).Contents (Elt F)),
    StableHlo.nullary main_cst_3 (constant S_ .f32 0x3F800000#32),
    StableHlo.unary main_cst_3 main_v80 (broadcastInDim S8x2048x96 ![] bcast_S_S8x2048x96 : (⟨S_, .f32⟩ : BufTy).Contents (Elt F) → (⟨S8x2048x96, .f32⟩ : BufTy).Contents (Elt F)),
    StableHlo.binary main_v80 main_v50 main_v81 (subf : (⟨S8x2048x96, .f32⟩ : BufTy).Contents (Elt F) → (⟨S8x2048x96, .f32⟩ : BufTy).Contents (Elt F) → (⟨S8x2048x96, .f32⟩ : BufTy).Contents (Elt F)),
    StableHlo.binary main_v10 main_v81 main_v82 (mulf : (⟨S8x2048x96, .f32⟩ : BufTy).Contents (Elt F) → (⟨S8x2048x96, .f32⟩ : BufTy).Contents (Elt F) → (⟨S8x2048x96, .f32⟩ : BufTy).Contents (Elt F)),
    StableHlo.binary main_v79 main_v82 main_v83 (addf : (⟨S8x2048x96, .f32⟩ : BufTy).Contents (Elt F) → (⟨S8x2048x96, .f32⟩ : BufTy).Contents (Elt F) → (⟨S8x2048x96, .f32⟩ : BufTy).Contents (Elt F)) ]

/-- Operations of statements 90 … 120. -/
def ops_p03 : List (HloOp τ sig (Elt F)) :=
  [ StableHlo.binary main_arg1 main_v83 main_v84 ((fun l r => Host.dotGeneral dot_S8x2048x2048_S8x2048x96_S8x2048x96_2_1_1_2_0_0 none l r) : (⟨S8x2048x2048, .f32⟩ : BufTy).Contents (Elt F) → (⟨S8x2048x96, .f32⟩ : BufTy).Contents (Elt F) → (⟨S8x2048x96, .f32⟩ : BufTy).Contents (Elt F)),
    StableHlo.binary main_v84 main_v12 main_v85 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v24 main_v86 (broadcastInDim S1x1x96 ![2] bcast_S96_S1x1x96_2 : (⟨S96, .f32⟩ : BufTy).Contents (Elt F) → (⟨S1x1x96, .f32⟩ : BufTy).Contents (Elt F)),
    StableHlo.unary main_v86 main_v87 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v85 main_v87 main_v88 (addf : (⟨S8x2048x96, .f32⟩ : BufTy).Contents (Elt F) → (⟨S8x2048x96, .f32⟩ : BufTy).Contents (Elt F) → (⟨S8x2048x96, .f32⟩ : BufTy).Contents (Elt F)),
    StableHlo.binary main_v83 main_v14 main_v89 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v88 main_v89 main_v90 (addf : (⟨S8x2048x96, .f32⟩ : BufTy).Contents (Elt F) → (⟨S8x2048x96, .f32⟩ : BufTy).Contents (Elt F) → (⟨S8x2048x96, .f32⟩ : BufTy).Contents (Elt F)),
    StableHlo.unary main_v26 main_v91 (broadcastInDim S1x1x96 ![2] bcast_S96_S1x1x96_2 : (⟨S96, .f32⟩ : BufTy).Contents (Elt F) → (⟨S1x1x96, .f32⟩ : BufTy).Contents (Elt F)),
    StableHlo.unary main_v91 main_v92 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v90 main_v92 main_v93 (addf : (⟨S8x2048x96, .f32⟩ : BufTy).Contents (Elt F) → (⟨S8x2048x96, .f32⟩ : BufTy).Contents (Elt F) → (⟨S8x2048x96, .f32⟩ : BufTy).Contents (Elt F)),
    StableHlo.unary main_v93 main_v94 (Host.negf : (⟨S8x2048x96, .f32⟩ : BufTy).Contents (Elt F) → (⟨S8x2048x96, .f32⟩ : BufTy).Contents (Elt F)),
    StableHlo.unary main_v94 main_v95 (Host.exp : (⟨S8x2048x96, .f32⟩ : BufTy).Contents (Elt F) → (⟨S8x2048x96, .f32⟩ : BufTy).Contents (Elt F)),
    StableHlo.nullary main_cst_4 (constant S_ .f32 0x3F800000#32),
    StableHlo.unary main_cst_4 main_v96 (broadcastInDim S8x2048x96 ![] bcast_S_S8x2048x96 : (⟨S_, .f32⟩ : BufTy).Contents (Elt F) → (⟨S8x2048x96, .f32⟩ : BufTy).Contents (Elt F)),
    StableHlo.binary main_v96 main_v95 main_v97 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_5 (constant S_ .f32 0x3F800000#32),
    StableHlo.unary main_cst_5 main_v98 (broadcastInDim S8x2048x96 ![] bcast_S_S8x2048x96 : (⟨S_, .f32⟩ : BufTy).Contents (Elt F) → (⟨S8x2048x96, .f32⟩ : BufTy).Contents (Elt F)),
    StableHlo.binary main_v98 main_v97 main_v99 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v84 main_v16 main_v100 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v28 main_v101 (broadcastInDim S1x1x96 ![2] bcast_S96_S1x1x96_2 : (⟨S96, .f32⟩ : BufTy).Contents (Elt F) → (⟨S1x1x96, .f32⟩ : BufTy).Contents (Elt F)),
    StableHlo.unary main_v101 main_v102 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v100 main_v102 main_v103 (addf : (⟨S8x2048x96, .f32⟩ : BufTy).Contents (Elt F) → (⟨S8x2048x96, .f32⟩ : BufTy).Contents (Elt F) → (⟨S8x2048x96, .f32⟩ : BufTy).Contents (Elt F)),
    StableHlo.binary main_v83 main_v18 main_v104 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v103 main_v104 main_v105 (addf : (⟨S8x2048x96, .f32⟩ : BufTy).Contents (Elt F) → (⟨S8x2048x96, .f32⟩ : BufTy).Contents (Elt F) → (⟨S8x2048x96, .f32⟩ : BufTy).Contents (Elt F)),
    StableHlo.unary main_v30 main_v106 (broadcastInDim S1x1x96 ![2] bcast_S96_S1x1x96_2 : (⟨S96, .f32⟩ : BufTy).Contents (Elt F) → (⟨S1x1x96, .f32⟩ : BufTy).Contents (Elt F)),
    StableHlo.unary main_v106 main_v107 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v105 main_v107 main_v108 (addf : (⟨S8x2048x96, .f32⟩ : BufTy).Contents (Elt F) → (⟨S8x2048x96, .f32⟩ : BufTy).Contents (Elt F) → (⟨S8x2048x96, .f32⟩ : BufTy).Contents (Elt F)),
    StableHlo.unary main_v108 main_v109 (Host.negf : (⟨S8x2048x96, .f32⟩ : BufTy).Contents (Elt F) → (⟨S8x2048x96, .f32⟩ : BufTy).Contents (Elt F)),
    StableHlo.unary main_v109 main_v110 (Host.exp : (⟨S8x2048x96, .f32⟩ : BufTy).Contents (Elt F) → (⟨S8x2048x96, .f32⟩ : BufTy).Contents (Elt F)),
    StableHlo.nullary main_cst_6 (constant S_ .f32 0x3F800000#32),
    StableHlo.unary main_cst_6 main_v111 (broadcastInDim S8x2048x96 ![] bcast_S_S8x2048x96 : (⟨S_, .f32⟩ : BufTy).Contents (Elt F) → (⟨S8x2048x96, .f32⟩ : BufTy).Contents (Elt F)) ]

/-- Operations of statements 121 … 143. -/
def ops_p04 : List (HloOp τ sig (Elt F)) :=
  [ StableHlo.binary main_v111 main_v110 main_v112 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_7 (constant S_ .f32 0x3F800000#32),
    StableHlo.unary main_cst_7 main_v113 (broadcastInDim S8x2048x96 ![] bcast_S_S8x2048x96 : (⟨S_, .f32⟩ : BufTy).Contents (Elt F) → (⟨S8x2048x96, .f32⟩ : BufTy).Contents (Elt F)),
    StableHlo.binary main_v113 main_v112 main_v114 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v84 main_v20 main_v115 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v32 main_v116 (broadcastInDim S1x1x96 ![2] bcast_S96_S1x1x96_2 : (⟨S96, .f32⟩ : BufTy).Contents (Elt F) → (⟨S1x1x96, .f32⟩ : BufTy).Contents (Elt F)),
    StableHlo.unary main_v116 main_v117 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v115 main_v117 main_v118 (addf : (⟨S8x2048x96, .f32⟩ : BufTy).Contents (Elt F) → (⟨S8x2048x96, .f32⟩ : BufTy).Contents (Elt F) → (⟨S8x2048x96, .f32⟩ : BufTy).Contents (Elt F)),
    StableHlo.binary main_v114 main_v83 main_v119 (mulf : (⟨S8x2048x96, .f32⟩ : BufTy).Contents (Elt F) → (⟨S8x2048x96, .f32⟩ : BufTy).Contents (Elt F) → (⟨S8x2048x96, .f32⟩ : BufTy).Contents (Elt F)),
    StableHlo.binary main_v119 main_v22 main_v120 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v118 main_v120 main_v121 (addf : (⟨S8x2048x96, .f32⟩ : BufTy).Contents (Elt F) → (⟨S8x2048x96, .f32⟩ : BufTy).Contents (Elt F) → (⟨S8x2048x96, .f32⟩ : BufTy).Contents (Elt F)),
    StableHlo.unary main_v34 main_v122 (broadcastInDim S1x1x96 ![2] bcast_S96_S1x1x96_2 : (⟨S96, .f32⟩ : BufTy).Contents (Elt F) → (⟨S1x1x96, .f32⟩ : BufTy).Contents (Elt F)),
    StableHlo.unary main_v122 main_v123 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v121 main_v123 main_v124 (addf : (⟨S8x2048x96, .f32⟩ : BufTy).Contents (Elt F) → (⟨S8x2048x96, .f32⟩ : BufTy).Contents (Elt F) → (⟨S8x2048x96, .f32⟩ : BufTy).Contents (Elt F)),
    StableHlo.unary main_arg4 main_v125 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v125 main_v124 main_v126 (mulf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call2.cst (constant S_ .f32 0x00000000#32),
    StableHlo.TRef.unary main_call2.cst main_call2.v0 (broadcastInDim S8x2048x96 ![] bcast_S_S8x2048x96),
    StableHlo.TRef.binary (.of main_v126 : StableHlo.TRef sig ⟨S8x2048x96, .f32⟩) main_call2.v0 main_call2.v1 maximumf,
    StableHlo.binary main_v127 main_v99 main_v128 (mulf : (⟨S8x2048x96, .f32⟩ : BufTy).Contents (Elt F) → (⟨S8x2048x96, .f32⟩ : BufTy).Contents (Elt F) → (⟨S8x2048x96, .f32⟩ : BufTy).Contents (Elt F)),
    StableHlo.nullary main_cst_8 (constant S_ .f32 0x3F800000#32),
    StableHlo.unary main_cst_8 main_v129 (broadcastInDim S8x2048x96 ![] bcast_S_S8x2048x96 : (⟨S_, .f32⟩ : BufTy).Contents (Elt F) → (⟨S8x2048x96, .f32⟩ : BufTy).Contents (Elt F)),
    StableHlo.binary main_v129 main_v99 main_v130 (subf : (⟨S8x2048x96, .f32⟩ : BufTy).Contents (Elt F) → (⟨S8x2048x96, .f32⟩ : BufTy).Contents (Elt F) → (⟨S8x2048x96, .f32⟩ : BufTy).Contents (Elt F)),
    StableHlo.binary main_v83 main_v130 main_v131 (mulf : (⟨S8x2048x96, .f32⟩ : BufTy).Contents (Elt F) → (⟨S8x2048x96, .f32⟩ : BufTy).Contents (Elt F) → (⟨S8x2048x96, .f32⟩ : BufTy).Contents (Elt F)),
    StableHlo.binary main_v128 main_v131 main_v132 (addf : (⟨S8x2048x96, .f32⟩ : BufTy).Contents (Elt F) → (⟨S8x2048x96, .f32⟩ : BufTy).Contents (Elt F) → (⟨S8x2048x96, .f32⟩ : BufTy).Contents (Elt F)) ]

/-- Operations of statements 144 … 178. -/
def ops_p05 : List (HloOp τ sig (Elt F)) :=
  [ StableHlo.unary main_arg7 main_v133 ((extractStridedSlice S1x300x96 ![1, 0, 0] · slices_S3x300x96_S1x300x96_1_0_0) : (⟨S3x300x96, .f32⟩ : BufTy).Contents (Elt F) → (⟨S1x300x96, .f32⟩ : BufTy).Contents (Elt F)),
    StableHlo.reshape main_v133 main_v134 rfl shapeCasts_S1x300x96_S300x96,
    StableHlo.binary main_arg0 main_v134 main_v135 ((fun l r => Host.dotGeneral dot_S8x2048x300_S300x96_S8x2048x96_2_0_01_1_n_n none l r) : (⟨S8x2048x300, .f32⟩ : BufTy).Contents (Elt F) → (⟨S300x96, .f32⟩ : BufTy).Contents (Elt F) → (⟨S8x2048x96, .f32⟩ : BufTy).Contents (Elt F)),
    StableHlo.unary main_arg8 main_v136 ((extractStridedSlice S1x96 ![1, 0] · slices_S3x96_S1x96_1_0) : (⟨S3x96, .f32⟩ : BufTy).Contents (Elt F) → (⟨S1x96, .f32⟩ : BufTy).Contents (Elt F)),
    StableHlo.reshape main_v136 main_v137 rfl shapeCasts_S1x96_S96,
    StableHlo.unary main_v137 main_v138 (broadcastInDim S1x1x96 ![2] bcast_S96_S1x1x96_2 : (⟨S96, .f32⟩ : BufTy).Contents (Elt F) → (⟨S1x1x96, .f32⟩ : BufTy).Contents (Elt F)),
    StableHlo.unary main_v138 main_v139 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v135 main_v139 main_v140 (addf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call3.cst (constant S_ .f32 0x00000000#32),
    StableHlo.TRef.unary main_call3.cst main_call3.v0 (broadcastInDim S8x2048x96 ![] bcast_S_S8x2048x96),
    StableHlo.TRef.binary (.of main_v140 : StableHlo.TRef sig ⟨S8x2048x96, .f32⟩) main_call3.v0 main_call3.v1 maximumf,
    StableHlo.unary main_arg5 main_v142 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v142 main_v141 main_v143 (mulf : (⟨S8x2048x96, .f32⟩ : BufTy).Contents (Elt F) → (⟨S8x2048x96, .f32⟩ : BufTy).Contents (Elt F) → (⟨S8x2048x96, .f32⟩ : BufTy).Contents (Elt F)),
    StableHlo.unary main_arg11 main_v144 ((extractStridedSlice S1x1x96x96 ![1, 0, 0, 0] · slices_S3x6x96x96_S1x1x96x96_1_0_0_0) : (⟨S3x6x96x96, .f32⟩ : BufTy).Contents (Elt F) → (⟨S1x1x96x96, .f32⟩ : BufTy).Contents (Elt F)),
    StableHlo.reshape main_v144 main_v145 rfl shapeCasts_S1x1x96x96_S96x96,
    StableHlo.unary main_arg11 main_v146 ((extractStridedSlice S1x1x96x96 ![1, 1, 0, 0] · slices_S3x6x96x96_S1x1x96x96_1_1_0_0) : (⟨S3x6x96x96, .f32⟩ : BufTy).Contents (Elt F) → (⟨S1x1x96x96, .f32⟩ : BufTy).Contents (Elt F)),
    StableHlo.reshape main_v146 main_v147 rfl shapeCasts_S1x1x96x96_S96x96,
    StableHlo.unary main_arg11 main_v148 ((extractStridedSlice S1x1x96x96 ![1, 2, 0, 0] · slices_S3x6x96x96_S1x1x96x96_1_2_0_0) : (⟨S3x6x96x96, .f32⟩ : BufTy).Contents (Elt F) → (⟨S1x1x96x96, .f32⟩ : BufTy).Contents (Elt F)),
    StableHlo.reshape main_v148 main_v149 rfl shapeCasts_S1x1x96x96_S96x96,
    StableHlo.unary main_arg11 main_v150 ((extractStridedSlice S1x1x96x96 ![1, 3, 0, 0] · slices_S3x6x96x96_S1x1x96x96_1_3_0_0) : (⟨S3x6x96x96, .f32⟩ : BufTy).Contents (Elt F) → (⟨S1x1x96x96, .f32⟩ : BufTy).Contents (Elt F)),
    StableHlo.reshape main_v150 main_v151 rfl shapeCasts_S1x1x96x96_S96x96,
    StableHlo.unary main_arg11 main_v152 ((extractStridedSlice S1x1x96x96 ![1, 4, 0, 0] · slices_S3x6x96x96_S1x1x96x96_1_4_0_0) : (⟨S3x6x96x96, .f32⟩ : BufTy).Contents (Elt F) → (⟨S1x1x96x96, .f32⟩ : BufTy).Contents (Elt F)),
    StableHlo.reshape main_v152 main_v153 rfl shapeCasts_S1x1x96x96_S96x96,
    StableHlo.unary main_arg11 main_v154 ((extractStridedSlice S1x1x96x96 ![1, 5, 0, 0] · slices_S3x6x96x96_S1x1x96x96_1_5_0_0) : (⟨S3x6x96x96, .f32⟩ : BufTy).Contents (Elt F) → (⟨S1x1x96x96, .f32⟩ : BufTy).Contents (Elt F)),
    StableHlo.reshape main_v154 main_v155 rfl shapeCasts_S1x1x96x96_S96x96,
    StableHlo.unary main_arg12 main_v156 ((extractStridedSlice S1x1x96 ![1, 0, 0] · slices_S3x6x96_S1x1x96_1_0_0) : (⟨S3x6x96, .f32⟩ : BufTy).Contents (Elt F) → (⟨S1x1x96, .f32⟩ : BufTy).Contents (Elt F)),
    StableHlo.reshape main_v156 main_v157 rfl shapeCasts_S1x1x96_S96,
    StableHlo.unary main_arg12 main_v158 ((extractStridedSlice S1x1x96 ![1, 1, 0] · slices_S3x6x96_S1x1x96_1_1_0) : (⟨S3x6x96, .f32⟩ : BufTy).Contents (Elt F) → (⟨S1x1x96, .f32⟩ : BufTy).Contents (Elt F)),
    StableHlo.reshape main_v158 main_v159 rfl shapeCasts_S1x1x96_S96,
    StableHlo.unary main_arg12 main_v160 ((extractStridedSlice S1x1x96 ![1, 2, 0] · slices_S3x6x96_S1x1x96_1_2_0) : (⟨S3x6x96, .f32⟩ : BufTy).Contents (Elt F) → (⟨S1x1x96, .f32⟩ : BufTy).Contents (Elt F)),
    StableHlo.reshape main_v160 main_v161 rfl shapeCasts_S1x1x96_S96,
    StableHlo.unary main_arg12 main_v162 ((extractStridedSlice S1x1x96 ![1, 3, 0] · slices_S3x6x96_S1x1x96_1_3_0) : (⟨S3x6x96, .f32⟩ : BufTy).Contents (Elt F) → (⟨S1x1x96, .f32⟩ : BufTy).Contents (Elt F)),
    StableHlo.reshape main_v162 main_v163 rfl shapeCasts_S1x1x96_S96,
    StableHlo.unary main_arg12 main_v164 ((extractStridedSlice S1x1x96 ![1, 4, 0] · slices_S3x6x96_S1x1x96_1_4_0) : (⟨S3x6x96, .f32⟩ : BufTy).Contents (Elt F) → (⟨S1x1x96, .f32⟩ : BufTy).Contents (Elt F)),
    StableHlo.reshape main_v164 main_v165 rfl shapeCasts_S1x1x96_S96,
    StableHlo.unary main_arg12 main_v166 ((extractStridedSlice S1x1x96 ![1, 5, 0] · slices_S3x6x96_S1x1x96_1_5_0) : (⟨S3x6x96, .f32⟩ : BufTy).Contents (Elt F) → (⟨S1x1x96, .f32⟩ : BufTy).Contents (Elt F)),
    StableHlo.reshape main_v166 main_v167 rfl shapeCasts_S1x1x96_S96 ]

/-- Operations of statements 179 … 180. -/
def ops_p06 : List (HloOp τ sig (Elt F)) :=
  [ StableHlo.binary main_arg2 main_v143 main_v168 ((fun l r => Host.dotGeneral dot_S8x2048x2048_S8x2048x96_S8x2048x96_2_1_1_2_0_0 none l r) : (⟨S8x2048x2048, .f32⟩ : BufTy).Contents (Elt F) → (⟨S8x2048x96, .f32⟩ : BufTy).Contents (Elt F) → (⟨S8x2048x96, .f32⟩ : BufTy).Contents (Elt F)),
    StableHlo.binary main_v168 main_v145 main_v169 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)) ]

/-- Operations of statements 181 … 232. -/
def ops_p07 : List (HloOp τ sig (Elt F)) :=
  [ StableHlo.unary main_v157 main_v170 (broadcastInDim S1x1x96 ![2] bcast_S96_S1x1x96_2 : (⟨S96, .f32⟩ : BufTy).Contents (Elt F) → (⟨S1x1x96, .f32⟩ : BufTy).Contents (Elt F)),
    StableHlo.unary main_v170 main_v171 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v169 main_v171 main_v172 (addf : (⟨S8x2048x96, .f32⟩ : BufTy).Contents (Elt F) → (⟨S8x2048x96, .f32⟩ : BufTy).Contents (Elt F) → (⟨S8x2048x96, .f32⟩ : BufTy).Contents (Elt F)),
    StableHlo.binary main_v143 main_v147 main_v173 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v172 main_v173 main_v174 (addf : (⟨S8x2048x96, .f32⟩ : BufTy).Contents (Elt F) → (⟨S8x2048x96, .f32⟩ : BufTy).Contents (Elt F) → (⟨S8x2048x96, .f32⟩ : BufTy).Contents (Elt F)),
    StableHlo.unary main_v159 main_v175 (broadcastInDim S1x1x96 ![2] bcast_S96_S1x1x96_2 : (⟨S96, .f32⟩ : BufTy).Contents (Elt F) → (⟨S1x1x96, .f32⟩ : BufTy).Contents (Elt F)),
    StableHlo.unary main_v175 main_v176 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v174 main_v176 main_v177 (addf : (⟨S8x2048x96, .f32⟩ : BufTy).Contents (Elt F) → (⟨S8x2048x96, .f32⟩ : BufTy).Contents (Elt F) → (⟨S8x2048x96, .f32⟩ : BufTy).Contents (Elt F)),
    StableHlo.unary main_v177 main_v178 (Host.negf : (⟨S8x2048x96, .f32⟩ : BufTy).Contents (Elt F) → (⟨S8x2048x96, .f32⟩ : BufTy).Contents (Elt F)),
    StableHlo.unary main_v178 main_v179 (Host.exp : (⟨S8x2048x96, .f32⟩ : BufTy).Contents (Elt F) → (⟨S8x2048x96, .f32⟩ : BufTy).Contents (Elt F)),
    StableHlo.nullary main_cst_9 (constant S_ .f32 0x3F800000#32),
    StableHlo.unary main_cst_9 main_v180 (broadcastInDim S8x2048x96 ![] bcast_S_S8x2048x96 : (⟨S_, .f32⟩ : BufTy).Contents (Elt F) → (⟨S8x2048x96, .f32⟩ : BufTy).Contents (Elt F)),
    StableHlo.binary main_v180 main_v179 main_v181 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_10 (constant S_ .f32 0x3F800000#32),
    StableHlo.unary main_cst_10 main_v182 (broadcastInDim S8x2048x96 ![] bcast_S_S8x2048x96 : (⟨S_, .f32⟩ : BufTy).Contents (Elt F) → (⟨S8x2048x96, .f32⟩ : BufTy).Contents (Elt F)),
    StableHlo.binary main_v182 main_v181 main_v183 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v168 main_v149 main_v184 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v161 main_v185 (broadcastInDim S1x1x96 ![2] bcast_S96_S1x1x96_2 : (⟨S96, .f32⟩ : BufTy).Contents (Elt F) → (⟨S1x1x96, .f32⟩ : BufTy).Contents (Elt F)),
    StableHlo.unary main_v185 main_v186 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v184 main_v186 main_v187 (addf : (⟨S8x2048x96, .f32⟩ : BufTy).Contents (Elt F) → (⟨S8x2048x96, .f32⟩ : BufTy).Contents (Elt F) → (⟨S8x2048x96, .f32⟩ : BufTy).Contents (Elt F)),
    StableHlo.binary main_v143 main_v151 main_v188 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v187 main_v188 main_v189 (addf : (⟨S8x2048x96, .f32⟩ : BufTy).Contents (Elt F) → (⟨S8x2048x96, .f32⟩ : BufTy).Contents (Elt F) → (⟨S8x2048x96, .f32⟩ : BufTy).Contents (Elt F)),
    StableHlo.unary main_v163 main_v190 (broadcastInDim S1x1x96 ![2] bcast_S96_S1x1x96_2 : (⟨S96, .f32⟩ : BufTy).Contents (Elt F) → (⟨S1x1x96, .f32⟩ : BufTy).Contents (Elt F)),
    StableHlo.unary main_v190 main_v191 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v189 main_v191 main_v192 (addf : (⟨S8x2048x96, .f32⟩ : BufTy).Contents (Elt F) → (⟨S8x2048x96, .f32⟩ : BufTy).Contents (Elt F) → (⟨S8x2048x96, .f32⟩ : BufTy).Contents (Elt F)),
    StableHlo.unary main_v192 main_v193 (Host.negf : (⟨S8x2048x96, .f32⟩ : BufTy).Contents (Elt F) → (⟨S8x2048x96, .f32⟩ : BufTy).Contents (Elt F)),
    StableHlo.unary main_v193 main_v194 (Host.exp : (⟨S8x2048x96, .f32⟩ : BufTy).Contents (Elt F) → (⟨S8x2048x96, .f32⟩ : BufTy).Contents (Elt F)),
    StableHlo.nullary main_cst_11 (constant S_ .f32 0x3F800000#32),
    StableHlo.unary main_cst_11 main_v195 (broadcastInDim S8x2048x96 ![] bcast_S_S8x2048x96 : (⟨S_, .f32⟩ : BufTy).Contents (Elt F) → (⟨S8x2048x96, .f32⟩ : BufTy).Contents (Elt F)),
    StableHlo.binary main_v195 main_v194 main_v196 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_12 (constant S_ .f32 0x3F800000#32),
    StableHlo.unary main_cst_12 main_v197 (broadcastInDim S8x2048x96 ![] bcast_S_S8x2048x96 : (⟨S_, .f32⟩ : BufTy).Contents (Elt F) → (⟨S8x2048x96, .f32⟩ : BufTy).Contents (Elt F)),
    StableHlo.binary main_v197 main_v196 main_v198 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v168 main_v153 main_v199 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v165 main_v200 (broadcastInDim S1x1x96 ![2] bcast_S96_S1x1x96_2 : (⟨S96, .f32⟩ : BufTy).Contents (Elt F) → (⟨S1x1x96, .f32⟩ : BufTy).Contents (Elt F)),
    StableHlo.unary main_v200 main_v201 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v199 main_v201 main_v202 (addf : (⟨S8x2048x96, .f32⟩ : BufTy).Contents (Elt F) → (⟨S8x2048x96, .f32⟩ : BufTy).Contents (Elt F) → (⟨S8x2048x96, .f32⟩ : BufTy).Contents (Elt F)),
    StableHlo.binary main_v198 main_v143 main_v203 (mulf : (⟨S8x2048x96, .f32⟩ : BufTy).Contents (Elt F) → (⟨S8x2048x96, .f32⟩ : BufTy).Contents (Elt F) → (⟨S8x2048x96, .f32⟩ : BufTy).Contents (Elt F)),
    StableHlo.binary main_v203 main_v155 main_v204 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v202 main_v204 main_v205 (addf : (⟨S8x2048x96, .f32⟩ : BufTy).Contents (Elt F) → (⟨S8x2048x96, .f32⟩ : BufTy).Contents (Elt F) → (⟨S8x2048x96, .f32⟩ : BufTy).Contents (Elt F)),
    StableHlo.unary main_v167 main_v206 (broadcastInDim S1x1x96 ![2] bcast_S96_S1x1x96_2 : (⟨S96, .f32⟩ : BufTy).Contents (Elt F) → (⟨S1x1x96, .f32⟩ : BufTy).Contents (Elt F)),
    StableHlo.unary main_v206 main_v207 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v205 main_v207 main_v208 (addf : (⟨S8x2048x96, .f32⟩ : BufTy).Contents (Elt F) → (⟨S8x2048x96, .f32⟩ : BufTy).Contents (Elt F) → (⟨S8x2048x96, .f32⟩ : BufTy).Contents (Elt F)),
    StableHlo.unary main_arg5 main_v209 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v209 main_v208 main_v210 (mulf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call4.cst (constant S_ .f32 0x00000000#32),
    StableHlo.TRef.unary main_call4.cst main_call4.v0 (broadcastInDim S8x2048x96 ![] bcast_S_S8x2048x96),
    StableHlo.TRef.binary (.of main_v210 : StableHlo.TRef sig ⟨S8x2048x96, .f32⟩) main_call4.v0 main_call4.v1 maximumf,
    StableHlo.binary main_v211 main_v183 main_v212 (mulf : (⟨S8x2048x96, .f32⟩ : BufTy).Contents (Elt F) → (⟨S8x2048x96, .f32⟩ : BufTy).Contents (Elt F) → (⟨S8x2048x96, .f32⟩ : BufTy).Contents (Elt F)),
    StableHlo.nullary main_cst_13 (constant S_ .f32 0x3F800000#32),
    StableHlo.unary main_cst_13 main_v213 (broadcastInDim S8x2048x96 ![] bcast_S_S8x2048x96 : (⟨S_, .f32⟩ : BufTy).Contents (Elt F) → (⟨S8x2048x96, .f32⟩ : BufTy).Contents (Elt F)),
    StableHlo.binary main_v213 main_v183 main_v214 (subf : (⟨S8x2048x96, .f32⟩ : BufTy).Contents (Elt F) → (⟨S8x2048x96, .f32⟩ : BufTy).Contents (Elt F) → (⟨S8x2048x96, .f32⟩ : BufTy).Contents (Elt F)),
    StableHlo.binary main_v143 main_v214 main_v215 (mulf : (⟨S8x2048x96, .f32⟩ : BufTy).Contents (Elt F) → (⟨S8x2048x96, .f32⟩ : BufTy).Contents (Elt F) → (⟨S8x2048x96, .f32⟩ : BufTy).Contents (Elt F)),
    StableHlo.binary main_v212 main_v215 main_v216 (addf : (⟨S8x2048x96, .f32⟩ : BufTy).Contents (Elt F) → (⟨S8x2048x96, .f32⟩ : BufTy).Contents (Elt F) → (⟨S8x2048x96, .f32⟩ : BufTy).Contents (Elt F)) ]

/-- Operations of statements 233 … 240. -/
def ops_p08 : List (HloOp τ sig (Elt F)) :=
  [ StableHlo.binary main_arg2 main_v216 main_v217 ((fun l r => Host.dotGeneral dot_S8x2048x2048_S8x2048x96_S8x2048x96_2_1_1_2_0_0 none l r) : (⟨S8x2048x2048, .f32⟩ : BufTy).Contents (Elt F) → (⟨S8x2048x96, .f32⟩ : BufTy).Contents (Elt F) → (⟨S8x2048x96, .f32⟩ : BufTy).Contents (Elt F)),
    StableHlo.binary main_v217 main_v145 main_v218 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v157 main_v219 (broadcastInDim S1x1x96 ![2] bcast_S96_S1x1x96_2 : (⟨S96, .f32⟩ : BufTy).Contents (Elt F) → (⟨S1x1x96, .f32⟩ : BufTy).Contents (Elt F)),
    StableHlo.unary main_v219 main_v220 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v218 main_v220 main_v221 (addf : (⟨S8x2048x96, .f32⟩ : BufTy).Contents (Elt F) → (⟨S8x2048x96, .f32⟩ : BufTy).Contents (Elt F) → (⟨S8x2048x96, .f32⟩ : BufTy).Contents (Elt F)),
    StableHlo.binary main_v216 main_v147 main_v222 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v221 main_v222 main_v223 (addf : (⟨S8x2048x96, .f32⟩ : BufTy).Contents (Elt F) → (⟨S8x2048x96, .f32⟩ : BufTy).Contents (Elt F) → (⟨S8x2048x96, .f32⟩ : BufTy).Contents (Elt F)),
    StableHlo.unary main_v159 main_v224 (broadcastInDim S1x1x96 ![2] bcast_S96_S1x1x96_2 : (⟨S96, .f32⟩ : BufTy).Contents (Elt F) → (⟨S1x1x96, .f32⟩ : BufTy).Contents (Elt F)) ]

/-- Operations of statements 241 … 286. -/
def ops_p09 : List (HloOp τ sig (Elt F)) :=
  [ StableHlo.unary main_v224 main_v225 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v223 main_v225 main_v226 (addf : (⟨S8x2048x96, .f32⟩ : BufTy).Contents (Elt F) → (⟨S8x2048x96, .f32⟩ : BufTy).Contents (Elt F) → (⟨S8x2048x96, .f32⟩ : BufTy).Contents (Elt F)),
    StableHlo.unary main_v226 main_v227 (Host.negf : (⟨S8x2048x96, .f32⟩ : BufTy).Contents (Elt F) → (⟨S8x2048x96, .f32⟩ : BufTy).Contents (Elt F)),
    StableHlo.unary main_v227 main_v228 (Host.exp : (⟨S8x2048x96, .f32⟩ : BufTy).Contents (Elt F) → (⟨S8x2048x96, .f32⟩ : BufTy).Contents (Elt F)),
    StableHlo.nullary main_cst_14 (constant S_ .f32 0x3F800000#32),
    StableHlo.unary main_cst_14 main_v229 (broadcastInDim S8x2048x96 ![] bcast_S_S8x2048x96 : (⟨S_, .f32⟩ : BufTy).Contents (Elt F) → (⟨S8x2048x96, .f32⟩ : BufTy).Contents (Elt F)),
    StableHlo.binary main_v229 main_v228 main_v230 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_15 (constant S_ .f32 0x3F800000#32),
    StableHlo.unary main_cst_15 main_v231 (broadcastInDim S8x2048x96 ![] bcast_S_S8x2048x96 : (⟨S_, .f32⟩ : BufTy).Contents (Elt F) → (⟨S8x2048x96, .f32⟩ : BufTy).Contents (Elt F)),
    StableHlo.binary main_v231 main_v230 main_v232 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v217 main_v149 main_v233 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v161 main_v234 (broadcastInDim S1x1x96 ![2] bcast_S96_S1x1x96_2 : (⟨S96, .f32⟩ : BufTy).Contents (Elt F) → (⟨S1x1x96, .f32⟩ : BufTy).Contents (Elt F)),
    StableHlo.unary main_v234 main_v235 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v233 main_v235 main_v236 (addf : (⟨S8x2048x96, .f32⟩ : BufTy).Contents (Elt F) → (⟨S8x2048x96, .f32⟩ : BufTy).Contents (Elt F) → (⟨S8x2048x96, .f32⟩ : BufTy).Contents (Elt F)),
    StableHlo.binary main_v216 main_v151 main_v237 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v236 main_v237 main_v238 (addf : (⟨S8x2048x96, .f32⟩ : BufTy).Contents (Elt F) → (⟨S8x2048x96, .f32⟩ : BufTy).Contents (Elt F) → (⟨S8x2048x96, .f32⟩ : BufTy).Contents (Elt F)),
    StableHlo.unary main_v163 main_v239 (broadcastInDim S1x1x96 ![2] bcast_S96_S1x1x96_2 : (⟨S96, .f32⟩ : BufTy).Contents (Elt F) → (⟨S1x1x96, .f32⟩ : BufTy).Contents (Elt F)),
    StableHlo.unary main_v239 main_v240 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v238 main_v240 main_v241 (addf : (⟨S8x2048x96, .f32⟩ : BufTy).Contents (Elt F) → (⟨S8x2048x96, .f32⟩ : BufTy).Contents (Elt F) → (⟨S8x2048x96, .f32⟩ : BufTy).Contents (Elt F)),
    StableHlo.unary main_v241 main_v242 (Host.negf : (⟨S8x2048x96, .f32⟩ : BufTy).Contents (Elt F) → (⟨S8x2048x96, .f32⟩ : BufTy).Contents (Elt F)),
    StableHlo.unary main_v242 main_v243 (Host.exp : (⟨S8x2048x96, .f32⟩ : BufTy).Contents (Elt F) → (⟨S8x2048x96, .f32⟩ : BufTy).Contents (Elt F)),
    StableHlo.nullary main_cst_16 (constant S_ .f32 0x3F800000#32),
    StableHlo.unary main_cst_16 main_v244 (broadcastInDim S8x2048x96 ![] bcast_S_S8x2048x96 : (⟨S_, .f32⟩ : BufTy).Contents (Elt F) → (⟨S8x2048x96, .f32⟩ : BufTy).Contents (Elt F)),
    StableHlo.binary main_v244 main_v243 main_v245 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_17 (constant S_ .f32 0x3F800000#32),
    StableHlo.unary main_cst_17 main_v246 (broadcastInDim S8x2048x96 ![] bcast_S_S8x2048x96 : (⟨S_, .f32⟩ : BufTy).Contents (Elt F) → (⟨S8x2048x96, .f32⟩ : BufTy).Contents (Elt F)),
    StableHlo.binary main_v246 main_v245 main_v247 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v217 main_v153 main_v248 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v165 main_v249 (broadcastInDim S1x1x96 ![2] bcast_S96_S1x1x96_2 : (⟨S96, .f32⟩ : BufTy).Contents (Elt F) → (⟨S1x1x96, .f32⟩ : BufTy).Contents (Elt F)),
    StableHlo.unary main_v249 main_v250 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v248 main_v250 main_v251 (addf : (⟨S8x2048x96, .f32⟩ : BufTy).Contents (Elt F) → (⟨S8x2048x96, .f32⟩ : BufTy).Contents (Elt F) → (⟨S8x2048x96, .f32⟩ : BufTy).Contents (Elt F)),
    StableHlo.binary main_v247 main_v216 main_v252 (mulf : (⟨S8x2048x96, .f32⟩ : BufTy).Contents (Elt F) → (⟨S8x2048x96, .f32⟩ : BufTy).Contents (Elt F) → (⟨S8x2048x96, .f32⟩ : BufTy).Contents (Elt F)),
    StableHlo.binary main_v252 main_v155 main_v253 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v251 main_v253 main_v254 (addf : (⟨S8x2048x96, .f32⟩ : BufTy).Contents (Elt F) → (⟨S8x2048x96, .f32⟩ : BufTy).Contents (Elt F) → (⟨S8x2048x96, .f32⟩ : BufTy).Contents (Elt F)),
    StableHlo.unary main_v167 main_v255 (broadcastInDim S1x1x96 ![2] bcast_S96_S1x1x96_2 : (⟨S96, .f32⟩ : BufTy).Contents (Elt F) → (⟨S1x1x96, .f32⟩ : BufTy).Contents (Elt F)),
    StableHlo.unary main_v255 main_v256 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v254 main_v256 main_v257 (addf : (⟨S8x2048x96, .f32⟩ : BufTy).Contents (Elt F) → (⟨S8x2048x96, .f32⟩ : BufTy).Contents (Elt F) → (⟨S8x2048x96, .f32⟩ : BufTy).Contents (Elt F)),
    StableHlo.unary main_arg5 main_v258 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v258 main_v257 main_v259 (mulf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call5.cst (constant S_ .f32 0x00000000#32),
    StableHlo.TRef.unary main_call5.cst main_call5.v0 (broadcastInDim S8x2048x96 ![] bcast_S_S8x2048x96),
    StableHlo.TRef.binary (.of main_v259 : StableHlo.TRef sig ⟨S8x2048x96, .f32⟩) main_call5.v0 main_call5.v1 maximumf,
    StableHlo.binary main_v260 main_v232 main_v261 (mulf : (⟨S8x2048x96, .f32⟩ : BufTy).Contents (Elt F) → (⟨S8x2048x96, .f32⟩ : BufTy).Contents (Elt F) → (⟨S8x2048x96, .f32⟩ : BufTy).Contents (Elt F)),
    StableHlo.nullary main_cst_18 (constant S_ .f32 0x3F800000#32),
    StableHlo.unary main_cst_18 main_v262 (broadcastInDim S8x2048x96 ![] bcast_S_S8x2048x96 : (⟨S_, .f32⟩ : BufTy).Contents (Elt F) → (⟨S8x2048x96, .f32⟩ : BufTy).Contents (Elt F)),
    StableHlo.binary main_v262 main_v232 main_v263 (subf : (⟨S8x2048x96, .f32⟩ : BufTy).Contents (Elt F) → (⟨S8x2048x96, .f32⟩ : BufTy).Contents (Elt F) → (⟨S8x2048x96, .f32⟩ : BufTy).Contents (Elt F)),
    StableHlo.binary main_v216 main_v263 main_v264 (mulf : (⟨S8x2048x96, .f32⟩ : BufTy).Contents (Elt F) → (⟨S8x2048x96, .f32⟩ : BufTy).Contents (Elt F) → (⟨S8x2048x96, .f32⟩ : BufTy).Contents (Elt F)),
    StableHlo.binary main_v261 main_v264 main_v265 (addf : (⟨S8x2048x96, .f32⟩ : BufTy).Contents (Elt F) → (⟨S8x2048x96, .f32⟩ : BufTy).Contents (Elt F) → (⟨S8x2048x96, .f32⟩ : BufTy).Contents (Elt F)) ]

/-- Operations of statements 287 … 300. -/
def ops_p10 : List (HloOp τ sig (Elt F)) :=
  [ StableHlo.unary main_arg7 main_v266 ((extractStridedSlice S1x300x96 ![2, 0, 0] · slices_S3x300x96_S1x300x96_2_0_0) : (⟨S3x300x96, .f32⟩ : BufTy).Contents (Elt F) → (⟨S1x300x96, .f32⟩ : BufTy).Contents (Elt F)),
    StableHlo.reshape main_v266 main_v267 rfl shapeCasts_S1x300x96_S300x96,
    StableHlo.binary main_arg0 main_v267 main_v268 ((fun l r => Host.dotGeneral dot_S8x2048x300_S300x96_S8x2048x96_2_0_01_1_n_n none l r) : (⟨S8x2048x300, .f32⟩ : BufTy).Contents (Elt F) → (⟨S300x96, .f32⟩ : BufTy).Contents (Elt F) → (⟨S8x2048x96, .f32⟩ : BufTy).Contents (Elt F)),
    StableHlo.unary main_arg8 main_v269 ((extractStridedSlice S1x96 ![2, 0] · slices_S3x96_S1x96_2_0) : (⟨S3x96, .f32⟩ : BufTy).Contents (Elt F) → (⟨S1x96, .f32⟩ : BufTy).Contents (Elt F)),
    StableHlo.reshape main_v269 main_v270 rfl shapeCasts_S1x96_S96,
    StableHlo.unary main_v270 main_v271 (broadcastInDim S1x1x96 ![2] bcast_S96_S1x1x96_2 : (⟨S96, .f32⟩ : BufTy).Contents (Elt F) → (⟨S1x1x96, .f32⟩ : BufTy).Contents (Elt F)),
    StableHlo.unary main_v271 main_v272 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v268 main_v272 main_v273 (addf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call6.cst (constant S_ .f32 0x00000000#32),
    StableHlo.TRef.unary main_call6.cst main_call6.v0 (broadcastInDim S8x2048x96 ![] bcast_S_S8x2048x96),
    StableHlo.TRef.binary (.of main_v273 : StableHlo.TRef sig ⟨S8x2048x96, .f32⟩) main_call6.v0 main_call6.v1 maximumf,
    StableHlo.unary main_arg6 main_v275 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v275 main_v274 main_v276 (mulf : (⟨S8x2048x96, .f32⟩ : BufTy).Contents (Elt F) → (⟨S8x2048x96, .f32⟩ : BufTy).Contents (Elt F) → (⟨S8x2048x96, .f32⟩ : BufTy).Contents (Elt F)),
    StableHlo.unary main_arg11 main_v277 ((extractStridedSlice S1x1x96x96 ![2, 0, 0, 0] · slices_S3x6x96x96_S1x1x96x96_2_0_0_0) : (⟨S3x6x96x96, .f32⟩ : BufTy).Contents (Elt F) → (⟨S1x1x96x96, .f32⟩ : BufTy).Contents (Elt F)),
    StableHlo.reshape main_v277 main_v278 rfl shapeCasts_S1x1x96x96_S96x96,
    StableHlo.unary main_arg11 main_v279 ((extractStridedSlice S1x1x96x96 ![2, 1, 0, 0] · slices_S3x6x96x96_S1x1x96x96_2_1_0_0) : (⟨S3x6x96x96, .f32⟩ : BufTy).Contents (Elt F) → (⟨S1x1x96x96, .f32⟩ : BufTy).Contents (Elt F)) ]

/-- Operations of statements 301 … 321. -/
def ops_p11 : List (HloOp τ sig (Elt F)) :=
  [ StableHlo.reshape main_v279 main_v280 rfl shapeCasts_S1x1x96x96_S96x96,
    StableHlo.unary main_arg11 main_v281 ((extractStridedSlice S1x1x96x96 ![2, 2, 0, 0] · slices_S3x6x96x96_S1x1x96x96_2_2_0_0) : (⟨S3x6x96x96, .f32⟩ : BufTy).Contents (Elt F) → (⟨S1x1x96x96, .f32⟩ : BufTy).Contents (Elt F)),
    StableHlo.reshape main_v281 main_v282 rfl shapeCasts_S1x1x96x96_S96x96,
    StableHlo.unary main_arg11 main_v283 ((extractStridedSlice S1x1x96x96 ![2, 3, 0, 0] · slices_S3x6x96x96_S1x1x96x96_2_3_0_0) : (⟨S3x6x96x96, .f32⟩ : BufTy).Contents (Elt F) → (⟨S1x1x96x96, .f32⟩ : BufTy).Contents (Elt F)),
    StableHlo.reshape main_v283 main_v284 rfl shapeCasts_S1x1x96x96_S96x96,
    StableHlo.unary main_arg11 main_v285 ((extractStridedSlice S1x1x96x96 ![2, 4, 0, 0] · slices_S3x6x96x96_S1x1x96x96_2_4_0_0) : (⟨S3x6x96x96, .f32⟩ : BufTy).Contents (Elt F) → (⟨S1x1x96x96, .f32⟩ : BufTy).Contents (Elt F)),
    StableHlo.reshape main_v285 main_v286 rfl shapeCasts_S1x1x96x96_S96x96,
    StableHlo.unary main_arg11 main_v287 ((extractStridedSlice S1x1x96x96 ![2, 5, 0, 0] · slices_S3x6x96x96_S1x1x96x96_2_5_0_0) : (⟨S3x6x96x96, .f32⟩ : BufTy).Contents (Elt F) → (⟨S1x1x96x96, .f32⟩ : BufTy).Contents (Elt F)),
    StableHlo.reshape main_v287 main_v288 rfl shapeCasts_S1x1x96x96_S96x96,
    StableHlo.unary main_arg12 main_v289 ((extractStridedSlice S1x1x96 ![2, 0, 0] · slices_S3x6x96_S1x1x96_2_0_0) : (⟨S3x6x96, .f32⟩ : BufTy).Contents (Elt F) → (⟨S1x1x96, .f32⟩ : BufTy).Contents (Elt F)),
    StableHlo.reshape main_v289 main_v290 rfl shapeCasts_S1x1x96_S96,
    StableHlo.unary main_arg12 main_v291 ((extractStridedSlice S1x1x96 ![2, 1, 0] · slices_S3x6x96_S1x1x96_2_1_0) : (⟨S3x6x96, .f32⟩ : BufTy).Contents (Elt F) → (⟨S1x1x96, .f32⟩ : BufTy).Contents (Elt F)),
    StableHlo.reshape main_v291 main_v292 rfl shapeCasts_S1x1x96_S96,
    StableHlo.unary main_arg12 main_v293 ((extractStridedSlice S1x1x96 ![2, 2, 0] · slices_S3x6x96_S1x1x96_2_2_0) : (⟨S3x6x96, .f32⟩ : BufTy).Contents (Elt F) → (⟨S1x1x96, .f32⟩ : BufTy).Contents (Elt F)),
    StableHlo.reshape main_v293 main_v294 rfl shapeCasts_S1x1x96_S96,
    StableHlo.unary main_arg12 main_v295 ((extractStridedSlice S1x1x96 ![2, 3, 0] · slices_S3x6x96_S1x1x96_2_3_0) : (⟨S3x6x96, .f32⟩ : BufTy).Contents (Elt F) → (⟨S1x1x96, .f32⟩ : BufTy).Contents (Elt F)),
    StableHlo.reshape main_v295 main_v296 rfl shapeCasts_S1x1x96_S96,
    StableHlo.unary main_arg12 main_v297 ((extractStridedSlice S1x1x96 ![2, 4, 0] · slices_S3x6x96_S1x1x96_2_4_0) : (⟨S3x6x96, .f32⟩ : BufTy).Contents (Elt F) → (⟨S1x1x96, .f32⟩ : BufTy).Contents (Elt F)),
    StableHlo.reshape main_v297 main_v298 rfl shapeCasts_S1x1x96_S96,
    StableHlo.unary main_arg12 main_v299 ((extractStridedSlice S1x1x96 ![2, 5, 0] · slices_S3x6x96_S1x1x96_2_5_0) : (⟨S3x6x96, .f32⟩ : BufTy).Contents (Elt F) → (⟨S1x1x96, .f32⟩ : BufTy).Contents (Elt F)),
    StableHlo.reshape main_v299 main_v300 rfl shapeCasts_S1x1x96_S96 ]

/-- Operations of statements 322 … 360. -/
def ops_p12 : List (HloOp τ sig (Elt F)) :=
  [ StableHlo.binary main_arg3 main_v276 main_v301 ((fun l r => Host.dotGeneral dot_S8x2048x2048_S8x2048x96_S8x2048x96_2_1_1_2_0_0 none l r) : (⟨S8x2048x2048, .f32⟩ : BufTy).Contents (Elt F) → (⟨S8x2048x96, .f32⟩ : BufTy).Contents (Elt F) → (⟨S8x2048x96, .f32⟩ : BufTy).Contents (Elt F)),
    StableHlo.binary main_v301 main_v278 main_v302 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v290 main_v303 (broadcastInDim S1x1x96 ![2] bcast_S96_S1x1x96_2 : (⟨S96, .f32⟩ : BufTy).Contents (Elt F) → (⟨S1x1x96, .f32⟩ : BufTy).Contents (Elt F)),
    StableHlo.unary main_v303 main_v304 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v302 main_v304 main_v305 (addf : (⟨S8x2048x96, .f32⟩ : BufTy).Contents (Elt F) → (⟨S8x2048x96, .f32⟩ : BufTy).Contents (Elt F) → (⟨S8x2048x96, .f32⟩ : BufTy).Contents (Elt F)),
    StableHlo.binary main_v276 main_v280 main_v306 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v305 main_v306 main_v307 (addf : (⟨S8x2048x96, .f32⟩ : BufTy).Contents (Elt F) → (⟨S8x2048x96, .f32⟩ : BufTy).Contents (Elt F) → (⟨S8x2048x96, .f32⟩ : BufTy).Contents (Elt F)),
    StableHlo.unary main_v292 main_v308 (broadcastInDim S1x1x96 ![2] bcast_S96_S1x1x96_2 : (⟨S96, .f32⟩ : BufTy).Contents (Elt F) → (⟨S1x1x96, .f32⟩ : BufTy).Contents (Elt F)),
    StableHlo.unary main_v308 main_v309 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v307 main_v309 main_v310 (addf : (⟨S8x2048x96, .f32⟩ : BufTy).Contents (Elt F) → (⟨S8x2048x96, .f32⟩ : BufTy).Contents (Elt F) → (⟨S8x2048x96, .f32⟩ : BufTy).Contents (Elt F)),
    StableHlo.unary main_v310 main_v311 (Host.negf : (⟨S8x2048x96, .f32⟩ : BufTy).Contents (Elt F) → (⟨S8x2048x96, .f32⟩ : BufTy).Contents (Elt F)),
    StableHlo.unary main_v311 main_v312 (Host.exp : (⟨S8x2048x96, .f32⟩ : BufTy).Contents (Elt F) → (⟨S8x2048x96, .f32⟩ : BufTy).Contents (Elt F)),
    StableHlo.nullary main_cst_19 (constant S_ .f32 0x3F800000#32),
    StableHlo.unary main_cst_19 main_v313 (broadcastInDim S8x2048x96 ![] bcast_S_S8x2048x96 : (⟨S_, .f32⟩ : BufTy).Contents (Elt F) → (⟨S8x2048x96, .f32⟩ : BufTy).Contents (Elt F)),
    StableHlo.binary main_v313 main_v312 main_v314 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_20 (constant S_ .f32 0x3F800000#32),
    StableHlo.unary main_cst_20 main_v315 (broadcastInDim S8x2048x96 ![] bcast_S_S8x2048x96 : (⟨S_, .f32⟩ : BufTy).Contents (Elt F) → (⟨S8x2048x96, .f32⟩ : BufTy).Contents (Elt F)),
    StableHlo.binary main_v315 main_v314 main_v316 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v301 main_v282 main_v317 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v294 main_v318 (broadcastInDim S1x1x96 ![2] bcast_S96_S1x1x96_2 : (⟨S96, .f32⟩ : BufTy).Contents (Elt F) → (⟨S1x1x96, .f32⟩ : BufTy).Contents (Elt F)),
    StableHlo.unary main_v318 main_v319 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v317 main_v319 main_v320 (addf : (⟨S8x2048x96, .f32⟩ : BufTy).Contents (Elt F) → (⟨S8x2048x96, .f32⟩ : BufTy).Contents (Elt F) → (⟨S8x2048x96, .f32⟩ : BufTy).Contents (Elt F)),
    StableHlo.binary main_v276 main_v284 main_v321 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v320 main_v321 main_v322 (addf : (⟨S8x2048x96, .f32⟩ : BufTy).Contents (Elt F) → (⟨S8x2048x96, .f32⟩ : BufTy).Contents (Elt F) → (⟨S8x2048x96, .f32⟩ : BufTy).Contents (Elt F)),
    StableHlo.unary main_v296 main_v323 (broadcastInDim S1x1x96 ![2] bcast_S96_S1x1x96_2 : (⟨S96, .f32⟩ : BufTy).Contents (Elt F) → (⟨S1x1x96, .f32⟩ : BufTy).Contents (Elt F)),
    StableHlo.unary main_v323 main_v324 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v322 main_v324 main_v325 (addf : (⟨S8x2048x96, .f32⟩ : BufTy).Contents (Elt F) → (⟨S8x2048x96, .f32⟩ : BufTy).Contents (Elt F) → (⟨S8x2048x96, .f32⟩ : BufTy).Contents (Elt F)),
    StableHlo.unary main_v325 main_v326 (Host.negf : (⟨S8x2048x96, .f32⟩ : BufTy).Contents (Elt F) → (⟨S8x2048x96, .f32⟩ : BufTy).Contents (Elt F)),
    StableHlo.unary main_v326 main_v327 (Host.exp : (⟨S8x2048x96, .f32⟩ : BufTy).Contents (Elt F) → (⟨S8x2048x96, .f32⟩ : BufTy).Contents (Elt F)),
    StableHlo.nullary main_cst_21 (constant S_ .f32 0x3F800000#32),
    StableHlo.unary main_cst_21 main_v328 (broadcastInDim S8x2048x96 ![] bcast_S_S8x2048x96 : (⟨S_, .f32⟩ : BufTy).Contents (Elt F) → (⟨S8x2048x96, .f32⟩ : BufTy).Contents (Elt F)),
    StableHlo.binary main_v328 main_v327 main_v329 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_22 (constant S_ .f32 0x3F800000#32),
    StableHlo.unary main_cst_22 main_v330 (broadcastInDim S8x2048x96 ![] bcast_S_S8x2048x96 : (⟨S_, .f32⟩ : BufTy).Contents (Elt F) → (⟨S8x2048x96, .f32⟩ : BufTy).Contents (Elt F)),
    StableHlo.binary main_v330 main_v329 main_v331 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v301 main_v286 main_v332 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v298 main_v333 (broadcastInDim S1x1x96 ![2] bcast_S96_S1x1x96_2 : (⟨S96, .f32⟩ : BufTy).Contents (Elt F) → (⟨S1x1x96, .f32⟩ : BufTy).Contents (Elt F)),
    StableHlo.unary main_v333 main_v334 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v332 main_v334 main_v335 (addf : (⟨S8x2048x96, .f32⟩ : BufTy).Contents (Elt F) → (⟨S8x2048x96, .f32⟩ : BufTy).Contents (Elt F) → (⟨S8x2048x96, .f32⟩ : BufTy).Contents (Elt F)) ]

/-- Operations of statements 361 … 375. -/
def ops_p13 : List (HloOp τ sig (Elt F)) :=
  [ StableHlo.binary main_v331 main_v276 main_v336 (mulf : (⟨S8x2048x96, .f32⟩ : BufTy).Contents (Elt F) → (⟨S8x2048x96, .f32⟩ : BufTy).Contents (Elt F) → (⟨S8x2048x96, .f32⟩ : BufTy).Contents (Elt F)),
    StableHlo.binary main_v336 main_v288 main_v337 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v335 main_v337 main_v338 (addf : (⟨S8x2048x96, .f32⟩ : BufTy).Contents (Elt F) → (⟨S8x2048x96, .f32⟩ : BufTy).Contents (Elt F) → (⟨S8x2048x96, .f32⟩ : BufTy).Contents (Elt F)),
    StableHlo.unary main_v300 main_v339 (broadcastInDim S1x1x96 ![2] bcast_S96_S1x1x96_2 : (⟨S96, .f32⟩ : BufTy).Contents (Elt F) → (⟨S1x1x96, .f32⟩ : BufTy).Contents (Elt F)),
    StableHlo.unary main_v339 main_v340 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v338 main_v340 main_v341 (addf : (⟨S8x2048x96, .f32⟩ : BufTy).Contents (Elt F) → (⟨S8x2048x96, .f32⟩ : BufTy).Contents (Elt F) → (⟨S8x2048x96, .f32⟩ : BufTy).Contents (Elt F)),
    StableHlo.unary main_arg6 main_v342 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v342 main_v341 main_v343 (mulf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call7.cst (constant S_ .f32 0x00000000#32),
    StableHlo.TRef.unary main_call7.cst main_call7.v0 (broadcastInDim S8x2048x96 ![] bcast_S_S8x2048x96),
    StableHlo.TRef.binary (.of main_v343 : StableHlo.TRef sig ⟨S8x2048x96, .f32⟩) main_call7.v0 main_call7.v1 maximumf,
    StableHlo.binary main_v344 main_v316 main_v345 (mulf : (⟨S8x2048x96, .f32⟩ : BufTy).Contents (Elt F) → (⟨S8x2048x96, .f32⟩ : BufTy).Contents (Elt F) → (⟨S8x2048x96, .f32⟩ : BufTy).Contents (Elt F)),
    StableHlo.nullary main_cst_23 (constant S_ .f32 0x3F800000#32),
    StableHlo.unary main_cst_23 main_v346 (broadcastInDim S8x2048x96 ![] bcast_S_S8x2048x96 : (⟨S_, .f32⟩ : BufTy).Contents (Elt F) → (⟨S8x2048x96, .f32⟩ : BufTy).Contents (Elt F)),
    StableHlo.binary main_v346 main_v316 main_v347 (subf : (⟨S8x2048x96, .f32⟩ : BufTy).Contents (Elt F) → (⟨S8x2048x96, .f32⟩ : BufTy).Contents (Elt F) → (⟨S8x2048x96, .f32⟩ : BufTy).Contents (Elt F)),
    StableHlo.binary main_v276 main_v347 main_v348 (mulf : (⟨S8x2048x96, .f32⟩ : BufTy).Contents (Elt F) → (⟨S8x2048x96, .f32⟩ : BufTy).Contents (Elt F) → (⟨S8x2048x96, .f32⟩ : BufTy).Contents (Elt F)),
    StableHlo.binary main_v345 main_v348 main_v349 (addf : (⟨S8x2048x96, .f32⟩ : BufTy).Contents (Elt F) → (⟨S8x2048x96, .f32⟩ : BufTy).Contents (Elt F) → (⟨S8x2048x96, .f32⟩ : BufTy).Contents (Elt F)) ]

/-- Operations of statements 376 … 420. -/
def ops_p14 : List (HloOp τ sig (Elt F)) :=
  [ StableHlo.binary main_arg3 main_v349 main_v350 ((fun l r => Host.dotGeneral dot_S8x2048x2048_S8x2048x96_S8x2048x96_2_1_1_2_0_0 none l r) : (⟨S8x2048x2048, .f32⟩ : BufTy).Contents (Elt F) → (⟨S8x2048x96, .f32⟩ : BufTy).Contents (Elt F) → (⟨S8x2048x96, .f32⟩ : BufTy).Contents (Elt F)),
    StableHlo.binary main_v350 main_v278 main_v351 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v290 main_v352 (broadcastInDim S1x1x96 ![2] bcast_S96_S1x1x96_2 : (⟨S96, .f32⟩ : BufTy).Contents (Elt F) → (⟨S1x1x96, .f32⟩ : BufTy).Contents (Elt F)),
    StableHlo.unary main_v352 main_v353 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v351 main_v353 main_v354 (addf : (⟨S8x2048x96, .f32⟩ : BufTy).Contents (Elt F) → (⟨S8x2048x96, .f32⟩ : BufTy).Contents (Elt F) → (⟨S8x2048x96, .f32⟩ : BufTy).Contents (Elt F)),
    StableHlo.binary main_v349 main_v280 main_v355 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v354 main_v355 main_v356 (addf : (⟨S8x2048x96, .f32⟩ : BufTy).Contents (Elt F) → (⟨S8x2048x96, .f32⟩ : BufTy).Contents (Elt F) → (⟨S8x2048x96, .f32⟩ : BufTy).Contents (Elt F)),
    StableHlo.unary main_v292 main_v357 (broadcastInDim S1x1x96 ![2] bcast_S96_S1x1x96_2 : (⟨S96, .f32⟩ : BufTy).Contents (Elt F) → (⟨S1x1x96, .f32⟩ : BufTy).Contents (Elt F)),
    StableHlo.unary main_v357 main_v358 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v356 main_v358 main_v359 (addf : (⟨S8x2048x96, .f32⟩ : BufTy).Contents (Elt F) → (⟨S8x2048x96, .f32⟩ : BufTy).Contents (Elt F) → (⟨S8x2048x96, .f32⟩ : BufTy).Contents (Elt F)),
    StableHlo.unary main_v359 main_v360 (Host.negf : (⟨S8x2048x96, .f32⟩ : BufTy).Contents (Elt F) → (⟨S8x2048x96, .f32⟩ : BufTy).Contents (Elt F)),
    StableHlo.unary main_v360 main_v361 (Host.exp : (⟨S8x2048x96, .f32⟩ : BufTy).Contents (Elt F) → (⟨S8x2048x96, .f32⟩ : BufTy).Contents (Elt F)),
    StableHlo.nullary main_cst_24 (constant S_ .f32 0x3F800000#32),
    StableHlo.unary main_cst_24 main_v362 (broadcastInDim S8x2048x96 ![] bcast_S_S8x2048x96 : (⟨S_, .f32⟩ : BufTy).Contents (Elt F) → (⟨S8x2048x96, .f32⟩ : BufTy).Contents (Elt F)),
    StableHlo.binary main_v362 main_v361 main_v363 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_25 (constant S_ .f32 0x3F800000#32),
    StableHlo.unary main_cst_25 main_v364 (broadcastInDim S8x2048x96 ![] bcast_S_S8x2048x96 : (⟨S_, .f32⟩ : BufTy).Contents (Elt F) → (⟨S8x2048x96, .f32⟩ : BufTy).Contents (Elt F)),
    StableHlo.binary main_v364 main_v363 main_v365 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v350 main_v282 main_v366 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v294 main_v367 (broadcastInDim S1x1x96 ![2] bcast_S96_S1x1x96_2 : (⟨S96, .f32⟩ : BufTy).Contents (Elt F) → (⟨S1x1x96, .f32⟩ : BufTy).Contents (Elt F)),
    StableHlo.unary main_v367 main_v368 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v366 main_v368 main_v369 (addf : (⟨S8x2048x96, .f32⟩ : BufTy).Contents (Elt F) → (⟨S8x2048x96, .f32⟩ : BufTy).Contents (Elt F) → (⟨S8x2048x96, .f32⟩ : BufTy).Contents (Elt F)),
    StableHlo.binary main_v349 main_v284 main_v370 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v369 main_v370 main_v371 (addf : (⟨S8x2048x96, .f32⟩ : BufTy).Contents (Elt F) → (⟨S8x2048x96, .f32⟩ : BufTy).Contents (Elt F) → (⟨S8x2048x96, .f32⟩ : BufTy).Contents (Elt F)),
    StableHlo.unary main_v296 main_v372 (broadcastInDim S1x1x96 ![2] bcast_S96_S1x1x96_2 : (⟨S96, .f32⟩ : BufTy).Contents (Elt F) → (⟨S1x1x96, .f32⟩ : BufTy).Contents (Elt F)),
    StableHlo.unary main_v372 main_v373 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v371 main_v373 main_v374 (addf : (⟨S8x2048x96, .f32⟩ : BufTy).Contents (Elt F) → (⟨S8x2048x96, .f32⟩ : BufTy).Contents (Elt F) → (⟨S8x2048x96, .f32⟩ : BufTy).Contents (Elt F)),
    StableHlo.unary main_v374 main_v375 (Host.negf : (⟨S8x2048x96, .f32⟩ : BufTy).Contents (Elt F) → (⟨S8x2048x96, .f32⟩ : BufTy).Contents (Elt F)),
    StableHlo.unary main_v375 main_v376 (Host.exp : (⟨S8x2048x96, .f32⟩ : BufTy).Contents (Elt F) → (⟨S8x2048x96, .f32⟩ : BufTy).Contents (Elt F)),
    StableHlo.nullary main_cst_26 (constant S_ .f32 0x3F800000#32),
    StableHlo.unary main_cst_26 main_v377 (broadcastInDim S8x2048x96 ![] bcast_S_S8x2048x96 : (⟨S_, .f32⟩ : BufTy).Contents (Elt F) → (⟨S8x2048x96, .f32⟩ : BufTy).Contents (Elt F)),
    StableHlo.binary main_v377 main_v376 main_v378 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_27 (constant S_ .f32 0x3F800000#32),
    StableHlo.unary main_cst_27 main_v379 (broadcastInDim S8x2048x96 ![] bcast_S_S8x2048x96 : (⟨S_, .f32⟩ : BufTy).Contents (Elt F) → (⟨S8x2048x96, .f32⟩ : BufTy).Contents (Elt F)),
    StableHlo.binary main_v379 main_v378 main_v380 (Host.divf : (⟨S8x2048x96, .f32⟩ : BufTy).Contents (Elt F) → (⟨S8x2048x96, .f32⟩ : BufTy).Contents (Elt F) → (⟨S8x2048x96, .f32⟩ : BufTy).Contents (Elt F)),
    StableHlo.binary main_v350 main_v286 main_v381 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_v298 main_v382 (broadcastInDim S1x1x96 ![2] bcast_S96_S1x1x96_2 : (⟨S96, .f32⟩ : BufTy).Contents (Elt F) → (⟨S1x1x96, .f32⟩ : BufTy).Contents (Elt F)),
    StableHlo.unary main_v382 main_v383 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v381 main_v383 main_v384 (addf : (⟨S8x2048x96, .f32⟩ : BufTy).Contents (Elt F) → (⟨S8x2048x96, .f32⟩ : BufTy).Contents (Elt F) → (⟨S8x2048x96, .f32⟩ : BufTy).Contents (Elt F)),
    StableHlo.binary main_v380 main_v349 main_v385 (mulf : (⟨S8x2048x96, .f32⟩ : BufTy).Contents (Elt F) → (⟨S8x2048x96, .f32⟩ : BufTy).Contents (Elt F) → (⟨S8x2048x96, .f32⟩ : BufTy).Contents (Elt F)),
    StableHlo.binary main_v385 main_v288 main_v386 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v384 main_v386 main_v387 (addf : (⟨S8x2048x96, .f32⟩ : BufTy).Contents (Elt F) → (⟨S8x2048x96, .f32⟩ : BufTy).Contents (Elt F) → (⟨S8x2048x96, .f32⟩ : BufTy).Contents (Elt F)),
    StableHlo.unary main_v300 main_v388 (broadcastInDim S1x1x96 ![2] bcast_S96_S1x1x96_2 : (⟨S96, .f32⟩ : BufTy).Contents (Elt F) → (⟨S1x1x96, .f32⟩ : BufTy).Contents (Elt F)),
    StableHlo.unary main_v388 main_v389 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v387 main_v389 main_v390 (addf : (⟨S8x2048x96, .f32⟩ : BufTy).Contents (Elt F) → (⟨S8x2048x96, .f32⟩ : BufTy).Contents (Elt F) → (⟨S8x2048x96, .f32⟩ : BufTy).Contents (Elt F)) ]

/-- Operations of statements 421 … 429. -/
def ops_p15 : List (HloOp τ sig (Elt F)) :=
  [ StableHlo.unary main_arg6 main_v391 (broadcastInDim S8x2048x96 ![0, 1, 2] bcast_S8x2048x1_S8x2048x96_0_1_2 : (⟨S8x2048x1, .f32⟩ : BufTy).Contents (Elt F) → (⟨S8x2048x96, .f32⟩ : BufTy).Contents (Elt F)),
    StableHlo.binary main_v391 main_v390 main_v392 (mulf : (⟨S8x2048x96, .f32⟩ : BufTy).Contents (Elt F) → (⟨S8x2048x96, .f32⟩ : BufTy).Contents (Elt F) → (⟨S8x2048x96, .f32⟩ : BufTy).Contents (Elt F)),
    StableHlo.TRef.nullary main_call8.cst (constant S_ .f32 0x00000000#32),
    StableHlo.TRef.unary main_call8.cst main_call8.v0 (broadcastInDim S8x2048x96 ![] bcast_S_S8x2048x96),
    StableHlo.TRef.binary (.of main_v392 : StableHlo.TRef sig ⟨S8x2048x96, .f32⟩) main_call8.v0 main_call8.v1 maximumf,
    StableHlo.binary main_v393 main_v365 main_v394 (mulf : (⟨S8x2048x96, .f32⟩ : BufTy).Contents (Elt F) → (⟨S8x2048x96, .f32⟩ : BufTy).Contents (Elt F) → (⟨S8x2048x96, .f32⟩ : BufTy).Contents (Elt F)),
    StableHlo.nullary main_cst_28 (constant S_ .f32 0x3F800000#32),
    StableHlo.unary main_cst_28 main_v395 (broadcastInDim S8x2048x96 ![] bcast_S_S8x2048x96 : (⟨S_, .f32⟩ : BufTy).Contents (Elt F) → (⟨S8x2048x96, .f32⟩ : BufTy).Contents (Elt F)),
    StableHlo.binary main_v395 main_v365 main_v396 (subf : (⟨S8x2048x96, .f32⟩ : BufTy).Contents (Elt F) → (⟨S8x2048x96, .f32⟩ : BufTy).Contents (Elt F) → (⟨S8x2048x96, .f32⟩ : BufTy).Contents (Elt F)),
    StableHlo.binary main_v349 main_v396 main_v397 (mulf : (⟨S8x2048x96, .f32⟩ : BufTy).Contents (Elt F) → (⟨S8x2048x96, .f32⟩ : BufTy).Contents (Elt F) → (⟨S8x2048x96, .f32⟩ : BufTy).Contents (Elt F)),
    StableHlo.binary main_v394 main_v397 main_v398 (addf : (⟨S8x2048x96, .f32⟩ : BufTy).Contents (Elt F) → (⟨S8x2048x96, .f32⟩ : BufTy).Contents (Elt F) → (⟨S8x2048x96, .f32⟩ : BufTy).Contents (Elt F)) ]

/-- Operations of statements 430 … 480. -/
def ops_p16 : List (HloOp τ sig (Elt F)) :=
  [ StableHlo.unary main_arg9 main_v399 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v399 main_v400 rfl shapeCasts_S1x96x96_S96x96,
    StableHlo.binary main_v132 main_v400 main_v401 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_arg10 main_v402 ((extractStridedSlice S1x96 ![0, 0] · slices_S3x96_S1x96_0_0) : (⟨S3x96, .f32⟩ : BufTy).Contents (Elt F) → (⟨S1x96, .f32⟩ : BufTy).Contents (Elt F)),
    StableHlo.reshape main_v402 main_v403 rfl shapeCasts_S1x96_S96,
    StableHlo.unary main_v403 main_v404 (broadcastInDim S1x1x96 ![2] bcast_S96_S1x1x96_2 : (⟨S96, .f32⟩ : BufTy).Contents (Elt F) → (⟨S1x1x96, .f32⟩ : BufTy).Contents (Elt F)),
    StableHlo.unary main_v404 main_v405 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v401 main_v405 main_v406 (addf : (⟨S8x2048x96, .f32⟩ : BufTy).Contents (Elt F) → (⟨S8x2048x96, .f32⟩ : BufTy).Contents (Elt F) → (⟨S8x2048x96, .f32⟩ : BufTy).Contents (Elt F)),
    StableHlo.unary main_arg9 main_v407 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v407 main_v408 rfl shapeCasts_S1x96x96_S96x96,
    StableHlo.binary main_v265 main_v408 main_v409 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_arg10 main_v410 ((extractStridedSlice S1x96 ![1, 0] · slices_S3x96_S1x96_1_0) : (⟨S3x96, .f32⟩ : BufTy).Contents (Elt F) → (⟨S1x96, .f32⟩ : BufTy).Contents (Elt F)),
    StableHlo.reshape main_v410 main_v411 rfl shapeCasts_S1x96_S96,
    StableHlo.unary main_v411 main_v412 (broadcastInDim S1x1x96 ![2] bcast_S96_S1x1x96_2 : (⟨S96, .f32⟩ : BufTy).Contents (Elt F) → (⟨S1x1x96, .f32⟩ : BufTy).Contents (Elt F)),
    StableHlo.unary main_v412 main_v413 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v409 main_v413 main_v414 (addf : (⟨S8x2048x96, .f32⟩ : BufTy).Contents (Elt F) → (⟨S8x2048x96, .f32⟩ : BufTy).Contents (Elt F) → (⟨S8x2048x96, .f32⟩ : BufTy).Contents (Elt F)),
    StableHlo.unary main_arg9 main_v415 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v415 main_v416 rfl shapeCasts_S1x96x96_S96x96,
    StableHlo.binary main_v398 main_v416 main_v417 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_arg10 main_v418 ((extractStridedSlice S1x96 ![2, 0] · slices_S3x96_S1x96_2_0) : (⟨S3x96, .f32⟩ : BufTy).Contents (Elt F) → (⟨S1x96, .f32⟩ : BufTy).Contents (Elt F)),
    StableHlo.reshape main_v418 main_v419 rfl shapeCasts_S1x96_S96,
    StableHlo.unary main_v419 main_v420 (broadcastInDim S1x1x96 ![2] bcast_S96_S1x1x96_2 : (⟨S96, .f32⟩ : BufTy).Contents (Elt F) → (⟨S1x1x96, .f32⟩ : BufTy).Contents (Elt F)),
    StableHlo.unary main_v420 main_v421 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v417 main_v421 main_v422 (addf : (⟨S8x2048x96, .f32⟩ : BufTy).Contents (Elt F) → (⟨S8x2048x96, .f32⟩ : BufTy).Contents (Elt F) → (⟨S8x2048x96, .f32⟩ : BufTy).Contents (Elt F)),
    StableHlo.binary main_v406 main_v414 main_v423 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_29 (constant S_ .f32 0x3E4CCCCD#32),
    StableHlo.TRef.nullary main_call9.cst (constant S_ .f32 0x00000000#32),
    StableHlo.TRef.unary main_call9.cst main_call9.v0 (broadcastInDim S8x2048x96 ![] bcast_S_S8x2048x96),
    StableHlo.TRef.binary (.of main_v423 : StableHlo.TRef sig ⟨S8x2048x96, .f32⟩) main_call9.v0 main_call9.v1 (cmpf .oge),
    StableHlo.TRef.unary (.of main_cst_29 : StableHlo.TRef sig ⟨S_, .f32⟩) main_call9.v2 id,
    StableHlo.TRef.unary main_call9.v2 main_call9.v3 (broadcastInDim S8x2048x96 ![] bcast_S_S8x2048x96),
    StableHlo.TRef.binary main_call9.v3 (.of main_v423 : StableHlo.TRef sig ⟨S8x2048x96, .f32⟩) main_call9.v4 mulf,
    StableHlo.TRef.ternary main_call9.v1 (.of main_v423 : StableHlo.TRef sig ⟨S8x2048x96, .f32⟩) main_call9.v4 main_call9.call0.v0 select,
    StableHlo.binary main_v414 main_v422 main_v425 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_30 (constant S_ .f32 0x3E4CCCCD#32),
    StableHlo.TRef.nullary main_call10.cst (constant S_ .f32 0x00000000#32),
    StableHlo.TRef.unary main_call10.cst main_call10.v0 (broadcastInDim S8x2048x96 ![] bcast_S_S8x2048x96),
    StableHlo.TRef.binary (.of main_v425 : StableHlo.TRef sig ⟨S8x2048x96, .f32⟩) main_call10.v0 main_call10.v1 (cmpf .oge),
    StableHlo.TRef.unary (.of main_cst_30 : StableHlo.TRef sig ⟨S_, .f32⟩) main_call10.v2 id,
    StableHlo.TRef.unary main_call10.v2 main_call10.v3 (broadcastInDim S8x2048x96 ![] bcast_S_S8x2048x96),
    StableHlo.TRef.binary main_call10.v3 (.of main_v425 : StableHlo.TRef sig ⟨S8x2048x96, .f32⟩) main_call10.v4 mulf,
    StableHlo.TRef.ternary main_call10.v1 (.of main_v425 : StableHlo.TRef sig ⟨S8x2048x96, .f32⟩) main_call10.v4 main_call10.call0.v0 select,
    StableHlo.binary main_v422 main_v406 main_v427 (addf : (⟨S8x2048x96, .f32⟩ : BufTy).Contents (Elt F) → (⟨S8x2048x96, .f32⟩ : BufTy).Contents (Elt F) → (⟨S8x2048x96, .f32⟩ : BufTy).Contents (Elt F)),
    StableHlo.nullary main_cst_31 (constant S_ .f32 0x3E4CCCCD#32),
    StableHlo.TRef.nullary main_call11.cst (constant S_ .f32 0x00000000#32),
    StableHlo.TRef.unary main_call11.cst main_call11.v0 (broadcastInDim S8x2048x96 ![] bcast_S_S8x2048x96),
    StableHlo.TRef.binary (.of main_v427 : StableHlo.TRef sig ⟨S8x2048x96, .f32⟩) main_call11.v0 main_call11.v1 (cmpf .oge),
    StableHlo.TRef.unary (.of main_cst_31 : StableHlo.TRef sig ⟨S_, .f32⟩) main_call11.v2 id,
    StableHlo.TRef.unary main_call11.v2 main_call11.v3 (broadcastInDim S8x2048x96 ![] bcast_S_S8x2048x96),
    StableHlo.TRef.binary main_call11.v3 (.of main_v427 : StableHlo.TRef sig ⟨S8x2048x96, .f32⟩) main_call11.v4 mulf,
    StableHlo.TRef.ternary main_call11.v1 (.of main_v427 : StableHlo.TRef sig ⟨S8x2048x96, .f32⟩) main_call11.v4 main_call11.call0.v0 select,
    StableHlo.unary main_arg13 main_v429 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v429 main_v430 rfl shapeCasts_S1x96x96_S96x96,
    StableHlo.binary main_v424 main_v430 main_v431 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.unary main_arg14 main_v432 ((extractStridedSlice S1x96 ![0, 0] · slices_S3x96_S1x96_0_0) : (⟨S3x96, .f32⟩ : BufTy).Contents (Elt F) → (⟨S1x96, .f32⟩ : BufTy).Contents (Elt F)),
    StableHlo.reshape main_v432 main_v433 rfl shapeCasts_S1x96_S96,
    StableHlo.unary main_v433 main_v434 (broadcastInDim S1x1x96 ![2] bcast_S96_S1x1x96_2 : (⟨S96, .f32⟩ : BufTy).Contents (Elt F) → (⟨S1x1x96, .f32⟩ : BufTy).Contents (Elt F)),
    StableHlo.unary main_v434 main_v435 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v431 main_v435 main_v436 (addf : (⟨S8x2048x96, .f32⟩ : BufTy).Contents (Elt F) → (⟨S8x2048x96, .f32⟩ : BufTy).Contents (Elt F) → (⟨S8x2048x96, .f32⟩ : BufTy).Contents (Elt F)),
    StableHlo.unary main_arg13 main_v437 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v437 main_v438 rfl shapeCasts_S1x96x96_S96x96,
    StableHlo.binary main_v426 main_v438 main_v439 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v436 main_v439 main_v440 (addf : (⟨S8x2048x96, .f32⟩ : BufTy).Contents (Elt F) → (⟨S8x2048x96, .f32⟩ : BufTy).Contents (Elt F) → (⟨S8x2048x96, .f32⟩ : BufTy).Contents (Elt F)),
    StableHlo.unary main_arg14 main_v441 ((extractStridedSlice S1x96 ![1, 0] · slices_S3x96_S1x96_1_0) : (⟨S3x96, .f32⟩ : BufTy).Contents (Elt F) → (⟨S1x96, .f32⟩ : BufTy).Contents (Elt F)),
    StableHlo.reshape main_v441 main_v442 rfl shapeCasts_S1x96_S96,
    StableHlo.unary main_v442 main_v443 (broadcastInDim S1x1x96 ![2] bcast_S96_S1x1x96_2 : (⟨S96, .f32⟩ : BufTy).Contents (Elt F) → (⟨S1x1x96, .f32⟩ : BufTy).Contents (Elt F)),
    StableHlo.unary main_v443 main_v444 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v440 main_v444 main_v445 (addf : (⟨S8x2048x96, .f32⟩ : BufTy).Contents (Elt F) → (⟨S8x2048x96, .f32⟩ : BufTy).Contents (Elt F) → (⟨S8x2048x96, .f32⟩ : BufTy).Contents (Elt F)),
    StableHlo.unary main_arg13 main_v446 ((extractStridedSlice S1x96x96 ![2, 0, 0] · slices_S3x96x96_S1x96x96_2_0_0) : (⟨S3x96x96, .f32⟩ : BufTy).Contents (Elt F) → (⟨S1x96x96, .f32⟩ : BufTy).Contents (Elt F)) ]

/-- Operations of statements 481 … 488. -/
def ops_p17 : List (HloOp τ sig (Elt F)) :=
  [ StableHlo.reshape main_v446 main_v447 rfl shapeCasts_S1x96x96_S96x96,
    StableHlo.binary main_v428 main_v447 main_v448 ((fun l r => Host.dotGeneral dot_S8x2048x96_S96x96_S8x2048x96_2_0_01_1_n_n none l r) : (⟨S8x2048x96, .f32⟩ : BufTy).Contents (Elt F) → (⟨S96x96, .f32⟩ : BufTy).Contents (Elt F) → (⟨S8x2048x96, .f32⟩ : BufTy).Contents (Elt F)),
    StableHlo.binary main_v445 main_v448 main_v449 (addf : (⟨S8x2048x96, .f32⟩ : BufTy).Contents (Elt F) → (⟨S8x2048x96, .f32⟩ : BufTy).Contents (Elt F) → (⟨S8x2048x96, .f32⟩ : BufTy).Contents (Elt F)),
    StableHlo.unary main_arg14 main_v450 ((extractStridedSlice S1x96 ![2, 0] · slices_S3x96_S1x96_2_0) : (⟨S3x96, .f32⟩ : BufTy).Contents (Elt F) → (⟨S1x96, .f32⟩ : BufTy).Contents (Elt F)),
    StableHlo.reshape main_v450 main_v451 rfl shapeCasts_S1x96_S96,
    StableHlo.unary main_v451 main_v452 (broadcastInDim S1x1x96 ![2] bcast_S96_S1x1x96_2 : (⟨S96, .f32⟩ : BufTy).Contents (Elt F) → (⟨S1x1x96, .f32⟩ : BufTy).Contents (Elt F)),
    StableHlo.unary main_v452 main_v453 (broadcastInDim S8x2048x96 ![0, 1, 2] bcast_S1x1x96_S8x2048x96_0_1_2 : (⟨S1x1x96, .f32⟩ : BufTy).Contents (Elt F) → (⟨S8x2048x96, .f32⟩ : BufTy).Contents (Elt F)),
    StableHlo.binary main_v449 main_v453 main_v454 (addf : (⟨S8x2048x96, .f32⟩ : BufTy).Contents (Elt F) → (⟨S8x2048x96, .f32⟩ : BufTy).Contents (Elt F) → (⟨S8x2048x96, .f32⟩ : BufTy).Contents (Elt F)) ]

/-- The buffers written by statements 1 … 35, in order. -/
def run_w00 : List (Ref sig .tc) :=
  [main_v0, main_v1, main_v2, main_v3, main_v4, main_v5, main_v6, main_v7, main_call0_cst, main_call0_v0, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34]

/-- The buffers written by statements 36 … 60, in order. -/
def run_w01 : List (Ref sig .tc) :=
  [main_v35, main_v36, main_v37, main_v38, main_v39, main_v40, main_v41, main_v42, main_v43, main_v44, main_v45, main_v46, main_cst, main_v47, main_v48, main_cst_0, main_v49, main_v50, main_v51, main_v52, main_v53, main_v54, main_v55, main_v56, main_v57]

/-- The buffers written by statements 61 … 89, in order. -/
def run_w02 : List (Ref sig .tc) :=
  [main_v58, main_v59, main_v60, main_v61, main_cst_1, main_v62, main_v63, main_cst_2, main_v64, main_v65, main_v66, main_v67, main_v68, main_v69, main_v70, main_v71, main_v72, main_v73, main_v74, main_v75, main_v76, main_v77, main_call1_cst, main_call1_v0, main_v78, main_v79, main_cst_3, main_v80, main_v81, main_v82, main_v83]

/-- The buffers written by statements 90 … 120, in order. -/
def run_w03 : List (Ref sig .tc) :=
  [main_v84, main_v85, main_v86, main_v87, main_v88, main_v89, main_v90, main_v91, main_v92, main_v93, main_v94, main_v95, main_cst_4, main_v96, main_v97, main_cst_5, main_v98, main_v99, main_v100, main_v101, main_v102, main_v103, main_v104, main_v105, main_v106, main_v107, main_v108, main_v109, main_v110, main_cst_6, main_v111]

/-- The buffers written by statements 121 … 143, in order. -/
def run_w04 : List (Ref sig .tc) :=
  [main_v112, main_cst_7, main_v113, main_v114, main_v115, main_v116, main_v117, main_v118, main_v119, main_v120, main_v121, main_v122, main_v123, main_v124, main_v125, main_v126, main_call2_cst, main_call2_v0, main_v127, main_v128, main_cst_8, main_v129, main_v130, main_v131, main_v132]

/-- The buffers written by statements 144 … 178, in order. -/
def run_w05 : List (Ref sig .tc) :=
  [main_v133, main_v134, main_v135, main_v136, main_v137, main_v138, main_v139, main_v140, main_call3_cst, main_call3_v0, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167]

/-- The buffers written by statements 179 … 180, in order. -/
def run_w06 : List (Ref sig .tc) :=
  [main_v168, main_v169]

/-- The buffers written by statements 181 … 232, in order. -/
def run_w07 : List (Ref sig .tc) :=
  [main_v170, main_v171, main_v172, main_v173, main_v174, main_v175, main_v176, main_v177, main_v178, main_v179, main_cst_9, main_v180, main_v181, main_cst_10, main_v182, main_v183, main_v184, main_v185, main_v186, main_v187, main_v188, main_v189, main_v190, main_v191, main_v192, main_v193, main_v194, main_cst_11, main_v195, main_v196, main_cst_12, main_v197, main_v198, main_v199, main_v200, main_v201, main_v202, main_v203, main_v204, main_v205, main_v206, main_v207, main_v208, main_v209, main_v210, main_call4_cst, main_call4_v0, main_v211, main_v212, main_cst_13, main_v213, main_v214, main_v215, main_v216]

/-- The buffers written by statements 233 … 240, in order. -/
def run_w08 : List (Ref sig .tc) :=
  [main_v217, main_v218, main_v219, main_v220, main_v221, main_v222, main_v223, main_v224]

/-- The buffers written by statements 241 … 286, in order. -/
def run_w09 : List (Ref sig .tc) :=
  [main_v225, main_v226, main_v227, main_v228, main_cst_14, main_v229, main_v230, main_cst_15, main_v231, main_v232, main_v233, main_v234, main_v235, main_v236, main_v237, main_v238, main_v239, main_v240, main_v241, main_v242, main_v243, main_cst_16, main_v244, main_v245, main_cst_17, main_v246, main_v247, main_v248, main_v249, main_v250, main_v251, main_v252, main_v253, main_v254, main_v255, main_v256, main_v257, main_v258, main_v259, main_call5_cst, main_call5_v0, main_v260, main_v261, main_cst_18, main_v262, main_v263, main_v264, main_v265]

/-- The buffers written by statements 287 … 300, in order. -/
def run_w10 : List (Ref sig .tc) :=
  [main_v266, main_v267, main_v268, main_v269, main_v270, main_v271, main_v272, main_v273, main_call6_cst, main_call6_v0, main_v274, main_v275, main_v276, main_v277, main_v278, main_v279]

/-- The buffers written by statements 301 … 321, in order. -/
def run_w11 : List (Ref sig .tc) :=
  [main_v280, main_v281, main_v282, main_v283, main_v284, main_v285, main_v286, main_v287, main_v288, main_v289, main_v290, main_v291, main_v292, main_v293, main_v294, main_v295, main_v296, main_v297, main_v298, main_v299, main_v300]

/-- The buffers written by statements 322 … 360, in order. -/
def run_w12 : List (Ref sig .tc) :=
  [main_v301, main_v302, main_v303, main_v304, main_v305, main_v306, main_v307, main_v308, main_v309, main_v310, main_v311, main_v312, main_cst_19, main_v313, main_v314, main_cst_20, main_v315, main_v316, main_v317, main_v318, main_v319, main_v320, main_v321, main_v322, main_v323, main_v324, main_v325, main_v326, main_v327, main_cst_21, main_v328, main_v329, main_cst_22, main_v330, main_v331, main_v332, main_v333, main_v334, main_v335]

/-- The buffers written by statements 361 … 375, in order. -/
def run_w13 : List (Ref sig .tc) :=
  [main_v336, main_v337, main_v338, main_v339, main_v340, main_v341, main_v342, main_v343, main_call7_cst, main_call7_v0, main_v344, main_v345, main_cst_23, main_v346, main_v347, main_v348, main_v349]

/-- The buffers written by statements 376 … 420, in order. -/
def run_w14 : List (Ref sig .tc) :=
  [main_v350, main_v351, main_v352, main_v353, main_v354, main_v355, main_v356, main_v357, main_v358, main_v359, main_v360, main_v361, main_cst_24, main_v362, main_v363, main_cst_25, main_v364, main_v365, main_v366, main_v367, main_v368, main_v369, main_v370, main_v371, main_v372, main_v373, main_v374, main_v375, main_v376, main_cst_26, main_v377, main_v378, main_cst_27, main_v379, main_v380, main_v381, main_v382, main_v383, main_v384, main_v385, main_v386, main_v387, main_v388, main_v389, main_v390]

/-- The buffers written by statements 421 … 429, in order. -/
def run_w15 : List (Ref sig .tc) :=
  [main_v391, main_v392, main_call8_cst, main_call8_v0, main_v393, main_v394, main_cst_28, main_v395, main_v396, main_v397, main_v398]

/-- The buffers written by statements 430 … 480, in order. -/
def run_w16 : List (Ref sig .tc) :=
  [main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_cst_29, main_call9_cst, main_call9_v0, main_call9_v1, main_call9_v2, main_call9_v3, main_call9_v4, main_v424, main_v425, main_cst_30, main_call10_cst, main_call10_v0, main_call10_v1, main_call10_v2, main_call10_v3, main_call10_v4, main_v426, main_v427, main_cst_31, main_call11_cst, main_call11_v0, main_call11_v1, main_call11_v2, main_call11_v3, main_call11_v4, main_v428, main_v429, main_v430, main_v431, main_v432, main_v433, main_v434, main_v435, main_v436, main_v437, main_v438, main_v439, main_v440, main_v441, main_v442, main_v443, main_v444, main_v445, main_v446]

/-- The buffers written by statements 481 … 488, in order. -/
def run_w17 : List (Ref sig .tc) :=
  [main_v447, main_v448, main_v449, main_v450, main_v451, main_v452, main_v453, main_v454]

end Cert.ReferenceIdeal.RefRun

end
-- ==== Proof.R.Parts.lean ====
/-
  Each window of the program is the straight line of its operations: the called functions unfolded at their calls,
  sequencing reassociated, the two sides are the same chain of steps.
-/
import proofs.«106044_j70463233458716_2_alg».proof.Proof.R.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 1600000 in
theorem run_part0_eq (c : Dev nD) : main_part0 (F := F) c = seq (ops_p00 ++ ops_p01) := by
  simp only [main_part0, fn_relu.body, fn_leaky_relu.body, fn_where.body, ops_p00, ops_p01, List.cons_append, List.nil_append, seq, bind_assoc, pure_bind]
  all_goals rfl

set_option maxRecDepth 4096 in
set_option maxHeartbeats 1600000 in
theorem run_part1_eq (c : Dev nD) : main_part1 (F := F) c = seq (ops_p02 ++ ops_p03) := by
  simp only [main_part1, fn_relu.body, fn_leaky_relu.body, fn_where.body, ops_p02, ops_p03, List.cons_append, List.nil_append, seq, bind_assoc, pure_bind]
  all_goals rfl

set_option maxRecDepth 4096 in
set_option maxHeartbeats 1600000 in
theorem run_part2_eq (c : Dev nD) : main_part2 (F := F) c = seq (ops_p04 ++ ops_p05 ++ ops_p06) := by
  simp only [main_part2, fn_relu.body, fn_leaky_relu.body, fn_where.body, ops_p04, ops_p05, ops_p06, List.cons_append, List.nil_append, seq, bind_assoc, pure_bind]
  all_goals rfl

set_option maxRecDepth 4096 in
set_option maxHeartbeats 1600000 in
theorem run_part3_eq (c : Dev nD) : main_part3 (F := F) c = seq (ops_p07 ++ ops_p08) := by
  simp only [main_part3, fn_relu.body, fn_leaky_relu.body, fn_where.body, ops_p07, ops_p08, List.cons_append, List.nil_append, seq, bind_assoc, pure_bind]
  all_goals rfl

set_option maxRecDepth 4096 in
set_option maxHeartbeats 1600000 in
theorem run_part4_eq (c : Dev nD) : main_part4 (F := F) c = seq (ops_p09 ++ ops_p10) := by
  simp only [main_part4, fn_relu.body, fn_leaky_relu.body, fn_where.body, ops_p09, ops_p10, List.cons_append, List.nil_append, seq, bind_assoc, pure_bind]
  all_goals rfl

set_option maxRecDepth 4096 in
set_option maxHeartbeats 1600000 in
theorem run_part5_eq (c : Dev nD) : main_part5 (F := F) c = seq (ops_p11 ++ ops_p12) := by
  simp only [main_part5, fn_relu.body, fn_leaky_relu.body, fn_where.body, ops_p11, ops_p12, List.cons_append, List.nil_append, seq, bind_assoc, pure_bind]
  all_goals rfl

set_option maxRecDepth 4096 in
set_option maxHeartbeats 1600000 in
theorem run_part6_eq (c : Dev nD) : main_part6 (F := F) c = seq (ops_p13 ++ ops_p14) := by
  simp only [main_part6, fn_relu.body, fn_leaky_relu.body, fn_where.body, ops_p13, ops_p14, List.cons_append, List.nil_append, seq, bind_assoc, pure_bind]
  all_goals rfl

set_option maxRecDepth 4096 in
set_option maxHeartbeats 1600000 in
theorem run_part7_eq (c : Dev nD) : main_part7 (F := F) c = seq (ops_p15 ++ ops_p16) := by
  simp only [main_part7, fn_relu.body, fn_leaky_relu.body, fn_where.body, ops_p15, ops_p16, List.cons_append, List.nil_append, seq, bind_assoc, pure_bind]
  all_goals rfl

set_option maxRecDepth 4096 in
set_option maxHeartbeats 1600000 in
theorem run_part8_eq (c : Dev nD) : main_part8 (F := F) c = seq (ops_p17) := by
  simp only [main_part8, fn_relu.body, fn_leaky_relu.body, fn_where.body, ops_p17, List.cons_append, List.nil_append, seq, bind_assoc, pure_bind]
  all_goals rfl

end Cert.ReferenceIdeal.RefRun

end
-- ==== Proof.R.Keep.lean ====
/-
  What each piece of the program touches: every operation reads and writes buffers of the TensorCore only and
  determines its result; a piece writes exactly the listed buffers, so every other buffer keeps its contents
  across it.
-/
import proofs.«106044_j70463233458716_2_alg».proof.Proof.R.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem run_after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A buffer of the list is among the list's buffers. -/
theorem run_wmem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem run_sub00 : (ops_p00 (F := F)).Forall fun op => op.bufs ⊆ tcRefs τ sig := by
  unfold ops_p00
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem run_fresh00 : (ops_p00 (F := F)).Forall fun op => op.fresh = ∅ := by
  unfold ops_p00
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub00 : (ops_p00 (F := F)).Forall fun op => op.writes ⊆ (run_w00.map (Proc.devRef (τ := τ) .tc)).toFinset := by
  unfold ops_p00
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep00 (W : Valuation τ sig (Elt F)) {r : Ref sig .tc} (hr : r ∉ run_w00) :
    after (ops_p00 (F := F)) W (no_index (Proc.devRef .tc r)) = W (Proc.devRef .tc r) :=
  after_of_writes_sub ops_p00 W run_wsub00 hr

theorem run_sub01 : (ops_p01 (F := F)).Forall fun op => op.bufs ⊆ tcRefs τ sig := by
  unfold ops_p01
  exact ⟨binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub ..⟩

theorem run_fresh01 : (ops_p01 (F := F)).Forall fun op => op.fresh = ∅ := by
  unfold ops_p01
  exact ⟨rfl, rfl, rfl, rfl, rfl, rfl, rfl, rfl, rfl, rfl, rfl, rfl, rfl, rfl, rfl, rfl, rfl, rfl, rfl, rfl, rfl, rfl, rfl, rfl, rfl⟩

theorem run_wsub01 : (ops_p01 (F := F)).Forall fun op => op.writes ⊆ (run_w01.map (Proc.devRef (τ := τ) .tc)).toFinset := by
  unfold ops_p01
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep01 (W : Valuation τ sig (Elt F)) {r : Ref sig .tc} (hr : r ∉ run_w01) :
    after (ops_p01 (F := F)) W (no_index (Proc.devRef .tc r)) = W (Proc.devRef .tc r) :=
  after_of_writes_sub ops_p01 W run_wsub01 hr

theorem run_sub02 : (ops_p02 (F := F)).Forall fun op => op.bufs ⊆ tcRefs τ sig := by
  unfold ops_p02
  exact ⟨unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

theorem run_fresh02 : (ops_p02 (F := F)).Forall fun op => op.fresh = ∅ := by
  unfold ops_p02
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub02 : (ops_p02 (F := F)).Forall fun op => op.writes ⊆ (run_w02.map (Proc.devRef (τ := τ) .tc)).toFinset := by
  unfold ops_p02
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep02 (W : Valuation τ sig (Elt F)) {r : Ref sig .tc} (hr : r ∉ run_w02) :
    after (ops_p02 (F := F)) W (no_index (Proc.devRef .tc r)) = W (Proc.devRef .tc r) :=
  after_of_writes_sub ops_p02 W run_wsub02 hr

theorem run_sub03 : (ops_p03 (F := F)).Forall fun op => op.bufs ⊆ tcRefs τ sig := by
  unfold ops_p03
  exact ⟨binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub ..⟩

theorem run_fresh03 : (ops_p03 (F := F)).Forall fun op => op.fresh = ∅ := by
  unfold ops_p03
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub03 : (ops_p03 (F := F)).Forall fun op => op.writes ⊆ (run_w03.map (Proc.devRef (τ := τ) .tc)).toFinset := by
  unfold ops_p03
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep03 (W : Valuation τ sig (Elt F)) {r : Ref sig .tc} (hr : r ∉ run_w03) :
    after (ops_p03 (F := F)) W (no_index (Proc.devRef .tc r)) = W (Proc.devRef .tc r) :=
  after_of_writes_sub ops_p03 W run_wsub03 hr

theorem run_sub04 : (ops_p04 (F := F)).Forall fun op => op.bufs ⊆ tcRefs τ sig := by
  unfold ops_p04
  exact ⟨binary_bufs_sub .., nullary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

theorem run_fresh04 : (ops_p04 (F := F)).Forall fun op => op.fresh = ∅ := by
  unfold ops_p04
  exact ⟨rfl, rfl, rfl, rfl, rfl, rfl, rfl, rfl, rfl, rfl, rfl, rfl, rfl, rfl, rfl, rfl, rfl, rfl, rfl, rfl, rfl, rfl, rfl, rfl, rfl⟩

theorem run_wsub04 : (ops_p04 (F := F)).Forall fun op => op.writes ⊆ (run_w04.map (Proc.devRef (τ := τ) .tc)).toFinset := by
  unfold ops_p04
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep04 (W : Valuation τ sig (Elt F)) {r : Ref sig .tc} (hr : r ∉ run_w04) :
    after (ops_p04 (F := F)) W (no_index (Proc.devRef .tc r)) = W (Proc.devRef .tc r) :=
  after_of_writes_sub ops_p04 W run_wsub04 hr

theorem run_sub05 : (ops_p05 (F := F)).Forall fun op => op.bufs ⊆ tcRefs τ sig := by
  unfold ops_p05
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem run_fresh05 : (ops_p05 (F := F)).Forall fun op => op.fresh = ∅ := by
  unfold ops_p05
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub05 : (ops_p05 (F := F)).Forall fun op => op.writes ⊆ (run_w05.map (Proc.devRef (τ := τ) .tc)).toFinset := by
  unfold ops_p05
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep05 (W : Valuation τ sig (Elt F)) {r : Ref sig .tc} (hr : r ∉ run_w05) :
    after (ops_p05 (F := F)) W (no_index (Proc.devRef .tc r)) = W (Proc.devRef .tc r) :=
  after_of_writes_sub ops_p05 W run_wsub05 hr

theorem run_sub06 : (ops_p06 (F := F)).Forall fun op => op.bufs ⊆ tcRefs τ sig := by
  unfold ops_p06
  exact ⟨binary_bufs_sub .., binary_bufs_sub ..⟩

theorem run_fresh06 : (ops_p06 (F := F)).Forall fun op => op.fresh = ∅ := by
  unfold ops_p06
  exact ⟨rfl, rfl⟩

theorem run_wsub06 : (ops_p06 (F := F)).Forall fun op => op.writes ⊆ (run_w06.map (Proc.devRef (τ := τ) .tc)).toFinset := by
  unfold ops_p06
  exact ⟨run_wmem (by decide), run_wmem (by decide)⟩

/-- A buffer the piece does not write keeps its contents across it. -/
theorem run_keep06 (W : Valuation τ sig (Elt F)) {r : Ref sig .tc} (hr : r ∉ run_w06) :
    after (ops_p06 (F := F)) W (no_index (Proc.devRef .tc r)) = W (Proc.devRef .tc r) :=
  after_of_writes_sub ops_p06 W run_wsub06 hr

theorem run_sub07 : (ops_p07 (F := F)).Forall fun op => op.bufs ⊆ tcRefs τ sig := by
  unfold ops_p07
  exact ⟨unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

theorem run_fresh07 : (ops_p07 (F := F)).Forall fun op => op.fresh = ∅ := by
  unfold ops_p07
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub07 : (ops_p07 (F := F)).Forall fun op => op.writes ⊆ (run_w07.map (Proc.devRef (τ := τ) .tc)).toFinset := by
  unfold ops_p07
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep07 (W : Valuation τ sig (Elt F)) {r : Ref sig .tc} (hr : r ∉ run_w07) :
    after (ops_p07 (F := F)) W (no_index (Proc.devRef .tc r)) = W (Proc.devRef .tc r) :=
  after_of_writes_sub ops_p07 W run_wsub07 hr

theorem run_sub08 : (ops_p08 (F := F)).Forall fun op => op.bufs ⊆ tcRefs τ sig := by
  unfold ops_p08
  exact ⟨binary_bufs_sub .., binary_bufs_sub .., unary_bufs_sub .., unary_bufs_sub .., binary_bufs_sub .., binary_bufs_sub .., binary_bufs_sub .., unary_bufs_sub ..⟩

theorem run_fresh08 : (ops_p08 (F := F)).Forall fun op => op.fresh = ∅ := by
  unfold ops_p08
  exact ⟨rfl, rfl, rfl, rfl, rfl, rfl, rfl, rfl⟩

theorem run_wsub08 : (ops_p08 (F := F)).Forall fun op => op.writes ⊆ (run_w08.map (Proc.devRef (τ := τ) .tc)).toFinset := by
  unfold ops_p08
  exact ⟨run_wmem (by decide), run_wmem (by decide), run_wmem (by decide), run_wmem (by decide), run_wmem (by decide), run_wmem (by decide), run_wmem (by decide), run_wmem (by decide)⟩

/-- A buffer the piece does not write keeps its contents across it. -/
theorem run_keep08 (W : Valuation τ sig (Elt F)) {r : Ref sig .tc} (hr : r ∉ run_w08) :
    after (ops_p08 (F := F)) W (no_index (Proc.devRef .tc r)) = W (Proc.devRef .tc r) :=
  after_of_writes_sub ops_p08 W run_wsub08 hr

theorem run_sub09 : (ops_p09 (F := F)).Forall fun op => op.bufs ⊆ tcRefs τ sig := by
  unfold ops_p09
  exact ⟨unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

theorem run_fresh09 : (ops_p09 (F := F)).Forall fun op => op.fresh = ∅ := by
  unfold ops_p09
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub09 : (ops_p09 (F := F)).Forall fun op => op.writes ⊆ (run_w09.map (Proc.devRef (τ := τ) .tc)).toFinset := by
  unfold ops_p09
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep09 (W : Valuation τ sig (Elt F)) {r : Ref sig .tc} (hr : r ∉ run_w09) :
    after (ops_p09 (F := F)) W (no_index (Proc.devRef .tc r)) = W (Proc.devRef .tc r) :=
  after_of_writes_sub ops_p09 W run_wsub09 hr

theorem run_sub10 : (ops_p10 (F := F)).Forall fun op => op.bufs ⊆ tcRefs τ sig := by
  unfold ops_p10
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., reshape_bufs_sub .., unary_bufs_sub ..⟩

theorem run_fresh10 : (ops_p10 (F := F)).Forall fun op => op.fresh = ∅ := by
  unfold ops_p10
  exact ⟨rfl, rfl, rfl, rfl, rfl, rfl, rfl, rfl, rfl, rfl, rfl, rfl, rfl, rfl, rfl, rfl⟩

theorem run_wsub10 : (ops_p10 (F := F)).Forall fun op => op.writes ⊆ (run_w10.map (Proc.devRef (τ := τ) .tc)).toFinset := by
  unfold ops_p10
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep10 (W : Valuation τ sig (Elt F)) {r : Ref sig .tc} (hr : r ∉ run_w10) :
    after (ops_p10 (F := F)) W (no_index (Proc.devRef .tc r)) = W (Proc.devRef .tc r) :=
  after_of_writes_sub ops_p10 W run_wsub10 hr

theorem run_sub11 : (ops_p11 (F := F)).Forall fun op => op.bufs ⊆ tcRefs τ sig := by
  unfold ops_p11
  exact ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem run_fresh11 : (ops_p11 (F := F)).Forall fun op => op.fresh = ∅ := by
  unfold ops_p11
  exact ⟨rfl, rfl, rfl, rfl, rfl, rfl, rfl, rfl, rfl, rfl, rfl, rfl, rfl, rfl, rfl, rfl, rfl, rfl, rfl, rfl, rfl⟩

theorem run_wsub11 : (ops_p11 (F := F)).Forall fun op => op.writes ⊆ (run_w11.map (Proc.devRef (τ := τ) .tc)).toFinset := by
  unfold ops_p11
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep11 (W : Valuation τ sig (Elt F)) {r : Ref sig .tc} (hr : r ∉ run_w11) :
    after (ops_p11 (F := F)) W (no_index (Proc.devRef .tc r)) = W (Proc.devRef .tc r) :=
  after_of_writes_sub ops_p11 W run_wsub11 hr

theorem run_sub12 : (ops_p12 (F := F)).Forall fun op => op.bufs ⊆ tcRefs τ sig := by
  unfold ops_p12
  exact ⟨binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩

theorem run_fresh12 : (ops_p12 (F := F)).Forall fun op => op.fresh = ∅ := by
  unfold ops_p12
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub12 : (ops_p12 (F := F)).Forall fun op => op.writes ⊆ (run_w12.map (Proc.devRef (τ := τ) .tc)).toFinset := by
  unfold ops_p12
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep12 (W : Valuation τ sig (Elt F)) {r : Ref sig .tc} (hr : r ∉ run_w12) :
    after (ops_p12 (F := F)) W (no_index (Proc.devRef .tc r)) = W (Proc.devRef .tc r) :=
  after_of_writes_sub ops_p12 W run_wsub12 hr

theorem run_sub13 : (ops_p13 (F := F)).Forall fun op => op.bufs ⊆ tcRefs τ sig := by
  unfold ops_p13
  exact ⟨binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

theorem run_fresh13 : (ops_p13 (F := F)).Forall fun op => op.fresh = ∅ := by
  unfold ops_p13
  exact ⟨rfl, rfl, rfl, rfl, rfl, rfl, rfl, rfl, rfl, rfl, rfl, rfl, rfl, rfl, rfl, rfl, rfl⟩

theorem run_wsub13 : (ops_p13 (F := F)).Forall fun op => op.writes ⊆ (run_w13.map (Proc.devRef (τ := τ) .tc)).toFinset := by
  unfold ops_p13
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep13 (W : Valuation τ sig (Elt F)) {r : Ref sig .tc} (hr : r ∉ run_w13) :
    after (ops_p13 (F := F)) W (no_index (Proc.devRef .tc r)) = W (Proc.devRef .tc r) :=
  after_of_writes_sub ops_p13 W run_wsub13 hr

theorem run_sub14 : (ops_p14 (F := F)).Forall fun op => op.bufs ⊆ tcRefs τ sig := by
  unfold ops_p14
  exact ⟨binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub ..⟩

theorem run_fresh14 : (ops_p14 (F := F)).Forall fun op => op.fresh = ∅ := by
  unfold ops_p14
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub14 : (ops_p14 (F := F)).Forall fun op => op.writes ⊆ (run_w14.map (Proc.devRef (τ := τ) .tc)).toFinset := by
  unfold ops_p14
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep14 (W : Valuation τ sig (Elt F)) {r : Ref sig .tc} (hr : r ∉ run_w14) :
    after (ops_p14 (F := F)) W (no_index (Proc.devRef .tc r)) = W (Proc.devRef .tc r) :=
  after_of_writes_sub ops_p14 W run_wsub14 hr

theorem run_sub15 : (ops_p15 (F := F)).Forall fun op => op.bufs ⊆ tcRefs τ sig := by
  unfold ops_p15
  exact ⟨unary_bufs_sub .., binary_bufs_sub .., nullary_bufs_sub .., unary_bufs_sub .., binary_bufs_sub .., binary_bufs_sub .., nullary_bufs_sub .., unary_bufs_sub .., binary_bufs_sub .., binary_bufs_sub .., binary_bufs_sub ..⟩

theorem run_fresh15 : (ops_p15 (F := F)).Forall fun op => op.fresh = ∅ := by
  unfold ops_p15
  exact ⟨rfl, rfl, rfl, rfl, rfl, rfl, rfl, rfl, rfl, rfl, rfl⟩

theorem run_wsub15 : (ops_p15 (F := F)).Forall fun op => op.writes ⊆ (run_w15.map (Proc.devRef (τ := τ) .tc)).toFinset := by
  unfold ops_p15
  exact ⟨run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep15 (W : Valuation τ sig (Elt F)) {r : Ref sig .tc} (hr : r ∉ run_w15) :
    after (ops_p15 (F := F)) W (no_index (Proc.devRef .tc r)) = W (Proc.devRef .tc r) :=
  after_of_writes_sub ops_p15 W run_wsub15 hr

theorem run_sub16 : (ops_p16 (F := F)).Forall fun op => op.bufs ⊆ tcRefs τ sig := by
  unfold ops_p16
  exact ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub ..⟩

theorem run_fresh16 : (ops_p16 (F := F)).Forall fun op => op.fresh = ∅ := by
  unfold ops_p16
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_wsub16 : (ops_p16 (F := F)).Forall fun op => op.writes ⊆ (run_w16.map (Proc.devRef (τ := τ) .tc)).toFinset := by
  unfold ops_p16
  exact ⟨run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide), run_wmem (by decide)⟩

/-- A buffer the piece does not write keeps its contents across it. -/
theorem run_keep16 (W : Valuation τ sig (Elt F)) {r : Ref sig .tc} (hr : r ∉ run_w16) :
    after (ops_p16 (F := F)) W (no_index (Proc.devRef .tc r)) = W (Proc.devRef .tc r) :=
  after_of_writes_sub ops_p16 W run_wsub16 hr

theorem run_sub17 : (ops_p17 (F := F)).Forall fun op => op.bufs ⊆ tcRefs τ sig := by
  unfold ops_p17
  exact ⟨reshape_bufs_sub .., binary_bufs_sub .., binary_bufs_sub .., unary_bufs_sub .., reshape_bufs_sub .., unary_bufs_sub .., unary_bufs_sub .., binary_bufs_sub ..⟩

theorem run_fresh17 : (ops_p17 (F := F)).Forall fun op => op.fresh = ∅ := by
  unfold ops_p17
  exact ⟨rfl, rfl, rfl, rfl, rfl, rfl, rfl, rfl⟩

theorem run_wsub17 : (ops_p17 (F := F)).Forall fun op => op.writes ⊆ (run_w17.map (Proc.devRef (τ := τ) .tc)).toFinset := by
  unfold ops_p17
  exact ⟨run_wmem (by decide), run_wmem (by decide), run_wmem (by decide), run_wmem (by decide), run_wmem (by decide), run_wmem (by decide), run_wmem (by decide), run_wmem (by decide)⟩

/-- A buffer the piece does not write keeps its contents across it. -/
theorem run_keep17 (W : Valuation τ sig (Elt F)) {r : Ref sig .tc} (hr : r ∉ run_w17) :
    after (ops_p17 (F := F)) W (no_index (Proc.devRef .tc r)) = W (Proc.devRef .tc r) :=
  after_of_writes_sub ops_p17 W run_wsub17 hr

end Cert.ReferenceIdeal.RefRun

end
-- ==== Proof.R.Line.lean ====
/-
  The reference program as one straight line.

  The program is the straight line of its 520 operations (the nine windows in order, each the line of its pieces);
  every operation touches buffers of the TensorCore only and determines its result; the fold over all operations is
  the fold over the eighteen pieces in turn, and a buffer no piece writes keeps its launch contents.
-/
import proofs.«106044_j70463233458716_2_alg».proof.Proof.R.Parts
import proofs.«106044_j70463233458716_2_alg».proof.Proof.R.Keep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the eighteen pieces. -/
def ops : List (HloOp τ sig (Elt F)) :=
  ops_p00 ++ (ops_p01 ++ (ops_p02 ++ (ops_p03 ++ (ops_p04 ++ (ops_p05 ++ (ops_p06 ++ (ops_p07 ++ (ops_p08 ++ (ops_p09 ++ (ops_p10 ++ (ops_p11 ++ (ops_p12 ++ (ops_p13 ++ (ops_p14 ++ (ops_p15 ++ (ops_p16 ++ (ops_p17)))))))))))))))))

/-- The program is the straight line of its operations. -/
theorem run_main_eq (c : Dev nD) : main (F := F) c = seq ops := by
  simp only [main, ops, run_part0_eq, run_part1_eq, run_part2_eq, run_part3_eq, run_part4_eq, run_part5_eq, run_part6_eq, run_part7_eq, run_part8_eq, seq_append, bind_assoc]

theorem run_scopedRefs_eq : (Finset.univ.filter fun b : Ref sig .tc => b.isScoped) = ∅ := by decide
theorem run_scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨run_sub00, run_sub01, run_sub02, run_sub03, run_sub04, run_sub05, run_sub06, run_sub07, run_sub08, run_sub09, run_sub10, run_sub11, run_sub12, run_sub13, run_sub14, run_sub15, run_sub16, run_sub17⟩

theorem ops_fresh : ∀ op ∈ (ops : List (HloOp τ sig (Elt F))), op.fresh = ∅ :=
  List.forall_iff_forall_mem.mp (by
    simp only [ops, List.forall_append]
    exact ⟨run_fresh00, run_fresh01, run_fresh02, run_fresh03, run_fresh04, run_fresh05, run_fresh06, run_fresh07, run_fresh08, run_fresh09, run_fresh10, run_fresh11, run_fresh12, run_fresh13, run_fresh14, run_fresh15, run_fresh16, run_fresh17⟩)

/-- The fold over all operations is the fold over the pieces, one after the other. -/
theorem run_after_ops (V : Valuation τ sig (Elt F)) :
    after ops V = after ops_p17 (after ops_p16 (after ops_p15 (after ops_p14 (after ops_p13 (after ops_p12 (after ops_p11 (after ops_p10 (after ops_p09 (after ops_p08 (after ops_p07 (after ops_p06 (after ops_p05 (after ops_p04 (after ops_p03 (after ops_p02 (after ops_p01 (after ops_p00 (V)))))))))))))))))) := by
  simp only [ops, run_after_append]

/-- A buffer no piece writes keeps its launch contents. -/
theorem run_unwritten (V : Valuation τ sig (Elt F)) {r : Ref sig .tc}
    (h00 : r ∉ run_w00) (h01 : r ∉ run_w01) (h02 : r ∉ run_w02) (h03 : r ∉ run_w03) (h04 : r ∉ run_w04) (h05 : r ∉ run_w05) (h06 : r ∉ run_w06) (h07 : r ∉ run_w07) (h08 : r ∉ run_w08) (h09 : r ∉ run_w09) (h10 : r ∉ run_w10) (h11 : r ∉ run_w11) (h12 : r ∉ run_w12) (h13 : r ∉ run_w13) (h14 : r ∉ run_w14) (h15 : r ∉ run_w15) (h16 : r ∉ run_w16) (h17 : r ∉ run_w17) :
    after ops V (Proc.devRef .tc r) = V (Proc.devRef .tc r) := by
  rw [run_after_ops, run_keep17 _ h17, run_keep16 _ h16, run_keep15 _ h15, run_keep14 _ h14, run_keep13 _ h13, run_keep12 _ h12, run_keep11 _ h11, run_keep10 _ h10, run_keep09 _ h09, run_keep08 _ h08, run_keep07 _ h07, run_keep06 _ h06, run_keep05 _ h05, run_keep04 _ h04, run_keep03 _ h03, run_keep02 _ h02, run_keep01 _ h01, run_keep00 _ h00]

end Cert.ReferenceIdeal.RefRun

end
-- ==== Proof.R.Stages.lean ====
/-
  The reference program's whole-array terms, named once.

  Every definition below is the literal composition of the operations the program prints for that stage, in the
  program's own operand order and with its own side-condition records: the encoding of a branch, the logistic
  gate, one gated propagation step, the leaky rectifier, the mixing of the three branch results, and the whole
  result as a function of the fifteen argument arrays.  Nothing is proved here; the run of the program is read
  back as these terms, and the mathematics is read off them.
-/
import proofs.«106044_j70463233458716_2_alg».proof.ReferenceIdeal
import proofs.«106044_j70463233458716_2_alg».proof.Proof.Gen.ReferenceIdeal

noncomputable section

namespace Cert.ReferenceIdeal.Stages

open Cert.ReferenceIdeal Cert.ReferenceIdeal.Gen Idealize.ShloMosaic

variable {F : FTy → Type} [FloatOps F]

/-! ## Layout: a row over every node, a mask over every channel, a constant everywhere -/

/-- A row of 96 channels laid over every node of every batch entry: [96] → [1, 1, 96] → [8, 2048, 96]. -/
def biasS (bias : FVec F S96 .f32) : FVec F S8x2048x96 .f32 :=
  broadcastInDim S8x2048x96 ![0, 1, 2] bcast_S1x1x96_S8x2048x96_0_1_2 (broadcastInDim S1x1x96 ![2] bcast_S96_S1x1x96_2 bias)

/-- A mask [8, 2048, 1] laid over the 96 channels. -/
def maskS (mask : FVec F S8x2048x1 .f32) : FVec F S8x2048x96 .f32 :=
  broadcastInDim S8x2048x96 ![0, 1, 2] bcast_S8x2048x1_S8x2048x96_0_1_2 mask

/-- The scalar constant with binary word w, laid over the whole array [8, 2048, 96]. -/
def fillS (w : BitVec 32) : FVec F S8x2048x96 .f32 :=
  broadcastInDim S8x2048x96 ![] bcast_S_S8x2048x96 (constant S_ .f32 w)

/-! ## Products -/

/-- Activations [8, 2048, 96] times a matrix [96, 96]. -/
def dotS (a : FVec F S8x2048x96 .f32) (W : FVec F S96x96 .f32) : FVec F S8x2048x96 .f32 :=
  Host.dotGeneral dot_S8x2048x96_S96x96_S8x2048x96_2_0_01_1_n_n none a W

/-- The adjacency [8, 2048, 2048] times the activations [8, 2048, 96], batch entry by batch entry. -/
def aggS (adj : FVec F S8x2048x2048 .f32) (h : FVec F S8x2048x96 .f32) : FVec F S8x2048x96 .f32 :=
  Host.dotGeneral dot_S8x2048x2048_S8x2048x96_S8x2048x96_2_1_1_2_0_0 none adj h

/-! ## The stages -/

/-- The positive part: the maximum with the constant 0. -/
def reluS (v : FVec F S8x2048x96 .f32) : FVec F S8x2048x96 .f32 :=
  maximumf v (fillS 0x00000000#32)

/-- The encoding of a branch: mask · max(x · W + bias, 0). -/
def encS (x : FVec F S8x2048x300 .f32) (W : FVec F S300x96 .f32) (bias : FVec F S96 .f32) (mask : FVec F S8x2048x1 .f32) :
    FVec F S8x2048x96 .f32 :=
  mulf (maskS mask) (reluS (addf (Host.dotGeneral dot_S8x2048x300_S300x96_S8x2048x96_2_0_01_1_n_n none x W) (biasS bias)))

/-- The logistic function 1 / (1 + e^(−t)), each 1 the constant 1.0 laid over the array. -/
def sigS (t : FVec F S8x2048x96 .f32) : FVec F S8x2048x96 .f32 :=
  Host.divf (fillS 0x3F800000#32) (addf (fillS 0x3F800000#32) (Host.exp (Host.negf t)))

/-- A gate σ(((a · W0 + b0) + h · W1) + b1). -/
def gateS (W0 W1 : FVec F S96x96 .f32) (b0 b1 : FVec F S96 .f32) (a h : FVec F S8x2048x96 .f32) : FVec F S8x2048x96 .f32 :=
  sigS (addf (addf (addf (dotS a W0) (biasS b0)) (dotS h W1)) (biasS b1))

/-- The candidate state max(mask · (((a · W4 + b4) + (r ∘ h) · W5) + b5), 0). -/
def candS (mask : FVec F S8x2048x1 .f32) (W4 W5 : FVec F S96x96 .f32) (b4 b5 : FVec F S96 .f32)
    (a r h : FVec F S8x2048x96 .f32) : FVec F S8x2048x96 .f32 :=
  reluS (mulf (maskS mask) (addf (addf (addf (dotS a W4) (biasS b4)) (dotS (mulf r h) W5)) (biasS b5)))

/-- The new state h̃ ∘ z + h ∘ (1 − z). -/
def mixS (hh z h : FVec F S8x2048x96 .f32) : FVec F S8x2048x96 .f32 :=
  addf (mulf hh z) (mulf h (subf (fillS 0x3F800000#32) z))

/-- One gated propagation step from the state h, with a = adj · h. -/
def stepS (adj : FVec F S8x2048x2048 .f32) (mask : FVec F S8x2048x1 .f32) (W0 W1 W2 W3 W4 W5 : FVec F S96x96 .f32)
    (b0 b1 b2 b3 b4 b5 : FVec F S96 .f32) (h : FVec F S8x2048x96 .f32) : FVec F S8x2048x96 .f32 :=
  mixS (candS mask W4 W5 b4 b5 (aggS adj h) (gateS W2 W3 b2 b3 (aggS adj h) h) h) (gateS W0 W1 b0 b1 (aggS adj h) h) h

/-- v where v ≥ 0 and 0.2 · v elsewhere: the comparison with the constant 0, the slope 0.2 converted to its own
    format (the identity) and laid over the array, the product, the selection. -/
def lreluS (v : FVec F S8x2048x96 .f32) : FVec F S8x2048x96 .f32 :=
  select (cmpf .oge v (fillS 0x00000000#32)) v
    (mulf (broadcastInDim S8x2048x96 ![] bcast_S_S8x2048x96 (id (constant S_ .f32 0x3E4CCCCD#32))) v)

/-- t = s · W + bias. -/
def interS (s : FVec F S8x2048x96 .f32) (W : FVec F S96x96 .f32) (bias : FVec F S96 .f32) : FVec F S8x2048x96 .f32 :=
  addf (dotS s W) (biasS bias)

/-- The mixing of the three branch results s0, s1, s2. -/
def fuseS (s0 s1 s2 : FVec F S8x2048x96 .f32) (Wii0 Wii1 Wii2 : FVec F S96x96 .f32) (bii0 bii1 bii2 : FVec F S96 .f32)
    (Wa0 Wa1 Wa2 : FVec F S96x96 .f32) (ba0 ba1 ba2 : FVec F S96 .f32) : FVec F S8x2048x96 .f32 :=
  addf (addf (addf (addf (addf
    (dotS (lreluS (addf (interS s0 Wii0 bii0) (interS s1 Wii1 bii1))) Wa0) (biasS ba0))
    (dotS (lreluS (addf (interS s1 Wii1 bii1) (interS s2 Wii2 bii2))) Wa1)) (biasS ba1))
    (dotS (lreluS (addf (interS s2 Wii2 bii2) (interS s0 Wii0 bii0))) Wa2)) (biasS ba2)

/-! ## The weights of one branch out of the stacked arrays: a slice of extent 1, then the reshape dropping it -/

/-- Matrix i of [3, 300, 96]. -/
def encWS (We : FVec F S3x300x96 .f32) (i : Nat) (h : S3x300x96.Slices ![i, 0, 0] S1x300x96) : FVec F S300x96 .f32 :=
  shapeCast S300x96 (extractStridedSlice S1x300x96 ![i, 0, 0] We h) shapeCasts_S1x300x96_S300x96

/-- Row i of [3, 96]. -/
def rowS (b : FVec F S3x96 .f32) (i : Nat) (h : S3x96.Slices ![i, 0] S1x96) : FVec F S96 .f32 :=
  shapeCast S96 (extractStridedSlice S1x96 ![i, 0] b h) shapeCasts_S1x96_S96

/-- Matrix (i, p) of [3, 6, 96, 96]. -/
def gruWS (Wg : FVec F S3x6x96x96 .f32) (i p : Nat) (h : S3x6x96x96.Slices ![i, p, 0, 0] S1x1x96x96) : FVec F S96x96 .f32 :=
  shapeCast S96x96 (extractStridedSlice S1x1x96x96 ![i, p, 0, 0] Wg h) shapeCasts_S1x1x96x96_S96x96

/-- Row (i, p) of [3, 6, 96]. -/
def gruBS (bg : FVec F S3x6x96 .f32) (i p : Nat) (h : S3x6x96.Slices ![i, p, 0] S1x1x96) : FVec F S96 .f32 :=
  shapeCast S96 (extractStridedSlice S1x1x96 ![i, p, 0] bg h) shapeCasts_S1x1x96_S96

/-- Matrix i of [3, 96, 96]. -/
def matS (W : FVec F S3x96x96 .f32) (i : Nat) (h : S3x96x96.Slices ![i, 0, 0] S1x96x96) : FVec F S96x96 .f32 :=
  shapeCast S96x96 (extractStridedSlice S1x96x96 ![i, 0, 0] W h) shapeCasts_S1x96x96_S96x96

/-! ## The whole function -/

/-- Two steps from the state h. -/
def gru2S (adj : FVec F S8x2048x2048 .f32) (mask : FVec F S8x2048x1 .f32) (W0 W1 W2 W3 W4 W5 : FVec F S96x96 .f32)
    (b0 b1 b2 b3 b4 b5 : FVec F S96 .f32) (h : FVec F S8x2048x96 .f32) : FVec F S8x2048x96 .f32 :=
  stepS adj mask W0 W1 W2 W3 W4 W5 b0 b1 b2 b3 b4 b5 (stepS adj mask W0 W1 W2 W3 W4 W5 b0 b1 b2 b3 b4 b5 h)

/-- The result array of the fifteen argument arrays, in the program's argument order. -/
def res (x : FVec F S8x2048x300 .f32) (adj0 adj1 adj2 : FVec F S8x2048x2048 .f32) (m0 m1 m2 : FVec F S8x2048x1 .f32)
    (We : FVec F S3x300x96 .f32) (be : FVec F S3x96 .f32) (Wii : FVec F S3x96x96 .f32) (bii : FVec F S3x96 .f32)
    (Wg : FVec F S3x6x96x96 .f32) (bg : FVec F S3x6x96 .f32) (Wa : FVec F S3x96x96 .f32) (ba : FVec F S3x96 .f32) :
    FVec F S8x2048x96 .f32 :=
  fuseS
    (gru2S adj0 m0
      (gruWS Wg 0 0 slices_S3x6x96x96_S1x1x96x96_0_0_0_0) (gruWS Wg 0 1 slices_S3x6x96x96_S1x1x96x96_0_1_0_0)
      (gruWS Wg 0 2 slices_S3x6x96x96_S1x1x96x96_0_2_0_0) (gruWS Wg 0 3 slices_S3x6x96x96_S1x1x96x96_0_3_0_0)
      (gruWS Wg 0 4 slices_S3x6x96x96_S1x1x96x96_0_4_0_0) (gruWS Wg 0 5 slices_S3x6x96x96_S1x1x96x96_0_5_0_0)
      (gruBS bg 0 0 slices_S3x6x96_S1x1x96_0_0_0) (gruBS bg 0 1 slices_S3x6x96_S1x1x96_0_1_0)
      (gruBS bg 0 2 slices_S3x6x96_S1x1x96_0_2_0) (gruBS bg 0 3 slices_S3x6x96_S1x1x96_0_3_0)
      (gruBS bg 0 4 slices_S3x6x96_S1x1x96_0_4_0) (gruBS bg 0 5 slices_S3x6x96_S1x1x96_0_5_0)
      (encS x (encWS We 0 slices_S3x300x96_S1x300x96_0_0_0) (rowS be 0 slices_S3x96_S1x96_0_0) m0))
    (gru2S adj1 m1
      (gruWS Wg 1 0 slices_S3x6x96x96_S1x1x96x96_1_0_0_0) (gruWS Wg 1 1 slices_S3x6x96x96_S1x1x96x96_1_1_0_0)
      (gruWS Wg 1 2 slices_S3x6x96x96_S1x1x96x96_1_2_0_0) (gruWS Wg 1 3 slices_S3x6x96x96_S1x1x96x96_1_3_0_0)
      (gruWS Wg 1 4 slices_S3x6x96x96_S1x1x96x96_1_4_0_0) (gruWS Wg 1 5 slices_S3x6x96x96_S1x1x96x96_1_5_0_0)
      (gruBS bg 1 0 slices_S3x6x96_S1x1x96_1_0_0) (gruBS bg 1 1 slices_S3x6x96_S1x1x96_1_1_0)
      (gruBS bg 1 2 slices_S3x6x96_S1x1x96_1_2_0) (gruBS bg 1 3 slices_S3x6x96_S1x1x96_1_3_0)
      (gruBS bg 1 4 slices_S3x6x96_S1x1x96_1_4_0) (gruBS bg 1 5 slices_S3x6x96_S1x1x96_1_5_0)
      (encS x (encWS We 1 slices_S3x300x96_S1x300x96_1_0_0) (rowS be 1 slices_S3x96_S1x96_1_0) m1))
    (gru2S adj2 m2
      (gruWS Wg 2 0 slices_S3x6x96x96_S1x1x96x96_2_0_0_0) (gruWS Wg 2 1 slices_S3x6x96x96_S1x1x96x96_2_1_0_0)
      (gruWS Wg 2 2 slices_S3x6x96x96_S1x1x96x96_2_2_0_0) (gruWS Wg 2 3 slices_S3x6x96x96_S1x1x96x96_2_3_0_0)
      (gruWS Wg 2 4 slices_S3x6x96x96_S1x1x96x96_2_4_0_0) (gruWS Wg 2 5 slices_S3x6x96x96_S1x1x96x96_2_5_0_0)
      (gruBS bg 2 0 slices_S3x6x96_S1x1x96_2_0_0) (gruBS bg 2 1 slices_S3x6x96_S1x1x96_2_1_0)
      (gruBS bg 2 2 slices_S3x6x96_S1x1x96_2_2_0) (gruBS bg 2 3 slices_S3x6x96_S1x1x96_2_3_0)
      (gruBS bg 2 4 slices_S3x6x96_S1x1x96_2_4_0) (gruBS bg 2 5 slices_S3x6x96_S1x1x96_2_5_0)
      (encS x (encWS We 2 slices_S3x300x96_S1x300x96_2_0_0) (rowS be 2 slices_S3x96_S1x96_2_0) m2))
    (matS Wii 0 slices_S3x96x96_S1x96x96_0_0_0) (matS Wii 1 slices_S3x96x96_S1x96x96_1_0_0) (matS Wii 2 slices_S3x96x96_S1x96x96_2_0_0)
    (rowS bii 0 slices_S3x96_S1x96_0_0) (rowS bii 1 slices_S3x96_S1x96_1_0) (rowS bii 2 slices_S3x96_S1x96_2_0)
    (matS Wa 0 slices_S3x96x96_S1x96x96_0_0_0) (matS Wa 1 slices_S3x96x96_S1x96x96_1_0_0) (matS Wa 2 slices_S3x96x96_S1x96x96_2_0_0)
    (rowS ba 0 slices_S3x96_S1x96_0_0) (rowS ba 1 slices_S3x96_S1x96_1_0) (rowS ba 2 slices_S3x96_S1x96_2_0)

end Cert.ReferenceIdeal.Stages

end
-- ==== Proof.R.S0.lean ====
/-
  Branch 0, encoding and weights: after these operations the state buffer holds the encoding of the features and the
  twelve weight buffers hold the branch's six matrices and six rows, as functions of the argument buffers.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The encoded state of branch 0. -/
theorem run_enc0 (W : Valuation τ sig (Elt F)) :
    after ops_p00 W (Proc.devRef .tc main_v10)
      = Stages.encS (W (Proc.devRef .tc main_arg0)) (Stages.encWS (W (Proc.devRef .tc main_arg7)) 0 slices_S3x300x96_S1x300x96_0_0_0) (Stages.rowS (W (Proc.devRef .tc main_arg8)) 0 slices_S3x96_S1x96_0_0) (W (Proc.devRef .tc main_arg4)) := by
  simp only [ops_p00]
  after_results_simp <;> rfl

set_option maxHeartbeats 4000000 in
/-- Matrix 0 of branch 0. -/
theorem run_W0_0 (W : Valuation τ sig (Elt F)) :
    after ops_p00 W (Proc.devRef .tc main_v12)
      = Stages.gruWS (W (Proc.devRef .tc main_arg11)) 0 0 slices_S3x6x96x96_S1x1x96x96_0_0_0_0 := by
  simp only [ops_p00]
  after_results_simp <;> rfl

set_option maxHeartbeats 4000000 in
/-- Matrix 1 of branch 0. -/
theorem run_W0_1 (W : Valuation τ sig (Elt F)) :
    after ops_p00 W (Proc.devRef .tc main_v14)
      = Stages.gruWS (W (Proc.devRef .tc main_arg11)) 0 1 slices_S3x6x96x96_S1x1x96x96_0_1_0_0 := by
  simp only [ops_p00]
  after_results_simp <;> rfl

set_option maxHeartbeats 4000000 in
/-- Matrix 2 of branch 0. -/
theorem run_W0_2 (W : Valuation τ sig (Elt F)) :
    after ops_p00 W (Proc.devRef .tc main_v16)
      = Stages.gruWS (W (Proc.devRef .tc main_arg11)) 0 2 slices_S3x6x96x96_S1x1x96x96_0_2_0_0 := by
  simp only [ops_p00]
  after_results_simp <;> rfl

set_option maxHeartbeats 4000000 in
/-- Matrix 3 of branch 0. -/
theorem run_W0_3 (W : Valuation τ sig (Elt F)) :
    after ops_p00 W (Proc.devRef .tc main_v18)
      = Stages.gruWS (W (Proc.devRef .tc main_arg11)) 0 3 slices_S3x6x96x96_S1x1x96x96_0_3_0_0 := by
  simp only [ops_p00]
  after_results_simp <;> rfl

set_option maxHeartbeats 4000000 in
/-- Matrix 4 of branch 0. -/
theorem run_W0_4 (W : Valuation τ sig (Elt F)) :
    after ops_p00 W (Proc.devRef .tc main_v20)
      = Stages.gruWS (W (Proc.devRef .tc main_arg11)) 0 4 slices_S3x6x96x96_S1x1x96x96_0_4_0_0 := by
  simp only [ops_p00]
  after_results_simp <;> rfl

set_option maxHeartbeats 4000000 in
/-- Matrix 5 of branch 0. -/
theorem run_W0_5 (W : Valuation τ sig (Elt F)) :
    after ops_p00 W (Proc.devRef .tc main_v22)
      = Stages.gruWS (W (Proc.devRef .tc main_arg11)) 0 5 slices_S3x6x96x96_S1x1x96x96_0_5_0_0 := by
  simp only [ops_p00]
  after_results_simp <;> rfl

set_option maxHeartbeats 4000000 in
/-- Row 0 of branch 0. -/
theorem run_b0_0 (W : Valuation τ sig (Elt F)) :
    after ops_p00 W (Proc.devRef .tc main_v24)
      = Stages.gruBS (W (Proc.devRef .tc main_arg12)) 0 0 slices_S3x6x96_S1x1x96_0_0_0 := by
  simp only [ops_p00]
  after_results_simp <;> rfl

set_option maxHeartbeats 4000000 in
/-- Row 1 of branch 0. -/
theorem run_b0_1 (W : Valuation τ sig (Elt F)) :
    after ops_p00 W (Proc.devRef .tc main_v26)
      = Stages.gruBS (W (Proc.devRef .tc main_arg12)) 0 1 slices_S3x6x96_S1x1x96_0_1_0 := by
  simp only [ops_p00]
  after_results_simp <;> rfl

set_option maxHeartbeats 4000000 in
/-- Row 2 of branch 0. -/
theorem run_b0_2 (W : Valuation τ sig (Elt F)) :
    after ops_p00 W (Proc.devRef .tc main_v28)
      = Stages.gruBS (W (Proc.devRef .tc main_arg12)) 0 2 slices_S3x6x96_S1x1x96_0_2_0 := by
  simp only [ops_p00]
  after_results_simp <;> rfl

set_option maxHeartbeats 4000000 in
/-- Row 3 of branch 0. -/
theorem run_b0_3 (W : Valuation τ sig (Elt F)) :
    after ops_p00 W (Proc.devRef .tc main_v30)
      = Stages.gruBS (W (Proc.devRef .tc main_arg12)) 0 3 slices_S3x6x96_S1x1x96_0_3_0 := by
  simp only [ops_p00]
  after_results_simp <;> rfl

set_option maxHeartbeats 4000000 in
/-- Row 4 of branch 0. -/
theorem run_b0_4 (W : Valuation τ sig (Elt F)) :
    after ops_p00 W (Proc.devRef .tc main_v32)
      = Stages.gruBS (W (Proc.devRef .tc main_arg12)) 0 4 slices_S3x6x96_S1x1x96_0_4_0 := by
  simp only [ops_p00]
  after_results_simp <;> rfl

set_option maxHeartbeats 4000000 in
/-- Row 5 of branch 0. -/
theorem run_b0_5 (W : Valuation τ sig (Elt F)) :
    after ops_p00 W (Proc.devRef .tc main_v34)
      = Stages.gruBS (W (Proc.devRef .tc main_arg12)) 0 5 slices_S3x6x96_S1x1x96_0_5_0 := by
  simp only [ops_p00]
  after_results_simp <;> rfl

end Cert.ReferenceIdeal.RefRun

end
-- ==== Proof.R.S1.lean ====
/-
  Branch 0, first step: the new state as one gated propagation step of the old state, the adjacency, the mask and
  the branch's weights.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The state after the first step of branch 0. -/
theorem run_step1 (W : Valuation τ sig (Elt F)) :
    after ops_p02 (after ops_p01 W) (Proc.devRef .tc main_v83)
      = Stages.stepS (W (Proc.devRef .tc main_arg1)) (W (Proc.devRef .tc main_arg4)) (W (Proc.devRef .tc main_v12)) (W (Proc.devRef .tc main_v14)) (W (Proc.devRef .tc main_v16)) (W (Proc.devRef .tc main_v18)) (W (Proc.devRef .tc main_v20)) (W (Proc.devRef .tc main_v22)) (W (Proc.devRef .tc main_v24)) (W (Proc.devRef .tc main_v26)) (W (Proc.devRef .tc main_v28)) (W (Proc.devRef .tc main_v30)) (W (Proc.devRef .tc main_v32)) (W (Proc.devRef .tc main_v34)) (W (Proc.devRef .tc main_v10)) := by
  simp only [ops_p01, ops_p02]
  after_results_simp <;> rfl

end Cert.ReferenceIdeal.RefRun

end
-- ==== Proof.R.S2.lean ====
/-
  Branch 0, second step: the new state as one gated propagation step of the old state, the adjacency, the mask and
  the branch's weights.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The state after the second step of branch 0. -/
theorem run_step2 (W : Valuation τ sig (Elt F)) :
    after ops_p04 (after ops_p03 W) (Proc.devRef .tc main_v132)
      = Stages.stepS (W (Proc.devRef .tc main_arg1)) (W (Proc.devRef .tc main_arg4)) (W (Proc.devRef .tc main_v12)) (W (Proc.devRef .tc main_v14)) (W (Proc.devRef .tc main_v16)) (W (Proc.devRef .tc main_v18)) (W (Proc.devRef .tc main_v20)) (W (Proc.devRef .tc main_v22)) (W (Proc.devRef .tc main_v24)) (W (Proc.devRef .tc main_v26)) (W (Proc.devRef .tc main_v28)) (W (Proc.devRef .tc main_v30)) (W (Proc.devRef .tc main_v32)) (W (Proc.devRef .tc main_v34)) (W (Proc.devRef .tc main_v83)) := by
  simp only [ops_p03, ops_p04]
  after_results_simp <;> rfl

end Cert.ReferenceIdeal.RefRun

end
-- ==== Proof.R.S3.lean ====
/-
  Branch 1, encoding and weights: after these operations the state buffer holds the encoding of the features and the
  twelve weight buffers hold the branch's six matrices and six rows, as functions of the argument buffers.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The encoded state of branch 1. -/
theorem run_enc1 (W : Valuation τ sig (Elt F)) :
    after ops_p05 W (Proc.devRef .tc main_v143)
      = Stages.encS (W (Proc.devRef .tc main_arg0)) (Stages.encWS (W (Proc.devRef .tc main_arg7)) 1 slices_S3x300x96_S1x300x96_1_0_0) (Stages.rowS (W (Proc.devRef .tc main_arg8)) 1 slices_S3x96_S1x96_1_0) (W (Proc.devRef .tc main_arg5)) := by
  simp only [ops_p05]
  after_results_simp <;> rfl

set_option maxHeartbeats 4000000 in
/-- Matrix 0 of branch 1. -/
theorem run_W1_0 (W : Valuation τ sig (Elt F)) :
    after ops_p05 W (Proc.devRef .tc main_v145)
      = Stages.gruWS (W (Proc.devRef .tc main_arg11)) 1 0 slices_S3x6x96x96_S1x1x96x96_1_0_0_0 := by
  simp only [ops_p05]
  after_results_simp <;> rfl

set_option maxHeartbeats 4000000 in
/-- Matrix 1 of branch 1. -/
theorem run_W1_1 (W : Valuation τ sig (Elt F)) :
    after ops_p05 W (Proc.devRef .tc main_v147)
      = Stages.gruWS (W (Proc.devRef .tc main_arg11)) 1 1 slices_S3x6x96x96_S1x1x96x96_1_1_0_0 := by
  simp only [ops_p05]
  after_results_simp <;> rfl

set_option maxHeartbeats 4000000 in
/-- Matrix 2 of branch 1. -/
theorem run_W1_2 (W : Valuation τ sig (Elt F)) :
    after ops_p05 W (Proc.devRef .tc main_v149)
      = Stages.gruWS (W (Proc.devRef .tc main_arg11)) 1 2 slices_S3x6x96x96_S1x1x96x96_1_2_0_0 := by
  simp only [ops_p05]
  after_results_simp <;> rfl

set_option maxHeartbeats 4000000 in
/-- Matrix 3 of branch 1. -/
theorem run_W1_3 (W : Valuation τ sig (Elt F)) :
    after ops_p05 W (Proc.devRef .tc main_v151)
      = Stages.gruWS (W (Proc.devRef .tc main_arg11)) 1 3 slices_S3x6x96x96_S1x1x96x96_1_3_0_0 := by
  simp only [ops_p05]
  after_results_simp <;> rfl

set_option maxHeartbeats 4000000 in
/-- Matrix 4 of branch 1. -/
theorem run_W1_4 (W : Valuation τ sig (Elt F)) :
    after ops_p05 W (Proc.devRef .tc main_v153)
      = Stages.gruWS (W (Proc.devRef .tc main_arg11)) 1 4 slices_S3x6x96x96_S1x1x96x96_1_4_0_0 := by
  simp only [ops_p05]
  after_results_simp <;> rfl

set_option maxHeartbeats 4000000 in
/-- Matrix 5 of branch 1. -/
theorem run_W1_5 (W : Valuation τ sig (Elt F)) :
    after ops_p05 W (Proc.devRef .tc main_v155)
      = Stages.gruWS (W (Proc.devRef .tc main_arg11)) 1 5 slices_S3x6x96x96_S1x1x96x96_1_5_0_0 := by
  simp only [ops_p05]
  after_results_simp <;> rfl

set_option maxHeartbeats 4000000 in
/-- Row 0 of branch 1. -/
theorem run_b1_0 (W : Valuation τ sig (Elt F)) :
    after ops_p05 W (Proc.devRef .tc main_v157)
      = Stages.gruBS (W (Proc.devRef .tc main_arg12)) 1 0 slices_S3x6x96_S1x1x96_1_0_0 := by
  simp only [ops_p05]
  after_results_simp <;> rfl

set_option maxHeartbeats 4000000 in
/-- Row 1 of branch 1. -/
theorem run_b1_1 (W : Valuation τ sig (Elt F)) :
    after ops_p05 W (Proc.devRef .tc main_v159)
      = Stages.gruBS (W (Proc.devRef .tc main_arg12)) 1 1 slices_S3x6x96_S1x1x96_1_1_0 := by
  simp only [ops_p05]
  after_results_simp <;> rfl

set_option maxHeartbeats 4000000 in
/-- Row 2 of branch 1. -/
theorem run_b1_2 (W : Valuation τ sig (Elt F)) :
    after ops_p05 W (Proc.devRef .tc main_v161)
      = Stages.gruBS (W (Proc.devRef .tc main_arg12)) 1 2 slices_S3x6x96_S1x1x96_1_2_0 := by
  simp only [ops_p05]
  after_results_simp <;> rfl

set_option maxHeartbeats 4000000 in
/-- Row 3 of branch 1. -/
theorem run_b1_3 (W : Valuation τ sig (Elt F)) :
    after ops_p05 W (Proc.devRef .tc main_v163)
      = Stages.gruBS (W (Proc.devRef .tc main_arg12)) 1 3 slices_S3x6x96_S1x1x96_1_3_0 := by
  simp only [ops_p05]
  after_results_simp <;> rfl

set_option maxHeartbeats 4000000 in
/-- Row 4 of branch 1. -/
theorem run_b1_4 (W : Valuation τ sig (Elt F)) :
    after ops_p05 W (Proc.devRef .tc main_v165)
      = Stages.gruBS (W (Proc.devRef .tc main_arg12)) 1 4 slices_S3x6x96_S1x1x96_1_4_0 := by
  simp only [ops_p05]
  after_results_simp <;> rfl

set_option maxHeartbeats 4000000 in
/-- Row 5 of branch 1. -/
theorem run_b1_5 (W : Valuation τ sig (Elt F)) :
    after ops_p05 W (Proc.devRef .tc main_v167)
      = Stages.gruBS (W (Proc.devRef .tc main_arg12)) 1 5 slices_S3x6x96_S1x1x96_1_5_0 := by
  simp only [ops_p05]
  after_results_simp <;> rfl

end Cert.ReferenceIdeal.RefRun

end
-- ==== Proof.R.S4.lean ====
/-
  Branch 1, first step: the new state as one gated propagation step of the old state, the adjacency, the mask and
  the branch's weights.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The state after the first step of branch 1. -/
theorem run_step4 (W : Valuation τ sig (Elt F)) :
    after ops_p07 (after ops_p06 W) (Proc.devRef .tc main_v216)
      = Stages.stepS (W (Proc.devRef .tc main_arg2)) (W (Proc.devRef .tc main_arg5)) (W (Proc.devRef .tc main_v145)) (W (Proc.devRef .tc main_v147)) (W (Proc.devRef .tc main_v149)) (W (Proc.devRef .tc main_v151)) (W (Proc.devRef .tc main_v153)) (W (Proc.devRef .tc main_v155)) (W (Proc.devRef .tc main_v157)) (W (Proc.devRef .tc main_v159)) (W (Proc.devRef .tc main_v161)) (W (Proc.devRef .tc main_v163)) (W (Proc.devRef .tc main_v165)) (W (Proc.devRef .tc main_v167)) (W (Proc.devRef .tc main_v143)) := by
  simp only [ops_p06, ops_p07]
  after_results_simp <;> rfl

end Cert.ReferenceIdeal.RefRun

end
-- ==== Proof.R.S5.lean ====
/-
  Branch 1, second step: the new state as one gated propagation step of the old state, the adjacency, the mask and
  the branch's weights.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The state after the second step of branch 1. -/
theorem run_step5 (W : Valuation τ sig (Elt F)) :
    after ops_p09 (after ops_p08 W) (Proc.devRef .tc main_v265)
      = Stages.stepS (W (Proc.devRef .tc main_arg2)) (W (Proc.devRef .tc main_arg5)) (W (Proc.devRef .tc main_v145)) (W (Proc.devRef .tc main_v147)) (W (Proc.devRef .tc main_v149)) (W (Proc.devRef .tc main_v151)) (W (Proc.devRef .tc main_v153)) (W (Proc.devRef .tc main_v155)) (W (Proc.devRef .tc main_v157)) (W (Proc.devRef .tc main_v159)) (W (Proc.devRef .tc main_v161)) (W (Proc.devRef .tc main_v163)) (W (Proc.devRef .tc main_v165)) (W (Proc.devRef .tc main_v167)) (W (Proc.devRef .tc main_v216)) := by
  simp only [ops_p08, ops_p09]
  after_results_simp <;> rfl

end Cert.ReferenceIdeal.RefRun

end
-- ==== Proof.R.S6.lean ====
/-
  Branch 2, encoding and weights: after these operations the state buffer holds the encoding of the features and the
  twelve weight buffers hold the branch's six matrices and six rows, as functions of the argument buffers.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The encoded state of branch 2. -/
theorem run_enc2 (W : Valuation τ sig (Elt F)) :
    after ops_p10 W (Proc.devRef .tc main_v276)
      = Stages.encS (W (Proc.devRef .tc main_arg0)) (Stages.encWS (W (Proc.devRef .tc main_arg7)) 2 slices_S3x300x96_S1x300x96_2_0_0) (Stages.rowS (W (Proc.devRef .tc main_arg8)) 2 slices_S3x96_S1x96_2_0) (W (Proc.devRef .tc main_arg6)) := by
  simp only [ops_p10]
  after_results_simp <;> rfl

set_option maxHeartbeats 4000000 in
/-- Matrix 0 of branch 2. -/
theorem run_W2_0 (W : Valuation τ sig (Elt F)) :
    after ops_p10 W (Proc.devRef .tc main_v278)
      = Stages.gruWS (W (Proc.devRef .tc main_arg11)) 2 0 slices_S3x6x96x96_S1x1x96x96_2_0_0_0 := by
  simp only [ops_p10]
  after_results_simp <;> rfl

set_option maxHeartbeats 4000000 in
/-- Matrix 1 of branch 2. -/
theorem run_W2_1 (W : Valuation τ sig (Elt F)) :
    after ops_p11 (after ops_p10 W) (Proc.devRef .tc main_v280)
      = Stages.gruWS (W (Proc.devRef .tc main_arg11)) 2 1 slices_S3x6x96x96_S1x1x96x96_2_1_0_0 := by
  simp only [ops_p10, ops_p11]
  after_results_simp <;> rfl

set_option maxHeartbeats 4000000 in
/-- Matrix 2 of branch 2. -/
theorem run_W2_2 (W : Valuation τ sig (Elt F)) :
    after ops_p11 (after ops_p10 W) (Proc.devRef .tc main_v282)
      = Stages.gruWS (W (Proc.devRef .tc main_arg11)) 2 2 slices_S3x6x96x96_S1x1x96x96_2_2_0_0 := by
  simp only [ops_p10, ops_p11]
  after_results_simp <;> rfl

set_option maxHeartbeats 4000000 in
/-- Matrix 3 of branch 2. -/
theorem run_W2_3 (W : Valuation τ sig (Elt F)) :
    after ops_p11 (after ops_p10 W) (Proc.devRef .tc main_v284)
      = Stages.gruWS (W (Proc.devRef .tc main_arg11)) 2 3 slices_S3x6x96x96_S1x1x96x96_2_3_0_0 := by
  simp only [ops_p10, ops_p11]
  after_results_simp <;> rfl

set_option maxHeartbeats 4000000 in
/-- Matrix 4 of branch 2. -/
theorem run_W2_4 (W : Valuation τ sig (Elt F)) :
    after ops_p11 (after ops_p10 W) (Proc.devRef .tc main_v286)
      = Stages.gruWS (W (Proc.devRef .tc main_arg11)) 2 4 slices_S3x6x96x96_S1x1x96x96_2_4_0_0 := by
  simp only [ops_p10, ops_p11]
  after_results_simp <;> rfl

set_option maxHeartbeats 4000000 in
/-- Matrix 5 of branch 2. -/
theorem run_W2_5 (W : Valuation τ sig (Elt F)) :
    after ops_p11 (after ops_p10 W) (Proc.devRef .tc main_v288)
      = Stages.gruWS (W (Proc.devRef .tc main_arg11)) 2 5 slices_S3x6x96x96_S1x1x96x96_2_5_0_0 := by
  simp only [ops_p10, ops_p11]
  after_results_simp <;> rfl

set_option maxHeartbeats 4000000 in
/-- Row 0 of branch 2. -/
theorem run_b2_0 (W : Valuation τ sig (Elt F)) :
    after ops_p11 (after ops_p10 W) (Proc.devRef .tc main_v290)
      = Stages.gruBS (W (Proc.devRef .tc main_arg12)) 2 0 slices_S3x6x96_S1x1x96_2_0_0 := by
  simp only [ops_p10, ops_p11]
  after_results_simp <;> rfl

set_option maxHeartbeats 4000000 in
/-- Row 1 of branch 2. -/
theorem run_b2_1 (W : Valuation τ sig (Elt F)) :
    after ops_p11 (after ops_p10 W) (Proc.devRef .tc main_v292)
      = Stages.gruBS (W (Proc.devRef .tc main_arg12)) 2 1 slices_S3x6x96_S1x1x96_2_1_0 := by
  simp only [ops_p10, ops_p11]
  after_results_simp <;> rfl

set_option maxHeartbeats 4000000 in
/-- Row 2 of branch 2. -/
theorem run_b2_2 (W : Valuation τ sig (Elt F)) :
    after ops_p11 (after ops_p10 W) (Proc.devRef .tc main_v294)
      = Stages.gruBS (W (Proc.devRef .tc main_arg12)) 2 2 slices_S3x6x96_S1x1x96_2_2_0 := by
  simp only [ops_p10, ops_p11]
  after_results_simp <;> rfl

set_option maxHeartbeats 4000000 in
/-- Row 3 of branch 2. -/
theorem run_b2_3 (W : Valuation τ sig (Elt F)) :
    after ops_p11 (after ops_p10 W) (Proc.devRef .tc main_v296)
      = Stages.gruBS (W (Proc.devRef .tc main_arg12)) 2 3 slices_S3x6x96_S1x1x96_2_3_0 := by
  simp only [ops_p10, ops_p11]
  after_results_simp <;> rfl

set_option maxHeartbeats 4000000 in
/-- Row 4 of branch 2. -/
theorem run_b2_4 (W : Valuation τ sig (Elt F)) :
    after ops_p11 (after ops_p10 W) (Proc.devRef .tc main_v298)
      = Stages.gruBS (W (Proc.devRef .tc main_arg12)) 2 4 slices_S3x6x96_S1x1x96_2_4_0 := by
  simp only [ops_p10, ops_p11]
  after_results_simp <;> rfl

set_option maxHeartbeats 4000000 in
/-- Row 5 of branch 2. -/
theorem run_b2_5 (W : Valuation τ sig (Elt F)) :
    after ops_p11 (after ops_p10 W) (Proc.devRef .tc main_v300)
      = Stages.gruBS (W (Proc.devRef .tc main_arg12)) 2 5 slices_S3x6x96_S1x1x96_2_5_0 := by
  simp only [ops_p10, ops_p11]
  after_results_simp <;> rfl

end Cert.ReferenceIdeal.RefRun

end
-- ==== Proof.R.S7.lean ====
/-
  Branch 2, first step: the new state as one gated propagation step of the old state, the adjacency, the mask and
  the branch's weights.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The state after the first step of branch 2. -/
theorem run_step7 (W : Valuation τ sig (Elt F)) :
    after ops_p13 (after ops_p12 W) (Proc.devRef .tc main_v349)
      = Stages.stepS (W (Proc.devRef .tc main_arg3)) (W (Proc.devRef .tc main_arg6)) (W (Proc.devRef .tc main_v278)) (W (Proc.devRef .tc main_v280)) (W (Proc.devRef .tc main_v282)) (W (Proc.devRef .tc main_v284)) (W (Proc.devRef .tc main_v286)) (W (Proc.devRef .tc main_v288)) (W (Proc.devRef .tc main_v290)) (W (Proc.devRef .tc main_v292)) (W (Proc.devRef .tc main_v294)) (W (Proc.devRef .tc main_v296)) (W (Proc.devRef .tc main_v298)) (W (Proc.devRef .tc main_v300)) (W (Proc.devRef .tc main_v276)) := by
  simp only [ops_p12, ops_p13]
  after_results_simp <;> rfl

end Cert.ReferenceIdeal.RefRun

end
-- ==== Proof.R.S8.lean ====
/-
  Branch 2, second step: the new state as one gated propagation step of the old state, the adjacency, the mask and
  the branch's weights.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The state after the second step of branch 2. -/
theorem run_step8 (W : Valuation τ sig (Elt F)) :
    after ops_p15 (after ops_p14 W) (Proc.devRef .tc main_v398)
      = Stages.stepS (W (Proc.devRef .tc main_arg3)) (W (Proc.devRef .tc main_arg6)) (W (Proc.devRef .tc main_v278)) (W (Proc.devRef .tc main_v280)) (W (Proc.devRef .tc main_v282)) (W (Proc.devRef .tc main_v284)) (W (Proc.devRef .tc main_v286)) (W (Proc.devRef .tc main_v288)) (W (Proc.devRef .tc main_v290)) (W (Proc.devRef .tc main_v292)) (W (Proc.devRef .tc main_v294)) (W (Proc.devRef .tc main_v296)) (W (Proc.devRef .tc main_v298)) (W (Proc.devRef .tc main_v300)) (W (Proc.devRef .tc main_v349)) := by
  simp only [ops_p14, ops_p15]
  after_results_simp <;> rfl

end Cert.ReferenceIdeal.RefRun

end
-- ==== Proof.R.S9.lean ====
/-
  The mixing: the result as the mixing of the three branch results with the slices of the four mixing arrays.
-/
import proofs.«106044_j70463233458716_2_alg».proof.Proof.R.Ops
import proofs.«106044_j70463233458716_2_alg».proof.Proof.R.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

set_option maxHeartbeats 4000000 in
/-- The result of the program. -/
theorem run_fuse (W : Valuation τ sig (Elt F)) :
    after ops_p17 (after ops_p16 W) (Proc.devRef .tc main_v454)
      = Stages.fuseS (W (Proc.devRef .tc main_v132)) (W (Proc.devRef .tc main_v265)) (W (Proc.devRef .tc main_v398)) (Stages.matS (W (Proc.devRef .tc main_arg9)) 0 slices_S3x96x96_S1x96x96_0_0_0) (Stages.matS (W (Proc.devRef .tc main_arg9)) 1 slices_S3x96x96_S1x96x96_1_0_0) (Stages.matS (W (Proc.devRef .tc main_arg9)) 2 slices_S3x96x96_S1x96x96_2_0_0) (Stages.rowS (W (Proc.devRef .tc main_arg10)) 0 slices_S3x96_S1x96_0_0) (Stages.rowS (W (Proc.devRef .tc main_arg10)) 1 slices_S3x96_S1x96_1_0) (Stages.rowS (W (Proc.devRef .tc main_arg10)) 2 slices_S3x96_S1x96_2_0) (Stages.matS (W (Proc.devRef .tc main_arg13)) 0 slices_S3x96x96_S1x96x96_0_0_0) (Stages.matS (W (Proc.devRef .tc main_arg13)) 1 slices_S3x96x96_S1x96x96_1_0_0) (Stages.matS (W (Proc.devRef .tc main_arg13)) 2 slices_S3x96x96_S1x96x96_2_0_0) (Stages.rowS (W (Proc.devRef .tc main_arg14)) 0 slices_S3x96_S1x96_0_0) (Stages.rowS (W (Proc.devRef .tc main_arg14)) 1 slices_S3x96_S1x96_1_0) (Stages.rowS (W (Proc.devRef .tc main_arg14)) 2 slices_S3x96_S1x96_2_0) := by
  simp only [ops_p16, ops_p17]
  after_results_simp <;> rfl

end Cert.ReferenceIdeal.RefRun

end
-- ==== Proof.R.Run.lean ====
/-
  The run of the reference program.

  The program is the straight line of its 520 operations (the nine windows in order, each the line of its pieces),
  every operation touches buffers of the TensorCore only and determines its result, so every execution terminates
  with each buffer at the fold of the operations over the launch contents.  The fold is read back stage by stage:
  each stage's result is its whole-array term of the buffers the stage reads, every buffer a stage does not write
  is unchanged across it, and the fifteen argument buffers are written by no operation.  Chaining the ten stages
  gives the result buffer as the program's whole-array function of the fifteen arguments.
-/
import proofs.«106044_j70463233458716_2_alg».proof.Proof.R.Line
import proofs.«106044_j70463233458716_2_alg».proof.Proof.R.S0
import proofs.«106044_j70463233458716_2_alg».proof.Proof.R.S1
import proofs.«106044_j70463233458716_2_alg».proof.Proof.R.S2
import proofs.«106044_j70463233458716_2_alg».proof.Proof.R.S3
import proofs.«106044_j70463233458716_2_alg».proof.Proof.R.S4
import proofs.«106044_j70463233458716_2_alg».proof.Proof.R.S5
import proofs.«106044_j70463233458716_2_alg».proof.Proof.R.S6
import proofs.«106044_j70463233458716_2_alg».proof.Proof.R.S7
import proofs.«106044_j70463233458716_2_alg».proof.Proof.R.S8
import proofs.«106044_j70463233458716_2_alg».proof.Proof.R.S9

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The result buffer after all operations: the program's whole-array function of the argument buffers. -/
theorem run_val (V : Valuation τ sig (Elt F)) :
    after ops V (Proc.devRef .tc main_v454)
      = Stages.res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [run_after_ops, run_fuse]
  simp (disch := decide) only [run_keep00, run_keep01, run_keep02, run_keep03, run_keep04, run_keep05, run_keep06, run_keep07, run_keep08, run_keep09, run_keep10, run_keep11, run_keep12, run_keep13, run_keep14, run_keep15, run_keep16, run_keep17]
  rw [run_step2, run_step5, run_step8]
  simp (disch := decide) only [run_keep00, run_keep01, run_keep02, run_keep03, run_keep04, run_keep05, run_keep06, run_keep07, run_keep08, run_keep09, run_keep10, run_keep11, run_keep12, run_keep13, run_keep14, run_keep15, run_keep16, run_keep17]
  rw [run_step1, run_step4, run_step7]
  simp (disch := decide) only [run_keep00, run_keep01, run_keep02, run_keep03, run_keep04, run_keep05, run_keep06, run_keep07, run_keep08, run_keep09, run_keep10, run_keep11, run_keep12, run_keep13, run_keep14, run_keep15, run_keep16, run_keep17]
  rw [run_enc0, run_W0_0, run_W0_1, run_W0_2, run_W0_3, run_W0_4, run_W0_5, run_b0_0, run_b0_1, run_b0_2, run_b0_3, run_b0_4, run_b0_5, run_enc1, run_W1_0, run_W1_1, run_W1_2, run_W1_3, run_W1_4, run_W1_5, run_b1_0, run_b1_1, run_b1_2, run_b1_3, run_b1_4, run_b1_5, run_enc2, run_W2_0, run_W2_1, run_W2_2, run_W2_3, run_W2_4, run_W2_5, run_b2_0, run_b2_1, run_b2_2, run_b2_3, run_b2_4, run_b2_5]
  try simp (disch := decide) only [run_keep00, run_keep01, run_keep02, run_keep03, run_keep04, run_keep05, run_keep06, run_keep07, run_keep08, run_keep09, run_keep10, run_keep11, run_keep12, run_keep13, run_keep14, run_keep15, run_keep16, run_keep17]
  all_goals rfl

/-- On every device, for any float values, from any memory with zero counters: every weakly fair execution of the
    program terminates with the result buffer at the program's whole-array function of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v454) = Stages.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v454).trans (run_val _),
      (h c main_arg0).trans (run_unwritten _ (by decide) (by decide) (by decide) (by decide) (by decide) (by decide) (by decide) (by decide) (by decide) (by decide) (by decide) (by decide) (by decide) (by decide) (by decide) (by decide) (by decide) (by decide)),
      (h c main_arg1).trans (run_unwritten _ (by decide) (by decide) (by decide) (by decide) (by decide) (by decide) (by decide) (by decide) (by decide) (by decide) (by decide) (by decide) (by decide) (by decide) (by decide) (by decide) (by decide) (by decide)),
      (h c main_arg2).trans (run_unwritten _ (by decide) (by decide) (by decide) (by decide) (by decide) (by decide) (by decide) (by decide) (by decide) (by decide) (by decide) (by decide) (by decide) (by decide) (by decide) (by decide) (by decide) (by decide)),
      (h c main_arg3).trans (run_unwritten _ (by decide) (by decide) (by decide) (by decide) (by decide) (by decide) (by decide) (by decide) (by decide) (by decide) (by decide) (by decide) (by decide) (by decide) (by decide) (by decide) (by decide) (by decide)),
      (h c main_arg4).trans (run_unwritten _ (by decide) (by decide) (by decide) (by decide) (by decide) (by decide) (by decide) (by decide) (by decide) (by decide) (by decide) (by decide) (by decide) (by decide) (by decide) (by decide) (by decide) (by decide)),
      (h c main_arg5).trans (run_unwritten _ (by decide) (by decide) (by decide) (by decide) (by decide) (by decide) (by decide) (by decide) (by decide) (by decide) (by decide) (by decide) (by decide) (by decide) (by decide) (by decide) (by decide) (by decide)),
      (h c main_arg6).trans (run_unwritten _ (by decide) (by decide) (by decide) (by decide) (by decide) (by decide) (by decide) (by decide) (by decide) (by decide) (by decide) (by decide) (by decide) (by decide) (by decide) (by decide) (by decide) (by decide)),
      (h c main_arg7).trans (run_unwritten _ (by decide) (by decide) (by decide) (by decide) (by decide) (by decide) (by decide) (by decide) (by decide) (by decide) (by decide) (by decide) (by decide) (by decide) (by decide) (by decide) (by decide) (by decide)),
      (h c main_arg8).trans (run_unwritten _ (by decide) (by decide) (by decide) (by decide) (by decide) (by decide) (by decide) (by decide) (by decide) (by decide) (by decide) (by decide) (by decide) (by decide) (by decide) (by decide) (by decide) (by decide)),
      (h c main_arg9).trans (run_unwritten _ (by decide) (by decide) (by decide) (by decide) (by decide) (by decide) (by decide) (by decide) (by decide) (by decide) (by decide) (by decide) (by decide) (by decide) (by decide) (by decide) (by decide) (by decide)),
      (h c main_arg10).trans (run_unwritten _ (by decide) (by decide) (by decide) (by decide) (by decide) (by decide) (by decide) (by decide) (by decide) (by decide) (by decide) (by decide) (by decide) (by decide) (by decide) (by decide) (by decide) (by decide)),
      (h c main_arg11).trans (run_unwritten _ (by decide) (by decide) (by decide) (by decide) (by decide) (by decide) (by decide) (by decide) (by decide) (by decide) (by decide) (by decide) (by decide) (by decide) (by decide) (by decide) (by decide) (by decide)),
      (h c main_arg12).trans (run_unwritten _ (by decide) (by decide) (by decide) (by decide) (by decide) (by decide) (by decide) (by decide) (by decide) (by decide) (by decide) (by decide) (by decide) (by decide) (by decide) (by decide) (by decide) (by decide)),
      (h c main_arg13).trans (run_unwritten _ (by decide) (by decide) (by decide) (by decide) (by decide) (by decide) (by decide) (by decide) (by decide) (by decide) (by decide) (by decide) (by decide) (by decide) (by decide) (by decide) (by decide) (by decide)),
      (h c main_arg14).trans (run_unwritten _ (by decide) (by decide) (by decide) (by decide) (by decide) (by decide) (by decide) (by decide) (by decide) (by decide) (by decide) (by decide) (by decide) (by decide) (by decide) (by decide) (by decide) (by decide))⟩)
    (run_seq run_scopedRefs_eq run_scopedSems_eq defs main (fun _ => ops) run_main_eq (fun _ => ops_sub) m ρ (fun _ => ops_fresh))

end Cert.ReferenceIdeal.RefRun

end
-- ==== Proof.R.HostOps.lean ====
/-
  The host operations of the reference program read at an index, on the extended reals.

  A product contracting one axis is, per batch entry, the matrix product of the two slabs; a broadcast reads its
  operand at the coordinates it keeps; a slice of one leading entry followed by the reshape dropping the unit axes
  reads the stacked array at that entry; the quotient 1 / (1 + e^(−t)) written with the word 1.0 is the logistic
  function.
-/
import proofs.«106044_j70463233458716_2_alg».proof.ReferenceIdeal
import proofs.«106044_j70463233458716_2_alg».proof.Proof.Gen.ReferenceIdeal
import proofs.«106044_j70463233458716_2_alg».proof.Proof.Spec
import Idealize.ShloMosaic.PureOps.Ideal
import Idealize.ShloMosaic.PureOps.Ideal.Laws
import Idealize.ShloMosaic.Lib.ValueIdx
import Idealize.ShloMosaic.Lib.ValueLayout

noncomputable section

namespace Cert.ReferenceIdeal.RefValue

open Idealize.ShloMosaic Idealize.ShloMosaic.ValueIdx
open Cert.ReferenceIdeal Cert.ReferenceIdeal.Gen

/-! ## The three products read at an index

Each host product contracts ONE axis; at an output index its two operand indices are read off coordinate by
coordinate, and the sum over the contraction shape is re-indexed to the sum over the contracted extent. -/

theorem ref_dotA_l0 (i : S8x2048x96.Idx) (q : dot_S8x2048x300_S300x96_S8x2048x96_2_0_01_1_n_n.contr.Idx) : (dot_S8x2048x300_S300x96_S8x2048x96_2_0_01_1_n_n.lhsIdx i q 0).val = (i 0).val := by
  unfold DotDims.lhsIdx
  rw [dif_neg (show ¬(0 : Fin S8x2048x300.rank) ∈ dot_S8x2048x300_S300x96_S8x2048x96_2_0_01_1_n_n.lhsBatch by decide), dif_pos (show (0 : Fin S8x2048x300.rank) ∈ dot_S8x2048x300_S300x96_S8x2048x96_2_0_01_1_n_n.lhsNonContracting by decide)]
  rfl
theorem ref_dotA_l1 (i : S8x2048x96.Idx) (q : dot_S8x2048x300_S300x96_S8x2048x96_2_0_01_1_n_n.contr.Idx) : (dot_S8x2048x300_S300x96_S8x2048x96_2_0_01_1_n_n.lhsIdx i q 1).val = (i 1).val := by
  unfold DotDims.lhsIdx
  rw [dif_neg (show ¬(1 : Fin S8x2048x300.rank) ∈ dot_S8x2048x300_S300x96_S8x2048x96_2_0_01_1_n_n.lhsBatch by decide), dif_pos (show (1 : Fin S8x2048x300.rank) ∈ dot_S8x2048x300_S300x96_S8x2048x96_2_0_01_1_n_n.lhsNonContracting by decide)]
  rfl
theorem ref_dotA_l2 (i : S8x2048x96.Idx) (q : dot_S8x2048x300_S300x96_S8x2048x96_2_0_01_1_n_n.contr.Idx) : (dot_S8x2048x300_S300x96_S8x2048x96_2_0_01_1_n_n.lhsIdx i q 2).val = (q ⟨0, by decide⟩).val :=
  dot_S8x2048x300_S300x96_S8x2048x96_2_0_01_1_n_n.lhsIdx_val_of_single rfl i q
theorem ref_dotA_r0 (i : S8x2048x96.Idx) (q : dot_S8x2048x300_S300x96_S8x2048x96_2_0_01_1_n_n.contr.Idx) : (dot_S8x2048x300_S300x96_S8x2048x96_2_0_01_1_n_n.rhsIdx i q 0).val = (q ⟨0, by decide⟩).val :=
  dot_S8x2048x300_S300x96_S8x2048x96_2_0_01_1_n_n.rhsIdx_val_of_single rfl i q
theorem ref_dotA_r1 (i : S8x2048x96.Idx) (q : dot_S8x2048x300_S300x96_S8x2048x96_2_0_01_1_n_n.contr.Idx) : (dot_S8x2048x300_S300x96_S8x2048x96_2_0_01_1_n_n.rhsIdx i q 1).val = (i 2).val := by
  unfold DotDims.rhsIdx
  rw [dif_neg (show ¬(1 : Fin S300x96.rank) ∈ dot_S8x2048x300_S300x96_S8x2048x96_2_0_01_1_n_n.rhsBatch by decide), dif_pos (show (1 : Fin S300x96.rank) ∈ dot_S8x2048x300_S300x96_S8x2048x96_2_0_01_1_n_n.rhsNonContracting by decide)]
  rfl

/-- x · W with W a [300, 96] matrix: per batch entry the matrix product of the slab with W. -/
theorem ref_dotA (x : FVec Ideal S8x2048x300 .f32) (W : FVec Ideal S300x96 .f32) (Wm : Spec.Mat 300 96)
    (hW : ∀ d j, W (ix2 d j) = Wm d j) :
    Host.dotGeneral dot_S8x2048x300_S300x96_S8x2048x96_2_0_01_1_n_n none x W = Spec.toArr fun b => Spec.mm (Spec.slab x b) Wm := by
  funext y
  obtain ⟨b, n, j, rfl⟩ : ∃ (b : Fin 8) (n : Fin 2048) (j : Fin 96), y = ix3 b n j := ⟨y 0, y 1, y 2, eq_ix3 y⟩
  simp only [Host.dotGeneral]
  rw [Ideal.dotGeneral_apply, ← Equiv.sum_comp (contrEquiv1 dot_S8x2048x300_S300x96_S8x2048x96_2_0_01_1_n_n 300 rfl rfl).symm]
  show _ = ∑ q : Fin 300, x (ix3 b n q) * Wm q j
  refine Finset.sum_congr rfl fun k _ => ?_
  have hk := contrEquiv1_symm_val dot_S8x2048x300_S300x96_S8x2048x96_2_0_01_1_n_n 300 rfl rfl k
  have el : dot_S8x2048x300_S300x96_S8x2048x96_2_0_01_1_n_n.lhsIdx (ix3 b n j) ((contrEquiv1 dot_S8x2048x300_S300x96_S8x2048x96_2_0_01_1_n_n 300 rfl rfl).symm k) = ix3 b n k := funext fun a => Fin.ext (by
    match a with
    | ⟨0, _⟩ => exact ref_dotA_l0 _ _
    | ⟨1, _⟩ => exact ref_dotA_l1 _ _
    | ⟨2, _⟩ => exact (ref_dotA_l2 _ _).trans hk)
  have er : dot_S8x2048x300_S300x96_S8x2048x96_2_0_01_1_n_n.rhsIdx (ix3 b n j) ((contrEquiv1 dot_S8x2048x300_S300x96_S8x2048x96_2_0_01_1_n_n 300 rfl rfl).symm k) = ix2 k j := funext fun a => Fin.ext (by
    match a with
    | ⟨0, _⟩ => exact (ref_dotA_r0 _ _).trans hk
    | ⟨1, _⟩ => exact ref_dotA_r1 _ _)
  rw [el, er, hW]

theorem ref_dotB_l0 (i : S8x2048x96.Idx) (q : dot_S8x2048x2048_S8x2048x96_S8x2048x96_2_1_1_2_0_0.contr.Idx) : (dot_S8x2048x2048_S8x2048x96_S8x2048x96_2_1_1_2_0_0.lhsIdx i q 0).val = (i 0).val := by
  unfold DotDims.lhsIdx
  rw [dif_pos (show (0 : Fin S8x2048x2048.rank) ∈ dot_S8x2048x2048_S8x2048x96_S8x2048x96_2_1_1_2_0_0.lhsBatch by decide)]
  rfl
theorem ref_dotB_l1 (i : S8x2048x96.Idx) (q : dot_S8x2048x2048_S8x2048x96_S8x2048x96_2_1_1_2_0_0.contr.Idx) : (dot_S8x2048x2048_S8x2048x96_S8x2048x96_2_1_1_2_0_0.lhsIdx i q 1).val = (i 1).val := by
  unfold DotDims.lhsIdx
  rw [dif_neg (show ¬(1 : Fin S8x2048x2048.rank) ∈ dot_S8x2048x2048_S8x2048x96_S8x2048x96_2_1_1_2_0_0.lhsBatch by decide), dif_pos (show (1 : Fin S8x2048x2048.rank) ∈ dot_S8x2048x2048_S8x2048x96_S8x2048x96_2_1_1_2_0_0.lhsNonContracting by decide)]
  rfl
theorem ref_dotB_l2 (i : S8x2048x96.Idx) (q : dot_S8x2048x2048_S8x2048x96_S8x2048x96_2_1_1_2_0_0.contr.Idx) : (dot_S8x2048x2048_S8x2048x96_S8x2048x96_2_1_1_2_0_0.lhsIdx i q 2).val = (q ⟨0, by decide⟩).val :=
  dot_S8x2048x2048_S8x2048x96_S8x2048x96_2_1_1_2_0_0.lhsIdx_val_of_single rfl i q
theorem ref_dotB_r0 (i : S8x2048x96.Idx) (q : dot_S8x2048x2048_S8x2048x96_S8x2048x96_2_1_1_2_0_0.contr.Idx) : (dot_S8x2048x2048_S8x2048x96_S8x2048x96_2_1_1_2_0_0.rhsIdx i q 0).val = (i 0).val := by
  unfold DotDims.rhsIdx
  rw [dif_pos (show (0 : Fin S8x2048x96.rank) ∈ dot_S8x2048x2048_S8x2048x96_S8x2048x96_2_1_1_2_0_0.rhsBatch by decide)]
  rfl
theorem ref_dotB_r1 (i : S8x2048x96.Idx) (q : dot_S8x2048x2048_S8x2048x96_S8x2048x96_2_1_1_2_0_0.contr.Idx) : (dot_S8x2048x2048_S8x2048x96_S8x2048x96_2_1_1_2_0_0.rhsIdx i q 1).val = (q ⟨0, by decide⟩).val :=
  dot_S8x2048x2048_S8x2048x96_S8x2048x96_2_1_1_2_0_0.rhsIdx_val_of_single rfl i q
theorem ref_dotB_r2 (i : S8x2048x96.Idx) (q : dot_S8x2048x2048_S8x2048x96_S8x2048x96_2_1_1_2_0_0.contr.Idx) : (dot_S8x2048x2048_S8x2048x96_S8x2048x96_2_1_1_2_0_0.rhsIdx i q 2).val = (i 2).val := by
  unfold DotDims.rhsIdx
  rw [dif_neg (show ¬(2 : Fin S8x2048x96.rank) ∈ dot_S8x2048x2048_S8x2048x96_S8x2048x96_2_1_1_2_0_0.rhsBatch by decide), dif_pos (show (2 : Fin S8x2048x96.rank) ∈ dot_S8x2048x2048_S8x2048x96_S8x2048x96_2_1_1_2_0_0.rhsNonContracting by decide)]
  rfl

/-- adj · h, batched over the leading axis: per batch entry the product of the two slabs over the 2048 nodes. -/
theorem ref_dotB (adj : FVec Ideal S8x2048x2048 .f32) (h : FVec Ideal S8x2048x96 .f32) :
    Host.dotGeneral dot_S8x2048x2048_S8x2048x96_S8x2048x96_2_1_1_2_0_0 none adj h = Spec.toArr fun b => Spec.mm (Spec.slab adj b) (Spec.slab h b) := by
  funext y
  obtain ⟨b, n, j, rfl⟩ : ∃ (b : Fin 8) (n : Fin 2048) (j : Fin 96), y = ix3 b n j := ⟨y 0, y 1, y 2, eq_ix3 y⟩
  simp only [Host.dotGeneral]
  rw [Ideal.dotGeneral_apply, ← Equiv.sum_comp (contrEquiv1 dot_S8x2048x2048_S8x2048x96_S8x2048x96_2_1_1_2_0_0 2048 rfl rfl).symm]
  show _ = ∑ q : Fin 2048, adj (ix3 b n q) * h (ix3 b q j)
  refine Finset.sum_congr rfl fun k _ => ?_
  have hk := contrEquiv1_symm_val dot_S8x2048x2048_S8x2048x96_S8x2048x96_2_1_1_2_0_0 2048 rfl rfl k
  have el : dot_S8x2048x2048_S8x2048x96_S8x2048x96_2_1_1_2_0_0.lhsIdx (ix3 b n j) ((contrEquiv1 dot_S8x2048x2048_S8x2048x96_S8x2048x96_2_1_1_2_0_0 2048 rfl rfl).symm k) = ix3 b n k := funext fun a => Fin.ext (by
    match a with
    | ⟨0, _⟩ => exact ref_dotB_l0 _ _
    | ⟨1, _⟩ => exact ref_dotB_l1 _ _
    | ⟨2, _⟩ => exact (ref_dotB_l2 _ _).trans hk)
  have er : dot_S8x2048x2048_S8x2048x96_S8x2048x96_2_1_1_2_0_0.rhsIdx (ix3 b n j) ((contrEquiv1 dot_S8x2048x2048_S8x2048x96_S8x2048x96_2_1_1_2_0_0 2048 rfl rfl).symm k) = ix3 b k j := funext fun a => Fin.ext (by
    match a with
    | ⟨0, _⟩ => exact ref_dotB_r0 _ _
    | ⟨1, _⟩ => exact (ref_dotB_r1 _ _).trans hk
    | ⟨2, _⟩ => exact ref_dotB_r2 _ _)
  rw [el, er]

theorem ref_dotC_l0 (i : S8x2048x96.Idx) (q : dot_S8x2048x96_S96x96_S8x2048x96_2_0_01_1_n_n.contr.Idx) : (dot_S8x2048x96_S96x96_S8x2048x96_2_0_01_1_n_n.lhsIdx i q 0).val = (i 0).val := by
  unfold DotDims.lhsIdx
  rw [dif_neg (show ¬(0 : Fin S8x2048x96.rank) ∈ dot_S8x2048x96_S96x96_S8x2048x96_2_0_01_1_n_n.lhsBatch by decide), dif_pos (show (0 : Fin S8x2048x96.rank) ∈ dot_S8x2048x96_S96x96_S8x2048x96_2_0_01_1_n_n.lhsNonContracting by decide)]
  rfl
theorem ref_dotC_l1 (i : S8x2048x96.Idx) (q : dot_S8x2048x96_S96x96_S8x2048x96_2_0_01_1_n_n.contr.Idx) : (dot_S8x2048x96_S96x96_S8x2048x96_2_0_01_1_n_n.lhsIdx i q 1).val = (i 1).val := by
  unfold DotDims.lhsIdx
  rw [dif_neg (show ¬(1 : Fin S8x2048x96.rank) ∈ dot_S8x2048x96_S96x96_S8x2048x96_2_0_01_1_n_n.lhsBatch by decide), dif_pos (show (1 : Fin S8x2048x96.rank) ∈ dot_S8x2048x96_S96x96_S8x2048x96_2_0_01_1_n_n.lhsNonContracting by decide)]
  rfl
theorem ref_dotC_l2 (i : S8x2048x96.Idx) (q : dot_S8x2048x96_S96x96_S8x2048x96_2_0_01_1_n_n.contr.Idx) : (dot_S8x2048x96_S96x96_S8x2048x96_2_0_01_1_n_n.lhsIdx i q 2).val = (q ⟨0, by decide⟩).val :=
  dot_S8x2048x96_S96x96_S8x2048x96_2_0_01_1_n_n.lhsIdx_val_of_single rfl i q
theorem ref_dotC_r0 (i : S8x2048x96.Idx) (q : dot_S8x2048x96_S96x96_S8x2048x96_2_0_01_1_n_n.contr.Idx) : (dot_S8x2048x96_S96x96_S8x2048x96_2_0_01_1_n_n.rhsIdx i q 0).val = (q ⟨0, by decide⟩).val :=
  dot_S8x2048x96_S96x96_S8x2048x96_2_0_01_1_n_n.rhsIdx_val_of_single rfl i q
theorem ref_dotC_r1 (i : S8x2048x96.Idx) (q : dot_S8x2048x96_S96x96_S8x2048x96_2_0_01_1_n_n.contr.Idx) : (dot_S8x2048x96_S96x96_S8x2048x96_2_0_01_1_n_n.rhsIdx i q 1).val = (i 2).val := by
  unfold DotDims.rhsIdx
  rw [dif_neg (show ¬(1 : Fin S96x96.rank) ∈ dot_S8x2048x96_S96x96_S8x2048x96_2_0_01_1_n_n.rhsBatch by decide), dif_pos (show (1 : Fin S96x96.rank) ∈ dot_S8x2048x96_S96x96_S8x2048x96_2_0_01_1_n_n.rhsNonContracting by decide)]
  rfl

/-- a · W with W a [96, 96] matrix: per batch entry the matrix product of the slab with W. -/
theorem ref_dotC (x : FVec Ideal S8x2048x96 .f32) (W : FVec Ideal S96x96 .f32) (Wm : Spec.Mat 96 96)
    (hW : ∀ d j, W (ix2 d j) = Wm d j) :
    Host.dotGeneral dot_S8x2048x96_S96x96_S8x2048x96_2_0_01_1_n_n none x W = Spec.toArr fun b => Spec.mm (Spec.slab x b) Wm := by
  funext y
  obtain ⟨b, n, j, rfl⟩ : ∃ (b : Fin 8) (n : Fin 2048) (j : Fin 96), y = ix3 b n j := ⟨y 0, y 1, y 2, eq_ix3 y⟩
  simp only [Host.dotGeneral]
  rw [Ideal.dotGeneral_apply, ← Equiv.sum_comp (contrEquiv1 dot_S8x2048x96_S96x96_S8x2048x96_2_0_01_1_n_n 96 rfl rfl).symm]
  show _ = ∑ q : Fin 96, x (ix3 b n q) * Wm q j
  refine Finset.sum_congr rfl fun k _ => ?_
  have hk := contrEquiv1_symm_val dot_S8x2048x96_S96x96_S8x2048x96_2_0_01_1_n_n 96 rfl rfl k
  have el : dot_S8x2048x96_S96x96_S8x2048x96_2_0_01_1_n_n.lhsIdx (ix3 b n j) ((contrEquiv1 dot_S8x2048x96_S96x96_S8x2048x96_2_0_01_1_n_n 96 rfl rfl).symm k) = ix3 b n k := funext fun a => Fin.ext (by
    match a with
    | ⟨0, _⟩ => exact ref_dotC_l0 _ _
    | ⟨1, _⟩ => exact ref_dotC_l1 _ _
    | ⟨2, _⟩ => exact (ref_dotC_l2 _ _).trans hk)
  have er : dot_S8x2048x96_S96x96_S8x2048x96_2_0_01_1_n_n.rhsIdx (ix3 b n j) ((contrEquiv1 dot_S8x2048x96_S96x96_S8x2048x96_2_0_01_1_n_n 96 rfl rfl).symm k) = ix2 k j := funext fun a => Fin.ext (by
    match a with
    | ⟨0, _⟩ => exact (ref_dotC_r0 _ _).trans hk
    | ⟨1, _⟩ => exact ref_dotC_r1 _ _)
  rw [el, er, hW]

/-! ## The broadcasts read at an index -/

/-- A row [96] broadcast to every node of every batch entry reads the row at the channel. -/
theorem ref_bcast_row (v : FVec Ideal S96 .f32) (bv : Fin 96 → EReal) (hb : ∀ j, v (ix1 j) = bv j) :
    broadcastInDim S8x2048x96 ![0, 1, 2] bcast_S1x1x96_S8x2048x96_0_1_2 (broadcastInDim S1x1x96 ![2] bcast_S96_S1x1x96_2 v)
      = fun y => bv (y 2) := by
  funext y
  obtain ⟨b, n, j, rfl⟩ : ∃ (b : Fin 8) (n : Fin 2048) (j : Fin 96), y = ix3 b n j := ⟨y 0, y 1, y 2, eq_ix3 y⟩
  rw [broadcastInDim_apply _ _ _ (ix3 b n j) (ix3 (0 : Fin 1) (0 : Fin 1) j) (fun a => by
    match a with
    | ⟨0, _⟩ => rfl
    | ⟨1, _⟩ => rfl
    | ⟨2, _⟩ => rfl)]
  rw [broadcastInDim_apply _ _ _ (ix3 (0 : Fin 1) (0 : Fin 1) j) (ix1 j) (fun a => by
    match a with
    | ⟨0, _⟩ => rfl)]
  exact hb j

/-- A mask [8, 2048, 1] broadcast along the channels reads the node's mask entry. -/
theorem ref_bcast_mask (mask : FVec Ideal S8x2048x1 .f32) :
    broadcastInDim S8x2048x96 ![0, 1, 2] bcast_S8x2048x1_S8x2048x96_0_1_2 mask = fun y => mask (ix3 (y 0) (y 1) 0) := by
  funext y
  obtain ⟨b, n, j, rfl⟩ : ∃ (b : Fin 8) (n : Fin 2048) (j : Fin 96), y = ix3 b n j := ⟨y 0, y 1, y 2, eq_ix3 y⟩
  exact broadcastInDim_apply _ _ _ (ix3 b n j) (ix3 b n (0 : Fin 1)) (fun a => by
    match a with
    | ⟨0, _⟩ => rfl
    | ⟨1, _⟩ => rfl
    | ⟨2, _⟩ => rfl)

/-- A scalar broadcast to the whole array reads the scalar everywhere. -/
theorem ref_bcast_scalar (c : FVec Ideal S_ .f32) :
    broadcastInDim S8x2048x96 ![] bcast_S_S8x2048x96 c = fun _ => c ix0 := by
  funext y
  exact broadcastInDim_apply _ _ _ y ix0 (fun a => a.elim0)

/-! ## A slice of one leading entry, reshaped to drop the unit axes

Stated once per form, the offsets a variable with its values as hypotheses: every instance is the same lemma. -/

section Slices
variable {α : Type}

/-- Matrix i of an [R, a, b] array. -/
theorem ref_slice_mat3 {R a b : ℕ} (off : Fin 3 → ℕ) (x : (⟨3, ![R, a, b]⟩ : Shape).Idx → α)
    (h₁ : (⟨3, ![R, a, b]⟩ : Shape).Slices off ⟨3, ![1, a, b]⟩) (h₂ : (⟨3, ![1, a, b]⟩ : Shape).ShapeCasts ⟨2, ![a, b]⟩)
    (i : Fin R) (h0 : off 0 = i.val) (h1 : off 1 = 0) (h2 : off 2 = 0) (d : Fin a) (j : Fin b) :
    shapeCast ⟨2, ![a, b]⟩ (extractStridedSlice ⟨3, ![1, a, b]⟩ off x h₁) h₂ (ix2 d j) = x (ix3 i d j) := by
  rw [shapeCast_1ab_ab_apply]
  refine extractStridedSlice_apply off x h₁ (ix3 (0 : Fin 1) d j) (ix3 i d j) fun c => ?_
  match c with
  | ⟨0, _⟩ => exact h0.symm
  | ⟨1, _⟩ => show d.val = off 1 + d.val; rw [h1, Nat.zero_add]
  | ⟨2, _⟩ => show j.val = off 2 + j.val; rw [h2, Nat.zero_add]

/-- Row i of an [R, c] array. -/
theorem ref_slice_row2 {R c : ℕ} (off : Fin 2 → ℕ) (x : (⟨2, ![R, c]⟩ : Shape).Idx → α)
    (h₁ : (⟨2, ![R, c]⟩ : Shape).Slices off ⟨2, ![1, c]⟩) (h₂ : (⟨2, ![1, c]⟩ : Shape).ShapeCasts ⟨1, ![c]⟩)
    (i : Fin R) (h0 : off 0 = i.val) (h1 : off 1 = 0) (j : Fin c) :
    shapeCast ⟨1, ![c]⟩ (extractStridedSlice ⟨2, ![1, c]⟩ off x h₁) h₂ (ix1 j) = x (ix2 i j) := by
  rw [shapeCast_1a_a_apply]
  refine extractStridedSlice_apply off x h₁ (ix2 (0 : Fin 1) j) (ix2 i j) fun c => ?_
  match c with
  | ⟨0, _⟩ => exact h0.symm
  | ⟨1, _⟩ => show j.val = off 1 + j.val; rw [h1, Nat.zero_add]

/-- Matrix (i, p) of an [R, P, a, b] array. -/
theorem ref_slice_mat4 {R P a b : ℕ} (off : Fin 4 → ℕ) (x : (⟨4, ![R, P, a, b]⟩ : Shape).Idx → α)
    (h₁ : (⟨4, ![R, P, a, b]⟩ : Shape).Slices off ⟨4, ![1, 1, a, b]⟩) (h₂ : (⟨4, ![1, 1, a, b]⟩ : Shape).ShapeCasts ⟨2, ![a, b]⟩)
    (i : Fin R) (p : Fin P) (h0 : off 0 = i.val) (h1 : off 1 = p.val) (h2 : off 2 = 0) (h3 : off 3 = 0) (d : Fin a) (j : Fin b) :
    shapeCast ⟨2, ![a, b]⟩ (extractStridedSlice ⟨4, ![1, 1, a, b]⟩ off x h₁) h₂ (ix2 d j) = x (ix4 i p d j) := by
  rw [shapeCast_apply _ h₂ (ix2 d j) (ix4 (0 : Fin 1) (0 : Fin 1) d j) (by
    rw [Shape.rowMajor_val_four, Shape.rowMajor_val_two]
    show ((0 * 1 + 0) * a + d.val) * b + j.val = d.val * b + j.val
    simp)]
  refine extractStridedSlice_apply off x h₁ (ix4 (0 : Fin 1) (0 : Fin 1) d j) (ix4 i p d j) fun c => ?_
  match c with
  | ⟨0, _⟩ => exact h0.symm
  | ⟨1, _⟩ => exact h1.symm
  | ⟨2, _⟩ => show d.val = off 2 + d.val; rw [h2, Nat.zero_add]
  | ⟨3, _⟩ => show j.val = off 3 + j.val; rw [h3, Nat.zero_add]

/-- Row (i, p) of an [R, P, c] array. -/
theorem ref_slice_row3 {R P c : ℕ} (off : Fin 3 → ℕ) (x : (⟨3, ![R, P, c]⟩ : Shape).Idx → α)
    (h₁ : (⟨3, ![R, P, c]⟩ : Shape).Slices off ⟨3, ![1, 1, c]⟩) (h₂ : (⟨3, ![1, 1, c]⟩ : Shape).ShapeCasts ⟨1, ![c]⟩)
    (i : Fin R) (p : Fin P) (h0 : off 0 = i.val) (h1 : off 1 = p.val) (h2 : off 2 = 0) (j : Fin c) :
    shapeCast ⟨1, ![c]⟩ (extractStridedSlice ⟨3, ![1, 1, c]⟩ off x h₁) h₂ (ix1 j) = x (ix3 i p j) := by
  rw [shapeCast_apply _ h₂ (ix1 j) (ix3 (0 : Fin 1) (0 : Fin 1) j) (by
    rw [Shape.rowMajor_val_three, Shape.rowMajor_val_one]
    show (0 * 1 + 0) * c + j.val = j.val
    simp)]
  refine extractStridedSlice_apply off x h₁ (ix3 (0 : Fin 1) (0 : Fin 1) j) (ix3 i p j) fun c => ?_
  match c with
  | ⟨0, _⟩ => exact h0.symm
  | ⟨1, _⟩ => exact h1.symm
  | ⟨2, _⟩ => show j.val = off 2 + j.val; rw [h2, Nat.zero_add]

end Slices

/-! ## The constants and the logistic function -/

/-- The word 1.0 is the extended real 1. -/
theorem ref_ofBits_one : Ideal.ofBits .f32 0x3F800000#32 = 1 := by
  simp [Ideal.ofBits, Ideal.ieee, -EReal.coe_mul]; norm_num

/-- 1 / (1 + e^(−t)), composed of the host's negation, exponential, sum and quotient with the word 1.0 broadcast twice, is the logistic function entrywise. -/
theorem ref_sig (t : FVec Ideal S8x2048x96 .f32) :
    Host.divf (broadcastInDim S8x2048x96 ![] bcast_S_S8x2048x96 (constant (F := Ideal) S_ .f32 0x3F800000#32))
        (addf (broadcastInDim S8x2048x96 ![] bcast_S_S8x2048x96 (constant (F := Ideal) S_ .f32 0x3F800000#32)) (Host.exp (Host.negf t)))
      = fun y => Spec.sigm (t y) := by
  rw [ref_bcast_scalar]
  funext y
  show FloatOps.hostDivf (Ideal.ofBits .f32 0x3F800000#32) (FloatOps.addf (Ideal.ofBits .f32 0x3F800000#32) (FloatOps.hostUnary .exp (FloatOps.hostNegf (t y)))) = Ideal.logistic (t y)
  rw [ref_ofBits_one]
  rfl

end Cert.ReferenceIdeal.RefValue

end
-- ==== Proof.R.StagesSpec.lean ====
/-
  The reference program's result is the specified function.

  The program's whole-array terms are read stage by stage, batch entry by batch entry: the encoding
  mask · max(x · W + b, 0), the two gates σ(((a · W + b) + h · W') + b'), the candidate state, the new state
  h̃ ∘ z + h ∘ (1 − z) with a = adj · h, the leaky rectifier and the mixing of the three branch results.  The
  reference groups every sum as the specification does, so each stage is read off and nothing is rearranged; the
  weights of a branch are the stacked arrays read at that branch's leading entry.
-/
import proofs.«106044_j70463233458716_2_alg».proof.Proof.R.Stages
import proofs.«106044_j70463233458716_2_alg».proof.Proof.R.HostOps

noncomputable section

namespace Cert.ReferenceIdeal.RefValue

open Idealize.ShloMosaic Idealize.ShloMosaic.ValueIdx
open Cert.ReferenceIdeal Cert.ReferenceIdeal.Gen Cert.ReferenceIdeal.Stages

/-! ## The layout operations and the products, as the stages name them -/

theorem ref_biasS (bias : FVec Ideal S96 .f32) (bv : Fin 96 → EReal) (hb : ∀ j, bias (ix1 j) = bv j) :
    biasS bias = fun y => bv (y 2) := ref_bcast_row bias bv hb

theorem ref_maskS (mask : FVec Ideal S8x2048x1 .f32) : maskS mask = fun y => mask (ix3 (y 0) (y 1) 0) :=
  ref_bcast_mask mask

theorem ref_fillS (w : BitVec 32) : fillS (F := Ideal) w = fun _ => Ideal.ofBits .f32 w :=
  ref_bcast_scalar _

theorem ref_dotS (a : FVec Ideal S8x2048x96 .f32) (W : FVec Ideal S96x96 .f32) (Wm : Spec.Mat 96 96) (hW : ∀ k j, W (ix2 k j) = Wm k j) :
    dotS a W = Spec.toArr fun b => Spec.mm (Spec.slab a b) Wm := ref_dotC a W Wm hW

theorem ref_aggS (adj : FVec Ideal S8x2048x2048 .f32) (h : FVec Ideal S8x2048x96 .f32) :
    aggS adj h = Spec.toArr fun b => Spec.mm (Spec.slab adj b) (Spec.slab h b) := ref_dotB adj h

/-! ## The stages, batch entry by batch entry

The reference groups every sum as the specification does: each stage is read off, nothing is rearranged. -/

/-- The positive part, entrywise. -/
theorem ref_reluS (v : FVec Ideal S8x2048x96 .f32) : reluS v = fun y => Spec.relu (v y) := by
  unfold reluS
  rw [ref_fillS]
  rfl

/-- The logistic function, entrywise. -/
theorem ref_sigS (t : FVec Ideal S8x2048x96 .f32) : sigS t = fun y => Spec.sigm (t y) := ref_sig t

/-- The encoding of a branch. -/
theorem ref_encS (x : FVec Ideal S8x2048x300 .f32) (W : FVec Ideal S300x96 .f32) (bias : FVec Ideal S96 .f32) (mask : FVec Ideal S8x2048x1 .f32)
    (Wm : Spec.Mat 300 96) (bv : Fin 96 → EReal) (hW : ∀ d j, W (ix2 d j) = Wm d j) (hb : ∀ j, bias (ix1 j) = bv j) :
    encS x W bias mask = Spec.toArr fun b => Spec.encB (Spec.slab x b) (Spec.col mask b) Wm bv := by
  unfold encS
  rw [ref_reluS, ref_maskS, ref_dotA x W Wm hW, ref_biasS bias bv hb]
  funext y
  obtain ⟨b, n, j, rfl⟩ : ∃ (b : Fin 8) (n : Fin 2048) (j : Fin 96), y = ix3 b n j := ⟨y 0, y 1, y 2, eq_ix3 y⟩
  rfl

/-- A gate. -/
theorem ref_gateS (W0 W1 : FVec Ideal S96x96 .f32) (b0 b1 : FVec Ideal S96 .f32) (a h : FVec Ideal S8x2048x96 .f32) (M0 M1 : Spec.Mat 96 96) (v0 v1 : Fin 96 → EReal)
    (hW0 : ∀ k j, W0 (ix2 k j) = M0 k j) (hW1 : ∀ k j, W1 (ix2 k j) = M1 k j)
    (hb0 : ∀ j, b0 (ix1 j) = v0 j) (hb1 : ∀ j, b1 (ix1 j) = v1 j) :
    gateS W0 W1 b0 b1 a h = Spec.toArr fun b => Spec.gateB M0 M1 v0 v1 (Spec.slab a b) (Spec.slab h b) := by
  unfold gateS
  rw [ref_sigS, ref_dotS a W0 M0 hW0, ref_dotS h W1 M1 hW1, ref_biasS b0 v0 hb0, ref_biasS b1 v1 hb1]
  funext y
  obtain ⟨b, n, j, rfl⟩ : ∃ (b : Fin 8) (n : Fin 2048) (j : Fin 96), y = ix3 b n j := ⟨y 0, y 1, y 2, eq_ix3 y⟩
  rfl

/-- The candidate state. -/
theorem ref_candS (mask : FVec Ideal S8x2048x1 .f32) (W4 W5 : FVec Ideal S96x96 .f32) (b4 b5 : FVec Ideal S96 .f32) (a r h : FVec Ideal S8x2048x96 .f32)
    (M4 M5 : Spec.Mat 96 96) (v4 v5 : Fin 96 → EReal)
    (hW4 : ∀ k j, W4 (ix2 k j) = M4 k j) (hW5 : ∀ k j, W5 (ix2 k j) = M5 k j)
    (hb4 : ∀ j, b4 (ix1 j) = v4 j) (hb5 : ∀ j, b5 (ix1 j) = v5 j) :
    candS mask W4 W5 b4 b5 a r h
      = Spec.toArr fun b => Spec.candB (Spec.col mask b) M4 M5 v4 v5 (Spec.slab a b) (Spec.slab r b) (Spec.slab h b) := by
  unfold candS
  rw [ref_reluS, ref_maskS, ref_dotS a W4 M4 hW4, ref_dotS (mulf r h) W5 M5 hW5, ref_biasS b4 v4 hb4, ref_biasS b5 v5 hb5]
  funext y
  obtain ⟨b, n, j, rfl⟩ : ∃ (b : Fin 8) (n : Fin 2048) (j : Fin 96), y = ix3 b n j := ⟨y 0, y 1, y 2, eq_ix3 y⟩
  rfl

/-- One gated propagation step. -/
theorem ref_stepS (adj : FVec Ideal S8x2048x2048 .f32) (mask : FVec Ideal S8x2048x1 .f32) (W0 W1 W2 W3 W4 W5 : FVec Ideal S96x96 .f32)
    (b0 b1 b2 b3 b4 b5 : FVec Ideal S96 .f32) (h : FVec Ideal S8x2048x96 .f32) (M : Fin 6 → Spec.Mat 96 96) (v : Fin 6 → Fin 96 → EReal)
    (hW0 : ∀ k j, W0 (ix2 k j) = M 0 k j) (hW1 : ∀ k j, W1 (ix2 k j) = M 1 k j) (hW2 : ∀ k j, W2 (ix2 k j) = M 2 k j)
    (hW3 : ∀ k j, W3 (ix2 k j) = M 3 k j) (hW4 : ∀ k j, W4 (ix2 k j) = M 4 k j) (hW5 : ∀ k j, W5 (ix2 k j) = M 5 k j)
    (hb0 : ∀ j, b0 (ix1 j) = v 0 j) (hb1 : ∀ j, b1 (ix1 j) = v 1 j) (hb2 : ∀ j, b2 (ix1 j) = v 2 j)
    (hb3 : ∀ j, b3 (ix1 j) = v 3 j) (hb4 : ∀ j, b4 (ix1 j) = v 4 j) (hb5 : ∀ j, b5 (ix1 j) = v 5 j) :
    stepS adj mask W0 W1 W2 W3 W4 W5 b0 b1 b2 b3 b4 b5 h
      = Spec.toArr fun b => Spec.stepB (Spec.slab adj b) (Spec.col mask b) M v (Spec.slab h b) := by
  unfold stepS mixS
  rw [ref_candS mask W4 W5 b4 b5 _ _ h (M 4) (M 5) (v 4) (v 5) hW4 hW5 hb4 hb5,
    ref_gateS W2 W3 b2 b3 _ h (M 2) (M 3) (v 2) (v 3) hW2 hW3 hb2 hb3,
    ref_gateS W0 W1 b0 b1 _ h (M 0) (M 1) (v 0) (v 1) hW0 hW1 hb0 hb1, ref_aggS, ref_fillS]
  funext y
  obtain ⟨b, n, j, rfl⟩ : ∃ (b : Fin 8) (n : Fin 2048) (j : Fin 96), y = ix3 b n j := ⟨y 0, y 1, y 2, eq_ix3 y⟩
  rfl

/-- The leaky rectifier, entrywise. -/
theorem ref_lreluS (v : FVec Ideal S8x2048x96 .f32) : lreluS v = fun y => Spec.lrelu (v y) := by
  unfold lreluS
  rw [ref_fillS, ref_bcast_scalar]
  rfl

/-- t = s · W + bias. -/
theorem ref_interS (s : FVec Ideal S8x2048x96 .f32) (W : FVec Ideal S96x96 .f32) (bias : FVec Ideal S96 .f32) (Wm : Spec.Mat 96 96) (bv : Fin 96 → EReal)
    (hW : ∀ k j, W (ix2 k j) = Wm k j) (hb : ∀ j, bias (ix1 j) = bv j) :
    interS s W bias = Spec.toArr fun b => Spec.interB (Spec.slab s b) Wm bv := by
  unfold interS
  rw [ref_dotS s W Wm hW, ref_biasS bias bv hb]
  funext y
  obtain ⟨b, n, j, rfl⟩ : ∃ (b : Fin 8) (n : Fin 2048) (j : Fin 96), y = ix3 b n j := ⟨y 0, y 1, y 2, eq_ix3 y⟩
  rfl

/-- The mixing of the three branch results. -/
theorem ref_fuseS (s0 s1 s2 : FVec Ideal S8x2048x96 .f32) (Wii0 Wii1 Wii2 : FVec Ideal S96x96 .f32) (bii0 bii1 bii2 : FVec Ideal S96 .f32) (Wa0 Wa1 Wa2 : FVec Ideal S96x96 .f32) (ba0 ba1 ba2 : FVec Ideal S96 .f32)
    (MI : Fin 3 → Spec.Mat 96 96) (vI : Fin 3 → Fin 96 → EReal) (MA : Fin 3 → Spec.Mat 96 96) (vA : Fin 3 → Fin 96 → EReal)
    (hI0 : ∀ k j, Wii0 (ix2 k j) = MI 0 k j) (hI1 : ∀ k j, Wii1 (ix2 k j) = MI 1 k j) (hI2 : ∀ k j, Wii2 (ix2 k j) = MI 2 k j)
    (hi0 : ∀ j, bii0 (ix1 j) = vI 0 j) (hi1 : ∀ j, bii1 (ix1 j) = vI 1 j) (hi2 : ∀ j, bii2 (ix1 j) = vI 2 j)
    (hA0 : ∀ k j, Wa0 (ix2 k j) = MA 0 k j) (hA1 : ∀ k j, Wa1 (ix2 k j) = MA 1 k j) (hA2 : ∀ k j, Wa2 (ix2 k j) = MA 2 k j)
    (ha0 : ∀ j, ba0 (ix1 j) = vA 0 j) (ha1 : ∀ j, ba1 (ix1 j) = vA 1 j) (ha2 : ∀ j, ba2 (ix1 j) = vA 2 j) :
    fuseS s0 s1 s2 Wii0 Wii1 Wii2 bii0 bii1 bii2 Wa0 Wa1 Wa2 ba0 ba1 ba2
      = Spec.toArr fun b => Spec.fuseB (Spec.slab s0 b) (Spec.slab s1 b) (Spec.slab s2 b) MI vI MA vA := by
  unfold fuseS
  rw [ref_interS s0 Wii0 bii0 (MI 0) (vI 0) hI0 hi0, ref_interS s1 Wii1 bii1 (MI 1) (vI 1) hI1 hi1,
    ref_interS s2 Wii2 bii2 (MI 2) (vI 2) hI2 hi2, ref_lreluS, ref_lreluS, ref_lreluS,
    ref_dotS _ Wa0 (MA 0) hA0, ref_dotS _ Wa1 (MA 1) hA1, ref_dotS _ Wa2 (MA 2) hA2,
    ref_biasS ba0 (vA 0) ha0, ref_biasS ba1 (vA 1) ha1, ref_biasS ba2 (vA 2) ha2]
  funext y
  obtain ⟨b, n, j, rfl⟩ : ∃ (b : Fin 8) (n : Fin 2048) (j : Fin 96), y = ix3 b n j := ⟨y 0, y 1, y 2, eq_ix3 y⟩
  rfl

/-! ## The weights of one branch out of the stacked arrays -/

theorem ref_encWS (We : FVec Ideal S3x300x96 .f32) (iN : Nat) (h : S3x300x96.Slices ![iN, 0, 0] S1x300x96) (i : Fin 3) (hi : iN = i.val)
    (d : Fin 300) (j : Fin 96) : encWS We iN h (ix2 d j) = Spec.slab We i d j :=
  ref_slice_mat3 _ We h _ i hi rfl rfl d j

theorem ref_rowS (r : FVec Ideal S3x96 .f32) (iN : Nat) (h : S3x96.Slices ![iN, 0] S1x96) (i : Fin 3) (hi : iN = i.val) (j : Fin 96) :
    rowS r iN h (ix1 j) = Spec.row r i j :=
  ref_slice_row2 _ r h _ i hi rfl j

theorem ref_gruWS (Wg : FVec Ideal S3x6x96x96 .f32) (iN pN : Nat) (h : S3x6x96x96.Slices ![iN, pN, 0, 0] S1x1x96x96) (i : Fin 3) (p : Fin 6)
    (hi : iN = i.val) (hp : pN = p.val) (k j : Fin 96) : gruWS Wg iN pN h (ix2 k j) = Spec.slab (Spec.pick6 Wg i) p k j :=
  ref_slice_mat4 _ Wg h _ i p hi hp rfl rfl k j

theorem ref_gruBS (bg : FVec Ideal S3x6x96 .f32) (iN pN : Nat) (h : S3x6x96.Slices ![iN, pN, 0] S1x1x96) (i : Fin 3) (p : Fin 6)
    (hi : iN = i.val) (hp : pN = p.val) (j : Fin 96) : gruBS bg iN pN h (ix1 j) = Spec.row (Spec.pickB6 bg i) p j :=
  ref_slice_row3 _ bg h _ i p hi hp rfl j

theorem ref_matS (W : FVec Ideal S3x96x96 .f32) (iN : Nat) (h : S3x96x96.Slices ![iN, 0, 0] S1x96x96) (i : Fin 3) (hi : iN = i.val)
    (k j : Fin 96) : matS W iN h (ix2 k j) = Spec.slab W i k j :=
  ref_slice_mat3 _ W h _ i hi rfl rfl k j

/-! ## A branch, and the whole function -/

/-- Branch i: the encoding and two steps, with the branch's weights cut out of the stacked arrays. -/
theorem ref_branch (x : FVec Ideal S8x2048x300 .f32) (adj : FVec Ideal S8x2048x2048 .f32) (mask : FVec Ideal S8x2048x1 .f32)
    (We : FVec Ideal S3x300x96 .f32) (be : FVec Ideal S3x96 .f32) (Wg : FVec Ideal S3x6x96x96 .f32) (bg : FVec Ideal S3x6x96 .f32)
    (i : Fin 3) (iN : Nat) (hi : iN = i.val)
    (he : S3x300x96.Slices ![iN, 0, 0] S1x300x96) (hr : S3x96.Slices ![iN, 0] S1x96)
    (hw0 : S3x6x96x96.Slices ![iN, 0, 0, 0] S1x1x96x96) (hw1 : S3x6x96x96.Slices ![iN, 1, 0, 0] S1x1x96x96)
    (hw2 : S3x6x96x96.Slices ![iN, 2, 0, 0] S1x1x96x96) (hw3 : S3x6x96x96.Slices ![iN, 3, 0, 0] S1x1x96x96)
    (hw4 : S3x6x96x96.Slices ![iN, 4, 0, 0] S1x1x96x96) (hw5 : S3x6x96x96.Slices ![iN, 5, 0, 0] S1x1x96x96)
    (hb0 : S3x6x96.Slices ![iN, 0, 0] S1x1x96) (hb1 : S3x6x96.Slices ![iN, 1, 0] S1x1x96)
    (hb2 : S3x6x96.Slices ![iN, 2, 0] S1x1x96) (hb3 : S3x6x96.Slices ![iN, 3, 0] S1x1x96)
    (hb4 : S3x6x96.Slices ![iN, 4, 0] S1x1x96) (hb5 : S3x6x96.Slices ![iN, 5, 0] S1x1x96) :
    gru2S adj mask (gruWS Wg iN 0 hw0) (gruWS Wg iN 1 hw1) (gruWS Wg iN 2 hw2) (gruWS Wg iN 3 hw3) (gruWS Wg iN 4 hw4) (gruWS Wg iN 5 hw5)
        (gruBS bg iN 0 hb0) (gruBS bg iN 1 hb1) (gruBS bg iN 2 hb2) (gruBS bg iN 3 hb3) (gruBS bg iN 4 hb4) (gruBS bg iN 5 hb5)
        (encS x (encWS We iN he) (rowS be iN hr) mask)
      = Spec.branch x adj mask We be Wg bg i := by
  unfold gru2S
  have hs := fun h : FVec Ideal S8x2048x96 .f32 =>
    ref_stepS adj mask (gruWS Wg iN 0 hw0) (gruWS Wg iN 1 hw1) (gruWS Wg iN 2 hw2) (gruWS Wg iN 3 hw3) (gruWS Wg iN 4 hw4) (gruWS Wg iN 5 hw5)
      (gruBS bg iN 0 hb0) (gruBS bg iN 1 hb1) (gruBS bg iN 2 hb2) (gruBS bg iN 3 hb3) (gruBS bg iN 4 hb4) (gruBS bg iN 5 hb5) h
      (Spec.slab (Spec.pick6 Wg i)) (Spec.row (Spec.pickB6 bg i))
      (fun k j => ref_gruWS Wg iN 0 hw0 i 0 hi rfl k j) (fun k j => ref_gruWS Wg iN 1 hw1 i 1 hi rfl k j)
      (fun k j => ref_gruWS Wg iN 2 hw2 i 2 hi rfl k j) (fun k j => ref_gruWS Wg iN 3 hw3 i 3 hi rfl k j)
      (fun k j => ref_gruWS Wg iN 4 hw4 i 4 hi rfl k j) (fun k j => ref_gruWS Wg iN 5 hw5 i 5 hi rfl k j)
      (fun j => ref_gruBS bg iN 0 hb0 i 0 hi rfl j) (fun j => ref_gruBS bg iN 1 hb1 i 1 hi rfl j)
      (fun j => ref_gruBS bg iN 2 hb2 i 2 hi rfl j) (fun j => ref_gruBS bg iN 3 hb3 i 3 hi rfl j)
      (fun j => ref_gruBS bg iN 4 hb4 i 4 hi rfl j) (fun j => ref_gruBS bg iN 5 hb5 i 5 hi rfl j)
  rw [hs, hs, ref_encS x (encWS We iN he) (rowS be iN hr) mask (Spec.slab We i) (Spec.row be i)
    (fun d j => ref_encWS We iN he i hi d j) (fun j => ref_rowS be iN hr i hi j)]
  rfl

/-- The reference's result, as the composition of its whole-array operations, is the specified function of the fifteen argument arrays. -/
theorem res_eq (x : FVec Ideal S8x2048x300 .f32) (adj0 adj1 adj2 : FVec Ideal S8x2048x2048 .f32) (m0 m1 m2 : FVec Ideal S8x2048x1 .f32)
    (We : FVec Ideal S3x300x96 .f32) (be : FVec Ideal S3x96 .f32) (Wii : FVec Ideal S3x96x96 .f32) (bii : FVec Ideal S3x96 .f32)
    (Wg : FVec Ideal S3x6x96x96 .f32) (bg : FVec Ideal S3x6x96 .f32) (Wa : FVec Ideal S3x96x96 .f32) (ba : FVec Ideal S3x96 .f32) :
    Stages.res (F := Ideal) x adj0 adj1 adj2 m0 m1 m2 We be Wii bii Wg bg Wa ba
      = Spec.out x adj0 adj1 adj2 m0 m1 m2 We be Wii bii Wg bg Wa ba := by
  unfold Stages.res
  rw [ref_branch x adj0 m0 We be Wg bg (i := 0) (iN := 0) rfl, ref_branch x adj1 m1 We be Wg bg (i := 1) (iN := 1) rfl,
    ref_branch x adj2 m2 We be Wg bg (i := 2) (iN := 2) rfl]
  exact ref_fuseS _ _ _ _ _ _ _ _ _ _ _ _ _ _ _ (Spec.slab Wii) (Spec.row bii) (Spec.slab Wa) (Spec.row ba)
    (fun k j => ref_matS Wii 0 _ 0 rfl k j) (fun k j => ref_matS Wii 1 _ 1 rfl k j) (fun k j => ref_matS Wii 2 _ 2 rfl k j)
    (fun j => ref_rowS bii 0 _ 0 rfl j) (fun j => ref_rowS bii 1 _ 1 rfl j) (fun j => ref_rowS bii 2 _ 2 rfl j)
    (fun k j => ref_matS Wa 0 _ 0 rfl k j) (fun k j => ref_matS Wa 1 _ 1 rfl k j) (fun k j => ref_matS Wa 2 _ 2 rfl k j)
    (fun j => ref_rowS ba 0 _ 0 rfl j) (fun j => ref_rowS ba 1 _ 1 rfl j) (fun j => ref_rowS ba 2 _ 2 rfl j)

end Cert.ReferenceIdeal.RefValue

end
-- ==== Proof.lean ====
/-
  The certificate of the graph-propagation kernel against its jnp reference, at the extended reals.

  Both programs compute, for three branches that share the node features, an encoding
  mask · max(x · W + b, 0), two gated propagation steps over the batch entry's adjacency
  (a = adj · h; z, r = σ(a · W + b + h · W' + b'); h̃ = max(mask · (a · W + b + (r ∘ h) · W' + b'), 0);
  h' = h̃ ∘ z + h ∘ (1 − z)), and a mixing of the three branch states through leaky positive parts
  (Proof/Spec.lean states the function index by index).  The kernel program does it in five regions, one batch
  entry per grid point, multiplying the state once by the three (two) gate matrices laid side by side and cutting
  the product into column bands; the reference does it with whole-array operations.  The two differ in no
  arithmetic but the grouping of the two gate sums, (A + b) + (C + d) against ((A + b) + C) + d, which is
  associativity of addition on the extended reals: no argument needs to be finite.

    · Proof/K/Enc.lean, Gru1–3.lean, Fuse.lean: each region's output array as that function of the arrays the region
      finds (the body's stores read at an index, the blocks laid back into the array);
    · Proof/K/RunValue.lean, Chain.lean: the kernel program's run with its result named, and the five regions composed;
    · Proof/R/Run.lean: the reference's run, its result the composition of its operations (Proof/R/Stages.lean);
      Proof/R/StagesSpec.lean: that composition read at an index.
-/
import proofs.«106044_j70463233458716_2_alg».proof.Defs
import proofs.«106044_j70463233458716_2_alg».proof.Proof.Gen.Kernel
import proofs.«106044_j70463233458716_2_alg».proof.Proof.Gen.Kernel.Skeleton
import proofs.«106044_j70463233458716_2_alg».proof.Proof.Gen.Kernel.Launch
import proofs.«106044_j70463233458716_2_alg».proof.Proof.Gen.Kernel.Points
import proofs.«106044_j70463233458716_2_alg».proof.Proof.Gen.Kernel.Frame
import proofs.«106044_j70463233458716_2_alg».proof.Proof.Gen.KernelIdeal
import proofs.«106044_j70463233458716_2_alg».proof.Proof.Gen.KernelIdeal.Skeleton
import proofs.«106044_j70463233458716_2_alg».proof.Proof.Gen.KernelIdeal.Launch
import proofs.«106044_j70463233458716_2_alg».proof.Proof.Gen.KernelIdeal.Points
import proofs.«106044_j70463233458716_2_alg».proof.Proof.Gen.KernelIdeal.Frame
import proofs.«106044_j70463233458716_2_alg».proof.Proof.Gen.ReferenceIdeal
import proofs.«106044_j70463233458716_2_alg».proof.Proof.Gen.Pre_finite_inputs
import proofs.«106044_j70463233458716_2_alg».proof.Proof.Spec
import proofs.«106044_j70463233458716_2_alg».proof.Proof.K.RunValue
import proofs.«106044_j70463233458716_2_alg».proof.Proof.K.Chain
import proofs.«106044_j70463233458716_2_alg».proof.Proof.R.Run
import proofs.«106044_j70463233458716_2_alg».proof.Proof.R.StagesSpec
import Idealize.ShloMosaic.Adequacy
import Idealize.ShloMosaic.Init

noncomputable section

/-! ## The claims -/

namespace Cert.Proof

open Idealize.ShloMosaic Idealize.ShloMosaic.TcCoe Idealize.SL.Sem

/-- The word-level kernel program runs and leaves its arguments unchanged: the generated launch over its segments. -/
theorem frame_kernel : Cert.frame_Kernel := fun m ρ _ => Cert.Kernel.Gen.frame m ρ
/-- The idealized kernel program likewise. -/
theorem frame_kernel_ideal : Cert.frame_KernelIdeal := fun m ρ _ => Cert.KernelIdeal.Gen.frame m ρ
/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.RefRun.run (F := Ideal) m ρ)
/-- The idealization rewrote nothing. -/
theorem preserves : Cert.preserves_Kernel_KernelIdeal := trivial

/-- Both idealized programs end with the result array at the specified function of the argument arrays: the kernel
    program by its five regions read one after the other, the reference by its operations read at an index. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Val.chain_out m ρ c), (h c).2⟩)
      (Cert.KernelIdeal.Val.run_value (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14⟩ := hagree c
    rw [Cert.ReferenceIdeal.RefValue.res_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
